-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v155)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v155) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v219) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x625000 : Shape := ⟨2, ![2, 625000]⟩
abbrev S3x128x128 : Shape := ⟨3, ![3, 128, 128]⟩
abbrev S3x128 : Shape := ⟨2, ![3, 128]⟩
abbrev S3 : Shape := ⟨1, ![3]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S3 : S_.BroadcastsInDim S3 (![] : Fin 0 → Fin S3.rank)
  reducesTo_S3_S_d0 : S3.ReducesTo [0] S_

variable [Facts]

def fn_part2 {F : FTy → Type} [FloatOps F] (main_arg8 : FVec F S3x128 .f32) (main_arg9 : FVec F S3x128x128 .f32) (main_arg10 : FVec F S3x128 .f32) (main_v33 : IVec S_ 1) : IVec S_ 1 :=
  let main_v34 : FVec F S3x128 .f32 := Host.absf main_arg8
  let main_cst_12 : FVec F S_ .f32 := constant S_ .f32 0x7F800000#32
  let main_v35 : FVec F S3x128 .f32 := broadcastInDim S3x128 ![] bcast_S_S3x128 main_cst_12
  let main_v36 : IVec S3x128 1 := cmpf .olt main_v34 main_v35
  let main_c_13 : IVec S_ 1 := constantI S_ 1 1#1
  let main_v37 : IVec S_ 1 := (fun x v => Host.reduce IntOp.andi x v reducesTo_S3x128_S_d0_1 h_S_) main_v36 main_c_13
  let main_v38 : IVec S_ 1 := andi main_v33 main_v37
  let main_v39 : FVec F S3x128x128 .f32 := Host.absf main_arg9
  let main_cst_14 : FVec F S_ .f32 := constant S_ .f32 0x7F800000#32
  let main_v40 : FVec F S3x128x128 .f32 := broadcastInDim S3x128x128 ![] bcast_S_S3x128x128 main_cst_14
  let main_v41 : IVec S3x128x128 1 := cmpf .olt main_v39 main_v40
  let main_c_15 : IVec S_ 1 := constantI S_ 1 1#1
  let main_v42 : IVec S_ 1 := (fun x v => Host.reduce IntOp.andi x v reducesTo_S3x128x128_S_d0_1_2 h_S_) main_v41 main_c_15
  let main_v43 : IVec S_ 1 := andi main_v38 main_v42
  let main_v44 : FVec F S3x128 .f32 := Host.absf main_arg10
  let main_cst_16 : FVec F S_ .f32 := constant S_ .f32 0x7F800000#32
  let main_v45 : FVec F S3x128 .f32 := broadcastInDim S3x128 ![] bcast_S_S3x128 main_cst_16
  let main_v46 : IVec S3x128 1 := cmpf .olt main_v44 main_v45
  let main_c_17 : IVec S_ 1 := constantI S_ 1 1#1
  let main_v47 : IVec S_ 1 := (fun x v => Host.reduce IntOp.andi x v reducesTo_S3x128_S_d0_1 h_S_) main_v46 main_c_17
  let main_v48 : IVec S_ 1 := andi main_v43 main_v47
  main_v48

def fn_part1 {F : FTy → Type} [FloatOps F] (main_arg5 : FVec F S3x128 .f32) (main_arg6 : FVec F S3 .f32) (main_arg7 : FVec F S3x128 .f32) (main_arg8 : FVec F S3x128 .f32) (main_arg9 : FVec F S3x128x128 .f32) (main_arg10 : FVec F S3x128 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg5
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3 .f32 := Host.absf main_arg6
  let main_cst_8 : FVec F S_ .f32 := constant S_ .f32 0x7F800000#32
  let main_v25 : FVec F S3 .f32 := broadcastInDim S3 ![] bcast_S_S3 main_cst_8
  let main_v26 : IVec S3 1 := cmpf .olt main_v24 main_v25
  let main_c_9 : IVec S_ 1 := constantI S_ 1 1#1
  let main_v27 : IVec S_ 1 := (fun x v => Host.reduce IntOp.andi x v reducesTo_S3_S_d0 h_S_) main_v26 main_c_9
  let main_v28 : IVec S_ 1 := andi main_v23 main_v27
  let main_v29 : FVec F S3x128 .f32 := Host.absf main_arg7
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x128 .f32) (main_arg1 : IVec S2x625000 32) (main_arg2 : FVec F S3x128x128 .f32) (main_arg3 : FVec F S3x128 .f32) (main_arg4 : FVec F S3x128x128 .f32) (main_arg5 : FVec F S3x128 .f32) (main_arg6 : FVec F S3 .f32) (main_arg7 : FVec F S3x128 .f32) (main_arg8 : FVec F S3x128 .f32) (main_arg9 : FVec F S3x128x128 .f32) (main_arg10 : FVec F S3x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S3x128x128 .f32 := Host.absf main_arg2
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg3
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128x128 .f32 := Host.absf main_arg4
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg5 main_arg6 main_arg7 main_arg8 main_arg9 main_arg10 main_v13 main_v16
-- ==== Kernel.lean ====
abbrev S50000x128 : Shape := ⟨2, ![50000, 128]⟩
abbrev S2x625000 : Shape := ⟨2, ![2, 625000]⟩
abbrev S3x128x128 : Shape := ⟨3, ![3, 128, 128]⟩
abbrev S3x128 : Shape := ⟨2, ![3, 128]⟩
abbrev S3 : Shape := ⟨1, ![3]⟩
abbrev S1x625000 : Shape := ⟨2, ![1, 625000]⟩
abbrev S625000 : Shape := ⟨1, ![625000]⟩
abbrev S_ : Shape := ⟨0, ![]⟩
abbrev S625000x1 : Shape := ⟨2, ![625000, 1]⟩
abbrev S625000x128 : Shape := ⟨2, ![625000, 128]⟩
abbrev S1 : Shape := ⟨1, ![1]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S5000x128 : Shape := ⟨2, ![5000, 128]⟩
abbrev S50000x384 : Shape := ⟨2, ![50000, 384]⟩

abbrev nBuf : Space → Nat
  | .hbm => 195
  | .vmem => 66
  | .smem => 0
  | _ => 0

abbrev hbmTy0_0 (i : Nat) : BufTy := match i % 128 with
  | 0 => ⟨S50000x128, .f32⟩
  | 1 => ⟨S2x625000, .i32⟩
  | 2 => ⟨S3x128x128, .f32⟩
  | 3 => ⟨S3x128, .f32⟩
  | 4 => ⟨S3x128x128, .f32⟩
  | 5 => ⟨S3x128, .f32⟩
  | 6 => ⟨S3, .f32⟩
  | 7 => ⟨S3x128, .f32⟩
  | 8 => ⟨S3x128, .f32⟩
  | 9 => ⟨S3x128x128, .f32⟩
  | 10 => ⟨S3x128, .f32⟩
  | 11 => ⟨S1x625000, .i32⟩
  | 12 => ⟨S625000, .i32⟩
  | 13 => ⟨S1x625000, .i32⟩
  | 14 => ⟨S625000, .i32⟩
  | 15 => ⟨S_, .i32⟩
  | 16 => ⟨S625000, .i32⟩
  | 17 => ⟨S625000, .i1⟩
  | 18 => ⟨S_, .i32⟩
  | 19 => ⟨S625000, .i32⟩
  | 20 => ⟨S625000, .i32⟩
  | 21 => ⟨S625000, .i32⟩
  | 22 => ⟨S625000x1, .i32⟩
  | 23 => ⟨S625000x128, .f32⟩
  | 24 => ⟨S_, .f32⟩
  | 25 => ⟨S50000x128, .f32⟩
  | 26 => ⟨S625000x1, .i32⟩
  | 27 => ⟨S50000x128, .f32⟩
  | 28 => ⟨S1, .f32⟩
  | 29 => ⟨S_, .f32⟩
  | 30 => ⟨S_, .f32⟩
  | 31 => ⟨S_, .f32⟩
  | 32 => ⟨S50000x128, .f32⟩
  | 33 => ⟨S50000x128, .f32⟩
  | 34 => ⟨S50000x128, .f32⟩
  | 35 => ⟨S1x128x128, .f32⟩
  | 36 => ⟨S128x128, .f32⟩
  | 37 => ⟨S1x128, .f32⟩
  | 38 => ⟨S128, .f32⟩
  | 39 => ⟨S1x128x128, .f32⟩
  | 40 => ⟨S128x128, .f32⟩
  | 41 => ⟨S1x128, .f32⟩
  | 42 => ⟨S128, .f32⟩
  | 43 => ⟨S1x128, .f32⟩
  | 44 => ⟨S1x128, .f32⟩
  | 45 => ⟨S50000x128, .f32⟩
  | 46 => ⟨S_, .f32⟩
  | 47 => ⟨S128, .f32⟩
  | 48 => ⟨S1x128, .f32⟩
  | 49 => ⟨S_, .f32⟩
  | 50 => ⟨S1x128, .f32⟩
  | 51 => ⟨S1x128, .f32⟩
  | 52 => ⟨S50000x128, .f32⟩
  | 53 => ⟨S50000x128, .f32⟩
  | 54 => ⟨S50000x128, .f32⟩
  | 55 => ⟨S_, .f32⟩
  | 56 => ⟨S128, .f32⟩
  | 57 => ⟨S1x128, .f32⟩
  | 58 => ⟨S_, .f32⟩
  | 59 => ⟨S1x128, .f32⟩
  | 60 => ⟨S1x128, .f32⟩
  | 61 => ⟨S_, .f32⟩
  | 62 => ⟨S50000x128, .f32⟩
  | 63 => ⟨S1x128, .f32⟩
  | 64 => ⟨S128, .f32⟩
  | 65 => ⟨S1x128, .f32⟩
  | 66 => ⟨S128, .f32⟩
  | 67 => ⟨S1x128x128, .f32⟩
  | 68 => ⟨S128x128, .f32⟩
  | 69 => ⟨S1x128, .f32⟩
  | 70 => ⟨S128, .f32⟩
  | 71 => ⟨S1x128, .f32⟩
  | 72 => ⟨S1x128, .f32⟩
  | 73 => ⟨S1x128, .f32⟩
  | 74 => ⟨S50000x128, .f32⟩
  | 75 => ⟨S50000x128, .f32⟩
  | 76 => ⟨S_, .i32⟩
  | 77 => ⟨S625000, .i32⟩
  | 78 => ⟨S625000, .i1⟩
  | 79 => ⟨S_, .i32⟩
  | 80 => ⟨S625000, .i32⟩
  | 81 => ⟨S625000, .i32⟩
  | 82 => ⟨S625000, .i32⟩
  | 83 => ⟨S625000x1, .i32⟩
  | 84 => ⟨S625000x128, .f32⟩
  | 85 => ⟨S_, .f32⟩
  | 86 => ⟨S50000x128, .f32⟩
  | 87 => ⟨S625000x1, .i32⟩
  | 88 => ⟨S50000x128, .f32⟩
  | 89 => ⟨S1, .f32⟩
  | 90 => ⟨S_, .f32⟩
  | 91 => ⟨S_, .f32⟩
  | 92 => ⟨S_, .f32⟩
  | 93 => ⟨S50000x128, .f32⟩
  | 94 => ⟨S50000x128, .f32⟩
  | 95 => ⟨S50000x128, .f32⟩
  | 96 => ⟨S1x128x128, .f32⟩
  | 97 => ⟨S128x128, .f32⟩
  | 98 => ⟨S1x128, .f32⟩
  | 99 => ⟨S128, .f32⟩
  | 100 => ⟨S1x128x128, .f32⟩
  | 101 => ⟨S128x128, .f32⟩
  | 102 => ⟨S1x128, .f32⟩
  | 103 => ⟨S128, .f32⟩
  | 104 => ⟨S1x128, .f32⟩
  | 105 => ⟨S1x128, .f32⟩
  | 106 => ⟨S50000x128, .f32⟩
  | 107 => ⟨S_, .f32⟩
  | 108 => ⟨S128, .f32⟩
  | 109 => ⟨S1x128, .f32⟩
  | 110 => ⟨S_, .f32⟩
  | 111 => ⟨S1x128, .f32⟩
  | 112 => ⟨S1x128, .f32⟩
  | 113 => ⟨S50000x128, .f32⟩
  | 114 => ⟨S50000x128, .f32⟩
  | 115 => ⟨S50000x128, .f32⟩
  | 116 => ⟨S_, .f32⟩
  | 117 => ⟨S128, .f32⟩
  | 118 => ⟨S1x128, .f32⟩
  | 119 => ⟨S_, .f32⟩
  | 120 => ⟨S1x128, .f32⟩
  | 121 => ⟨S1x128, .f32⟩
  | 122 => ⟨S1x128, .f32⟩
  | 123 => ⟨S128, .f32⟩
  | 124 => ⟨S1x128, .f32⟩
  | 125 => ⟨S128, .f32⟩
  | 126 => ⟨S1x128x128, .f32⟩
  | 127 => ⟨S128x128, .f32⟩
  | _ => ⟨S50000x128, .f32⟩

abbrev hbmTy0_1 (i : Nat) : BufTy := match i % 128 with
  | 0 => ⟨S1x128, .f32⟩
  | 1 => ⟨S128, .f32⟩
  | 2 => ⟨S1x128, .f32⟩
  | 3 => ⟨S1x128, .f32⟩
  | 4 => ⟨S1x128, .f32⟩
  | 5 => ⟨S50000x128, .f32⟩
  | 6 => ⟨S50000x128, .f32⟩
  | 7 => ⟨S_, .i32⟩
  | 8 => ⟨S625000, .i32⟩
  | 9 => ⟨S625000, .i1⟩
  | 10 => ⟨S_, .i32⟩
  | 11 => ⟨S625000, .i32⟩
  | 12 => ⟨S625000, .i32⟩
  | 13 => ⟨S625000, .i32⟩
  | 14 => ⟨S625000x1, .i32⟩
  | 15 => ⟨S625000x128, .f32⟩
  | 16 => ⟨S_, .f32⟩
  | 17 => ⟨S50000x128, .f32⟩
  | 18 => ⟨S625000x1, .i32⟩
  | 19 => ⟨S50000x128, .f32⟩
  | 20 => ⟨S1, .f32⟩
  | 21 => ⟨S_, .f32⟩
  | 22 => ⟨S_, .f32⟩
  | 23 => ⟨S_, .f32⟩
  | 24 => ⟨S50000x128, .f32⟩
  | 25 => ⟨S50000x128, .f32⟩
  | 26 => ⟨S50000x128, .f32⟩
  | 27 => ⟨S1x128x128, .f32⟩
  | 28 => ⟨S128x128, .f32⟩
  | 29 => ⟨S1x128, .f32⟩
  | 30 => ⟨S128, .f32⟩
  | 31 => ⟨S1x128x128, .f32⟩
  | 32 => ⟨S128x128, .f32⟩
  | 33 => ⟨S1x128, .f32⟩
  | 34 => ⟨S128, .f32⟩
  | 35 => ⟨S1x128, .f32⟩
  | 36 => ⟨S1x128, .f32⟩
  | 37 => ⟨S50000x128, .f32⟩
  | 38 => ⟨S_, .f32⟩
  | 39 => ⟨S128, .f32⟩
  | 40 => ⟨S1x128, .f32⟩
  | 41 => ⟨S_, .f32⟩
  | 42 => ⟨S1x128, .f32⟩
  | 43 => ⟨S1x128, .f32⟩
  | 44 => ⟨S50000x128, .f32⟩
  | 45 => ⟨S50000x128, .f32⟩
  | 46 => ⟨S50000x128, .f32⟩
  | 47 => ⟨S_, .f32⟩
  | 48 => ⟨S128, .f32⟩
  | 49 => ⟨S1x128, .f32⟩
  | 50 => ⟨S_, .f32⟩
  | 51 => ⟨S1x128, .f32⟩
  | 52 => ⟨S1x128, .f32⟩
  | 53 => ⟨S1x128, .f32⟩
  | 54 => ⟨S128, .f32⟩
  | 55 => ⟨S1x128, .f32⟩
  | 56 => ⟨S128, .f32⟩
  | 57 => ⟨S1x128x128, .f32⟩
  | 58 => ⟨S128x128, .f32⟩
  | 59 => ⟨S1x128, .f32⟩
  | 60 => ⟨S128, .f32⟩
  | 61 => ⟨S1x128, .f32⟩
  | 62 => ⟨S1x128, .f32⟩
  | 63 => ⟨S1x128, .f32⟩
  | 64 => ⟨S50000x128, .f32⟩
  | 65 => ⟨S50000x128, .f32⟩
  | 66 => ⟨S50000x384, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x128, .f32⟩
  | .local _ .vmem, ⟨25, _⟩ => ⟨S1x128, .f32⟩
  | .local _ .vmem, ⟨26, _⟩ => ⟨S128x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S1x128, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | .local _ .vmem, ⟨36, _⟩ => ⟨S5000x128, .f32⟩
  | .local _ .vmem, ⟨37, _⟩ => ⟨S5000x128, .f32⟩
  | .local _ .vmem, ⟨38, _⟩ => ⟨S128x128, .f32⟩
  | .local _ .vmem, ⟨39, _⟩ => ⟨S1x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S5000x128, .f32⟩
  | .local _ .vmem, ⟨45, _⟩ => ⟨S5000x128, .f32⟩
  | .local _ .vmem, ⟨46, _⟩ => ⟨S128x128, .f32⟩
  | .local _ .vmem, ⟨47, _⟩ => ⟨S1x128, .f32⟩
  | .local _ .vmem, ⟨48, _⟩ => ⟨S128x128, .f32⟩
  | .local _ .vmem, ⟨49, _⟩ => ⟨S1x128, .f32⟩
  | .local _ .vmem, ⟨50, _⟩ => ⟨S5000x128, .f32⟩
  | .local _ .vmem, ⟨51, _⟩ => ⟨S5000x128, .f32⟩
  | .local _ .vmem, ⟨52, _⟩ => ⟨S5000x128, .f32⟩
  | .local _ .vmem, ⟨53, _⟩ => ⟨S5000x128, .f32⟩
  | .local _ .vmem, ⟨54, _⟩ => ⟨S1x128, .f32⟩
  | .local _ .vmem, ⟨55, _⟩ => ⟨S1x128, .f32⟩
  | .local _ .vmem, ⟨56, _⟩ => ⟨S1x128, .f32⟩
  | .local _ .vmem, ⟨57, _⟩ => ⟨S1x128, .f32⟩
  | .local _ .vmem, ⟨58, _⟩ => ⟨S5000x128, .f32⟩
  | .local _ .vmem, ⟨59, _⟩ => ⟨S5000x128, .f32⟩
  | .local _ .vmem, ⟨60, _⟩ => ⟨S128x128, .f32⟩
  | .local _ .vmem, ⟨61, _⟩ => ⟨S1x128, .f32⟩
  | .local _ .vmem, ⟨62, _⟩ => ⟨S5000x128, .f32⟩
  | .local _ .vmem, ⟨63, _⟩ => ⟨S5000x128, .f32⟩
  | .local _ .vmem, ⟨64, _⟩ => ⟨S5000x128, .f32⟩
  | .local _ .vmem, ⟨65, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | _, _ => false

abbrev semScoped : Fin 0 → Bool
  | ⟨_, h⟩ => absurd h (Nat.not_lt_zero _)

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  ofTc nBuf bufTy 0 66 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_1 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_2 : Ref sig .tc := ⟨.hbm, 46, rfl⟩
abbrev main_v31 : Ref sig .tc := ⟨.hbm, 47, rfl⟩
abbrev main_v32 : Ref sig .tc := ⟨.hbm, 48, rfl⟩
abbrev main_cst_3 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_4 : Ref sig .tc := ⟨.hbm, 55, rfl⟩
abbrev main_v38 : Ref sig .tc := ⟨.hbm, 56, rfl⟩
abbrev main_v39 : Ref sig .tc := ⟨.hbm, 57, rfl⟩
abbrev main_cst_5 : Ref sig .tc := ⟨.hbm, 58, rfl⟩
abbrev main_v40 : Ref sig .tc := ⟨.hbm, 59, rfl⟩
abbrev main_v41 : Ref sig .tc := ⟨.hbm, 60, rfl⟩
abbrev main_cst_6 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54_0 : Ref sig .tc := ⟨.hbm, 74, rfl⟩
abbrev main_v54_1 : Ref sig .tc := ⟨.hbm, 75, rfl⟩
abbrev main_c_7 : Ref sig .tc := ⟨.hbm, 76, rfl⟩
abbrev main_v55 : Ref sig .tc := ⟨.hbm, 77, rfl⟩
abbrev main_v56 : Ref sig .tc := ⟨.hbm, 78, rfl⟩
abbrev main_c_8 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_9 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_10 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_cst_11 : Ref sig .tc := ⟨.hbm, 107, rfl⟩
abbrev main_v82 : Ref sig .tc := ⟨.hbm, 108, rfl⟩
abbrev main_v83 : Ref sig .tc := ⟨.hbm, 109, rfl⟩
abbrev main_cst_12 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_cst_13 : Ref sig .tc := ⟨.hbm, 116, rfl⟩
abbrev main_v89 : Ref sig .tc := ⟨.hbm, 117, rfl⟩
abbrev main_v90 : Ref sig .tc := ⟨.hbm, 118, rfl⟩
abbrev main_cst_14 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104_0 : Ref sig .tc := ⟨.hbm, 133, rfl⟩
abbrev main_v104_1 : Ref sig .tc := ⟨.hbm, 134, rfl⟩
abbrev main_c_15 : Ref sig .tc := ⟨.hbm, 135, rfl⟩
abbrev main_v105 : Ref sig .tc := ⟨.hbm, 136, rfl⟩
abbrev main_v106 : Ref sig .tc := ⟨.hbm, 137, rfl⟩
abbrev main_c_16 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_cst_17 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_cst_18 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_cst_19 : Ref sig .tc := ⟨.hbm, 166, rfl⟩
abbrev main_v132 : Ref sig .tc := ⟨.hbm, 167, rfl⟩
abbrev main_v133 : Ref sig .tc := ⟨.hbm, 168, rfl⟩
abbrev main_cst_20 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_cst_21 : Ref sig .tc := ⟨.hbm, 175, rfl⟩
abbrev main_v139 : Ref sig .tc := ⟨.hbm, 176, rfl⟩
abbrev main_v140 : Ref sig .tc := ⟨.hbm, 177, rfl⟩
abbrev main_cst_22 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_v154_0 : Ref sig .tc := ⟨.hbm, 192, rfl⟩
abbrev main_v154_1 : Ref sig .tc := ⟨.hbm, 193, rfl⟩
abbrev main_v155 : Ref sig .tc := ⟨.hbm, 194, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg8_1 : Ref sig .tc := ⟨.vmem, 19, rfl⟩
abbrev cc1_stg9_0 : Ref sig .tc := ⟨.vmem, 20, rfl⟩
abbrev cc1_stg9_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg5_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg5_0 : Ref sig .tc := ⟨.vmem, 36, rfl⟩
abbrev cc3_stg5_1 : Ref sig .tc := ⟨.vmem, 37, rfl⟩
abbrev cc3_stg6_0 : Ref sig .tc := ⟨.vmem, 38, rfl⟩
abbrev cc3_stg7_0 : Ref sig .tc := ⟨.vmem, 39, rfl⟩
abbrev cc3_stg8_0 : Ref sig .tc := ⟨.vmem, 40, rfl⟩
abbrev cc3_stg8_1 : Ref sig .tc := ⟨.vmem, 41, rfl⟩
abbrev cc3_stg9_0 : Ref sig .tc := ⟨.vmem, 42, rfl⟩
abbrev cc3_stg9_1 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg2_0 : Ref sig .tc := ⟨.vmem, 47, rfl⟩
abbrev cc4_stg3_0 : Ref sig .tc := ⟨.vmem, 48, rfl⟩
abbrev cc4_stg4_0 : Ref sig .tc := ⟨.vmem, 49, rfl⟩
abbrev cc4_stg5_0 : Ref sig .tc := ⟨.vmem, 50, rfl⟩
abbrev cc4_stg5_1 : Ref sig .tc := ⟨.vmem, 51, rfl⟩
abbrev cc5_stg0_0 : Ref sig .tc := ⟨.vmem, 52, rfl⟩
abbrev cc5_stg0_1 : Ref sig .tc := ⟨.vmem, 53, rfl⟩
abbrev cc5_stg1_0 : Ref sig .tc := ⟨.vmem, 54, rfl⟩
abbrev cc5_stg2_0 : Ref sig .tc := ⟨.vmem, 55, rfl⟩
abbrev cc5_stg3_0 : Ref sig .tc := ⟨.vmem, 56, rfl⟩
abbrev cc5_stg4_0 : Ref sig .tc := ⟨.vmem, 57, rfl⟩
abbrev cc5_stg5_0 : Ref sig .tc := ⟨.vmem, 58, rfl⟩
abbrev cc5_stg5_1 : Ref sig .tc := ⟨.vmem, 59, rfl⟩
abbrev cc5_stg6_0 : Ref sig .tc := ⟨.vmem, 60, rfl⟩
abbrev cc5_stg7_0 : Ref sig .tc := ⟨.vmem, 61, rfl⟩
abbrev cc5_stg8_0 : Ref sig .tc := ⟨.vmem, 62, rfl⟩
abbrev cc5_stg8_1 : Ref sig .tc := ⟨.vmem, 63, rfl⟩
abbrev cc5_stg9_0 : Ref sig .tc := ⟨.vmem, 64, rfl⟩
abbrev cc5_stg9_1 : Ref sig .tc := ⟨.vmem, 65, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc1_sem6_0 : DmaSem sig := 16
abbrev cc1_sem7_0 : DmaSem sig := 17
abbrev cc1_sem8_0 : DmaSem sig := 18
abbrev cc1_sem8_1 : DmaSem sig := 19
abbrev cc1_sem9_0 : DmaSem sig := 20
abbrev cc1_sem9_1 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem3_0 : DmaSem sig := 26
abbrev cc2_sem4_0 : DmaSem sig := 27
abbrev cc2_sem5_0 : DmaSem sig := 28
abbrev cc2_sem5_1 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem3_0 : DmaSem sig := 34
abbrev cc3_sem4_0 : DmaSem sig := 35
abbrev cc3_sem5_0 : DmaSem sig := 36
abbrev cc3_sem5_1 : DmaSem sig := 37
abbrev cc3_sem6_0 : DmaSem sig := 38
abbrev cc3_sem7_0 : DmaSem sig := 39
abbrev cc3_sem8_0 : DmaSem sig := 40
abbrev cc3_sem8_1 : DmaSem sig := 41
abbrev cc3_sem9_0 : DmaSem sig := 42
abbrev cc3_sem9_1 : DmaSem sig := 43
abbrev cc4_sem0_0 : DmaSem sig := 44
abbrev cc4_sem0_1 : DmaSem sig := 45
abbrev cc4_sem1_0 : DmaSem sig := 46
abbrev cc4_sem2_0 : DmaSem sig := 47
abbrev cc4_sem3_0 : DmaSem sig := 48
abbrev cc4_sem4_0 : DmaSem sig := 49
abbrev cc4_sem5_0 : DmaSem sig := 50
abbrev cc4_sem5_1 : DmaSem sig := 51
abbrev cc5_sem0_0 : DmaSem sig := 52
abbrev cc5_sem0_1 : DmaSem sig := 53
abbrev cc5_sem1_0 : DmaSem sig := 54
abbrev cc5_sem2_0 : DmaSem sig := 55
abbrev cc5_sem3_0 : DmaSem sig := 56
abbrev cc5_sem4_0 : DmaSem sig := 57
abbrev cc5_sem5_0 : DmaSem sig := 58
abbrev cc5_sem5_1 : DmaSem sig := 59
abbrev cc5_sem6_0 : DmaSem sig := 60
abbrev cc5_sem7_0 : DmaSem sig := 61
abbrev cc5_sem8_0 : DmaSem sig := 62
abbrev cc5_sem8_1 : DmaSem sig := 63
abbrev cc5_sem9_0 : DmaSem sig := 64
abbrev cc5_sem9_1 : DmaSem sig := 65

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S5000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S5000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 1 → Memref sig .tc .vmem S128x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S5000x128 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev stage3_9 : Fin 2 → Memref sig .tc .vmem S5000x128 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_9 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 1 → Memref sig .tc .vmem S128x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1x128 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 2 → Memref sig .tc .vmem S5000x128 .f32 := fun | 0 => Memref.whole cc5_stg8_0 | 1 => Memref.whole cc5_stg8_1 | ⟨_ + 2, h⟩ => absurd h (Nat.not_lt.2 (Nat.le_add_left _ _))
abbrev sem5_8 : Fin 2 → DmaSem sig := fun | 0 => cc5_sem8_0 | 1 => cc5_sem8_1 | ⟨_ + 2, h⟩ => absurd h (Nat.not_lt.2 (Nat.le_add_left _ _))
abbrev reads5_8 : Fin grid5.rank → Bool := ![true]

abbrev stage5_9 : Fin 2 → Memref sig .tc .vmem S5000x128 .f32 := fun | 0 => Memref.whole cc5_stg9_0 | 1 => Memref.whole cc5_stg9_1 | ⟨_ + 2, h⟩ => absurd h (Nat.not_lt.2 (Nat.le_add_left _ _))
abbrev sem5_9 : Fin 2 → DmaSem sig := fun | 0 => cc5_sem9_0 | 1 => cc5_sem9_1 | ⟨_ + 2, h⟩ => absurd h (Nat.not_lt.2 (Nat.le_add_left _ _))
abbrev reads5_9 : Fin grid5.rank → Bool := ![true]

class Facts₀ : Prop where
  slices_S2x625000_S1x625000_0_0 : S2x625000.Slices ![0, 0] S1x625000
  shapeCasts_S1x625000_S625000 : S1x625000.ShapeCasts S625000
  slices_S2x625000_S1x625000_1_0 : S2x625000.Slices ![1, 0] S1x625000
  bcast_S_S625000 : S_.BroadcastsInDim S625000 (![] : Fin 0 → Fin S625000.rank)
  bcast_S625000_S625000x1_0 : S625000.BroadcastsInDim S625000x1 (![0] : Fin 1 → Fin S625000x1.rank)
  bcast_S_S50000x128 : S_.BroadcastsInDim S50000x128 (![] : Fin 0 → Fin S50000x128.rank)
  slices_S3_S1_0 : S3.Slices ![0] S1
  shapeCasts_S1_S_ : S1.ShapeCasts S_
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reducesTo_S50000x128_S128_d0 : S50000x128.ReducesTo [0] S128
  h_S_ : 0 < S_.numel
  bcast_S128_S1x128_1 : S128.BroadcastsInDim S1x128 (![1] : Fin 1 → Fin S1x128.rank)
  bcast_S_S1x128 : S_.BroadcastsInDim S1x128 (![] : Fin 0 → Fin S1x128.rank)
  bcast_S1x128_S50000x128_0_1 : S1x128.BroadcastsInDim S50000x128 (![0, 1] : Fin 2 → Fin S50000x128.rank)
  slices_S3_S1_1 : S3.Slices ![1] S1
  slices_S3x128x128_S1x128x128_1_0_0 : S3x128x128.Slices ![1, 0, 0] S1x128x128
  slices_S3x128_S1x128_1_0 : S3x128.Slices ![1, 0] S1x128
  slices_S3_S1_2 : S3.Slices ![2] S1
  slices_S3x128x128_S1x128x128_2_0_0 : S3x128x128.Slices ![2, 0, 0] S1x128x128
  slices_S3x128_S1x128_2_0 : S3x128.Slices ![2, 0] S1x128
  concatenates_S50000x128_S50000x128_S50000x128_S50000x384_d1 : Shape.Concatenates [S50000x128, S50000x128, S50000x128] S50000x384 1
  gather_S50000x128_S625000x1_S625000x128_1_0_n_n_0_1_1128_wf : GatherDims.WF S50000x128 S625000x1 S625000x128 [1] [0] [] [0] [] 1 ![1, 128]
  scatter_S50000x128_S625000x1_S625000x128_1_0_0_1_wf : ScatterDims.WF S50000x128 S625000x1 S625000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .f32 = 32 ∨ (Rect.block (s := S128x128) S128x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x128.size a ≤ S50000x128.size a
  hwx1_8 : ∀ i : grid1.Coords, EltTy.bits .f32 = 32 ∨ (Rect.block (s := S50000x128) S5000x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x128.size a ≤ S50000x128.size a
  hwx1_9 : ∀ i : grid1.Coords, EltTy.bits .f32 = 32 ∨ (Rect.block (s := S50000x128) S5000x128.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S50000x128.size a
  hwx3_5 : ∀ i : grid3.Coords, EltTy.bits .f32 = 32 ∨ (Rect.block (s := S50000x128) S5000x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128x128.size a ≤ S128x128.size a
  hwx3_6 : ∀ i : grid3.Coords, EltTy.bits .f32 = 32 ∨ (Rect.block (s := S128x128) S128x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x128.size a ≤ S1x128.size a
  hwx3_7 : ∀ i : grid3.Coords, EltTy.bits .f32 = 32 ∨ (Rect.block (s := S1x128) S1x128.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S5000x128.size a ≤ S50000x128.size a
  hwx3_8 : ∀ i : grid3.Coords, EltTy.bits .f32 = 32 ∨ (Rect.block (s := S50000x128) S5000x128.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S5000x128.size a ≤ S50000x128.size a
  hwx3_9 : ∀ i : grid3.Coords, EltTy.bits .f32 = 32 ∨ (Rect.block (s := S50000x128) S5000x128.size (cc3_transform_9 i) (hinb3_9 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x128.size a ≤ S50000x128.size a
  hwx4_5 : ∀ i : grid4.Coords, EltTy.bits .f32 = 32 ∨ (Rect.block (s := S50000x128) S5000x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S50000x128.size a
  hwx5_5 : ∀ i : grid5.Coords, EltTy.bits .f32 = 32 ∨ (Rect.block (s := S50000x128) S5000x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S128x128.size a ≤ S128x128.size a
  hwx5_6 : ∀ i : grid5.Coords, EltTy.bits .f32 = 32 ∨ (Rect.block (s := S128x128) S128x128.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S1x128.size a ≤ S1x128.size a
  hwx5_7 : ∀ i : grid5.Coords, EltTy.bits .f32 = 32 ∨ (Rect.block (s := S1x128) S1x128.size (cc5_transform_7 i) (hinb5_7 i)).WholeWords (EltTy.packing .f32)
  hstage5_8 : ∀ j, (stage5_8 j).IsWhole
  nbuf5_8 : grid5.bufCount reads5_8 false = 2
  hreads5_8 : ∀ i i' : grid5.Coords, (∀ a, reads5_8 a = true → i a = i' a) → cc5_transform_8 i = cc5_transform_8 i'
  hinb5_8 : ∀ (i : grid5.Coords) a, (cc5_transform_8 i a + 1) * S5000x128.size a ≤ S50000x128.size a
  hwx5_8 : ∀ i : grid5.Coords, EltTy.bits .f32 = 32 ∨ (Rect.block (s := S50000x128) S5000x128.size (cc5_transform_8 i) (hinb5_8 i)).WholeWords (EltTy.packing .f32)
  hstage5_9 : ∀ j, (stage5_9 j).IsWhole
  nbuf5_9 : grid5.bufCount reads5_9 false = 2
  hreads5_9 : ∀ i i' : grid5.Coords, (∀ a, reads5_9 a = true → i a = i' a) → cc5_transform_9 i = cc5_transform_9 i'
  hinb5_9 : ∀ (i : grid5.Coords) a, (cc5_transform_9 i a + 1) * S5000x128.size a ≤ S50000x128.size a
  hwx5_9 : ∀ i : grid5.Coords, EltTy.bits .f32 = 32 ∨ (Rect.block (s := S50000x128) S5000x128.size (cc5_transform_9 i) (hinb5_9 i)).WholeWords (EltTy.packing .f32)

variable [Facts₀]

def gather_S50000x128_S625000x1_S625000x128_1_0_n_n_0_1_1128 : GatherDims S50000x128 S625000x1 S625000x128 where
  offsetDims := [1]
  collapsedSliceDims := [0]
  operandBatchingDims := []
  startIndicesBatchingDims := []
  startIndexMap := [0]
  indexVectorDim := 1
  sliceSizes := ![1, 128]
  wf := gather_S50000x128_S625000x1_S625000x128_1_0_n_n_0_1_1128_wf
def scatter_S50000x128_S625000x1_S625000x128_1_0_0_1 : ScatterDims S50000x128 S625000x1 S625000x128 where
  updateWindowDims := [1]
  insertedWindowDims := [0]
  scatterDimsToOperandDims := [0]
  indexVectorDim := 1
  wf := scatter_S50000x128_S625000x1_S625000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v19) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v29) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v30) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v30) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v41) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v51) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v52) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v42) S5000x128.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v48) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v53) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v54_0) S5000x128.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v54_1) S5000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v70) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v72) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v79) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v76) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v80) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v81) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v81) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v85) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v92) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v101) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v102) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v54_0) S5000x128.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_v98) S128x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v103) S1x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v104_0) S5000x128.size cc3_transform_8 reads3_8 true false 2 stage3_8 sem3_8
    hrank3 hreads3_8 hinb3_8 nbuf3_8 (Memref.isWhole_whole _) hwx3_8 hstage3_8

abbrev win3_9 : Pipeline.Window sig grid3 :=
  Pipeline.Window.ofSpec (Memref.whole main_v104_1) S5000x128.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

abbrev win4_0 : Pipeline.Window sig grid4 :=
  Pipeline.Window.ofSpec (Memref.whole main_v120) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v122) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v129) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v126) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v130) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v131) S5000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v131) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v135) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v142) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v151) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v152) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v104_0) S5000x128.size cc5_transform_5 reads5_5 false false 2 stage5_5 sem5_5
    hrank5 hreads5_5 hinb5_5 nbuf5_5 (Memref.isWhole_whole _) hwx5_5 hstage5_5

abbrev win5_6 : Pipeline.Window sig grid5 :=
  Pipeline.Window.ofSpec (Memref.whole main_v148) S128x128.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v153) S1x128.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v154_0) S5000x128.size cc5_transform_8 reads5_8 true false 2 stage5_8 sem5_8
    hrank5 hreads5_8 hinb5_8 nbuf5_8 (Memref.isWhole_whole _) hwx5_8 hstage5_8

abbrev win5_9 : Pipeline.Window sig grid5 :=
  Pipeline.Window.ofSpec (Memref.whole main_v154_1) S5000x128.size cc5_transform_9 reads5_9 true false 2 stage5_9 sem5_9
    hrank5 hreads5_9 hinb5_9 nbuf5_9 (Memref.isWhole_whole _) hwx5_9 hstage5_9

abbrev win5 : Fin 10 → Pipeline.Window sig grid5 := fun | 0 => win5_0 | 1 => win5_1 | 2 => win5_2 | 3 => win5_3 | 4 => win5_4 | 5 => win5_5 | 6 => win5_6 | 7 => win5_7 | 8 => win5_8 | 9 => win5_9 | ⟨_ + 10, h⟩ => absurd h (Nat.not_lt.2 (Nat.le_add_left _ _))
abbrev spec5 : Fin 10 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x625000 : Shape := ⟨2, ![2, 625000]⟩
abbrev S3x128x128 : Shape := ⟨3, ![3, 128, 128]⟩
abbrev S3x128 : Shape := ⟨2, ![3, 128]⟩
abbrev S3 : Shape := ⟨1, ![3]⟩
abbrev S1x625000 : Shape := ⟨2, ![1, 625000]⟩
abbrev S625000 : Shape := ⟨1, ![625000]⟩
abbrev S_ : Shape := ⟨0, ![]⟩
abbrev S625000x1 : Shape := ⟨2, ![625000, 1]⟩
abbrev S625000x128 : Shape := ⟨2, ![625000, 128]⟩
abbrev S1 : Shape := ⟨1, ![1]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S50000x384 : Shape := ⟨2, ![50000, 384]⟩

abbrev nBuf : Space → Nat
  | .hbm => 270
  | .vmem => 0
  | .smem => 0
  | _ => 0

abbrev hbmTy0_0 (i : Nat) : BufTy := match i % 128 with
  | 0 => ⟨S50000x128, .f32⟩
  | 1 => ⟨S2x625000, .i32⟩
  | 2 => ⟨S3x128x128, .f32⟩
  | 3 => ⟨S3x128, .f32⟩
  | 4 => ⟨S3x128x128, .f32⟩
  | 5 => ⟨S3x128, .f32⟩
  | 6 => ⟨S3, .f32⟩
  | 7 => ⟨S3x128, .f32⟩
  | 8 => ⟨S3x128, .f32⟩
  | 9 => ⟨S3x128x128, .f32⟩
  | 10 => ⟨S3x128, .f32⟩
  | 11 => ⟨S1x625000, .i32⟩
  | 12 => ⟨S625000, .i32⟩
  | 13 => ⟨S1x625000, .i32⟩
  | 14 => ⟨S625000, .i32⟩
  | 15 => ⟨S_, .i32⟩
  | 16 => ⟨S625000, .i32⟩
  | 17 => ⟨S625000, .i1⟩
  | 18 => ⟨S_, .i32⟩
  | 19 => ⟨S625000, .i32⟩
  | 20 => ⟨S625000, .i32⟩
  | 21 => ⟨S625000, .i32⟩
  | 22 => ⟨S625000x1, .i32⟩
  | 23 => ⟨S625000x128, .f32⟩
  | 24 => ⟨S_, .f32⟩
  | 25 => ⟨S50000x128, .f32⟩
  | 26 => ⟨S625000x1, .i32⟩
  | 27 => ⟨S50000x128, .f32⟩
  | 28 => ⟨S1, .f32⟩
  | 29 => ⟨S_, .f32⟩
  | 30 => ⟨S_, .f32⟩
  | 31 => ⟨S_, .f32⟩
  | 32 => ⟨S50000x128, .f32⟩
  | 33 => ⟨S50000x128, .f32⟩
  | 34 => ⟨S50000x128, .f32⟩
  | 35 => ⟨S1x128x128, .f32⟩
  | 36 => ⟨S128x128, .f32⟩
  | 37 => ⟨S50000x128, .f32⟩
  | 38 => ⟨S1x128, .f32⟩
  | 39 => ⟨S128, .f32⟩
  | 40 => ⟨S1x128, .f32⟩
  | 41 => ⟨S50000x128, .f32⟩
  | 42 => ⟨S50000x128, .f32⟩
  | 43 => ⟨S_, .f32⟩
  | 44 => ⟨S50000x128, .f32⟩
  | 45 => ⟨S50000x128, .f32⟩
  | 46 => ⟨S1x128x128, .f32⟩
  | 47 => ⟨S128x128, .f32⟩
  | 48 => ⟨S50000x128, .f32⟩
  | 49 => ⟨S1x128, .f32⟩
  | 50 => ⟨S128, .f32⟩
  | 51 => ⟨S1x128, .f32⟩
  | 52 => ⟨S50000x128, .f32⟩
  | 53 => ⟨S50000x128, .f32⟩
  | 54 => ⟨S_, .f32⟩
  | 55 => ⟨S128, .f32⟩
  | 56 => ⟨S_, .f32⟩
  | 57 => ⟨S128, .f32⟩
  | 58 => ⟨S128, .f32⟩
  | 59 => ⟨S1x128, .f32⟩
  | 60 => ⟨S50000x128, .f32⟩
  | 61 => ⟨S50000x128, .f32⟩
  | 62 => ⟨S50000x128, .f32⟩
  | 63 => ⟨S_, .f32⟩
  | 64 => ⟨S128, .f32⟩
  | 65 => ⟨S_, .f32⟩
  | 66 => ⟨S128, .f32⟩
  | 67 => ⟨S128, .f32⟩
  | 68 => ⟨S1x128, .f32⟩
  | 69 => ⟨S128, .f32⟩
  | 70 => ⟨S1x128, .f32⟩
  | 71 => ⟨S50000x128, .f32⟩
  | 72 => ⟨S50000x128, .f32⟩
  | 73 => ⟨S1x128, .f32⟩
  | 74 => ⟨S50000x128, .f32⟩
  | 75 => ⟨S50000x128, .f32⟩
  | 76 => ⟨S_, .f32⟩
  | 77 => ⟨S128, .f32⟩
  | 78 => ⟨S128, .f32⟩
  | 79 => ⟨S128, .f32⟩
  | 80 => ⟨S1x128, .f32⟩
  | 81 => ⟨S50000x128, .f32⟩
  | 82 => ⟨S50000x128, .f32⟩
  | 83 => ⟨S1x128, .f32⟩
  | 84 => ⟨S128, .f32⟩
  | 85 => ⟨S1x128, .f32⟩
  | 86 => ⟨S50000x128, .f32⟩
  | 87 => ⟨S50000x128, .f32⟩
  | 88 => ⟨S_, .f32⟩
  | 89 => ⟨S50000x128, .f32⟩
  | 90 => ⟨S50000x128, .f32⟩
  | 91 => ⟨S_, .i32⟩
  | 92 => ⟨S625000, .i32⟩
  | 93 => ⟨S625000, .i1⟩
  | 94 => ⟨S_, .i32⟩
  | 95 => ⟨S625000, .i32⟩
  | 96 => ⟨S625000, .i32⟩
  | 97 => ⟨S625000, .i32⟩
  | 98 => ⟨S625000x1, .i32⟩
  | 99 => ⟨S625000x128, .f32⟩
  | 100 => ⟨S_, .f32⟩
  | 101 => ⟨S50000x128, .f32⟩
  | 102 => ⟨S625000x1, .i32⟩
  | 103 => ⟨S50000x128, .f32⟩
  | 104 => ⟨S1, .f32⟩
  | 105 => ⟨S_, .f32⟩
  | 106 => ⟨S_, .f32⟩
  | 107 => ⟨S_, .f32⟩
  | 108 => ⟨S50000x128, .f32⟩
  | 109 => ⟨S50000x128, .f32⟩
  | 110 => ⟨S50000x128, .f32⟩
  | 111 => ⟨S1x128x128, .f32⟩
  | 112 => ⟨S128x128, .f32⟩
  | 113 => ⟨S50000x128, .f32⟩
  | 114 => ⟨S1x128, .f32⟩
  | 115 => ⟨S128, .f32⟩
  | 116 => ⟨S1x128, .f32⟩
  | 117 => ⟨S50000x128, .f32⟩
  | 118 => ⟨S50000x128, .f32⟩
  | 119 => ⟨S_, .f32⟩
  | 120 => ⟨S50000x128, .f32⟩
  | 121 => ⟨S50000x128, .f32⟩
  | 122 => ⟨S1x128x128, .f32⟩
  | 123 => ⟨S128x128, .f32⟩
  | 124 => ⟨S50000x128, .f32⟩
  | 125 => ⟨S1x128, .f32⟩
  | 126 => ⟨S128, .f32⟩
  | 127 => ⟨S1x128, .f32⟩
  | _ => ⟨S50000x128, .f32⟩

abbrev hbmTy0_1 (i : Nat) : BufTy := match i % 128 with
  | 0 => ⟨S50000x128, .f32⟩
  | 1 => ⟨S50000x128, .f32⟩
  | 2 => ⟨S_, .f32⟩
  | 3 => ⟨S128, .f32⟩
  | 4 => ⟨S_, .f32⟩
  | 5 => ⟨S128, .f32⟩
  | 6 => ⟨S128, .f32⟩
  | 7 => ⟨S1x128, .f32⟩
  | 8 => ⟨S50000x128, .f32⟩
  | 9 => ⟨S50000x128, .f32⟩
  | 10 => ⟨S50000x128, .f32⟩
  | 11 => ⟨S_, .f32⟩
  | 12 => ⟨S128, .f32⟩
  | 13 => ⟨S_, .f32⟩
  | 14 => ⟨S128, .f32⟩
  | 15 => ⟨S128, .f32⟩
  | 16 => ⟨S1x128, .f32⟩
  | 17 => ⟨S128, .f32⟩
  | 18 => ⟨S1x128, .f32⟩
  | 19 => ⟨S50000x128, .f32⟩
  | 20 => ⟨S50000x128, .f32⟩
  | 21 => ⟨S1x128, .f32⟩
  | 22 => ⟨S50000x128, .f32⟩
  | 23 => ⟨S50000x128, .f32⟩
  | 24 => ⟨S_, .f32⟩
  | 25 => ⟨S128, .f32⟩
  | 26 => ⟨S128, .f32⟩
  | 27 => ⟨S128, .f32⟩
  | 28 => ⟨S1x128, .f32⟩
  | 29 => ⟨S50000x128, .f32⟩
  | 30 => ⟨S50000x128, .f32⟩
  | 31 => ⟨S1x128, .f32⟩
  | 32 => ⟨S128, .f32⟩
  | 33 => ⟨S1x128, .f32⟩
  | 34 => ⟨S50000x128, .f32⟩
  | 35 => ⟨S50000x128, .f32⟩
  | 36 => ⟨S50000x128, .f32⟩
  | 37 => ⟨S_, .f32⟩
  | 38 => ⟨S50000x128, .f32⟩
  | 39 => ⟨S50000x128, .f32⟩
  | 40 => ⟨S_, .i32⟩
  | 41 => ⟨S625000, .i32⟩
  | 42 => ⟨S625000, .i1⟩
  | 43 => ⟨S_, .i32⟩
  | 44 => ⟨S625000, .i32⟩
  | 45 => ⟨S625000, .i32⟩
  | 46 => ⟨S625000, .i32⟩
  | 47 => ⟨S625000x1, .i32⟩
  | 48 => ⟨S625000x128, .f32⟩
  | 49 => ⟨S_, .f32⟩
  | 50 => ⟨S50000x128, .f32⟩
  | 51 => ⟨S625000x1, .i32⟩
  | 52 => ⟨S50000x128, .f32⟩
  | 53 => ⟨S1, .f32⟩
  | 54 => ⟨S_, .f32⟩
  | 55 => ⟨S_, .f32⟩
  | 56 => ⟨S_, .f32⟩
  | 57 => ⟨S50000x128, .f32⟩
  | 58 => ⟨S50000x128, .f32⟩
  | 59 => ⟨S50000x128, .f32⟩
  | 60 => ⟨S1x128x128, .f32⟩
  | 61 => ⟨S128x128, .f32⟩
  | 62 => ⟨S50000x128, .f32⟩
  | 63 => ⟨S1x128, .f32⟩
  | 64 => ⟨S128, .f32⟩
  | 65 => ⟨S1x128, .f32⟩
  | 66 => ⟨S50000x128, .f32⟩
  | 67 => ⟨S50000x128, .f32⟩
  | 68 => ⟨S_, .f32⟩
  | 69 => ⟨S50000x128, .f32⟩
  | 70 => ⟨S50000x128, .f32⟩
  | 71 => ⟨S1x128x128, .f32⟩
  | 72 => ⟨S128x128, .f32⟩
  | 73 => ⟨S50000x128, .f32⟩
  | 74 => ⟨S1x128, .f32⟩
  | 75 => ⟨S128, .f32⟩
  | 76 => ⟨S1x128, .f32⟩
  | 77 => ⟨S50000x128, .f32⟩
  | 78 => ⟨S50000x128, .f32⟩
  | 79 => ⟨S_, .f32⟩
  | 80 => ⟨S128, .f32⟩
  | 81 => ⟨S_, .f32⟩
  | 82 => ⟨S128, .f32⟩
  | 83 => ⟨S128, .f32⟩
  | 84 => ⟨S1x128, .f32⟩
  | 85 => ⟨S50000x128, .f32⟩
  | 86 => ⟨S50000x128, .f32⟩
  | 87 => ⟨S50000x128, .f32⟩
  | 88 => ⟨S_, .f32⟩
  | 89 => ⟨S128, .f32⟩
  | 90 => ⟨S_, .f32⟩
  | 91 => ⟨S128, .f32⟩
  | 92 => ⟨S128, .f32⟩
  | 93 => ⟨S1x128, .f32⟩
  | 94 => ⟨S128, .f32⟩
  | 95 => ⟨S1x128, .f32⟩
  | 96 => ⟨S50000x128, .f32⟩
  | 97 => ⟨S50000x128, .f32⟩
  | 98 => ⟨S1x128, .f32⟩
  | 99 => ⟨S50000x128, .f32⟩
  | 100 => ⟨S50000x128, .f32⟩
  | 101 => ⟨S_, .f32⟩
  | 102 => ⟨S128, .f32⟩
  | 103 => ⟨S128, .f32⟩
  | 104 => ⟨S128, .f32⟩
  | 105 => ⟨S1x128, .f32⟩
  | 106 => ⟨S50000x128, .f32⟩
  | 107 => ⟨S50000x128, .f32⟩
  | 108 => ⟨S1x128, .f32⟩
  | 109 => ⟨S128, .f32⟩
  | 110 => ⟨S1x128, .f32⟩
  | 111 => ⟨S50000x128, .f32⟩
  | 112 => ⟨S50000x128, .f32⟩
  | 113 => ⟨S50000x128, .f32⟩
  | 114 => ⟨S_, .f32⟩
  | 115 => ⟨S50000x128, .f32⟩
  | 116 => ⟨S50000x128, .f32⟩
  | 117 => ⟨S1x128x128, .f32⟩
  | 118 => ⟨S128x128, .f32⟩
  | 119 => ⟨S50000x128, .f32⟩
  | 120 => ⟨S1x128, .f32⟩
  | 121 => ⟨S128, .f32⟩
  | 122 => ⟨S1x128, .f32⟩
  | 123 => ⟨S50000x128, .f32⟩
  | 124 => ⟨S50000x128, .f32⟩
  | 125 => ⟨S1x128x128, .f32⟩
  | 126 => ⟨S128x128, .f32⟩
  | 127 => ⟨S50000x128, .f32⟩
  | _ => ⟨S50000x128, .f32⟩

abbrev hbmTy0_2 (i : Nat) : BufTy := match i % 128 with
  | 0 => ⟨S1x128, .f32⟩
  | 1 => ⟨S128, .f32⟩
  | 2 => ⟨S1x128, .f32⟩
  | 3 => ⟨S50000x128, .f32⟩
  | 4 => ⟨S50000x128, .f32⟩
  | 5 => ⟨S1x128x128, .f32⟩
  | 6 => ⟨S128x128, .f32⟩
  | 7 => ⟨S50000x128, .f32⟩
  | 8 => ⟨S1x128, .f32⟩
  | 9 => ⟨S128, .f32⟩
  | 10 => ⟨S1x128, .f32⟩
  | 11 => ⟨S50000x128, .f32⟩
  | 12 => ⟨S50000x128, .f32⟩
  | 13 => ⟨S50000x384, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_1 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_call0_cst : Ref sig .tc := ⟨.hbm, 43, rfl⟩
abbrev main_call0_v0 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_2 : Ref sig .tc := ⟨.hbm, 54, rfl⟩
abbrev main_v37 : Ref sig .tc := ⟨.hbm, 55, rfl⟩
abbrev main_cst_3 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_4 : Ref sig .tc := ⟨.hbm, 63, rfl⟩
abbrev main_v44 : Ref sig .tc := ⟨.hbm, 64, rfl⟩
abbrev main_cst_5 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_6 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_call1_cst : Ref sig .tc := ⟨.hbm, 88, rfl⟩
abbrev main_call1_v0 : Ref sig .tc := ⟨.hbm, 89, rfl⟩
abbrev main_v66 : Ref sig .tc := ⟨.hbm, 90, rfl⟩
abbrev main_c_7 : Ref sig .tc := ⟨.hbm, 91, rfl⟩
abbrev main_v67 : Ref sig .tc := ⟨.hbm, 92, rfl⟩
abbrev main_v68 : Ref sig .tc := ⟨.hbm, 93, rfl⟩
abbrev main_c_8 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_9 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_cst_10 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_call2_cst : Ref sig .tc := ⟨.hbm, 119, rfl⟩
abbrev main_call2_v0 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_cst_11 : Ref sig .tc := ⟨.hbm, 130, rfl⟩
abbrev main_v100 : Ref sig .tc := ⟨.hbm, 131, rfl⟩
abbrev main_cst_12 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_cst_13 : Ref sig .tc := ⟨.hbm, 139, rfl⟩
abbrev main_v107 : Ref sig .tc := ⟨.hbm, 140, rfl⟩
abbrev main_cst_14 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_cst_15 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_call3_cst : Ref sig .tc := ⟨.hbm, 165, rfl⟩
abbrev main_call3_v0 : Ref sig .tc := ⟨.hbm, 166, rfl⟩
abbrev main_v130 : Ref sig .tc := ⟨.hbm, 167, rfl⟩
abbrev main_c_16 : Ref sig .tc := ⟨.hbm, 168, rfl⟩
abbrev main_v131 : Ref sig .tc := ⟨.hbm, 169, rfl⟩
abbrev main_v132 : Ref sig .tc := ⟨.hbm, 170, rfl⟩
abbrev main_c_17 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_cst_18 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_cst_19 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_v152 : Ref sig .tc := ⟨.hbm, 193, rfl⟩
abbrev main_v153 : Ref sig .tc := ⟨.hbm, 194, rfl⟩
abbrev main_v154 : Ref sig .tc := ⟨.hbm, 195, rfl⟩
abbrev main_call4_cst : Ref sig .tc := ⟨.hbm, 196, rfl⟩
abbrev main_call4_v0 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩
abbrev main_v163 : Ref sig .tc := ⟨.hbm, 206, rfl⟩
abbrev main_cst_20 : Ref sig .tc := ⟨.hbm, 207, rfl⟩
abbrev main_v164 : Ref sig .tc := ⟨.hbm, 208, rfl⟩
abbrev main_cst_21 : Ref sig .tc := ⟨.hbm, 209, rfl⟩
abbrev main_v165 : Ref sig .tc := ⟨.hbm, 210, rfl⟩
abbrev main_v166 : Ref sig .tc := ⟨.hbm, 211, rfl⟩
abbrev main_v167 : Ref sig .tc := ⟨.hbm, 212, rfl⟩
abbrev main_v168 : Ref sig .tc := ⟨.hbm, 213, rfl⟩
abbrev main_v169 : Ref sig .tc := ⟨.hbm, 214, rfl⟩
abbrev main_v170 : Ref sig .tc := ⟨.hbm, 215, rfl⟩
abbrev main_cst_22 : Ref sig .tc := ⟨.hbm, 216, rfl⟩
abbrev main_v171 : Ref sig .tc := ⟨.hbm, 217, rfl⟩
abbrev main_cst_23 : Ref sig .tc := ⟨.hbm, 218, rfl⟩
abbrev main_v172 : Ref sig .tc := ⟨.hbm, 219, rfl⟩
abbrev main_v173 : Ref sig .tc := ⟨.hbm, 220, rfl⟩
abbrev main_v174 : Ref sig .tc := ⟨.hbm, 221, rfl⟩
abbrev main_v175 : Ref sig .tc := ⟨.hbm, 222, rfl⟩
abbrev main_v176 : Ref sig .tc := ⟨.hbm, 223, rfl⟩
abbrev main_v177 : Ref sig .tc := ⟨.hbm, 224, rfl⟩
abbrev main_v178 : Ref sig .tc := ⟨.hbm, 225, rfl⟩
abbrev main_v179 : Ref sig .tc := ⟨.hbm, 226, rfl⟩
abbrev main_v180 : Ref sig .tc := ⟨.hbm, 227, rfl⟩
abbrev main_v181 : Ref sig .tc := ⟨.hbm, 228, rfl⟩
abbrev main_cst_24 : Ref sig .tc := ⟨.hbm, 229, rfl⟩
abbrev main_v182 : Ref sig .tc := ⟨.hbm, 230, rfl⟩
abbrev main_v183 : Ref sig .tc := ⟨.hbm, 231, rfl⟩
abbrev main_v184 : Ref sig .tc := ⟨.hbm, 232, rfl⟩
abbrev main_v185 : Ref sig .tc := ⟨.hbm, 233, rfl⟩
abbrev main_v186 : Ref sig .tc := ⟨.hbm, 234, rfl⟩
abbrev main_v187 : Ref sig .tc := ⟨.hbm, 235, rfl⟩
abbrev main_v188 : Ref sig .tc := ⟨.hbm, 236, rfl⟩
abbrev main_v189 : Ref sig .tc := ⟨.hbm, 237, rfl⟩
abbrev main_v190 : Ref sig .tc := ⟨.hbm, 238, rfl⟩
abbrev main_v191 : Ref sig .tc := ⟨.hbm, 239, rfl⟩
abbrev main_v192 : Ref sig .tc := ⟨.hbm, 240, rfl⟩
abbrev main_v193 : Ref sig .tc := ⟨.hbm, 241, rfl⟩
abbrev main_call5_cst : Ref sig .tc := ⟨.hbm, 242, rfl⟩
abbrev main_call5_v0 : Ref sig .tc := ⟨.hbm, 243, rfl⟩
abbrev main_v194 : Ref sig .tc := ⟨.hbm, 244, rfl⟩
abbrev main_v195 : Ref sig .tc := ⟨.hbm, 245, rfl⟩
abbrev main_v196 : Ref sig .tc := ⟨.hbm, 246, rfl⟩
abbrev main_v197 : Ref sig .tc := ⟨.hbm, 247, rfl⟩
abbrev main_v198 : Ref sig .tc := ⟨.hbm, 248, rfl⟩
abbrev main_v199 : Ref sig .tc := ⟨.hbm, 249, rfl⟩
abbrev main_v200 : Ref sig .tc := ⟨.hbm, 250, rfl⟩
abbrev main_v201 : Ref sig .tc := ⟨.hbm, 251, rfl⟩
abbrev main_v202 : Ref sig .tc := ⟨.hbm, 252, rfl⟩
abbrev main_v203 : Ref sig .tc := ⟨.hbm, 253, rfl⟩
abbrev main_v204 : Ref sig .tc := ⟨.hbm, 254, rfl⟩
abbrev main_v205 : Ref sig .tc := ⟨.hbm, 255, rfl⟩
abbrev main_v206 : Ref sig .tc := ⟨.hbm, 256, rfl⟩
abbrev main_v207 : Ref sig .tc := ⟨.hbm, 257, rfl⟩
abbrev main_v208 : Ref sig .tc := ⟨.hbm, 258, rfl⟩
abbrev main_v209 : Ref sig .tc := ⟨.hbm, 259, rfl⟩
abbrev main_v210 : Ref sig .tc := ⟨.hbm, 260, rfl⟩
abbrev main_v211 : Ref sig .tc := ⟨.hbm, 261, rfl⟩
abbrev main_v212 : Ref sig .tc := ⟨.hbm, 262, rfl⟩
abbrev main_v213 : Ref sig .tc := ⟨.hbm, 263, rfl⟩
abbrev main_v214 : Ref sig .tc := ⟨.hbm, 264, rfl⟩
abbrev main_v215 : Ref sig .tc := ⟨.hbm, 265, rfl⟩
abbrev main_v216 : Ref sig .tc := ⟨.hbm, 266, rfl⟩
abbrev main_v217 : Ref sig .tc := ⟨.hbm, 267, rfl⟩
abbrev main_v218 : Ref sig .tc := ⟨.hbm, 268, rfl⟩
abbrev main_v219 : Ref sig .tc := ⟨.hbm, 269, rfl⟩

abbrev nD : Nat := 1
abbrev τ : Topo := Topo.v7x

variable {F : FTy → Type} [FloatOps F]

class Facts₀ : Prop where
  slices_S2x625000_S1x625000_0_0 : S2x625000.Slices ![0, 0] S1x625000
  shapeCasts_S1x625000_S625000 : S1x625000.ShapeCasts S625000
  slices_S2x625000_S1x625000_1_0 : S2x625000.Slices ![1, 0] S1x625000
  bcast_S_S625000 : S_.BroadcastsInDim S625000 (![] : Fin 0 → Fin S625000.rank)
  bcast_S625000_S625000x1_0 : S625000.BroadcastsInDim S625000x1 (![0] : Fin 1 → Fin S625000x1.rank)
  bcast_S_S50000x128 : S_.BroadcastsInDim S50000x128 (![] : Fin 0 → Fin S50000x128.rank)
  slices_S3_S1_0 : S3.Slices ![0] S1
  shapeCasts_S1_S_ : S1.ShapeCasts S_
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  slices_S3_S1_1 : S3.Slices ![1] S1
  slices_S3x128x128_S1x128x128_1_0_0 : S3x128x128.Slices ![1, 0, 0] S1x128x128
  slices_S3x128_S1x128_1_0 : S3x128.Slices ![1, 0] S1x128
  slices_S3_S1_2 : S3.Slices ![2] S1
  slices_S3x128x128_S1x128x128_2_0_0 : S3x128x128.Slices ![2, 0, 0] S1x128x128
  slices_S3x128_S1x128_2_0 : S3x128.Slices ![2, 0] S1x128
  concatenates_S50000x128_S50000x128_S50000x128_S50000x384_d1 : Shape.Concatenates [S50000x128, S50000x128, S50000x128] S50000x384 1
  gather_S50000x128_S625000x1_S625000x128_1_0_n_n_0_1_1128_wf : GatherDims.WF S50000x128 S625000x1 S625000x128 [1] [0] [] [0] [] 1 ![1, 128]
  scatter_S50000x128_S625000x1_S625000x128_1_0_0_1_wf : ScatterDims.WF S50000x128 S625000x1 S625000x128 [1] [0] [0] 1
  dot_S50000x128_S128x128_S50000x128_1_0_0_1_n_n_wf : DotDims.WF S50000x128 S128x128 S50000x128 [1] [0] [0] [1] [] []

variable [Facts₀]

def gather_S50000x128_S625000x1_S625000x128_1_0_n_n_0_1_1128 : GatherDims S50000x128 S625000x1 S625000x128 where
  offsetDims := [1]
  collapsedSliceDims := [0]
  operandBatchingDims := []
  startIndicesBatchingDims := []
  startIndexMap := [0]
  indexVectorDim := 1
  sliceSizes := ![1, 128]
  wf := gather_S50000x128_S625000x1_S625000x128_1_0_n_n_0_1_1128_wf
def scatter_S50000x128_S625000x1_S625000x128_1_0_0_1 : ScatterDims S50000x128 S625000x1 S625000x128 where
  updateWindowDims := [1]
  insertedWindowDims := [0]
  scatterDimsToOperandDims := [0]
  indexVectorDim := 1
  wf := scatter_S50000x128_S625000x1_S625000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.FrameBits.Common.lean ====
/-
  The rectangles the two kernel bodies load and store through — each is the whole staging buffer of its window —
  and the fact that one whole-buffer store covers the buffer.
-/
import proofs.«142693_j60928406061119_1_alg».proof.Proof.Gen.Kernel.Launch
import proofs.«142693_j60928406061119_1_alg».proof.Proof.Gen.Kernel.Skeleton
import proofs.«142693_j60928406061119_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole 5000 × 128 block of rows. -/
abbrev rA : Rect S5000x128 := Rect.unit (s := S5000x128) ![0, 0] S5000x128.size inb_S5000x128_S5000x128_0_0
/-- A whole 128 × 128 weight matrix. -/
abbrev rB : Rect S128x128 := Rect.unit (s := S128x128) ![0, 0] S128x128.size inb_S128x128_S128x128_0_0
/-- A whole 1 × 128 row vector. -/
abbrev rC : Rect S1x128 := Rect.unit (s := S1x128) ![0, 0] S1x128.size inb_S1x128_S1x128_0_0

/-- One store through the whole block covers the block. -/
theorem coverA (p0 : Vec F S5000x128 .f32) (y : S5000x128.Idx) :
    ∃ pc ∈ ([⟨rA, p0⟩] : List (View.Piece (Elt F) S5000x128 .f32)), y ∈ pc.1.set :=
  View.cover_of_tiled [⟨rA, p0⟩] S5000x128.size (by rfl) y

end Cert.Kernel.Fr

end
-- ==== Proof.FrameBits.Region0.lean ====
/-
  Region 0 of the program: the two-layer perceptron kernel on a grid of ten blocks of 5000 rows. Stated at a parameter `V`,
  the buffers' contents when the region is entered: each window's block at a grid point, what the body leaves in
  each output window's staging buffer (one whole-block store of the body's arithmetic on the blocks it loaded),
  the body's triple, the pipeline's proof data and the body obligation at every point.
-/
import proofs.«142693_j60928406061119_1_alg».proof.Proof.FrameBits.Common

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- What the body leaves in output window 5's staging buffer, from the input windows' blocks: its one store through
    the whole block, of the body's arithmetic on the blocks it loaded. -/
def out0_5 (x0 : Vec F S5000x128 .f32) (x1 : Vec F S128x128 .f32) (x2 : Vec F S1x128 .f32) (x3 : Vec F S128x128 .f32) (x4 : Vec F S1x128 .f32) : Vec F S5000x128 .f32 :=
  View.canon [⟨rA, k0_pay1 (View.ld x0 rA) (View.ld x1 rB) (View.ld x2 rC) (View.ld x3 rB) (View.ld x4 rC)⟩]

set_option maxHeartbeats 4000000 in
/-- The body on whole staging buffers, the inputs' at contents `xW` and the outputs' at anything, runs to the end
    leaving the inputs' as they were and each output's at `out0_W` of the inputs'. -/
theorem sound_kernel0 (c : Dev nD) (E : Set ℕ) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole)
    (x0 : Vec F S5000x128 .f32) (x1 : Vec F S128x128 .f32) (x2 : Vec F S1x128 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4)) -∗ K ⟨⟩))
      ⊢ wp frame (wpE (defs₀ (F := F)) Variants.none c none) E (cc0__mlp_kernel i arg1 harg1 arg2 harg2 arg3 harg3 arg4 harg4 arg5 harg5 arg6 harg6) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (coverA _)

/-- The proof data of pipeline 0 on core `c`: the arrays as the region finds them; after the body at point `t` each
    input's buffer at its block and each output's at `out0_W` of the input blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.FrameBits.Region1.lean ====
/-
  Region 1 of the program: the normalisation and projection kernel on a grid of ten blocks of 5000 rows. Stated at a parameter `V`,
  the buffers' contents when the region is entered: each window's block at a grid point, what the body leaves in
  each output window's staging buffer (one whole-block store of the body's arithmetic on the blocks it loaded),
  the body's triple, the pipeline's proof data and the body obligation at every point.
-/
import proofs.«142693_j60928406061119_1_alg».proof.Proof.FrameBits.Common

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's staging buffer holds its block at every point, fetched there or not. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's staging buffer holds its block at every point, fetched there or not. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- What the body leaves in output window 8's staging buffer, from the input windows' blocks: its one store through
    the whole block, of the body's arithmetic on the blocks it loaded. -/
def out1_8 (x0 : Vec F S5000x128 .f32) (x1 : Vec F S1x128 .f32) (x2 : Vec F S1x128 .f32) (x3 : Vec F S1x128 .f32) (x4 : Vec F S1x128 .f32) (x5 : Vec F S5000x128 .f32) (x6 : Vec F S128x128 .f32) (x7 : Vec F S1x128 .f32) : Vec F S5000x128 .f32 :=
  View.canon [⟨rA, k1_pay1 (View.ld x0 rA) (View.ld x2 rC) (View.ld x3 rC) (View.ld x1 rC) (View.ld x4 rC) (View.ld x5 rA)⟩]

/-- What the body leaves in output window 9's staging buffer, from the input windows' blocks: its one store through
    the whole block, of the body's arithmetic on the blocks it loaded. -/
def out1_9 (x0 : Vec F S5000x128 .f32) (x1 : Vec F S1x128 .f32) (x2 : Vec F S1x128 .f32) (x3 : Vec F S1x128 .f32) (x4 : Vec F S1x128 .f32) (x5 : Vec F S5000x128 .f32) (x6 : Vec F S128x128 .f32) (x7 : Vec F S1x128 .f32) : Vec F S5000x128 .f32 :=
  View.canon [⟨rA, k1_pay2 (View.ld x0 rA) (View.ld x2 rC) (View.ld x3 rC) (View.ld x1 rC) (View.ld x4 rC) (View.ld x5 rA) (View.ld x6 rB) (View.ld x7 rC)⟩]

set_option maxHeartbeats 4000000 in
/-- The body on whole staging buffers, the inputs' at contents `xW` and the outputs' at anything, runs to the end
    leaving the inputs' as they were and each output's at `out1_W` of the inputs'. -/
theorem sound_kernel1 (c : Dev nD) (E : Set ℕ) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S5000x128 .f32) (harg9 : arg9.IsWhole) (arg10 : Memref sig .tc .vmem S5000x128 .f32) (harg10 : arg10.IsWhole)
    (x0 : Vec F S5000x128 .f32) (x1 : Vec F S1x128 .f32) (x2 : Vec F S1x128 .f32) (x3 : Vec F S1x128 .f32) (x4 : Vec F S1x128 .f32) (x5 : Vec F S5000x128 .f32) (x6 : Vec F S128x128 .f32) (x7 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out1_8 x0 x1 x2 x3 x4 x5 x6 x7) ∗ owns (c : Thread nD τ) arg10 fullShare (out1_9 x0 x1 x2 x3 x4 x5 x6 x7)) -∗ K ⟨⟩))
      ⊢ wp frame (wpE (defs₀ (F := F)) Variants.none c none) E (cc1__bn_kernel i arg1 harg1 arg2 harg2 arg3 harg3 arg4 harg4 arg5 harg5 arg6 harg6 arg7 harg7 arg8 harg8 arg9 harg9 arg10 harg10) K := by
  simp only [cc1__bn_kernel_eq_skeleton]; unfold cc1__bn_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0; subst hf1; subst hf2; subst hf3; subst hf4; subst hf5; subst hf6; subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (coverA _)
  iexists _; isplitr
  swap; · iexact H9
  ipureintro
  exact View.read_writes_eq_canon _ _ _ (coverA _)

/-- The proof data of pipeline 1 on core `c`: the arrays as the region finds them; after the body at point `t` each
    input's buffer at its block and each output's at `out1_W` of the input blocks; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 (iblk1 V c 0 t) (iblk1 V c 1 t) (iblk1 V c 2 t) (iblk1 V c 3 t) (iblk1 V c 4 t) (iblk1 V c 5 t) (iblk1 V c 6 t) (iblk1 V c 7 t)
    | ⟨9, _⟩ => out1_9 (iblk1 V c 0 t) (iblk1 V c 1 t) (iblk1 V c 2 t) (iblk1 V c 3 t) (iblk1 V c 4 t) (iblk1 V c 5 t) (iblk1 V c 6 t) (iblk1 V c 7 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = out1_8 (iblk1 V c 0 t) (iblk1 V c 1 t) (iblk1 V c 2 t) (iblk1 V c 3 t) (iblk1 V c 4 t) (iblk1 V c 5 t) (iblk1 V c 6 t) (iblk1 V c 7 t) := by dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) (iblk1 V c 6 t) (iblk1 V c 7 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

/-- The body at any point: the inputs' buffers hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ (grid1.coords t) _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.FrameBits.Region2.lean ====
/-
  Region 2 of the program: the two-layer perceptron kernel on a grid of ten blocks of 5000 rows. Stated at a parameter `V`,
  the buffers' contents when the region is entered: each window's block at a grid point, what the body leaves in
  each output window's staging buffer (one whole-block store of the body's arithmetic on the blocks it loaded),
  the body's triple, the pipeline's proof data and the body obligation at every point.
-/
import proofs.«142693_j60928406061119_1_alg».proof.Proof.FrameBits.Common

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's staging buffer holds its block at every point, fetched there or not. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- What the body leaves in output window 5's staging buffer, from the input windows' blocks: its one store through
    the whole block, of the body's arithmetic on the blocks it loaded. -/
def out2_5 (x0 : Vec F S5000x128 .f32) (x1 : Vec F S128x128 .f32) (x2 : Vec F S1x128 .f32) (x3 : Vec F S128x128 .f32) (x4 : Vec F S1x128 .f32) : Vec F S5000x128 .f32 :=
  View.canon [⟨rA, k2_pay1 (View.ld x0 rA) (View.ld x1 rB) (View.ld x2 rC) (View.ld x3 rB) (View.ld x4 rC)⟩]

set_option maxHeartbeats 4000000 in
/-- The body on whole staging buffers, the inputs' at contents `xW` and the outputs' at anything, runs to the end
    leaving the inputs' as they were and each output's at `out2_W` of the inputs'. -/
theorem sound_kernel2 (c : Dev nD) (E : Set ℕ) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole)
    (x0 : Vec F S5000x128 .f32) (x1 : Vec F S128x128 .f32) (x2 : Vec F S1x128 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out2_5 x0 x1 x2 x3 x4)) -∗ K ⟨⟩))
      ⊢ wp frame (wpE (defs₀ (F := F)) Variants.none c none) E (cc2__mlp_kernel i arg1 harg1 arg2 harg2 arg3 harg3 arg4 harg4 arg5 harg5 arg6 harg6) K := by
  simp only [cc2__mlp_kernel_eq_skeleton]; unfold cc2__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (coverA _)

/-- The proof data of pipeline 2 on core `c`: the arrays as the region finds them; after the body at point `t` each
    input's buffer at its block and each output's at `out2_W` of the input blocks; the invariant the scoped rest and the
    generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' buffers hold their blocks, so `sound_kernel2` applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.FrameBits.Region3.lean ====
/-
  Region 3 of the program: the normalisation and projection kernel on a grid of ten blocks of 5000 rows. Stated at a parameter `V`,
  the buffers' contents when the region is entered: each window's block at a grid point, what the body leaves in
  each output window's staging buffer (one whole-block store of the body's arithmetic on the blocks it loaded),
  the body's triple, the pipeline's proof data and the body obligation at every point.
-/
import proofs.«142693_j60928406061119_1_alg».proof.Proof.FrameBits.Common

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's staging buffer holds its block at every point, fetched there or not. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's staging buffer holds its block at every point, fetched there or not. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's staging buffer holds its block at every point, fetched there or not. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's staging buffer holds its block at every point, fetched there or not. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's staging buffer holds its block at every point, fetched there or not. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- Input window 6's staging buffer holds its block at every point, fetched there or not. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-- Input window 7's staging buffer holds its block at every point, fetched there or not. -/
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)

/-- What the body leaves in output window 8's staging buffer, from the input windows' blocks: its one store through
    the whole block, of the body's arithmetic on the blocks it loaded. -/
def out3_8 (x0 : Vec F S5000x128 .f32) (x1 : Vec F S1x128 .f32) (x2 : Vec F S1x128 .f32) (x3 : Vec F S1x128 .f32) (x4 : Vec F S1x128 .f32) (x5 : Vec F S5000x128 .f32) (x6 : Vec F S128x128 .f32) (x7 : Vec F S1x128 .f32) : Vec F S5000x128 .f32 :=
  View.canon [⟨rA, k3_pay1 (View.ld x0 rA) (View.ld x2 rC) (View.ld x3 rC) (View.ld x1 rC) (View.ld x4 rC) (View.ld x5 rA)⟩]

/-- What the body leaves in output window 9's staging buffer, from the input windows' blocks: its one store through
    the whole block, of the body's arithmetic on the blocks it loaded. -/
def out3_9 (x0 : Vec F S5000x128 .f32) (x1 : Vec F S1x128 .f32) (x2 : Vec F S1x128 .f32) (x3 : Vec F S1x128 .f32) (x4 : Vec F S1x128 .f32) (x5 : Vec F S5000x128 .f32) (x6 : Vec F S128x128 .f32) (x7 : Vec F S1x128 .f32) : Vec F S5000x128 .f32 :=
  View.canon [⟨rA, k3_pay2 (View.ld x0 rA) (View.ld x2 rC) (View.ld x3 rC) (View.ld x1 rC) (View.ld x4 rC) (View.ld x5 rA) (View.ld x6 rB) (View.ld x7 rC)⟩]

set_option maxHeartbeats 4000000 in
/-- The body on whole staging buffers, the inputs' at contents `xW` and the outputs' at anything, runs to the end
    leaving the inputs' as they were and each output's at `out3_W` of the inputs'. -/
theorem sound_kernel3 (c : Dev nD) (E : Set ℕ) (i : grid3.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S5000x128 .f32) (harg9 : arg9.IsWhole) (arg10 : Memref sig .tc .vmem S5000x128 .f32) (harg10 : arg10.IsWhole)
    (x0 : Vec F S5000x128 .f32) (x1 : Vec F S1x128 .f32) (x2 : Vec F S1x128 .f32) (x3 : Vec F S1x128 .f32) (x4 : Vec F S1x128 .f32) (x5 : Vec F S5000x128 .f32) (x6 : Vec F S128x128 .f32) (x7 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out3_8 x0 x1 x2 x3 x4 x5 x6 x7) ∗ owns (c : Thread nD τ) arg10 fullShare (out3_9 x0 x1 x2 x3 x4 x5 x6 x7)) -∗ K ⟨⟩))
      ⊢ wp frame (wpE (defs₀ (F := F)) Variants.none c none) E (cc3__bn_kernel i arg1 harg1 arg2 harg2 arg3 harg3 arg4 harg4 arg5 harg5 arg6 harg6 arg7 harg7 arg8 harg8 arg9 harg9 arg10 harg10) K := by
  simp only [cc3__bn_kernel_eq_skeleton]; unfold cc3__bn_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0; subst hf1; subst hf2; subst hf3; subst hf4; subst hf5; subst hf6; subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (coverA _)
  iexists _; isplitr
  swap; · iexact H9
  ipureintro
  exact View.read_writes_eq_canon _ _ _ (coverA _)

/-- The proof data of pipeline 3 on core `c`: the arrays as the region finds them; after the body at point `t` each
    input's buffer at its block and each output's at `out3_W` of the input blocks; the invariant the scoped rest and the
    generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => out3_8 (iblk3 V c 0 t) (iblk3 V c 1 t) (iblk3 V c 2 t) (iblk3 V c 3 t) (iblk3 V c 4 t) (iblk3 V c 5 t) (iblk3 V c 6 t) (iblk3 V c 7 t)
    | ⟨9, _⟩ => out3_9 (iblk3 V c 0 t) (iblk3 V c 1 t) (iblk3 V c 2 t) (iblk3 V c 3 t) (iblk3 V c 4 t) (iblk3 V c 5 t) (iblk3 V c 6 t) (iblk3 V c 7 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = out3_8 (iblk3 V c 0 t) (iblk3 V c 1 t) (iblk3 V c 2 t) (iblk3 V c 3 t) (iblk3 V c 4 t) (iblk3 V c 5 t) (iblk3 V c 6 t) (iblk3 V c 7 t) := by dsimp only [dat3]
theorem after3_9 (c : Dev nD) (t : Fin cfg3.N) : (dat3 V c).after 9 t = out3_9 (iblk3 V c 0 t) (iblk3 V c 1 t) (iblk3 V c 2 t) (iblk3 V c 3 t) (iblk3 V c 4 t) (iblk3 V c 5 t) (iblk3 V c 6 t) (iblk3 V c 7 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t))

/-- The body at any point: the inputs' buffers hold their blocks, so `sound_kernel3` applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel3 c Set.univ (grid3.coords t) _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Fr

end
-- ==== Proof.FrameBits.Region4.lean ====
/-
  Region 4 of the program: the two-layer perceptron kernel on a grid of ten blocks of 5000 rows. Stated at a parameter `V`,
  the buffers' contents when the region is entered: each window's block at a grid point, what the body leaves in
  each output window's staging buffer (one whole-block store of the body's arithmetic on the blocks it loaded),
  the body's triple, the pipeline's proof data and the body obligation at every point.
-/
import proofs.«142693_j60928406061119_1_alg».proof.Proof.FrameBits.Common

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's staging buffer holds its block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's staging buffer holds its block at every point, fetched there or not. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's staging buffer holds its block at every point, fetched there or not. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's staging buffer holds its block at every point, fetched there or not. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's staging buffer holds its block at every point, fetched there or not. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- What the body leaves in output window 5's staging buffer, from the input windows' blocks: its one store through
    the whole block, of the body's arithmetic on the blocks it loaded. -/
def out4_5 (x0 : Vec F S5000x128 .f32) (x1 : Vec F S128x128 .f32) (x2 : Vec F S1x128 .f32) (x3 : Vec F S128x128 .f32) (x4 : Vec F S1x128 .f32) : Vec F S5000x128 .f32 :=
  View.canon [⟨rA, k4_pay1 (View.ld x0 rA) (View.ld x1 rB) (View.ld x2 rC) (View.ld x3 rB) (View.ld x4 rC)⟩]

set_option maxHeartbeats 4000000 in
/-- The body on whole staging buffers, the inputs' at contents `xW` and the outputs' at anything, runs to the end
    leaving the inputs' as they were and each output's at `out4_W` of the inputs'. -/
theorem sound_kernel4 (c : Dev nD) (E : Set ℕ) (i : grid4.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole)
    (x0 : Vec F S5000x128 .f32) (x1 : Vec F S128x128 .f32) (x2 : Vec F S1x128 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out4_5 x0 x1 x2 x3 x4)) -∗ K ⟨⟩))
      ⊢ wp frame (wpE (defs₀ (F := F)) Variants.none c none) E (cc4__mlp_kernel i arg1 harg1 arg2 harg2 arg3 harg3 arg4 harg4 arg5 harg5 arg6 harg6) K := by
  simp only [cc4__mlp_kernel_eq_skeleton]; unfold cc4__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (coverA _)

/-- The proof data of pipeline 4 on core `c`: the arrays as the region finds them; after the body at point `t` each
    input's buffer at its block and each output's at `out4_W` of the input blocks; the invariant the scoped rest and the
    generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = out4_5 (iblk4 V c 0 t) (iblk4 V c 1 t) (iblk4 V c 2 t) (iblk4 V c 3 t) (iblk4 V c 4 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

/-- The body at any point: the inputs' buffers hold their blocks, so `sound_kernel4` applies; the invariant and the
    core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ (grid4.coords t) _ _ _ _ _ _ _ _ _ _ _ _ (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Fr

end
-- ==== Proof.FrameBits.Region5.lean ====
/-
  Region 5 of the program: the normalisation and projection kernel on a grid of ten blocks of 5000 rows. Stated at a parameter `V`,
  the buffers' contents when the region is entered: each window's block at a grid point, what the body leaves in
  each output window's staging buffer (one whole-block store of the body's arithmetic on the blocks it loaded),
  the body's triple, the pipeline's proof data and the body obligation at every point.
-/
import proofs.«142693_j60928406061119_1_alg».proof.Proof.FrameBits.Common

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's staging buffer holds its block at every point, fetched there or not. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's staging buffer holds its block at every point, fetched there or not. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's staging buffer holds its block at every point, fetched there or not. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's staging buffer holds its block at every point, fetched there or not. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's staging buffer holds its block at every point, fetched there or not. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- Input window 5's staging buffer holds its block at every point, fetched there or not. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-- Input window 6's staging buffer holds its block at every point, fetched there or not. -/
theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)

/-- Input window 7's staging buffer holds its block at every point, fetched there or not. -/
theorem before5_7_of {c : Dev nD} (dat : Dat τ (Elt F) Unit ℕ (UR sig nD τ) ℕ cfg5 c) (hA : dat.A 7 = V c (Pipeline.arrRef spec5 7))
    (hafter : ∀ t, dat.after 7 t = iblk5 V c 7 t) (t : Fin cfg5.N) (d) : dat.before 7 t d = iblk5 V c 7 t :=
  (dat.before_in_eq_fetched 7 rfl (fun _ => rfl) (fun _ _ _ => rfl) (fun t => by rw [hafter]; unfold Dat.blockOf iblk5; rw [hA]; try rfl) t d).trans
    (by unfold Dat.fetched Dat.blockOf iblk5; rw [hA]; try rfl)

/-- What the body leaves in output window 8's staging buffer, from the input windows' blocks: its one store through
    the whole block, of the body's arithmetic on the blocks it loaded. -/
def out5_8 (x0 : Vec F S5000x128 .f32) (x1 : Vec F S1x128 .f32) (x2 : Vec F S1x128 .f32) (x3 : Vec F S1x128 .f32) (x4 : Vec F S1x128 .f32) (x5 : Vec F S5000x128 .f32) (x6 : Vec F S128x128 .f32) (x7 : Vec F S1x128 .f32) : Vec F S5000x128 .f32 :=
  View.canon [⟨rA, k5_pay1 (View.ld x0 rA) (View.ld x2 rC) (View.ld x3 rC) (View.ld x1 rC) (View.ld x4 rC) (View.ld x5 rA)⟩]

/-- What the body leaves in output window 9's staging buffer, from the input windows' blocks: its one store through
    the whole block, of the body's arithmetic on the blocks it loaded. -/
def out5_9 (x0 : Vec F S5000x128 .f32) (x1 : Vec F S1x128 .f32) (x2 : Vec F S1x128 .f32) (x3 : Vec F S1x128 .f32) (x4 : Vec F S1x128 .f32) (x5 : Vec F S5000x128 .f32) (x6 : Vec F S128x128 .f32) (x7 : Vec F S1x128 .f32) : Vec F S5000x128 .f32 :=
  View.canon [⟨rA, k5_pay2 (View.ld x0 rA) (View.ld x2 rC) (View.ld x3 rC) (View.ld x1 rC) (View.ld x4 rC) (View.ld x5 rA) (View.ld x6 rB) (View.ld x7 rC)⟩]

set_option maxHeartbeats 4000000 in
/-- The body on whole staging buffers, the inputs' at contents `xW` and the outputs' at anything, runs to the end
    leaving the inputs' as they were and each output's at `out5_W` of the inputs'. -/
theorem sound_kernel5 (c : Dev nD) (E : Set ℕ) (i : grid5.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S5000x128 .f32) (harg9 : arg9.IsWhole) (arg10 : Memref sig .tc .vmem S5000x128 .f32) (harg10 : arg10.IsWhole)
    (x0 : Vec F S5000x128 .f32) (x1 : Vec F S1x128 .f32) (x2 : Vec F S1x128 .f32) (x3 : Vec F S1x128 .f32) (x4 : Vec F S1x128 .f32) (x5 : Vec F S5000x128 .f32) (x6 : Vec F S128x128 .f32) (x7 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out5_8 x0 x1 x2 x3 x4 x5 x6 x7) ∗ owns (c : Thread nD τ) arg10 fullShare (out5_9 x0 x1 x2 x3 x4 x5 x6 x7)) -∗ K ⟨⟩))
      ⊢ wp frame (wpE (defs₀ (F := F)) Variants.none c none) E (cc5__bn_kernel i arg1 harg1 arg2 harg2 arg3 harg3 arg4 harg4 arg5 harg5 arg6 harg6 arg7 harg7 arg8 harg8 arg9 harg9 arg10 harg10) K := by
  simp only [cc5__bn_kernel_eq_skeleton]; unfold cc5__bn_kernel_skel
  simp only [k5_part1_eq_skeleton]; unfold k5_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0; subst hf1; subst hf2; subst hf3; subst hf4; subst hf5; subst hf6; subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (coverA _)
  iexists _; isplitr
  swap; · iexact H9
  ipureintro
  exact View.read_writes_eq_canon _ _ _ (coverA _)

/-- The proof data of pipeline 5 on core `c`: the arrays as the region finds them; after the body at point `t` each
    input's buffer at its block and each output's at `out5_W` of the input blocks; the invariant the scoped rest and the
    generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => iblk5 V c 7 t
    | ⟨8, _⟩ => out5_8 (iblk5 V c 0 t) (iblk5 V c 1 t) (iblk5 V c 2 t) (iblk5 V c 3 t) (iblk5 V c 4 t) (iblk5 V c 5 t) (iblk5 V c 6 t) (iblk5 V c 7 t)
    | ⟨9, _⟩ => out5_9 (iblk5 V c 0 t) (iblk5 V c 1 t) (iblk5 V c 2 t) (iblk5 V c 3 t) (iblk5 V c 4 t) (iblk5 V c 5 t) (iblk5 V c 6 t) (iblk5 V c 7 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = iblk5 V c 7 t := by dsimp only [dat5]
theorem after5_8 (c : Dev nD) (t : Fin cfg5.N) : (dat5 V c).after 8 t = out5_8 (iblk5 V c 0 t) (iblk5 V c 1 t) (iblk5 V c 2 t) (iblk5 V c 3 t) (iblk5 V c 4 t) (iblk5 V c 5 t) (iblk5 V c 6 t) (iblk5 V c 7 t) := by dsimp only [dat5]
theorem after5_9 (c : Dev nD) (t : Fin cfg5.N) : (dat5 V c).after 9 t = out5_9 (iblk5 V c 0 t) (iblk5 V c 1 t) (iblk5 V c 2 t) (iblk5 V c 3 t) (iblk5 V c 4 t) (iblk5 V c 5 t) (iblk5 V c 6 t) (iblk5 V c 7 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d
theorem before5_7 (c : Dev nD) (t : Fin cfg5.N) (d) : (dat5 V c).before 7 t d = iblk5 V c 7 t :=
  before5_7_of V (dat5 V c) (A_eq5 V c 7) (after5_7 V c) t d

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d))
    ∗ (∃ d, owns (c : Thread nD τ) (st5_8 t) fullShare ((dat5 V c).before 8 t d))
    ∗ (∃ d, owns (c : Thread nD τ) (st5_9 t) fullShare ((dat5 V c).before 9 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t)
    ∗ owns (c : Thread nD τ) (st5_8 t) fullShare ((dat5 V c).after 8 t)
    ∗ owns (c : Thread nD τ) (st5_9 t) fullShare ((dat5 V c).after 9 t))

/-- The body at any point: the inputs' buffers hold their blocks, so `sound_kernel5` applies; the invariant and the
    core's dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6, before5_7]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7, after5_8, after5_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel5 c Set.univ (grid5.coords t) _ _ _ _ _ _ _ _ _ _ _ _ _ _ _ _ _ _ _ _ (iblk5 V c 0 t) (iblk5 V c 1 t) (iblk5 V c 2 t) (iblk5 V c 3 t) (iblk5 V c 4 t) (iblk5 V c 5 t) (iblk5 V c 6 t) (iblk5 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Fr

end
-- ==== Proof.FrameBits.Run.lean ====
/-
  The run of the whole program: @main as thirteen segments — seven stretches of host operations and six kernel
  regions — from the launch memory to the return. The buffers' contents at every segment boundary are a fold from
  the launch memory: a host stretch applies its operations; a region leaves its input arrays as entered and each
  output array at what its ten write-backs leave. Every weakly fair execution terminates with every unscoped
  buffer at the fold's last stage; no stretch and no region writes an argument, so each argument ends as launched.
-/
import proofs.«142693_j60928406061119_1_alg».proof.Proof.Gen.Kernel.Regions
import proofs.«142693_j60928406061119_1_alg».proof.Proof.FrameBits.Region0
import proofs.«142693_j60928406061119_1_alg».proof.Proof.FrameBits.Region1
import proofs.«142693_j60928406061119_1_alg».proof.Proof.FrameBits.Region2
import proofs.«142693_j60928406061119_1_alg».proof.Proof.FrameBits.Region3
import proofs.«142693_j60928406061119_1_alg».proof.Proof.FrameBits.Region4
import proofs.«142693_j60928406061119_1_alg».proof.Proof.FrameBits.Region5

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

/-- Core `c`'s buffers at launch. -/
abbrev W0 : Dev nD → Valuation τ sig (Elt F) := fun c b => (s₀ m ρ).mem ((c : Dev nD), b)
/-- After host stretch 0 (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- A buffer host stretch 0 does not write holds what it held before the stretch. -/
theorem W1_of (c : Dev nD) (r : Ref sig .tc) (h : r ∉ hostOps0_W) : W1 m ρ c r = W0 m ρ c r :=
  StableHlo.after_of_writes_sub hostOps0 _ hostOps0_writes h

/-- After host stretch 1 (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- A buffer host stretch 1 does not write holds what it held before the stretch. -/
theorem W3_of (c : Dev nD) (r : Ref sig .tc) (h : r ∉ hostOps1_W) : W3 m ρ c r = W2 m ρ c r :=
  StableHlo.after_of_writes_sub hostOps1 _ hostOps1_writes h

/-- After host stretch 2 (region 2's entry). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At region 2's exit: its arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- A buffer host stretch 2 does not write holds what it held before the stretch. -/
theorem W5_of (c : Dev nD) (r : Ref sig .tc) (h : r ∉ hostOps2_W) : W5 m ρ c r = W4 m ρ c r :=
  StableHlo.after_of_writes_sub hostOps2 _ hostOps2_writes h

/-- After host stretch 3 (region 3's entry). -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
/-- At region 3's exit: its arrays at what the pipeline leaves, every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)
/-- A buffer host stretch 3 does not write holds what it held before the stretch. -/
theorem W7_of (c : Dev nD) (r : Ref sig .tc) (h : r ∉ hostOps3_W) : W7 m ρ c r = W6 m ρ c r :=
  StableHlo.after_of_writes_sub hostOps3 _ hostOps3_writes h

/-- After host stretch 4 (region 4's entry). -/
abbrev W9 : Dev nD → Valuation τ sig (Elt F) := fun c => StableHlo.after hostOps4 (W8 m ρ c)
abbrev V9 : (c : Dev nD) → (b : Ref sig .tc) → Buf (Elt F) ((c : Thread nD τ).loc b) := fun c b => W9 m ρ c b
/-- At region 4's exit: its arrays at what the pipeline leaves, every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev V10 : (c : Dev nD) → (b : Ref sig .tc) → Buf (Elt F) ((c : Thread nD τ).loc b) := fun c b => W10 m ρ c b
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)
/-- A buffer host stretch 4 does not write holds what it held before the stretch. -/
theorem W9_of (c : Dev nD) (r : Ref sig .tc) (h : r ∉ hostOps4_W) : W9 m ρ c r = W8 m ρ c r :=
  StableHlo.after_of_writes_sub hostOps4 _ hostOps4_writes h

/-- After host stretch 5 (region 5's entry). -/
abbrev W11 : Dev nD → Valuation τ sig (Elt F) := fun c => StableHlo.after hostOps5 (W10 m ρ c)
abbrev V11 : (c : Dev nD) → (b : Ref sig .tc) → Buf (Elt F) ((c : Thread nD τ).loc b) := fun c b => W11 m ρ c b
/-- At region 5's exit: its arrays at what the pipeline leaves, every other buffer as entered. -/
def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
abbrev V12 : (c : Dev nD) → (b : Ref sig .tc) → Buf (Elt F) ((c : Thread nD τ).loc b) := fun c b => W12 m ρ c b
theorem hF5 (c : Dev nD) (w : Fin cfg5.W) : (dat5 (V11 m ρ) c).arrAt w cfg5.N = V12 m ρ c (Pipeline.arrRef spec5 w) :=
  (W12_arr m ρ c w).symm
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)
/-- A buffer host stretch 5 does not write holds what it held before the stretch. -/
theorem W11_of (c : Dev nD) (r : Ref sig .tc) (h : r ∉ hostOps5_W) : W11 m ρ c r = W10 m ρ c r :=
  StableHlo.after_of_writes_sub hostOps5 _ hostOps5_writes h

/-- After host stretch 6, the concatenation: the program's end. -/
abbrev W13 : Dev nD → Valuation τ sig (Elt F) := fun c => StableHlo.after hostOps6 (W12 m ρ c)
theorem W13_of (c : Dev nD) (r : Ref sig .tc) (h : r ∉ hostOps6_W) : W13 m ρ c r = W12 m ρ c r :=
  StableHlo.after_of_writes_sub hostOps6 _ hostOps6_writes h

/-! ## The arguments end as launched -/

theorem W13_main_arg0 (c : Dev nD) : W13 m ρ c (Proc.devRef .tc main_arg0) = m ((c : Thread nD τ).loc main_arg0) :=
  (W13_of m ρ c main_arg0 (by decide)).trans <|
    (W12_of_ne m ρ c main_arg0 (by decide)).trans <| (W11_of m ρ c main_arg0 (by decide)).trans <|
    (W10_of_ne m ρ c main_arg0 (by decide)).trans <| (W9_of m ρ c main_arg0 (by decide)).trans <|
    (W8_of_ne m ρ c main_arg0 (by decide)).trans <| (W7_of m ρ c main_arg0 (by decide)).trans <|
    (W6_of_ne m ρ c main_arg0 (by decide)).trans <| (W5_of m ρ c main_arg0 (by decide)).trans <|
    (W4_of_ne m ρ c main_arg0 (by decide)).trans <| (W3_of m ρ c main_arg0 (by decide)).trans <|
    (W2_of_ne m ρ c main_arg0 (by decide)).trans <| (W1_of m ρ c main_arg0 (by decide)).trans rfl

theorem W13_main_arg1 (c : Dev nD) : W13 m ρ c (Proc.devRef .tc main_arg1) = m ((c : Thread nD τ).loc main_arg1) :=
  (W13_of m ρ c main_arg1 (by decide)).trans <|
    (W12_of_ne m ρ c main_arg1 (by decide)).trans <| (W11_of m ρ c main_arg1 (by decide)).trans <|
    (W10_of_ne m ρ c main_arg1 (by decide)).trans <| (W9_of m ρ c main_arg1 (by decide)).trans <|
    (W8_of_ne m ρ c main_arg1 (by decide)).trans <| (W7_of m ρ c main_arg1 (by decide)).trans <|
    (W6_of_ne m ρ c main_arg1 (by decide)).trans <| (W5_of m ρ c main_arg1 (by decide)).trans <|
    (W4_of_ne m ρ c main_arg1 (by decide)).trans <| (W3_of m ρ c main_arg1 (by decide)).trans <|
    (W2_of_ne m ρ c main_arg1 (by decide)).trans <| (W1_of m ρ c main_arg1 (by decide)).trans rfl

theorem W13_main_arg2 (c : Dev nD) : W13 m ρ c (Proc.devRef .tc main_arg2) = m ((c : Thread nD τ).loc main_arg2) :=
  (W13_of m ρ c main_arg2 (by decide)).trans <|
    (W12_of_ne m ρ c main_arg2 (by decide)).trans <| (W11_of m ρ c main_arg2 (by decide)).trans <|
    (W10_of_ne m ρ c main_arg2 (by decide)).trans <| (W9_of m ρ c main_arg2 (by decide)).trans <|
    (W8_of_ne m ρ c main_arg2 (by decide)).trans <| (W7_of m ρ c main_arg2 (by decide)).trans <|
    (W6_of_ne m ρ c main_arg2 (by decide)).trans <| (W5_of m ρ c main_arg2 (by decide)).trans <|
    (W4_of_ne m ρ c main_arg2 (by decide)).trans <| (W3_of m ρ c main_arg2 (by decide)).trans <|
    (W2_of_ne m ρ c main_arg2 (by decide)).trans <| (W1_of m ρ c main_arg2 (by decide)).trans rfl

theorem W13_main_arg3 (c : Dev nD) : W13 m ρ c (Proc.devRef .tc main_arg3) = m ((c : Thread nD τ).loc main_arg3) :=
  (W13_of m ρ c main_arg3 (by decide)).trans <|
    (W12_of_ne m ρ c main_arg3 (by decide)).trans <| (W11_of m ρ c main_arg3 (by decide)).trans <|
    (W10_of_ne m ρ c main_arg3 (by decide)).trans <| (W9_of m ρ c main_arg3 (by decide)).trans <|
    (W8_of_ne m ρ c main_arg3 (by decide)).trans <| (W7_of m ρ c main_arg3 (by decide)).trans <|
    (W6_of_ne m ρ c main_arg3 (by decide)).trans <| (W5_of m ρ c main_arg3 (by decide)).trans <|
    (W4_of_ne m ρ c main_arg3 (by decide)).trans <| (W3_of m ρ c main_arg3 (by decide)).trans <|
    (W2_of_ne m ρ c main_arg3 (by decide)).trans <| (W1_of m ρ c main_arg3 (by decide)).trans rfl

theorem W13_main_arg4 (c : Dev nD) : W13 m ρ c (Proc.devRef .tc main_arg4) = m ((c : Thread nD τ).loc main_arg4) :=
  (W13_of m ρ c main_arg4 (by decide)).trans <|
    (W12_of_ne m ρ c main_arg4 (by decide)).trans <| (W11_of m ρ c main_arg4 (by decide)).trans <|
    (W10_of_ne m ρ c main_arg4 (by decide)).trans <| (W9_of m ρ c main_arg4 (by decide)).trans <|
    (W8_of_ne m ρ c main_arg4 (by decide)).trans <| (W7_of m ρ c main_arg4 (by decide)).trans <|
    (W6_of_ne m ρ c main_arg4 (by decide)).trans <| (W5_of m ρ c main_arg4 (by decide)).trans <|
    (W4_of_ne m ρ c main_arg4 (by decide)).trans <| (W3_of m ρ c main_arg4 (by decide)).trans <|
    (W2_of_ne m ρ c main_arg4 (by decide)).trans <| (W1_of m ρ c main_arg4 (by decide)).trans rfl

theorem W13_main_arg5 (c : Dev nD) : W13 m ρ c (Proc.devRef .tc main_arg5) = m ((c : Thread nD τ).loc main_arg5) :=
  (W13_of m ρ c main_arg5 (by decide)).trans <|
    (W12_of_ne m ρ c main_arg5 (by decide)).trans <| (W11_of m ρ c main_arg5 (by decide)).trans <|
    (W10_of_ne m ρ c main_arg5 (by decide)).trans <| (W9_of m ρ c main_arg5 (by decide)).trans <|
    (W8_of_ne m ρ c main_arg5 (by decide)).trans <| (W7_of m ρ c main_arg5 (by decide)).trans <|
    (W6_of_ne m ρ c main_arg5 (by decide)).trans <| (W5_of m ρ c main_arg5 (by decide)).trans <|
    (W4_of_ne m ρ c main_arg5 (by decide)).trans <| (W3_of m ρ c main_arg5 (by decide)).trans <|
    (W2_of_ne m ρ c main_arg5 (by decide)).trans <| (W1_of m ρ c main_arg5 (by decide)).trans rfl

theorem W13_main_arg6 (c : Dev nD) : W13 m ρ c (Proc.devRef .tc main_arg6) = m ((c : Thread nD τ).loc main_arg6) :=
  (W13_of m ρ c main_arg6 (by decide)).trans <|
    (W12_of_ne m ρ c main_arg6 (by decide)).trans <| (W11_of m ρ c main_arg6 (by decide)).trans <|
    (W10_of_ne m ρ c main_arg6 (by decide)).trans <| (W9_of m ρ c main_arg6 (by decide)).trans <|
    (W8_of_ne m ρ c main_arg6 (by decide)).trans <| (W7_of m ρ c main_arg6 (by decide)).trans <|
    (W6_of_ne m ρ c main_arg6 (by decide)).trans <| (W5_of m ρ c main_arg6 (by decide)).trans <|
    (W4_of_ne m ρ c main_arg6 (by decide)).trans <| (W3_of m ρ c main_arg6 (by decide)).trans <|
    (W2_of_ne m ρ c main_arg6 (by decide)).trans <| (W1_of m ρ c main_arg6 (by decide)).trans rfl

theorem W13_main_arg7 (c : Dev nD) : W13 m ρ c (Proc.devRef .tc main_arg7) = m ((c : Thread nD τ).loc main_arg7) :=
  (W13_of m ρ c main_arg7 (by decide)).trans <|
    (W12_of_ne m ρ c main_arg7 (by decide)).trans <| (W11_of m ρ c main_arg7 (by decide)).trans <|
    (W10_of_ne m ρ c main_arg7 (by decide)).trans <| (W9_of m ρ c main_arg7 (by decide)).trans <|
    (W8_of_ne m ρ c main_arg7 (by decide)).trans <| (W7_of m ρ c main_arg7 (by decide)).trans <|
    (W6_of_ne m ρ c main_arg7 (by decide)).trans <| (W5_of m ρ c main_arg7 (by decide)).trans <|
    (W4_of_ne m ρ c main_arg7 (by decide)).trans <| (W3_of m ρ c main_arg7 (by decide)).trans <|
    (W2_of_ne m ρ c main_arg7 (by decide)).trans <| (W1_of m ρ c main_arg7 (by decide)).trans rfl

theorem W13_main_arg8 (c : Dev nD) : W13 m ρ c (Proc.devRef .tc main_arg8) = m ((c : Thread nD τ).loc main_arg8) :=
  (W13_of m ρ c main_arg8 (by decide)).trans <|
    (W12_of_ne m ρ c main_arg8 (by decide)).trans <| (W11_of m ρ c main_arg8 (by decide)).trans <|
    (W10_of_ne m ρ c main_arg8 (by decide)).trans <| (W9_of m ρ c main_arg8 (by decide)).trans <|
    (W8_of_ne m ρ c main_arg8 (by decide)).trans <| (W7_of m ρ c main_arg8 (by decide)).trans <|
    (W6_of_ne m ρ c main_arg8 (by decide)).trans <| (W5_of m ρ c main_arg8 (by decide)).trans <|
    (W4_of_ne m ρ c main_arg8 (by decide)).trans <| (W3_of m ρ c main_arg8 (by decide)).trans <|
    (W2_of_ne m ρ c main_arg8 (by decide)).trans <| (W1_of m ρ c main_arg8 (by decide)).trans rfl

theorem W13_main_arg9 (c : Dev nD) : W13 m ρ c (Proc.devRef .tc main_arg9) = m ((c : Thread nD τ).loc main_arg9) :=
  (W13_of m ρ c main_arg9 (by decide)).trans <|
    (W12_of_ne m ρ c main_arg9 (by decide)).trans <| (W11_of m ρ c main_arg9 (by decide)).trans <|
    (W10_of_ne m ρ c main_arg9 (by decide)).trans <| (W9_of m ρ c main_arg9 (by decide)).trans <|
    (W8_of_ne m ρ c main_arg9 (by decide)).trans <| (W7_of m ρ c main_arg9 (by decide)).trans <|
    (W6_of_ne m ρ c main_arg9 (by decide)).trans <| (W5_of m ρ c main_arg9 (by decide)).trans <|
    (W4_of_ne m ρ c main_arg9 (by decide)).trans <| (W3_of m ρ c main_arg9 (by decide)).trans <|
    (W2_of_ne m ρ c main_arg9 (by decide)).trans <| (W1_of m ρ c main_arg9 (by decide)).trans rfl

theorem W13_main_arg10 (c : Dev nD) : W13 m ρ c (Proc.devRef .tc main_arg10) = m ((c : Thread nD τ).loc main_arg10) :=
  (W13_of m ρ c main_arg10 (by decide)).trans <|
    (W12_of_ne m ρ c main_arg10 (by decide)).trans <| (W11_of m ρ c main_arg10 (by decide)).trans <|
    (W10_of_ne m ρ c main_arg10 (by decide)).trans <| (W9_of m ρ c main_arg10 (by decide)).trans <|
    (W8_of_ne m ρ c main_arg10 (by decide)).trans <| (W7_of m ρ c main_arg10 (by decide)).trans <|
    (W6_of_ne m ρ c main_arg10 (by decide)).trans <| (W5_of m ρ c main_arg10 (by decide)).trans <|
    (W4_of_ne m ρ c main_arg10 (by decide)).trans <| (W3_of m ρ c main_arg10 (by decide)).trans <|
    (W2_of_ne m ρ c main_arg10 (by decide)).trans <| (W1_of m ρ c main_arg10 (by decide)).trans rfl

/-! ## The proof data family and the thread state -/

abbrev adm : (p : Fin 6) → (pcfgs (F := F) p).Adm := fun p => (cfgs p).toPCfg_adm
/-- Every pipeline's proof data, each at its region's entry contents. -/
def pdats : (p : Fin 6) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the dues: every unscoped buffer at `W13`, the generator register at some state. -/
abbrev Tₙ (c : Dev nD) : sProp 𝕄 := iprop(StableHlo.held (c : Thread nD τ) (Pipeline.ucRefs τ sig) (W13 m ρ c) ∗ ∃ r, prngReg c r)

/-! ## The regions as segments -/

set_option backward.isDefEq.respectTransparency.types false in
/-- Region 0 over the thread state: entered from every unscoped buffer at `W1`, left at `W2`. Its arrays are split
    out of the unscoped buffers and put back at the exit contents; the generator register goes into the kernel's
    invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are split
    out of the unscoped buffers and put back at the exit contents; the generator register goes into the kernel's
    invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. Its arrays are split
    out of the unscoped buffers and put back at the exit contents; the generator register goes into the kernel's
    invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W7`, left at `W8`. Its arrays are split
    out of the unscoped buffers and put back at the exit contents; the generator register goes into the kernel's
    invariant and comes out; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W9`, left at `W10`. Its arrays are split
    out of the unscoped buffers and put back at the exit contents; the generator register goes into the kernel's
    invariant and comes out; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at `W11`, left at `W12`. Its arrays are split
    out of the unscoped buffers and put back at the exit contents; the generator register goes into the kernel's
    invariant and comes out; nothing is owed; the kernel has no semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (V11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V11 m ρ c) (V12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's thirteen segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)) ]

/-- @main is the run of the segments. -/
theorem main_run (c : Dev nD) : main (F := F) c = Pipeline.Seg.run (segs m ρ) := (main_chain c).trans (by chain_rfl)

set_option backward.isDefEq.respectTransparency.types false in
/-- From any memory with zero counters every weakly fair execution of @main on the TensorCores terminates, nothing
    faulting, and every final state holds every unscoped buffer at the fold's last stage `W13`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W13 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W13 m ρ c) ∗ R c) ⊢ _
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_arg0 (by decide))).trans (W13_main_arg0 m ρ c),
    (h c _ (mem_uc main_arg1 (by decide))).trans (W13_main_arg1 m ρ c),
    (h c _ (mem_uc main_arg2 (by decide))).trans (W13_main_arg2 m ρ c),
    (h c _ (mem_uc main_arg3 (by decide))).trans (W13_main_arg3 m ρ c),
    (h c _ (mem_uc main_arg4 (by decide))).trans (W13_main_arg4 m ρ c),
    (h c _ (mem_uc main_arg5 (by decide))).trans (W13_main_arg5 m ρ c),
    (h c _ (mem_uc main_arg6 (by decide))).trans (W13_main_arg6 m ρ c),
    (h c _ (mem_uc main_arg7 (by decide))).trans (W13_main_arg7 m ρ c),
    (h c _ (mem_uc main_arg8 (by decide))).trans (W13_main_arg8 m ρ c),
    (h c _ (mem_uc main_arg9 (by decide))).trans (W13_main_arg9 m ρ c),
    (h c _ (mem_uc main_arg10 (by decide))).trans (W13_main_arg10 m ρ c)⟩) (run_all m ρ)

end Cert.Kernel.Fr

end
-- ==== Proof.FrameIdeal.Common.lean ====
/-
  The rectangles the two kernel bodies load and store through — each is the whole staging buffer of its window —
  and the fact that one whole-buffer store covers the buffer.
-/
import proofs.«142693_j60928406061119_1_alg».proof.Proof.Gen.KernelIdeal.Launch
import proofs.«142693_j60928406061119_1_alg».proof.Proof.Gen.KernelIdeal.Skeleton
import proofs.«142693_j60928406061119_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole 5000 × 128 block of rows. -/
abbrev rA : Rect S5000x128 := Rect.unit (s := S5000x128) ![0, 0] S5000x128.size inb_S5000x128_S5000x128_0_0
/-- A whole 128 × 128 weight matrix. -/
abbrev rB : Rect S128x128 := Rect.unit (s := S128x128) ![0, 0] S128x128.size inb_S128x128_S128x128_0_0
/-- A whole 1 × 128 row vector. -/
abbrev rC : Rect S1x128 := Rect.unit (s := S1x128) ![0, 0] S1x128.size inb_S1x128_S1x128_0_0

/-- One store through the whole block covers the block. -/
theorem coverA (p0 : Vec F S5000x128 .f32) (y : S5000x128.Idx) :
    ∃ pc ∈ ([⟨rA, p0⟩] : List (View.Piece (Elt F) S5000x128 .f32)), y ∈ pc.1.set :=
  View.cover_of_tiled [⟨rA, p0⟩] S5000x128.size (by rfl) y

end Cert.KernelIdeal.Fr

end
-- ==== Proof.FrameIdeal.Region0.lean ====
/-
  Region 0 of the program: the two-layer perceptron kernel on a grid of ten blocks of 5000 rows. Stated at a parameter `V`,
  the buffers' contents when the region is entered: each window's block at a grid point, what the body leaves in
  each output window's staging buffer (one whole-block store of the body's arithmetic on the blocks it loaded),
  the body's triple, the pipeline's proof data and the body obligation at every point.
-/
import proofs.«142693_j60928406061119_1_alg».proof.Proof.FrameIdeal.Common

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- What the body leaves in output window 5's staging buffer, from the input windows' blocks: its one store through
    the whole block, of the body's arithmetic on the blocks it loaded. -/
def out0_5 (x0 : Vec F S5000x128 .f32) (x1 : Vec F S128x128 .f32) (x2 : Vec F S1x128 .f32) (x3 : Vec F S128x128 .f32) (x4 : Vec F S1x128 .f32) : Vec F S5000x128 .f32 :=
  View.canon [⟨rA, k0_pay1 (View.ld x0 rA) (View.ld x1 rB) (View.ld x2 rC) (View.ld x3 rB) (View.ld x4 rC)⟩]

set_option maxHeartbeats 4000000 in
/-- The body on whole staging buffers, the inputs' at contents `xW` and the outputs' at anything, runs to the end
    leaving the inputs' as they were and each output's at `out0_W` of the inputs'. -/
theorem sound_kernel0 (c : Dev nD) (E : Set ℕ) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole)
    (x0 : Vec F S5000x128 .f32) (x1 : Vec F S128x128 .f32) (x2 : Vec F S1x128 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4)) -∗ K ⟨⟩))
      ⊢ wp frame (wpE (defs₀ (F := F)) Variants.none c none) E (cc0__mlp_kernel i arg1 harg1 arg2 harg2 arg3 harg3 arg4 harg4 arg5 harg5 arg6 harg6) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (coverA _)

/-- The proof data of pipeline 0 on core `c`: the arrays as the region finds them; after the body at point `t` each
    input's buffer at its block and each output's at `out0_W` of the input blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.FrameIdeal.Region1.lean ====
/-
  Region 1 of the program: the normalisation and projection kernel on a grid of ten blocks of 5000 rows. Stated at a parameter `V`,
  the buffers' contents when the region is entered: each window's block at a grid point, what the body leaves in
  each output window's staging buffer (one whole-block store of the body's arithmetic on the blocks it loaded),
  the body's triple, the pipeline's proof data and the body obligation at every point.
-/
import proofs.«142693_j60928406061119_1_alg».proof.Proof.FrameIdeal.Common

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's staging buffer holds its block at every point, fetched there or not. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's staging buffer holds its block at every point, fetched there or not. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- What the body leaves in output window 8's staging buffer, from the input windows' blocks: its one store through
    the whole block, of the body's arithmetic on the blocks it loaded. -/
def out1_8 (x0 : Vec F S5000x128 .f32) (x1 : Vec F S1x128 .f32) (x2 : Vec F S1x128 .f32) (x3 : Vec F S1x128 .f32) (x4 : Vec F S1x128 .f32) (x5 : Vec F S5000x128 .f32) (x6 : Vec F S128x128 .f32) (x7 : Vec F S1x128 .f32) : Vec F S5000x128 .f32 :=
  View.canon [⟨rA, k1_pay1 (View.ld x0 rA) (View.ld x2 rC) (View.ld x3 rC) (View.ld x1 rC) (View.ld x4 rC) (View.ld x5 rA)⟩]

/-- What the body leaves in output window 9's staging buffer, from the input windows' blocks: its one store through
    the whole block, of the body's arithmetic on the blocks it loaded. -/
def out1_9 (x0 : Vec F S5000x128 .f32) (x1 : Vec F S1x128 .f32) (x2 : Vec F S1x128 .f32) (x3 : Vec F S1x128 .f32) (x4 : Vec F S1x128 .f32) (x5 : Vec F S5000x128 .f32) (x6 : Vec F S128x128 .f32) (x7 : Vec F S1x128 .f32) : Vec F S5000x128 .f32 :=
  View.canon [⟨rA, k1_pay2 (View.ld x0 rA) (View.ld x2 rC) (View.ld x3 rC) (View.ld x1 rC) (View.ld x4 rC) (View.ld x5 rA) (View.ld x6 rB) (View.ld x7 rC)⟩]

set_option maxHeartbeats 4000000 in
/-- The body on whole staging buffers, the inputs' at contents `xW` and the outputs' at anything, runs to the end
    leaving the inputs' as they were and each output's at `out1_W` of the inputs'. -/
theorem sound_kernel1 (c : Dev nD) (E : Set ℕ) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S5000x128 .f32) (harg9 : arg9.IsWhole) (arg10 : Memref sig .tc .vmem S5000x128 .f32) (harg10 : arg10.IsWhole)
    (x0 : Vec F S5000x128 .f32) (x1 : Vec F S1x128 .f32) (x2 : Vec F S1x128 .f32) (x3 : Vec F S1x128 .f32) (x4 : Vec F S1x128 .f32) (x5 : Vec F S5000x128 .f32) (x6 : Vec F S128x128 .f32) (x7 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out1_8 x0 x1 x2 x3 x4 x5 x6 x7) ∗ owns (c : Thread nD τ) arg10 fullShare (out1_9 x0 x1 x2 x3 x4 x5 x6 x7)) -∗ K ⟨⟩))
      ⊢ wp frame (wpE (defs₀ (F := F)) Variants.none c none) E (cc1__bn_kernel i arg1 harg1 arg2 harg2 arg3 harg3 arg4 harg4 arg5 harg5 arg6 harg6 arg7 harg7 arg8 harg8 arg9 harg9 arg10 harg10) K := by
  simp only [cc1__bn_kernel_eq_skeleton]; unfold cc1__bn_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0; subst hf1; subst hf2; subst hf3; subst hf4; subst hf5; subst hf6; subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (coverA _)
  iexists _; isplitr
  swap; · iexact H9
  ipureintro
  exact View.read_writes_eq_canon _ _ _ (coverA _)

/-- The proof data of pipeline 1 on core `c`: the arrays as the region finds them; after the body at point `t` each
    input's buffer at its block and each output's at `out1_W` of the input blocks; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 (iblk1 V c 0 t) (iblk1 V c 1 t) (iblk1 V c 2 t) (iblk1 V c 3 t) (iblk1 V c 4 t) (iblk1 V c 5 t) (iblk1 V c 6 t) (iblk1 V c 7 t)
    | ⟨9, _⟩ => out1_9 (iblk1 V c 0 t) (iblk1 V c 1 t) (iblk1 V c 2 t) (iblk1 V c 3 t) (iblk1 V c 4 t) (iblk1 V c 5 t) (iblk1 V c 6 t) (iblk1 V c 7 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = out1_8 (iblk1 V c 0 t) (iblk1 V c 1 t) (iblk1 V c 2 t) (iblk1 V c 3 t) (iblk1 V c 4 t) (iblk1 V c 5 t) (iblk1 V c 6 t) (iblk1 V c 7 t) := by dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) (iblk1 V c 6 t) (iblk1 V c 7 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

/-- The body at any point: the inputs' buffers hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ (grid1.coords t) _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.FrameIdeal.Region2.lean ====
/-
  Region 2 of the program: the two-layer perceptron kernel on a grid of ten blocks of 5000 rows. Stated at a parameter `V`,
  the buffers' contents when the region is entered: each window's block at a grid point, what the body leaves in
  each output window's staging buffer (one whole-block store of the body's arithmetic on the blocks it loaded),
  the body's triple, the pipeline's proof data and the body obligation at every point.
-/
import proofs.«142693_j60928406061119_1_alg».proof.Proof.FrameIdeal.Common

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's staging buffer holds its block at every point, fetched there or not. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- What the body leaves in output window 5's staging buffer, from the input windows' blocks: its one store through
    the whole block, of the body's arithmetic on the blocks it loaded. -/
def out2_5 (x0 : Vec F S5000x128 .f32) (x1 : Vec F S128x128 .f32) (x2 : Vec F S1x128 .f32) (x3 : Vec F S128x128 .f32) (x4 : Vec F S1x128 .f32) : Vec F S5000x128 .f32 :=
  View.canon [⟨rA, k2_pay1 (View.ld x0 rA) (View.ld x1 rB) (View.ld x2 rC) (View.ld x3 rB) (View.ld x4 rC)⟩]

set_option maxHeartbeats 4000000 in
/-- The body on whole staging buffers, the inputs' at contents `xW` and the outputs' at anything, runs to the end
    leaving the inputs' as they were and each output's at `out2_W` of the inputs'. -/
theorem sound_kernel2 (c : Dev nD) (E : Set ℕ) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole)
    (x0 : Vec F S5000x128 .f32) (x1 : Vec F S128x128 .f32) (x2 : Vec F S1x128 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out2_5 x0 x1 x2 x3 x4)) -∗ K ⟨⟩))
      ⊢ wp frame (wpE (defs₀ (F := F)) Variants.none c none) E (cc2__mlp_kernel i arg1 harg1 arg2 harg2 arg3 harg3 arg4 harg4 arg5 harg5 arg6 harg6) K := by
  simp only [cc2__mlp_kernel_eq_skeleton]; unfold cc2__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (coverA _)

/-- The proof data of pipeline 2 on core `c`: the arrays as the region finds them; after the body at point `t` each
    input's buffer at its block and each output's at `out2_W` of the input blocks; the invariant the scoped rest and the
    generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' buffers hold their blocks, so `sound_kernel2` applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.FrameIdeal.Region3.lean ====
/-
  Region 3 of the program: the normalisation and projection kernel on a grid of ten blocks of 5000 rows. Stated at a parameter `V`,
  the buffers' contents when the region is entered: each window's block at a grid point, what the body leaves in
  each output window's staging buffer (one whole-block store of the body's arithmetic on the blocks it loaded),
  the body's triple, the pipeline's proof data and the body obligation at every point.
-/
import proofs.«142693_j60928406061119_1_alg».proof.Proof.FrameIdeal.Common

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's staging buffer holds its block at every point, fetched there or not. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's staging buffer holds its block at every point, fetched there or not. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's staging buffer holds its block at every point, fetched there or not. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's staging buffer holds its block at every point, fetched there or not. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's staging buffer holds its block at every point, fetched there or not. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- Input window 6's staging buffer holds its block at every point, fetched there or not. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-- Input window 7's staging buffer holds its block at every point, fetched there or not. -/
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)

/-- What the body leaves in output window 8's staging buffer, from the input windows' blocks: its one store through
    the whole block, of the body's arithmetic on the blocks it loaded. -/
def out3_8 (x0 : Vec F S5000x128 .f32) (x1 : Vec F S1x128 .f32) (x2 : Vec F S1x128 .f32) (x3 : Vec F S1x128 .f32) (x4 : Vec F S1x128 .f32) (x5 : Vec F S5000x128 .f32) (x6 : Vec F S128x128 .f32) (x7 : Vec F S1x128 .f32) : Vec F S5000x128 .f32 :=
  View.canon [⟨rA, k3_pay1 (View.ld x0 rA) (View.ld x2 rC) (View.ld x3 rC) (View.ld x1 rC) (View.ld x4 rC) (View.ld x5 rA)⟩]

/-- What the body leaves in output window 9's staging buffer, from the input windows' blocks: its one store through
    the whole block, of the body's arithmetic on the blocks it loaded. -/
def out3_9 (x0 : Vec F S5000x128 .f32) (x1 : Vec F S1x128 .f32) (x2 : Vec F S1x128 .f32) (x3 : Vec F S1x128 .f32) (x4 : Vec F S1x128 .f32) (x5 : Vec F S5000x128 .f32) (x6 : Vec F S128x128 .f32) (x7 : Vec F S1x128 .f32) : Vec F S5000x128 .f32 :=
  View.canon [⟨rA, k3_pay2 (View.ld x0 rA) (View.ld x2 rC) (View.ld x3 rC) (View.ld x1 rC) (View.ld x4 rC) (View.ld x5 rA) (View.ld x6 rB) (View.ld x7 rC)⟩]

set_option maxHeartbeats 4000000 in
/-- The body on whole staging buffers, the inputs' at contents `xW` and the outputs' at anything, runs to the end
    leaving the inputs' as they were and each output's at `out3_W` of the inputs'. -/
theorem sound_kernel3 (c : Dev nD) (E : Set ℕ) (i : grid3.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S5000x128 .f32) (harg9 : arg9.IsWhole) (arg10 : Memref sig .tc .vmem S5000x128 .f32) (harg10 : arg10.IsWhole)
    (x0 : Vec F S5000x128 .f32) (x1 : Vec F S1x128 .f32) (x2 : Vec F S1x128 .f32) (x3 : Vec F S1x128 .f32) (x4 : Vec F S1x128 .f32) (x5 : Vec F S5000x128 .f32) (x6 : Vec F S128x128 .f32) (x7 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out3_8 x0 x1 x2 x3 x4 x5 x6 x7) ∗ owns (c : Thread nD τ) arg10 fullShare (out3_9 x0 x1 x2 x3 x4 x5 x6 x7)) -∗ K ⟨⟩))
      ⊢ wp frame (wpE (defs₀ (F := F)) Variants.none c none) E (cc3__bn_kernel i arg1 harg1 arg2 harg2 arg3 harg3 arg4 harg4 arg5 harg5 arg6 harg6 arg7 harg7 arg8 harg8 arg9 harg9 arg10 harg10) K := by
  simp only [cc3__bn_kernel_eq_skeleton]; unfold cc3__bn_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0; subst hf1; subst hf2; subst hf3; subst hf4; subst hf5; subst hf6; subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (coverA _)
  iexists _; isplitr
  swap; · iexact H9
  ipureintro
  exact View.read_writes_eq_canon _ _ _ (coverA _)

/-- The proof data of pipeline 3 on core `c`: the arrays as the region finds them; after the body at point `t` each
    input's buffer at its block and each output's at `out3_W` of the input blocks; the invariant the scoped rest and the
    generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => out3_8 (iblk3 V c 0 t) (iblk3 V c 1 t) (iblk3 V c 2 t) (iblk3 V c 3 t) (iblk3 V c 4 t) (iblk3 V c 5 t) (iblk3 V c 6 t) (iblk3 V c 7 t)
    | ⟨9, _⟩ => out3_9 (iblk3 V c 0 t) (iblk3 V c 1 t) (iblk3 V c 2 t) (iblk3 V c 3 t) (iblk3 V c 4 t) (iblk3 V c 5 t) (iblk3 V c 6 t) (iblk3 V c 7 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = out3_8 (iblk3 V c 0 t) (iblk3 V c 1 t) (iblk3 V c 2 t) (iblk3 V c 3 t) (iblk3 V c 4 t) (iblk3 V c 5 t) (iblk3 V c 6 t) (iblk3 V c 7 t) := by dsimp only [dat3]
theorem after3_9 (c : Dev nD) (t : Fin cfg3.N) : (dat3 V c).after 9 t = out3_9 (iblk3 V c 0 t) (iblk3 V c 1 t) (iblk3 V c 2 t) (iblk3 V c 3 t) (iblk3 V c 4 t) (iblk3 V c 5 t) (iblk3 V c 6 t) (iblk3 V c 7 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t))

/-- The body at any point: the inputs' buffers hold their blocks, so `sound_kernel3` applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel3 c Set.univ (grid3.coords t) _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Fr

end
-- ==== Proof.FrameIdeal.Region4.lean ====
/-
  Region 4 of the program: the two-layer perceptron kernel on a grid of ten blocks of 5000 rows. Stated at a parameter `V`,
  the buffers' contents when the region is entered: each window's block at a grid point, what the body leaves in
  each output window's staging buffer (one whole-block store of the body's arithmetic on the blocks it loaded),
  the body's triple, the pipeline's proof data and the body obligation at every point.
-/
import proofs.«142693_j60928406061119_1_alg».proof.Proof.FrameIdeal.Common

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's staging buffer holds its block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's staging buffer holds its block at every point, fetched there or not. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's staging buffer holds its block at every point, fetched there or not. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's staging buffer holds its block at every point, fetched there or not. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's staging buffer holds its block at every point, fetched there or not. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- What the body leaves in output window 5's staging buffer, from the input windows' blocks: its one store through
    the whole block, of the body's arithmetic on the blocks it loaded. -/
def out4_5 (x0 : Vec F S5000x128 .f32) (x1 : Vec F S128x128 .f32) (x2 : Vec F S1x128 .f32) (x3 : Vec F S128x128 .f32) (x4 : Vec F S1x128 .f32) : Vec F S5000x128 .f32 :=
  View.canon [⟨rA, k4_pay1 (View.ld x0 rA) (View.ld x1 rB) (View.ld x2 rC) (View.ld x3 rB) (View.ld x4 rC)⟩]

set_option maxHeartbeats 4000000 in
/-- The body on whole staging buffers, the inputs' at contents `xW` and the outputs' at anything, runs to the end
    leaving the inputs' as they were and each output's at `out4_W` of the inputs'. -/
theorem sound_kernel4 (c : Dev nD) (E : Set ℕ) (i : grid4.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole)
    (x0 : Vec F S5000x128 .f32) (x1 : Vec F S128x128 .f32) (x2 : Vec F S1x128 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out4_5 x0 x1 x2 x3 x4)) -∗ K ⟨⟩))
      ⊢ wp frame (wpE (defs₀ (F := F)) Variants.none c none) E (cc4__mlp_kernel i arg1 harg1 arg2 harg2 arg3 harg3 arg4 harg4 arg5 harg5 arg6 harg6) K := by
  simp only [cc4__mlp_kernel_eq_skeleton]; unfold cc4__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (coverA _)

/-- The proof data of pipeline 4 on core `c`: the arrays as the region finds them; after the body at point `t` each
    input's buffer at its block and each output's at `out4_W` of the input blocks; the invariant the scoped rest and the
    generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = out4_5 (iblk4 V c 0 t) (iblk4 V c 1 t) (iblk4 V c 2 t) (iblk4 V c 3 t) (iblk4 V c 4 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

/-- The body at any point: the inputs' buffers hold their blocks, so `sound_kernel4` applies; the invariant and the
    core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ (grid4.coords t) _ _ _ _ _ _ _ _ _ _ _ _ (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Fr

end
-- ==== Proof.FrameIdeal.Region5.lean ====
/-
  Region 5 of the program: the normalisation and projection kernel on a grid of ten blocks of 5000 rows. Stated at a parameter `V`,
  the buffers' contents when the region is entered: each window's block at a grid point, what the body leaves in
  each output window's staging buffer (one whole-block store of the body's arithmetic on the blocks it loaded),
  the body's triple, the pipeline's proof data and the body obligation at every point.
-/
import proofs.«142693_j60928406061119_1_alg».proof.Proof.FrameIdeal.Common

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's staging buffer holds its block at every point, fetched there or not. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's staging buffer holds its block at every point, fetched there or not. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's staging buffer holds its block at every point, fetched there or not. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's staging buffer holds its block at every point, fetched there or not. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's staging buffer holds its block at every point, fetched there or not. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- Input window 5's staging buffer holds its block at every point, fetched there or not. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-- Input window 6's staging buffer holds its block at every point, fetched there or not. -/
theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)

/-- Input window 7's staging buffer holds its block at every point, fetched there or not. -/
theorem before5_7_of {c : Dev nD} (dat : Dat τ (Elt F) Unit ℕ (UR sig nD τ) ℕ cfg5 c) (hA : dat.A 7 = V c (Pipeline.arrRef spec5 7))
    (hafter : ∀ t, dat.after 7 t = iblk5 V c 7 t) (t : Fin cfg5.N) (d) : dat.before 7 t d = iblk5 V c 7 t :=
  (dat.before_in_eq_fetched 7 rfl (fun _ => rfl) (fun _ _ _ => rfl) (fun t => by rw [hafter]; unfold Dat.blockOf iblk5; rw [hA]; try rfl) t d).trans
    (by unfold Dat.fetched Dat.blockOf iblk5; rw [hA]; try rfl)

/-- What the body leaves in output window 8's staging buffer, from the input windows' blocks: its one store through
    the whole block, of the body's arithmetic on the blocks it loaded. -/
def out5_8 (x0 : Vec F S5000x128 .f32) (x1 : Vec F S1x128 .f32) (x2 : Vec F S1x128 .f32) (x3 : Vec F S1x128 .f32) (x4 : Vec F S1x128 .f32) (x5 : Vec F S5000x128 .f32) (x6 : Vec F S128x128 .f32) (x7 : Vec F S1x128 .f32) : Vec F S5000x128 .f32 :=
  View.canon [⟨rA, k5_pay1 (View.ld x0 rA) (View.ld x2 rC) (View.ld x3 rC) (View.ld x1 rC) (View.ld x4 rC) (View.ld x5 rA)⟩]

/-- What the body leaves in output window 9's staging buffer, from the input windows' blocks: its one store through
    the whole block, of the body's arithmetic on the blocks it loaded. -/
def out5_9 (x0 : Vec F S5000x128 .f32) (x1 : Vec F S1x128 .f32) (x2 : Vec F S1x128 .f32) (x3 : Vec F S1x128 .f32) (x4 : Vec F S1x128 .f32) (x5 : Vec F S5000x128 .f32) (x6 : Vec F S128x128 .f32) (x7 : Vec F S1x128 .f32) : Vec F S5000x128 .f32 :=
  View.canon [⟨rA, k5_pay2 (View.ld x0 rA) (View.ld x2 rC) (View.ld x3 rC) (View.ld x1 rC) (View.ld x4 rC) (View.ld x5 rA) (View.ld x6 rB) (View.ld x7 rC)⟩]

set_option maxHeartbeats 4000000 in
/-- The body on whole staging buffers, the inputs' at contents `xW` and the outputs' at anything, runs to the end
    leaving the inputs' as they were and each output's at `out5_W` of the inputs'. -/
theorem sound_kernel5 (c : Dev nD) (E : Set ℕ) (i : grid5.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S5000x128 .f32) (harg9 : arg9.IsWhole) (arg10 : Memref sig .tc .vmem S5000x128 .f32) (harg10 : arg10.IsWhole)
    (x0 : Vec F S5000x128 .f32) (x1 : Vec F S1x128 .f32) (x2 : Vec F S1x128 .f32) (x3 : Vec F S1x128 .f32) (x4 : Vec F S1x128 .f32) (x5 : Vec F S5000x128 .f32) (x6 : Vec F S128x128 .f32) (x7 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out5_8 x0 x1 x2 x3 x4 x5 x6 x7) ∗ owns (c : Thread nD τ) arg10 fullShare (out5_9 x0 x1 x2 x3 x4 x5 x6 x7)) -∗ K ⟨⟩))
      ⊢ wp frame (wpE (defs₀ (F := F)) Variants.none c none) E (cc5__bn_kernel i arg1 harg1 arg2 harg2 arg3 harg3 arg4 harg4 arg5 harg5 arg6 harg6 arg7 harg7 arg8 harg8 arg9 harg9 arg10 harg10) K := by
  simp only [cc5__bn_kernel_eq_skeleton]; unfold cc5__bn_kernel_skel
  simp only [k5_part1_eq_skeleton]; unfold k5_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0; subst hf1; subst hf2; subst hf3; subst hf4; subst hf5; subst hf6; subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (coverA _)
  iexists _; isplitr
  swap; · iexact H9
  ipureintro
  exact View.read_writes_eq_canon _ _ _ (coverA _)

/-- The proof data of pipeline 5 on core `c`: the arrays as the region finds them; after the body at point `t` each
    input's buffer at its block and each output's at `out5_W` of the input blocks; the invariant the scoped rest and the
    generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => iblk5 V c 7 t
    | ⟨8, _⟩ => out5_8 (iblk5 V c 0 t) (iblk5 V c 1 t) (iblk5 V c 2 t) (iblk5 V c 3 t) (iblk5 V c 4 t) (iblk5 V c 5 t) (iblk5 V c 6 t) (iblk5 V c 7 t)
    | ⟨9, _⟩ => out5_9 (iblk5 V c 0 t) (iblk5 V c 1 t) (iblk5 V c 2 t) (iblk5 V c 3 t) (iblk5 V c 4 t) (iblk5 V c 5 t) (iblk5 V c 6 t) (iblk5 V c 7 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = iblk5 V c 7 t := by dsimp only [dat5]
theorem after5_8 (c : Dev nD) (t : Fin cfg5.N) : (dat5 V c).after 8 t = out5_8 (iblk5 V c 0 t) (iblk5 V c 1 t) (iblk5 V c 2 t) (iblk5 V c 3 t) (iblk5 V c 4 t) (iblk5 V c 5 t) (iblk5 V c 6 t) (iblk5 V c 7 t) := by dsimp only [dat5]
theorem after5_9 (c : Dev nD) (t : Fin cfg5.N) : (dat5 V c).after 9 t = out5_9 (iblk5 V c 0 t) (iblk5 V c 1 t) (iblk5 V c 2 t) (iblk5 V c 3 t) (iblk5 V c 4 t) (iblk5 V c 5 t) (iblk5 V c 6 t) (iblk5 V c 7 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d
theorem before5_7 (c : Dev nD) (t : Fin cfg5.N) (d) : (dat5 V c).before 7 t d = iblk5 V c 7 t :=
  before5_7_of V (dat5 V c) (A_eq5 V c 7) (after5_7 V c) t d

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d))
    ∗ (∃ d, owns (c : Thread nD τ) (st5_8 t) fullShare ((dat5 V c).before 8 t d))
    ∗ (∃ d, owns (c : Thread nD τ) (st5_9 t) fullShare ((dat5 V c).before 9 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t)
    ∗ owns (c : Thread nD τ) (st5_8 t) fullShare ((dat5 V c).after 8 t)
    ∗ owns (c : Thread nD τ) (st5_9 t) fullShare ((dat5 V c).after 9 t))

/-- The body at any point: the inputs' buffers hold their blocks, so `sound_kernel5` applies; the invariant and the
    core's dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6, before5_7]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7, after5_8, after5_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel5 c Set.univ (grid5.coords t) _ _ _ _ _ _ _ _ _ _ _ _ _ _ _ _ _ _ _ _ (iblk5 V c 0 t) (iblk5 V c 1 t) (iblk5 V c 2 t) (iblk5 V c 3 t) (iblk5 V c 4 t) (iblk5 V c 5 t) (iblk5 V c 6 t) (iblk5 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Fr

end
-- ==== Proof.FrameIdeal.Run.lean ====
/-
  The run of the whole program: @main as thirteen segments — seven stretches of host operations and six kernel
  regions — from the launch memory to the return. The buffers' contents at every segment boundary are a fold from
  the launch memory: a host stretch applies its operations; a region leaves its input arrays as entered and each
  output array at what its ten write-backs leave. Every weakly fair execution terminates with every unscoped
  buffer at the fold's last stage; no stretch and no region writes an argument, so each argument ends as launched.
-/
import proofs.«142693_j60928406061119_1_alg».proof.Proof.Gen.KernelIdeal.Regions
import proofs.«142693_j60928406061119_1_alg».proof.Proof.FrameIdeal.Region0
import proofs.«142693_j60928406061119_1_alg».proof.Proof.FrameIdeal.Region1
import proofs.«142693_j60928406061119_1_alg».proof.Proof.FrameIdeal.Region2
import proofs.«142693_j60928406061119_1_alg».proof.Proof.FrameIdeal.Region3
import proofs.«142693_j60928406061119_1_alg».proof.Proof.FrameIdeal.Region4
import proofs.«142693_j60928406061119_1_alg».proof.Proof.FrameIdeal.Region5

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

/-- Core `c`'s buffers at launch. -/
abbrev W0 : Dev nD → Valuation τ sig (Elt F) := fun c b => (s₀ m ρ).mem ((c : Dev nD), b)
/-- After host stretch 0 (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- A buffer host stretch 0 does not write holds what it held before the stretch. -/
theorem W1_of (c : Dev nD) (r : Ref sig .tc) (h : r ∉ hostOps0_W) : W1 m ρ c r = W0 m ρ c r :=
  StableHlo.after_of_writes_sub hostOps0 _ hostOps0_writes h

/-- After host stretch 1 (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- A buffer host stretch 1 does not write holds what it held before the stretch. -/
theorem W3_of (c : Dev nD) (r : Ref sig .tc) (h : r ∉ hostOps1_W) : W3 m ρ c r = W2 m ρ c r :=
  StableHlo.after_of_writes_sub hostOps1 _ hostOps1_writes h

/-- After host stretch 2 (region 2's entry). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At region 2's exit: its arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- A buffer host stretch 2 does not write holds what it held before the stretch. -/
theorem W5_of (c : Dev nD) (r : Ref sig .tc) (h : r ∉ hostOps2_W) : W5 m ρ c r = W4 m ρ c r :=
  StableHlo.after_of_writes_sub hostOps2 _ hostOps2_writes h

/-- After host stretch 3 (region 3's entry). -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
/-- At region 3's exit: its arrays at what the pipeline leaves, every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)
/-- A buffer host stretch 3 does not write holds what it held before the stretch. -/
theorem W7_of (c : Dev nD) (r : Ref sig .tc) (h : r ∉ hostOps3_W) : W7 m ρ c r = W6 m ρ c r :=
  StableHlo.after_of_writes_sub hostOps3 _ hostOps3_writes h

/-- After host stretch 4 (region 4's entry). -/
abbrev W9 : Dev nD → Valuation τ sig (Elt F) := fun c => StableHlo.after hostOps4 (W8 m ρ c)
abbrev V9 : (c : Dev nD) → (b : Ref sig .tc) → Buf (Elt F) ((c : Thread nD τ).loc b) := fun c b => W9 m ρ c b
/-- At region 4's exit: its arrays at what the pipeline leaves, every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev V10 : (c : Dev nD) → (b : Ref sig .tc) → Buf (Elt F) ((c : Thread nD τ).loc b) := fun c b => W10 m ρ c b
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)
/-- A buffer host stretch 4 does not write holds what it held before the stretch. -/
theorem W9_of (c : Dev nD) (r : Ref sig .tc) (h : r ∉ hostOps4_W) : W9 m ρ c r = W8 m ρ c r :=
  StableHlo.after_of_writes_sub hostOps4 _ hostOps4_writes h

/-- After host stretch 5 (region 5's entry). -/
abbrev W11 : Dev nD → Valuation τ sig (Elt F) := fun c => StableHlo.after hostOps5 (W10 m ρ c)
abbrev V11 : (c : Dev nD) → (b : Ref sig .tc) → Buf (Elt F) ((c : Thread nD τ).loc b) := fun c b => W11 m ρ c b
/-- At region 5's exit: its arrays at what the pipeline leaves, every other buffer as entered. -/
def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
abbrev V12 : (c : Dev nD) → (b : Ref sig .tc) → Buf (Elt F) ((c : Thread nD τ).loc b) := fun c b => W12 m ρ c b
theorem hF5 (c : Dev nD) (w : Fin cfg5.W) : (dat5 (V11 m ρ) c).arrAt w cfg5.N = V12 m ρ c (Pipeline.arrRef spec5 w) :=
  (W12_arr m ρ c w).symm
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)
/-- A buffer host stretch 5 does not write holds what it held before the stretch. -/
theorem W11_of (c : Dev nD) (r : Ref sig .tc) (h : r ∉ hostOps5_W) : W11 m ρ c r = W10 m ρ c r :=
  StableHlo.after_of_writes_sub hostOps5 _ hostOps5_writes h

/-- After host stretch 6, the concatenation: the program's end. -/
abbrev W13 : Dev nD → Valuation τ sig (Elt F) := fun c => StableHlo.after hostOps6 (W12 m ρ c)
theorem W13_of (c : Dev nD) (r : Ref sig .tc) (h : r ∉ hostOps6_W) : W13 m ρ c r = W12 m ρ c r :=
  StableHlo.after_of_writes_sub hostOps6 _ hostOps6_writes h

/-! ## The arguments end as launched -/

theorem W13_main_arg0 (c : Dev nD) : W13 m ρ c (Proc.devRef .tc main_arg0) = m ((c : Thread nD τ).loc main_arg0) :=
  (W13_of m ρ c main_arg0 (by decide)).trans <|
    (W12_of_ne m ρ c main_arg0 (by decide)).trans <| (W11_of m ρ c main_arg0 (by decide)).trans <|
    (W10_of_ne m ρ c main_arg0 (by decide)).trans <| (W9_of m ρ c main_arg0 (by decide)).trans <|
    (W8_of_ne m ρ c main_arg0 (by decide)).trans <| (W7_of m ρ c main_arg0 (by decide)).trans <|
    (W6_of_ne m ρ c main_arg0 (by decide)).trans <| (W5_of m ρ c main_arg0 (by decide)).trans <|
    (W4_of_ne m ρ c main_arg0 (by decide)).trans <| (W3_of m ρ c main_arg0 (by decide)).trans <|
    (W2_of_ne m ρ c main_arg0 (by decide)).trans <| (W1_of m ρ c main_arg0 (by decide)).trans rfl

theorem W13_main_arg1 (c : Dev nD) : W13 m ρ c (Proc.devRef .tc main_arg1) = m ((c : Thread nD τ).loc main_arg1) :=
  (W13_of m ρ c main_arg1 (by decide)).trans <|
    (W12_of_ne m ρ c main_arg1 (by decide)).trans <| (W11_of m ρ c main_arg1 (by decide)).trans <|
    (W10_of_ne m ρ c main_arg1 (by decide)).trans <| (W9_of m ρ c main_arg1 (by decide)).trans <|
    (W8_of_ne m ρ c main_arg1 (by decide)).trans <| (W7_of m ρ c main_arg1 (by decide)).trans <|
    (W6_of_ne m ρ c main_arg1 (by decide)).trans <| (W5_of m ρ c main_arg1 (by decide)).trans <|
    (W4_of_ne m ρ c main_arg1 (by decide)).trans <| (W3_of m ρ c main_arg1 (by decide)).trans <|
    (W2_of_ne m ρ c main_arg1 (by decide)).trans <| (W1_of m ρ c main_arg1 (by decide)).trans rfl

theorem W13_main_arg2 (c : Dev nD) : W13 m ρ c (Proc.devRef .tc main_arg2) = m ((c : Thread nD τ).loc main_arg2) :=
  (W13_of m ρ c main_arg2 (by decide)).trans <|
    (W12_of_ne m ρ c main_arg2 (by decide)).trans <| (W11_of m ρ c main_arg2 (by decide)).trans <|
    (W10_of_ne m ρ c main_arg2 (by decide)).trans <| (W9_of m ρ c main_arg2 (by decide)).trans <|
    (W8_of_ne m ρ c main_arg2 (by decide)).trans <| (W7_of m ρ c main_arg2 (by decide)).trans <|
    (W6_of_ne m ρ c main_arg2 (by decide)).trans <| (W5_of m ρ c main_arg2 (by decide)).trans <|
    (W4_of_ne m ρ c main_arg2 (by decide)).trans <| (W3_of m ρ c main_arg2 (by decide)).trans <|
    (W2_of_ne m ρ c main_arg2 (by decide)).trans <| (W1_of m ρ c main_arg2 (by decide)).trans rfl

theorem W13_main_arg3 (c : Dev nD) : W13 m ρ c (Proc.devRef .tc main_arg3) = m ((c : Thread nD τ).loc main_arg3) :=
  (W13_of m ρ c main_arg3 (by decide)).trans <|
    (W12_of_ne m ρ c main_arg3 (by decide)).trans <| (W11_of m ρ c main_arg3 (by decide)).trans <|
    (W10_of_ne m ρ c main_arg3 (by decide)).trans <| (W9_of m ρ c main_arg3 (by decide)).trans <|
    (W8_of_ne m ρ c main_arg3 (by decide)).trans <| (W7_of m ρ c main_arg3 (by decide)).trans <|
    (W6_of_ne m ρ c main_arg3 (by decide)).trans <| (W5_of m ρ c main_arg3 (by decide)).trans <|
    (W4_of_ne m ρ c main_arg3 (by decide)).trans <| (W3_of m ρ c main_arg3 (by decide)).trans <|
    (W2_of_ne m ρ c main_arg3 (by decide)).trans <| (W1_of m ρ c main_arg3 (by decide)).trans rfl

theorem W13_main_arg4 (c : Dev nD) : W13 m ρ c (Proc.devRef .tc main_arg4) = m ((c : Thread nD τ).loc main_arg4) :=
  (W13_of m ρ c main_arg4 (by decide)).trans <|
    (W12_of_ne m ρ c main_arg4 (by decide)).trans <| (W11_of m ρ c main_arg4 (by decide)).trans <|
    (W10_of_ne m ρ c main_arg4 (by decide)).trans <| (W9_of m ρ c main_arg4 (by decide)).trans <|
    (W8_of_ne m ρ c main_arg4 (by decide)).trans <| (W7_of m ρ c main_arg4 (by decide)).trans <|
    (W6_of_ne m ρ c main_arg4 (by decide)).trans <| (W5_of m ρ c main_arg4 (by decide)).trans <|
    (W4_of_ne m ρ c main_arg4 (by decide)).trans <| (W3_of m ρ c main_arg4 (by decide)).trans <|
    (W2_of_ne m ρ c main_arg4 (by decide)).trans <| (W1_of m ρ c main_arg4 (by decide)).trans rfl

theorem W13_main_arg5 (c : Dev nD) : W13 m ρ c (Proc.devRef .tc main_arg5) = m ((c : Thread nD τ).loc main_arg5) :=
  (W13_of m ρ c main_arg5 (by decide)).trans <|
    (W12_of_ne m ρ c main_arg5 (by decide)).trans <| (W11_of m ρ c main_arg5 (by decide)).trans <|
    (W10_of_ne m ρ c main_arg5 (by decide)).trans <| (W9_of m ρ c main_arg5 (by decide)).trans <|
    (W8_of_ne m ρ c main_arg5 (by decide)).trans <| (W7_of m ρ c main_arg5 (by decide)).trans <|
    (W6_of_ne m ρ c main_arg5 (by decide)).trans <| (W5_of m ρ c main_arg5 (by decide)).trans <|
    (W4_of_ne m ρ c main_arg5 (by decide)).trans <| (W3_of m ρ c main_arg5 (by decide)).trans <|
    (W2_of_ne m ρ c main_arg5 (by decide)).trans <| (W1_of m ρ c main_arg5 (by decide)).trans rfl

theorem W13_main_arg6 (c : Dev nD) : W13 m ρ c (Proc.devRef .tc main_arg6) = m ((c : Thread nD τ).loc main_arg6) :=
  (W13_of m ρ c main_arg6 (by decide)).trans <|
    (W12_of_ne m ρ c main_arg6 (by decide)).trans <| (W11_of m ρ c main_arg6 (by decide)).trans <|
    (W10_of_ne m ρ c main_arg6 (by decide)).trans <| (W9_of m ρ c main_arg6 (by decide)).trans <|
    (W8_of_ne m ρ c main_arg6 (by decide)).trans <| (W7_of m ρ c main_arg6 (by decide)).trans <|
    (W6_of_ne m ρ c main_arg6 (by decide)).trans <| (W5_of m ρ c main_arg6 (by decide)).trans <|
    (W4_of_ne m ρ c main_arg6 (by decide)).trans <| (W3_of m ρ c main_arg6 (by decide)).trans <|
    (W2_of_ne m ρ c main_arg6 (by decide)).trans <| (W1_of m ρ c main_arg6 (by decide)).trans rfl

theorem W13_main_arg7 (c : Dev nD) : W13 m ρ c (Proc.devRef .tc main_arg7) = m ((c : Thread nD τ).loc main_arg7) :=
  (W13_of m ρ c main_arg7 (by decide)).trans <|
    (W12_of_ne m ρ c main_arg7 (by decide)).trans <| (W11_of m ρ c main_arg7 (by decide)).trans <|
    (W10_of_ne m ρ c main_arg7 (by decide)).trans <| (W9_of m ρ c main_arg7 (by decide)).trans <|
    (W8_of_ne m ρ c main_arg7 (by decide)).trans <| (W7_of m ρ c main_arg7 (by decide)).trans <|
    (W6_of_ne m ρ c main_arg7 (by decide)).trans <| (W5_of m ρ c main_arg7 (by decide)).trans <|
    (W4_of_ne m ρ c main_arg7 (by decide)).trans <| (W3_of m ρ c main_arg7 (by decide)).trans <|
    (W2_of_ne m ρ c main_arg7 (by decide)).trans <| (W1_of m ρ c main_arg7 (by decide)).trans rfl

theorem W13_main_arg8 (c : Dev nD) : W13 m ρ c (Proc.devRef .tc main_arg8) = m ((c : Thread nD τ).loc main_arg8) :=
  (W13_of m ρ c main_arg8 (by decide)).trans <|
    (W12_of_ne m ρ c main_arg8 (by decide)).trans <| (W11_of m ρ c main_arg8 (by decide)).trans <|
    (W10_of_ne m ρ c main_arg8 (by decide)).trans <| (W9_of m ρ c main_arg8 (by decide)).trans <|
    (W8_of_ne m ρ c main_arg8 (by decide)).trans <| (W7_of m ρ c main_arg8 (by decide)).trans <|
    (W6_of_ne m ρ c main_arg8 (by decide)).trans <| (W5_of m ρ c main_arg8 (by decide)).trans <|
    (W4_of_ne m ρ c main_arg8 (by decide)).trans <| (W3_of m ρ c main_arg8 (by decide)).trans <|
    (W2_of_ne m ρ c main_arg8 (by decide)).trans <| (W1_of m ρ c main_arg8 (by decide)).trans rfl

theorem W13_main_arg9 (c : Dev nD) : W13 m ρ c (Proc.devRef .tc main_arg9) = m ((c : Thread nD τ).loc main_arg9) :=
  (W13_of m ρ c main_arg9 (by decide)).trans <|
    (W12_of_ne m ρ c main_arg9 (by decide)).trans <| (W11_of m ρ c main_arg9 (by decide)).trans <|
    (W10_of_ne m ρ c main_arg9 (by decide)).trans <| (W9_of m ρ c main_arg9 (by decide)).trans <|
    (W8_of_ne m ρ c main_arg9 (by decide)).trans <| (W7_of m ρ c main_arg9 (by decide)).trans <|
    (W6_of_ne m ρ c main_arg9 (by decide)).trans <| (W5_of m ρ c main_arg9 (by decide)).trans <|
    (W4_of_ne m ρ c main_arg9 (by decide)).trans <| (W3_of m ρ c main_arg9 (by decide)).trans <|
    (W2_of_ne m ρ c main_arg9 (by decide)).trans <| (W1_of m ρ c main_arg9 (by decide)).trans rfl

theorem W13_main_arg10 (c : Dev nD) : W13 m ρ c (Proc.devRef .tc main_arg10) = m ((c : Thread nD τ).loc main_arg10) :=
  (W13_of m ρ c main_arg10 (by decide)).trans <|
    (W12_of_ne m ρ c main_arg10 (by decide)).trans <| (W11_of m ρ c main_arg10 (by decide)).trans <|
    (W10_of_ne m ρ c main_arg10 (by decide)).trans <| (W9_of m ρ c main_arg10 (by decide)).trans <|
    (W8_of_ne m ρ c main_arg10 (by decide)).trans <| (W7_of m ρ c main_arg10 (by decide)).trans <|
    (W6_of_ne m ρ c main_arg10 (by decide)).trans <| (W5_of m ρ c main_arg10 (by decide)).trans <|
    (W4_of_ne m ρ c main_arg10 (by decide)).trans <| (W3_of m ρ c main_arg10 (by decide)).trans <|
    (W2_of_ne m ρ c main_arg10 (by decide)).trans <| (W1_of m ρ c main_arg10 (by decide)).trans rfl

/-! ## The proof data family and the thread state -/

abbrev adm : (p : Fin 6) → (pcfgs (F := F) p).Adm := fun p => (cfgs p).toPCfg_adm
/-- Every pipeline's proof data, each at its region's entry contents. -/
def pdats : (p : Fin 6) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the dues: every unscoped buffer at `W13`, the generator register at some state. -/
abbrev Tₙ (c : Dev nD) : sProp 𝕄 := iprop(StableHlo.held (c : Thread nD τ) (Pipeline.ucRefs τ sig) (W13 m ρ c) ∗ ∃ r, prngReg c r)

/-! ## The regions as segments -/

set_option backward.isDefEq.respectTransparency.types false in
/-- Region 0 over the thread state: entered from every unscoped buffer at `W1`, left at `W2`. Its arrays are split
    out of the unscoped buffers and put back at the exit contents; the generator register goes into the kernel's
    invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are split
    out of the unscoped buffers and put back at the exit contents; the generator register goes into the kernel's
    invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. Its arrays are split
    out of the unscoped buffers and put back at the exit contents; the generator register goes into the kernel's
    invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W7`, left at `W8`. Its arrays are split
    out of the unscoped buffers and put back at the exit contents; the generator register goes into the kernel's
    invariant and comes out; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W9`, left at `W10`. Its arrays are split
    out of the unscoped buffers and put back at the exit contents; the generator register goes into the kernel's
    invariant and comes out; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at `W11`, left at `W12`. Its arrays are split
    out of the unscoped buffers and put back at the exit contents; the generator register goes into the kernel's
    invariant and comes out; nothing is owed; the kernel has no semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (V11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V11 m ρ c) (V12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's thirteen segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)) ]

/-- @main is the run of the segments. -/
theorem main_run (c : Dev nD) : main (F := F) c = Pipeline.Seg.run (segs m ρ) := (main_chain c).trans (by chain_rfl)

set_option backward.isDefEq.respectTransparency.types false in
/-- From any memory with zero counters every weakly fair execution of @main on the TensorCores terminates, nothing
    faulting, and every final state holds every unscoped buffer at the fold's last stage `W13`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W13 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W13 m ρ c) ∗ R c) ⊢ _
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_arg0 (by decide))).trans (W13_main_arg0 m ρ c),
    (h c _ (mem_uc main_arg1 (by decide))).trans (W13_main_arg1 m ρ c),
    (h c _ (mem_uc main_arg2 (by decide))).trans (W13_main_arg2 m ρ c),
    (h c _ (mem_uc main_arg3 (by decide))).trans (W13_main_arg3 m ρ c),
    (h c _ (mem_uc main_arg4 (by decide))).trans (W13_main_arg4 m ρ c),
    (h c _ (mem_uc main_arg5 (by decide))).trans (W13_main_arg5 m ρ c),
    (h c _ (mem_uc main_arg6 (by decide))).trans (W13_main_arg6 m ρ c),
    (h c _ (mem_uc main_arg7 (by decide))).trans (W13_main_arg7 m ρ c),
    (h c _ (mem_uc main_arg8 (by decide))).trans (W13_main_arg8 m ρ c),
    (h c _ (mem_uc main_arg9 (by decide))).trans (W13_main_arg9 m ρ c),
    (h c _ (mem_uc main_arg10 (by decide))).trans (W13_main_arg10 m ρ c)⟩) (run_all m ρ)

end Cert.KernelIdeal.Fr

end
-- ==== Proof.FrameIdeal.BlocksCommon.lean ====
/-
  What the six regions' block arithmetic shares: the zero offset of a whole-buffer rectangle, and block `t` (5000 rows)
  of an array of 50000 rows as a function of the array.
-/
import proofs.«142693_j60928406061119_1_alg».proof.Proof.FrameIdeal.Common
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

theorem hz : (![0, 0] : Fin 2 → Nat) = fun _ => 0 := funext fun a => by fin_cases a <;> rfl

/-- Rows `5000·t … 5000·t + 4999` of an array of 50000 rows (the row index taken modulo 50000, so that the function is
    total in `t`). -/
def rowsBlk (X : S50000x128.Idx → Elt F .f32) (t : ℕ) : Vec F S5000x128 .f32 := fun j =>
  X (ix2 (⟨(5000 * t + (j 0).val) % 50000, Nat.mod_lt _ (by decide)⟩ : Fin 50000) (⟨(j 1).val, (j 1).isLt⟩ : Fin 128))

end Cert.KernelIdeal.Fr

end
-- ==== Proof.FrameIdeal.Blocks0.lean ====
/-
  Region 0, from blocks to arrays. The grid's ten points each take block `t` (rows 5000·t … 5000·t + 4999) of the
  row-blocked operands and the whole of the others; what a point writes back is the body's arithmetic on those
  blocks; the ten written blocks fill the output array, so after the region the array is one function of the arrays
  the region found.
-/
import proofs.«142693_j60928406061119_1_alg».proof.Proof.FrameIdeal.Region0
import proofs.«142693_j60928406061119_1_alg».proof.Proof.FrameIdeal.BlocksCommon

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

/-- The windows' index maps over the grid: a row-blocked window is at block `(t, 0)`, every other window at `(0, 0)`. -/
theorem idx_facts0 : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = t.val ∧ win0_5.index t (1 : Fin 2) = 0) :=
  (by decide +kernel : ∀ t : Fin grid0.N, _)

/-- Input window 0's block at point `t` is rows `5000·t …` of its array. -/
theorem blk0_0 (c : Dev nD) (t : Fin cfg0.N) (p : Fin 5000) (q : Fin 128) (h : 5000 * t.val + p.val < 50000) :
    iblk0 V c 0 t (ix2 p q) = V c main_v19 (ix2 (⟨5000 * t.val + p.val, h⟩ : Fin 50000) q) := by
  show V c main_v19 (((cfg0.win 0).blk t).view.emb (ix2 p q)) = _
  refine congrArg (V c main_v19) ?_
  obtain ⟨⟨e0a, e0b⟩, ⟨e1a, e1b⟩, ⟨e2a, e2b⟩, ⟨e3a, e3b⟩, ⟨e4a, e4b⟩, ⟨e5a, e5b⟩⟩ := idx_facts0 t
  funext a; apply Fin.ext
  match a with
  | ⟨0, _⟩ => show win0_0.index t (0 : Fin 2) * 5000 + 1 * p.val = 5000 * t.val + p.val; omega
  | ⟨1, _⟩ => show win0_0.index t (1 : Fin 2) * 128 + 1 * q.val = q.val; omega

/-- Input window 1's block at every point is its whole array. -/
theorem blk0_1 (c : Dev nD) (t : Fin cfg0.N) (p : Fin 128) (q : Fin 128) :
    iblk0 V c 1 t (ix2 p q) = V c main_v21 (ix2 p q) := by
  show V c main_v21 (((cfg0.win 1).blk t).view.emb (ix2 p q)) = _
  refine congrArg (V c main_v21) ?_
  obtain ⟨⟨e0a, e0b⟩, ⟨e1a, e1b⟩, ⟨e2a, e2b⟩, ⟨e3a, e3b⟩, ⟨e4a, e4b⟩, ⟨e5a, e5b⟩⟩ := idx_facts0 t
  funext a; apply Fin.ext
  match a with
  | ⟨0, _⟩ => show win0_1.index t (0 : Fin 2) * 128 + 1 * p.val = p.val; omega
  | ⟨1, _⟩ => show win0_1.index t (1 : Fin 2) * 128 + 1 * q.val = q.val; omega

/-- Input window 2's block at every point is its whole array. -/
theorem blk0_2 (c : Dev nD) (t : Fin cfg0.N) (p : Fin 1) (q : Fin 128) :
    iblk0 V c 2 t (ix2 p q) = V c main_v28 (ix2 p q) := by
  show V c main_v28 (((cfg0.win 2).blk t).view.emb (ix2 p q)) = _
  refine congrArg (V c main_v28) ?_
  obtain ⟨⟨e0a, e0b⟩, ⟨e1a, e1b⟩, ⟨e2a, e2b⟩, ⟨e3a, e3b⟩, ⟨e4a, e4b⟩, ⟨e5a, e5b⟩⟩ := idx_facts0 t
  funext a; apply Fin.ext
  match a with
  | ⟨0, _⟩ => show win0_2.index t (0 : Fin 2) * 1 + 1 * p.val = p.val; omega
  | ⟨1, _⟩ => show win0_2.index t (1 : Fin 2) * 128 + 1 * q.val = q.val; omega

/-- Input window 3's block at every point is its whole array. -/
theorem blk0_3 (c : Dev nD) (t : Fin cfg0.N) (p : Fin 128) (q : Fin 128) :
    iblk0 V c 3 t (ix2 p q) = V c main_v25 (ix2 p q) := by
  show V c main_v25 (((cfg0.win 3).blk t).view.emb (ix2 p q)) = _
  refine congrArg (V c main_v25) ?_
  obtain ⟨⟨e0a, e0b⟩, ⟨e1a, e1b⟩, ⟨e2a, e2b⟩, ⟨e3a, e3b⟩, ⟨e4a, e4b⟩, ⟨e5a, e5b⟩⟩ := idx_facts0 t
  funext a; apply Fin.ext
  match a with
  | ⟨0, _⟩ => show win0_3.index t (0 : Fin 2) * 128 + 1 * p.val = p.val; omega
  | ⟨1, _⟩ => show win0_3.index t (1 : Fin 2) * 128 + 1 * q.val = q.val; omega

/-- Input window 4's block at every point is its whole array. -/
theorem blk0_4 (c : Dev nD) (t : Fin cfg0.N) (p : Fin 1) (q : Fin 128) :
    iblk0 V c 4 t (ix2 p q) = V c main_v29 (ix2 p q) := by
  show V c main_v29 (((cfg0.win 4).blk t).view.emb (ix2 p q)) = _
  refine congrArg (V c main_v29) ?_
  obtain ⟨⟨e0a, e0b⟩, ⟨e1a, e1b⟩, ⟨e2a, e2b⟩, ⟨e3a, e3b⟩, ⟨e4a, e4b⟩, ⟨e5a, e5b⟩⟩ := idx_facts0 t
  funext a; apply Fin.ext
  match a with
  | ⟨0, _⟩ => show win0_4.index t (0 : Fin 2) * 1 + 1 * p.val = p.val; omega
  | ⟨1, _⟩ => show win0_4.index t (1 : Fin 2) * 128 + 1 * q.val = q.val; omega

theorem blkfun0_0 (c : Dev nD) (t : Fin cfg0.N) : iblk0 V c 0 t = rowsBlk (V c main_v19) t.val := by
  funext j
  obtain ⟨p, q, rfl⟩ : ∃ (p : Fin 5000) (q : Fin 128), j = ix2 p q := ⟨j 0, j 1, eq_ix2 j⟩
  have ht : t.val < 10 := lt_of_lt_of_eq t.isLt N_0
  have hp : p.val < 5000 := p.isLt
  rw [blk0_0 V c t p q (by omega)]
  show V c main_v19 _ = V c main_v19 _
  refine congrArg (V c main_v19) ?_
  funext a; apply Fin.ext
  match a with
  | ⟨0, _⟩ => show 5000 * t.val + p.val = (5000 * t.val + p.val) % 50000; omega
  | ⟨1, _⟩ => rfl

theorem blkfun0_1 (c : Dev nD) (t : Fin cfg0.N) : iblk0 V c 1 t = V c main_v21 := by
  funext j
  obtain ⟨p, q, rfl⟩ : ∃ (p : Fin 128) (q : Fin 128), j = ix2 p q := ⟨j 0, j 1, eq_ix2 j⟩
  exact blk0_1 V c t p q

theorem blkfun0_2 (c : Dev nD) (t : Fin cfg0.N) : iblk0 V c 2 t = V c main_v28 := by
  funext j
  obtain ⟨p, q, rfl⟩ : ∃ (p : Fin 1) (q : Fin 128), j = ix2 p q := ⟨j 0, j 1, eq_ix2 j⟩
  exact blk0_2 V c t p q

theorem blkfun0_3 (c : Dev nD) (t : Fin cfg0.N) : iblk0 V c 3 t = V c main_v25 := by
  funext j
  obtain ⟨p, q, rfl⟩ : ∃ (p : Fin 128) (q : Fin 128), j = ix2 p q := ⟨j 0, j 1, eq_ix2 j⟩
  exact blk0_3 V c t p q

theorem blkfun0_4 (c : Dev nD) (t : Fin cfg0.N) : iblk0 V c 4 t = V c main_v29 := by
  funext j
  obtain ⟨p, q, rfl⟩ : ∃ (p : Fin 1) (q : Fin 128), j = ix2 p q := ⟨j 0, j 1, eq_ix2 j⟩
  exact blk0_4 V c t p q

/-- The body's one store through the whole block leaves its payload of the loaded blocks. -/
theorem out0_5_eq (x0 : Vec F S5000x128 .f32) (x1 : Vec F S128x128 .f32) (x2 : Vec F S1x128 .f32) (x3 : Vec F S128x128 .f32) (x4 : Vec F S1x128 .f32) : out0_5 x0 x1 x2 x3 x4 = k0_pay1 x0 x1 x2 x3 x4 := by
  unfold out0_5
  rw [View.canon_unit_zero hz]
  simp only [View.ld_unit_zero (S := S5000x128) hz, View.ld_unit_zero (S := S128x128) hz, View.ld_unit_zero (S := S1x128) hz]

/-- What output window 5's array holds after the region, as ONE function of the arrays the region found: at row `r`
    the body's arithmetic on block `r / 5000` of the row-blocked inputs, read at row `r % 5000` of the block. -/
def G0_5 (c : Dev nD) : S50000x128.Idx → Elt F .f32 := fun i =>
  (k0_pay1 (rowsBlk (V c main_v19) ((i 0).val / 5000)) (V c main_v21) (V c main_v28) (V c main_v25) (V c main_v29)) (ix2 (⟨(i 0).val % 5000, Nat.mod_lt _ (by decide)⟩ : Fin 5000) (⟨(i 1).val, (i 1).isLt⟩ : Fin 128))

/-- What point `t` writes back through output window 5 is block `t` of `G0_5`. -/
theorem flushed0_5 (c : Dev nD) (t : Fin cfg0.N) :
    (dat0 V c).flushed 5 t = ((cfg0.win 5).blk t).view.read (Elt F) (G0_5 V c) := by
  show (cfg0.win 5).cut (grid0.coords t) ((dat0 V c).after 5 t) = _
  rw [after0_5, out0_5_eq, blkfun0_0 V c t, blkfun0_1 V c t, blkfun0_2 V c t, blkfun0_3 V c t, blkfun0_4 V c t]
  obtain ⟨⟨e0a, e0b⟩, ⟨e1a, e1b⟩, ⟨e2a, e2b⟩, ⟨e3a, e3b⟩, ⟨e4a, e4b⟩, ⟨e5a, e5b⟩⟩ := idx_facts0 t
  have ht : t.val < 10 := lt_of_lt_of_eq t.isLt N_0
  funext j
  obtain ⟨p, q, rfl⟩ : ∃ (p : Fin 5000) (q : Fin 128), j = ix2 p q := ⟨j 0, j 1, eq_ix2 j⟩
  have hp : p.val < 5000 := p.isLt
  have hemb0 : ((((cfg0.win 5).blk t).view.emb (ix2 p q)) 0).val = 5000 * t.val + p.val := by
    show win0_5.index t (0 : Fin 2) * 5000 + 1 * p.val = _; omega
  have hemb1 : ((((cfg0.win 5).blk t).view.emb (ix2 p q)) 1).val = q.val := by
    show win0_5.index t (1 : Fin 2) * 128 + 1 * q.val = _; omega
  show (k0_pay1 (rowsBlk (V c main_v19) t.val) (V c main_v21) (V c main_v28) (V c main_v25) (V c main_v29)) (ix2 p q) = G0_5 V c (((cfg0.win 5).blk t).view.emb (ix2 p q))
  unfold G0_5
  have hq : (5000 * t.val + p.val) / 5000 = t.val := by omega
  have hr : (5000 * t.val + p.val) % 5000 = p.val := by omega
  simp only [hemb0, hemb1, hq, hr]

/-- The ten blocks fill the array: row `r` is in point `r / 5000`'s block. -/
theorem cover0_5 (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  let t : Fin cfg0.N := ⟨(i 0).val / 5000, by rw [show cfg0.N = grid0.N from rfl, N_0]; omega⟩
  obtain ⟨⟨e0a, e0b⟩, ⟨e1a, e1b⟩, ⟨e2a, e2b⟩, ⟨e3a, e3b⟩, ⟨e4a, e4b⟩, ⟨e5a, e5b⟩⟩ := idx_facts0 t
  refine ⟨t, flush0_5 t, ?_⟩
  show i ∈ ((View.whole main_v30).slice (win0_5.rect t)).set
  rw [View.set_slice_whole, Rect.mem_set_unit]
  intro a
  have htv : t.val = (i 0).val / 5000 := rfl
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- Output window 5's array after the region is `G0_5` of the arrays the region found. -/
theorem final0_5 (c : Dev nD) : (dat0 V c).arrAt 5 cfg0.N = G0_5 V c :=
  (dat0 V c).arrAt_eq_of_cover 5 (G0_5 V c) (fun t _ => flushed0_5 V c t) (cover0_5)

end Cert.KernelIdeal.Fr

end
-- ==== Proof.Spec.lean ====
/-
  The mathematics of one layer, stated once over the extended reals, for both programs to be compared with.
  A layer takes node features `h` (50000 rows of 128), forms `mix = (1 + ε)·h + agg` where `agg` sums the features of
  each node's in-neighbours, and then
    z     = max(mix · W₁ + b₁, 0) · W₂ + b₂                       (a two-layer perceptron, row by row),
    μ, σ² = the mean and the (biased) variance of each column of z over the 50000 rows,
    h'    = max(γ · (z − μ) · (σ² + 1e-5)^(-1/2) + β (+ the previous features, after the first layer), 0),
    out   = h' · Wₗ + bₗ.
  The functions below are these formulas, with the literal words the programs use (zero, 50000 and 1e-5 as f32 words).
-/
import Idealize.ShloMosaic.PureOps.Ideal
import Idealize.ShloMosaic.Lib.ValueIdx
import Idealize.ShloMosaic.PureOps.Ideal.Laws

noncomputable section

namespace Cert.Spec

open Idealize.ShloMosaic
open scoped BigOperators

/-- The f32 word of zero. -/
abbrev zeroW : EReal := Ideal.ofBits .f32 0x00000000#32
/-- The f32 word of 50000, the number of rows. -/
abbrev rowsW : EReal := Ideal.ofBits .f32 0x47435000#32
/-- The f32 word nearest 1e-5, the variance's offset. -/
abbrev epsW : EReal := Ideal.ofBits .f32 0x3727C5AC#32

/-- A matrix of 50000 rows of 128 features. -/
abbrev Rows : Type := Fin 50000 → Fin 128 → EReal
/-- A 128 × 128 weight matrix. -/
abbrev Sq : Type := Fin 128 → Fin 128 → EReal
/-- A vector of 128 features. -/
abbrev Row : Type := Fin 128 → EReal

/-- The perceptron: `max(mix · W₁ + b₁, 0) · W₂ + b₂` at row `r`, column `q`. -/
def zOf (mix : Rows) (w1 : Sq) (b1 : Row) (w2 : Sq) (b2 : Row) (r : Fin 50000) (q : Fin 128) : EReal :=
  (∑ k : Fin 128, max ((∑ j : Fin 128, mix r j * w1 j k) + b1 k) zeroW * w2 k q) + b2 q

/-- The mean of column `q` over the rows: the sum from zero, divided by 50000. -/
def muOf (z : Rows) (q : Fin 128) : EReal :=
  Ideal.div (zeroW + ∑ r : Fin 50000, z r q) rowsW

/-- The biased variance of column `q`: the mean of the squared distance to the column's mean. -/
def varOf (z : Rows) (q : Fin 128) : EReal :=
  Ideal.div (zeroW + ∑ r : Fin 50000, (z r q - muOf z q) * (z r q - muOf z q)) rowsW

/-- The normalised entry `γ · (z − μ) · (σ² + 1e-5)^(-1/2) + β`. -/
def normOf (z : Rows) (gamma beta : Row) (r : Fin 50000) (q : Fin 128) : EReal :=
  gamma q * (z r q - muOf z q) * Ideal.rsqrt (varOf z q + epsW) + beta q

/-- The first layer's new features: the normalised entry clamped at zero. -/
def hFirst (z : Rows) (gamma beta : Row) (r : Fin 50000) (q : Fin 128) : EReal :=
  max (normOf z gamma beta r q) zeroW

/-- A later layer's new features: the normalised entry plus the previous features, clamped at zero. -/
def hNext (z : Rows) (gamma beta : Row) (res : Rows) (r : Fin 50000) (q : Fin 128) : EReal :=
  max (normOf z gamma beta r q + res r q) zeroW

/-- Adding the zero word changes nothing on the extended reals, so a first layer run as a later layer over a zero
    residual is the first layer. -/
theorem hNext_zero (z : Rows) (gamma beta : Row) : hNext z gamma beta (fun _ _ => zeroW) = hFirst z gamma beta := by
  funext r q
  simp only [hNext, hFirst, zeroW, Ideal.ofBits_zero_f32, add_zero]

/-- The output projection `h · Wₗ + bₗ`. -/
def outOf (h : Rows) (wl : Sq) (bl : Row) (r : Fin 50000) (q : Fin 128) : EReal :=
  (∑ k : Fin 128, h r k * wl k q) + bl q

end Cert.Spec

end
-- ==== Proof.FrameIdeal.StageCommon.lean ====
/-
  Block `r / 5000` of an array of 50000 rows, read at row `r % 5000` of the block, is row `r` of the array.
-/
import proofs.«142693_j60928406061119_1_alg».proof.Proof.FrameIdeal.BlocksCommon
import proofs.«142693_j60928406061119_1_alg».proof.Proof.Spec

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.SL Idealize.SL.Sem
open scoped BigOperators

theorem rowsBlk_apply (X : S50000x128.Idx → Elt Ideal .f32) (r : Fin 50000) (j : Fin 128) :
    rowsBlk (F := Ideal) X (r.val / 5000) (ix2 (⟨r.val % 5000, Nat.mod_lt _ (by decide)⟩ : Fin 5000) j) = X (ix2 r j) := by
  unfold rowsBlk
  refine congrArg X ?_
  funext a; apply Fin.ext
  match a with
  | ⟨0, _⟩ => show (5000 * (r.val / 5000) + r.val % 5000) % 50000 = r.val; have := r.isLt; omega
  | ⟨1, _⟩ => rfl

end Cert.KernelIdeal.Fr

end
-- ==== Proof.KPay.lean ====
/-
  The arithmetic of the two kernel bodies, read at one entry of a block of 5000 rows of 128 features.

  The perceptron body stores, at row p and column q of its block,
      (∑ₖ max((∑ⱼ x[p,j]·W₁[j,k]) + b₁[k], 0) · W₂[k,q]) + b₂[q];
  the normalisation body stores two blocks: the new features
      h'[p,q] = max(γ[q]·(z[p,q] − μ[q])·(σ²[q] + 1e-5)^(-1/2) + β[q] + res[p,q], 0)
  and their projection (∑ₖ h'[p,k]·Wₗ[k,q]) + bₗ[q].
  On the extended reals a change of float format is the identity, a matrix product accumulated into the zero matrix is
  the sum of the operands' products over the one contracted axis, and a row of 128 entries broadcast over 5000 rows reads
  that row at the entry's column; the rest of each body is entry by entry.
-/
import proofs.«142693_j60928406061119_1_alg».proof.Proof.Gen.KernelIdeal.Skeleton
import proofs.«142693_j60928406061119_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.KPay

open Cert.KernelIdeal Cert.KernelIdeal.Gen Idealize.ShloMosaic Idealize.ShloMosaic.ValueIdx
open scoped BigOperators

/-- The product's left operand index at output index i and contraction index c keeps i's row. -/
theorem mm_lhs0 (i : S5000x128.Idx) (c : dot_S5000x128_S128x128_S5000x128_1_0_0_1_n_n.contr.Idx) :
    (dot_S5000x128_S128x128_S5000x128_1_0_0_1_n_n.lhsIdx i c 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
/-- … and its column is the contraction's one coordinate. -/
theorem mm_lhs1 (i : S5000x128.Idx) (c : dot_S5000x128_S128x128_S5000x128_1_0_0_1_n_n.contr.Idx) :
    (dot_S5000x128_S128x128_S5000x128_1_0_0_1_n_n.lhsIdx i c 1).val = (c ⟨0, by decide⟩).val :=
  dot_S5000x128_S128x128_S5000x128_1_0_0_1_n_n.lhsIdx_val_of_single rfl i c
/-- The right operand index's row is the contraction's one coordinate … -/
theorem mm_rhs0 (i : S5000x128.Idx) (c : dot_S5000x128_S128x128_S5000x128_1_0_0_1_n_n.contr.Idx) :
    (dot_S5000x128_S128x128_S5000x128_1_0_0_1_n_n.rhsIdx i c 0).val = (c ⟨0, by decide⟩).val :=
  dot_S5000x128_S128x128_S5000x128_1_0_0_1_n_n.rhsIdx_val_of_single rfl i c
/-- … and its column is i's column. -/
theorem mm_rhs1 (i : S5000x128.Idx) (c : dot_S5000x128_S128x128_S5000x128_1_0_0_1_n_n.contr.Idx) :
    (dot_S5000x128_S128x128_S5000x128_1_0_0_1_n_n.rhsIdx i c 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- A product of a block of 5000 × 128 with a 128 × 128 matrix, accumulated into the zero block, read at (p, q): the sum
    over the contracted axis k of left[p,k] · right[k,q]. The contraction's index set has one axis of extent 128; the sum
    is re-indexed through that axis's coordinate, and the two operand indices at (p, q) and k are (p, k) and (k, q). -/
theorem mm_apply {φ₁ φ₂ : FTy} (a : FVec Ideal S5000x128 φ₁) (b : FVec Ideal S128x128 φ₂) (p : Fin 5000) (q : Fin 128) :
    matmul dot_S5000x128_S128x128_S5000x128_1_0_0_1_n_n none a b (constant (F := Ideal) S5000x128 .f32 0x00000000#32) (ix2 p q)
      = ∑ k : Fin 128, a (ix2 p k) * b (ix2 k q) := by
  simp only [matmul]
  rw [Ideal.matmul_constant_zero_apply,
    ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q)
      ((contrEquiv1 dot_S5000x128_S128x128_S5000x128_1_0_0_1_n_n 128 rfl rfl).symm k) = ix2 p k :=
    funext fun ax => Fin.ext (by
      match ax with
      | ⟨0, _⟩ => exact mm_lhs0 _ _
      | ⟨1, _⟩ => exact (mm_lhs1 _ _).trans hk)
  have er : dot_S5000x128_S128x128_S5000x128_1_0_0_1_n_n.rhsIdx (ix2 p q)
      ((contrEquiv1 dot_S5000x128_S128x128_S5000x128_1_0_0_1_n_n 128 rfl rfl).symm k) = ix2 k q :=
    funext fun ax => Fin.ext (by
      match ax with
      | ⟨0, _⟩ => exact (mm_rhs0 _ _).trans hk
      | ⟨1, _⟩ => exact mm_rhs1 _ _)
  rw [el, er]

/-- A row of 128 entries broadcast over the 5000 rows of a block reads, at (p, q), the row's entry q. -/
theorem row_apply (v : Vec Ideal S1x128 .f32) (h : S1x128.Broadcasts S5000x128) (p : Fin 5000) (q : Fin 128) :
    broadcastTo S5000x128 v h (ix2 p q) = v (ix2 0 q) :=
  broadcastTo_1b_ab_apply v h p q

/-- The perceptron body of layer 0 at (p, q): both matrix products are sums over the contracted axis, the two biases are
    rows read at the column, and the clamp is the maximum with the zero word. -/
theorem mlp0 (x : Vec Ideal S5000x128 .f32) (w1 : Vec Ideal S128x128 .f32) (b1 : Vec Ideal S1x128 .f32)
    (w2 : Vec Ideal S128x128 .f32) (b2 : Vec Ideal S1x128 .f32) (p : Fin 5000) (q : Fin 128) :
    k0_pay1 (F := Ideal) x w1 b1 w2 b2 (ix2 p q)
      = (∑ k : Fin 128, max ((∑ j : Fin 128, x (ix2 p j) * w1 (ix2 j k)) + b1 (ix2 0 k)) Cert.Spec.zeroW * w2 (ix2 k q))
          + b2 (ix2 0 q) := by
  unfold k0_pay1
  simp only [shapeCast_self]
  rw [addf_apply, mm_apply, row_apply]
  refine congrArg (· + b2 (ix2 0 q)) (Finset.sum_congr rfl fun k _ => ?_)
  rw [truncf_apply, truncf_apply, maximumf_apply, addf_apply, mm_apply, row_apply, broadcast_apply]
  rfl

/-- The normalisation body's new features of layer 0 at (p, q): the four rows (variance, scale, mean, shift) are read at
    the column, the inverse square root is taken entry by entry of the variance row plus the offset word, and the
    clamp is the maximum with the zero word. -/
theorem bnh1 (z : Vec Ideal S5000x128 .f32) (var gamma mu beta : Vec Ideal S1x128 .f32) (res : Vec Ideal S5000x128 .f32)
    (p : Fin 5000) (q : Fin 128) :
    k1_pay1 (F := Ideal) z var gamma mu beta res (ix2 p q)
      = max (gamma (ix2 0 q) * (z (ix2 p q) - mu (ix2 0 q)) * Ideal.rsqrt (var (ix2 0 q) + Cert.Spec.epsW) + beta (ix2 0 q)
          + res (ix2 p q)) Cert.Spec.zeroW := by
  unfold k1_pay1
  simp only [shapeCast_self]
  rw [maximumf_apply, addf_apply, addf_apply, mulf_apply, mulf_apply, subf_apply, row_apply, row_apply, row_apply, row_apply,
    broadcast_apply]
  rfl

/-- The normalisation body's projection of layer 0 at (p, q): the product of the new features with the 128 × 128 matrix is
    the sum over the contracted axis, and the bias row is read at the column. -/
theorem bno1 (z : Vec Ideal S5000x128 .f32) (var gamma mu beta : Vec Ideal S1x128 .f32) (res : Vec Ideal S5000x128 .f32)
    (wl : Vec Ideal S128x128 .f32) (bl : Vec Ideal S1x128 .f32) (p : Fin 5000) (q : Fin 128) :
    k1_pay2 (F := Ideal) z var gamma mu beta res wl bl (ix2 p q)
      = (∑ k : Fin 128, k1_pay1 (F := Ideal) z var gamma mu beta res (ix2 p k) * wl (ix2 k q)) + bl (ix2 0 q) := by
  unfold k1_pay2
  simp only [shapeCast_self]
  rw [addf_apply, mm_apply, row_apply]
  rfl

/-- The perceptron body of layer 1 at (p, q): both matrix products are sums over the contracted axis, the two biases are
    rows read at the column, and the clamp is the maximum with the zero word. -/
theorem mlp2 (x : Vec Ideal S5000x128 .f32) (w1 : Vec Ideal S128x128 .f32) (b1 : Vec Ideal S1x128 .f32)
    (w2 : Vec Ideal S128x128 .f32) (b2 : Vec Ideal S1x128 .f32) (p : Fin 5000) (q : Fin 128) :
    k2_pay1 (F := Ideal) x w1 b1 w2 b2 (ix2 p q)
      = (∑ k : Fin 128, max ((∑ j : Fin 128, x (ix2 p j) * w1 (ix2 j k)) + b1 (ix2 0 k)) Cert.Spec.zeroW * w2 (ix2 k q))
          + b2 (ix2 0 q) := by
  unfold k2_pay1
  simp only [shapeCast_self]
  rw [addf_apply, mm_apply, row_apply]
  refine congrArg (· + b2 (ix2 0 q)) (Finset.sum_congr rfl fun k _ => ?_)
  rw [truncf_apply, truncf_apply, maximumf_apply, addf_apply, mm_apply, row_apply, broadcast_apply]
  rfl

/-- The normalisation body's new features of layer 1 at (p, q): the four rows (variance, scale, mean, shift) are read at
    the column, the inverse square root is taken entry by entry of the variance row plus the offset word, and the
    clamp is the maximum with the zero word. -/
theorem bnh3 (z : Vec Ideal S5000x128 .f32) (var gamma mu beta : Vec Ideal S1x128 .f32) (res : Vec Ideal S5000x128 .f32)
    (p : Fin 5000) (q : Fin 128) :
    k3_pay1 (F := Ideal) z var gamma mu beta res (ix2 p q)
      = max (gamma (ix2 0 q) * (z (ix2 p q) - mu (ix2 0 q)) * Ideal.rsqrt (var (ix2 0 q) + Cert.Spec.epsW) + beta (ix2 0 q)
          + res (ix2 p q)) Cert.Spec.zeroW := by
  unfold k3_pay1
  simp only [shapeCast_self]
  rw [maximumf_apply, addf_apply, addf_apply, mulf_apply, mulf_apply, subf_apply, row_apply, row_apply, row_apply, row_apply,
    broadcast_apply]
  rfl

/-- The normalisation body's projection of layer 1 at (p, q): the product of the new features with the 128 × 128 matrix is
    the sum over the contracted axis, and the bias row is read at the column. -/
theorem bno3 (z : Vec Ideal S5000x128 .f32) (var gamma mu beta : Vec Ideal S1x128 .f32) (res : Vec Ideal S5000x128 .f32)
    (wl : Vec Ideal S128x128 .f32) (bl : Vec Ideal S1x128 .f32) (p : Fin 5000) (q : Fin 128) :
    k3_pay2 (F := Ideal) z var gamma mu beta res wl bl (ix2 p q)
      = (∑ k : Fin 128, k3_pay1 (F := Ideal) z var gamma mu beta res (ix2 p k) * wl (ix2 k q)) + bl (ix2 0 q) := by
  unfold k3_pay2
  simp only [shapeCast_self]
  rw [addf_apply, mm_apply, row_apply]
  rfl

/-- The perceptron body of layer 2 at (p, q): both matrix products are sums over the contracted axis, the two biases are
    rows read at the column, and the clamp is the maximum with the zero word. -/
theorem mlp4 (x : Vec Ideal S5000x128 .f32) (w1 : Vec Ideal S128x128 .f32) (b1 : Vec Ideal S1x128 .f32)
    (w2 : Vec Ideal S128x128 .f32) (b2 : Vec Ideal S1x128 .f32) (p : Fin 5000) (q : Fin 128) :
    k4_pay1 (F := Ideal) x w1 b1 w2 b2 (ix2 p q)
      = (∑ k : Fin 128, max ((∑ j : Fin 128, x (ix2 p j) * w1 (ix2 j k)) + b1 (ix2 0 k)) Cert.Spec.zeroW * w2 (ix2 k q))
          + b2 (ix2 0 q) := by
  unfold k4_pay1
  simp only [shapeCast_self]
  rw [addf_apply, mm_apply, row_apply]
  refine congrArg (· + b2 (ix2 0 q)) (Finset.sum_congr rfl fun k _ => ?_)
  rw [truncf_apply, truncf_apply, maximumf_apply, addf_apply, mm_apply, row_apply, broadcast_apply]
  rfl

/-- The normalisation body's new features of layer 2 at (p, q): the four rows (variance, scale, mean, shift) are read at
    the column, the inverse square root is taken entry by entry of the variance row plus the offset word, and the
    clamp is the maximum with the zero word. -/
theorem bnh5 (z : Vec Ideal S5000x128 .f32) (var gamma mu beta : Vec Ideal S1x128 .f32) (res : Vec Ideal S5000x128 .f32)
    (p : Fin 5000) (q : Fin 128) :
    k5_pay1 (F := Ideal) z var gamma mu beta res (ix2 p q)
      = max (gamma (ix2 0 q) * (z (ix2 p q) - mu (ix2 0 q)) * Ideal.rsqrt (var (ix2 0 q) + Cert.Spec.epsW) + beta (ix2 0 q)
          + res (ix2 p q)) Cert.Spec.zeroW := by
  unfold k5_pay1
  simp only [shapeCast_self]
  rw [maximumf_apply, addf_apply, addf_apply, mulf_apply, mulf_apply, subf_apply, row_apply, row_apply, row_apply, row_apply,
    broadcast_apply]
  rfl

/-- The normalisation body's projection of layer 2 at (p, q): the product of the new features with the 128 × 128 matrix is
    the sum over the contracted axis, and the bias row is read at the column. -/
theorem bno5 (z : Vec Ideal S5000x128 .f32) (var gamma mu beta : Vec Ideal S1x128 .f32) (res : Vec Ideal S5000x128 .f32)
    (wl : Vec Ideal S128x128 .f32) (bl : Vec Ideal S1x128 .f32) (p : Fin 5000) (q : Fin 128) :
    k5_pay2 (F := Ideal) z var gamma mu beta res wl bl (ix2 p q)
      = (∑ k : Fin 128, k5_pay1 (F := Ideal) z var gamma mu beta res (ix2 p k) * wl (ix2 k q)) + bl (ix2 0 q) := by
  unfold k5_pay2
  simp only [shapeCast_self]
  rw [addf_apply, mm_apply, row_apply]
  rfl

end Cert.KernelIdeal.KPay

end
-- ==== Proof.FrameIdeal.Stage0.lean ====
/-
  Region 0 at the exact instance: the array it leaves, read at row `r` and column `q`, is the layer's formula of the
  arrays it found — the row-blocked operands at row `r`, the whole operands at their own indices.
-/
import proofs.«142693_j60928406061119_1_alg».proof.Proof.FrameIdeal.Blocks0
import proofs.«142693_j60928406061119_1_alg».proof.Proof.FrameIdeal.StageCommon
import proofs.«142693_j60928406061119_1_alg».proof.Proof.KPay

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.SL Idealize.SL.Sem
open scoped BigOperators

variable (V : (c : Dev nD) → (b : Ref sig .tc) → Buf (Elt Ideal) ((c : Thread nD τ).loc b))

/-- The perceptron region's output at `(r, q)`. -/
theorem G0_5_apply (c : Dev nD) (r : Fin 50000) (q : Fin 128) :
    G0_5 (F := Ideal) V c (ix2 r q)
      = Cert.Spec.zOf (fun r j => V c main_v19 (ix2 r j)) (fun j k => V c main_v21 (ix2 j k)) (fun k => V c main_v28 (ix2 0 k))
          (fun j k => V c main_v25 (ix2 j k)) (fun k => V c main_v29 (ix2 0 k)) r q := by
  show (k0_pay1 (F := Ideal) (rowsBlk (V c main_v19) (r.val / 5000)) (V c main_v21) (V c main_v28) (V c main_v25) (V c main_v29))
      (ix2 (⟨r.val % 5000, Nat.mod_lt _ (by decide)⟩ : Fin 5000) q) = _
  rw [Cert.KernelIdeal.KPay.mlp0]
  unfold Cert.Spec.zOf
  simp only [rowsBlk_apply]

end Cert.KernelIdeal.Fr

end
-- ==== Proof.FrameIdeal.Blocks1.lean ====
/-
  Region 1, from blocks to arrays. The grid's ten points each take block `t` (rows 5000·t … 5000·t + 4999) of the
  row-blocked operands and the whole of the others; what a point writes back is the body's arithmetic on those
  blocks; the ten written blocks fill the output array, so after the region the array is one function of the arrays
  the region found.
-/
import proofs.«142693_j60928406061119_1_alg».proof.Proof.FrameIdeal.Region1
import proofs.«142693_j60928406061119_1_alg».proof.Proof.FrameIdeal.BlocksCommon

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

/-- The windows' index maps over the grid: a row-blocked window is at block `(t, 0)`, every other window at `(0, 0)`. -/
theorem idx_facts1 : ∀ t : Fin cfg1.N,
    (win1_0.index t (0 : Fin 2) = t.val ∧ win1_0.index t (1 : Fin 2) = 0)
    ∧ (win1_1.index t (0 : Fin 2) = 0 ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = t.val ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = t.val ∧ win1_8.index t (1 : Fin 2) = 0)
    ∧ (win1_9.index t (0 : Fin 2) = t.val ∧ win1_9.index t (1 : Fin 2) = 0) :=
  (by decide +kernel : ∀ t : Fin grid1.N, _)

/-- Input window 0's block at point `t` is rows `5000·t …` of its array. -/
theorem blk1_0 (c : Dev nD) (t : Fin cfg1.N) (p : Fin 5000) (q : Fin 128) (h : 5000 * t.val + p.val < 50000) :
    iblk1 V c 0 t (ix2 p q) = V c main_v30 (ix2 (⟨5000 * t.val + p.val, h⟩ : Fin 50000) q) := by
  show V c main_v30 (((cfg1.win 0).blk t).view.emb (ix2 p q)) = _
  refine congrArg (V c main_v30) ?_
  obtain ⟨⟨e0a, e0b⟩, ⟨e1a, e1b⟩, ⟨e2a, e2b⟩, ⟨e3a, e3b⟩, ⟨e4a, e4b⟩, ⟨e5a, e5b⟩, ⟨e6a, e6b⟩, ⟨e7a, e7b⟩, ⟨e8a, e8b⟩, ⟨e9a, e9b⟩⟩ := idx_facts1 t
  funext a; apply Fin.ext
  match a with
  | ⟨0, _⟩ => show win1_0.index t (0 : Fin 2) * 5000 + 1 * p.val = 5000 * t.val + p.val; omega
  | ⟨1, _⟩ => show win1_0.index t (1 : Fin 2) * 128 + 1 * q.val = q.val; omega

/-- Input window 1's block at every point is its whole array. -/
theorem blk1_1 (c : Dev nD) (t : Fin cfg1.N) (p : Fin 1) (q : Fin 128) :
    iblk1 V c 1 t (ix2 p q) = V c main_v34 (ix2 p q) := by
  show V c main_v34 (((cfg1.win 1).blk t).view.emb (ix2 p q)) = _
  refine congrArg (V c main_v34) ?_
  obtain ⟨⟨e0a, e0b⟩, ⟨e1a, e1b⟩, ⟨e2a, e2b⟩, ⟨e3a, e3b⟩, ⟨e4a, e4b⟩, ⟨e5a, e5b⟩, ⟨e6a, e6b⟩, ⟨e7a, e7b⟩, ⟨e8a, e8b⟩, ⟨e9a, e9b⟩⟩ := idx_facts1 t
  funext a; apply Fin.ext
  match a with
  | ⟨0, _⟩ => show win1_1.index t (0 : Fin 2) * 1 + 1 * p.val = p.val; omega
  | ⟨1, _⟩ => show win1_1.index t (1 : Fin 2) * 128 + 1 * q.val = q.val; omega

/-- Input window 2's block at every point is its whole array. -/
theorem blk1_2 (c : Dev nD) (t : Fin cfg1.N) (p : Fin 1) (q : Fin 128) :
    iblk1 V c 2 t (ix2 p q) = V c main_v41 (ix2 p q) := by
  show V c main_v41 (((cfg1.win 2).blk t).view.emb (ix2 p q)) = _
  refine congrArg (V c main_v41) ?_
  obtain ⟨⟨e0a, e0b⟩, ⟨e1a, e1b⟩, ⟨e2a, e2b⟩, ⟨e3a, e3b⟩, ⟨e4a, e4b⟩, ⟨e5a, e5b⟩, ⟨e6a, e6b⟩, ⟨e7a, e7b⟩, ⟨e8a, e8b⟩, ⟨e9a, e9b⟩⟩ := idx_facts1 t
  funext a; apply Fin.ext
  match a with
  | ⟨0, _⟩ => show win1_2.index t (0 : Fin 2) * 1 + 1 * p.val = p.val; omega
  | ⟨1, _⟩ => show win1_2.index t (1 : Fin 2) * 128 + 1 * q.val = q.val; omega

/-- Input window 3's block at every point is its whole array. -/
theorem blk1_3 (c : Dev nD) (t : Fin cfg1.N) (p : Fin 1) (q : Fin 128) :
    iblk1 V c 3 t (ix2 p q) = V c main_v51 (ix2 p q) := by
  show V c main_v51 (((cfg1.win 3).blk t).view.emb (ix2 p q)) = _
  refine congrArg (V c main_v51) ?_
  obtain ⟨⟨e0a, e0b⟩, ⟨e1a, e1b⟩, ⟨e2a, e2b⟩, ⟨e3a, e3b⟩, ⟨e4a, e4b⟩, ⟨e5a, e5b⟩, ⟨e6a, e6b⟩, ⟨e7a, e7b⟩, ⟨e8a, e8b⟩, ⟨e9a, e9b⟩⟩ := idx_facts1 t
  funext a; apply Fin.ext
  match a with
  | ⟨0, _⟩ => show win1_3.index t (0 : Fin 2) * 1 + 1 * p.val = p.val; omega
  | ⟨1, _⟩ => show win1_3.index t (1 : Fin 2) * 128 + 1 * q.val = q.val; omega

/-- Input window 4's block at every point is its whole array. -/
theorem blk1_4 (c : Dev nD) (t : Fin cfg1.N) (p : Fin 1) (q : Fin 128) :
    iblk1 V c 4 t (ix2 p q) = V c main_v52 (ix2 p q) := by
  show V c main_v52 (((cfg1.win 4).blk t).view.emb (ix2 p q)) = _
  refine congrArg (V c main_v52) ?_
  obtain ⟨⟨e0a, e0b⟩, ⟨e1a, e1b⟩, ⟨e2a, e2b⟩, ⟨e3a, e3b⟩, ⟨e4a, e4b⟩, ⟨e5a, e5b⟩, ⟨e6a, e6b⟩, ⟨e7a, e7b⟩, ⟨e8a, e8b⟩, ⟨e9a, e9b⟩⟩ := idx_facts1 t
  funext a; apply Fin.ext
  match a with
  | ⟨0, _⟩ => show win1_4.index t (0 : Fin 2) * 1 + 1 * p.val = p.val; omega
  | ⟨1, _⟩ => show win1_4.index t (1 : Fin 2) * 128 + 1 * q.val = q.val; omega

/-- Input window 5's block at point `t` is rows `5000·t …` of its array. -/
theorem blk1_5 (c : Dev nD) (t : Fin cfg1.N) (p : Fin 5000) (q : Fin 128) (h : 5000 * t.val + p.val < 50000) :
    iblk1 V c 5 t (ix2 p q) = V c main_v42 (ix2 (⟨5000 * t.val + p.val, h⟩ : Fin 50000) q) := by
  show V c main_v42 (((cfg1.win 5).blk t).view.emb (ix2 p q)) = _
  refine congrArg (V c main_v42) ?_
  obtain ⟨⟨e0a, e0b⟩, ⟨e1a, e1b⟩, ⟨e2a, e2b⟩, ⟨e3a, e3b⟩, ⟨e4a, e4b⟩, ⟨e5a, e5b⟩, ⟨e6a, e6b⟩, ⟨e7a, e7b⟩, ⟨e8a, e8b⟩, ⟨e9a, e9b⟩⟩ := idx_facts1 t
  funext a; apply Fin.ext
  match a with
  | ⟨0, _⟩ => show win1_5.index t (0 : Fin 2) * 5000 + 1 * p.val = 5000 * t.val + p.val; omega
  | ⟨1, _⟩ => show win1_5.index t (1 : Fin 2) * 128 + 1 * q.val = q.val; omega

/-- Input window 6's block at every point is its whole array. -/
theorem blk1_6 (c : Dev nD) (t : Fin cfg1.N) (p : Fin 128) (q : Fin 128) :
    iblk1 V c 6 t (ix2 p q) = V c main_v48 (ix2 p q) := by
  show V c main_v48 (((cfg1.win 6).blk t).view.emb (ix2 p q)) = _
  refine congrArg (V c main_v48) ?_
  obtain ⟨⟨e0a, e0b⟩, ⟨e1a, e1b⟩, ⟨e2a, e2b⟩, ⟨e3a, e3b⟩, ⟨e4a, e4b⟩, ⟨e5a, e5b⟩, ⟨e6a, e6b⟩, ⟨e7a, e7b⟩, ⟨e8a, e8b⟩, ⟨e9a, e9b⟩⟩ := idx_facts1 t
  funext a; apply Fin.ext
  match a with
  | ⟨0, _⟩ => show win1_6.index t (0 : Fin 2) * 128 + 1 * p.val = p.val; omega
  | ⟨1, _⟩ => show win1_6.index t (1 : Fin 2) * 128 + 1 * q.val = q.val; omega

/-- Input window 7's block at every point is its whole array. -/
theorem blk1_7 (c : Dev nD) (t : Fin cfg1.N) (p : Fin 1) (q : Fin 128) :
    iblk1 V c 7 t (ix2 p q) = V c main_v53 (ix2 p q) := by
  show V c main_v53 (((cfg1.win 7).blk t).view.emb (ix2 p q)) = _
  refine congrArg (V c main_v53) ?_
  obtain ⟨⟨e0a, e0b⟩, ⟨e1a, e1b⟩, ⟨e2a, e2b⟩, ⟨e3a, e3b⟩, ⟨e4a, e4b⟩, ⟨e5a, e5b⟩, ⟨e6a, e6b⟩, ⟨e7a, e7b⟩, ⟨e8a, e8b⟩, ⟨e9a, e9b⟩⟩ := idx_facts1 t
  funext a; apply Fin.ext
  match a with
  | ⟨0, _⟩ => show win1_7.index t (0 : Fin 2) * 1 + 1 * p.val = p.val; omega
  | ⟨1, _⟩ => show win1_7.index t (1 : Fin 2) * 128 + 1 * q.val = q.val; omega

theorem blkfun1_0 (c : Dev nD) (t : Fin cfg1.N) : iblk1 V c 0 t = rowsBlk (V c main_v30) t.val := by
  funext j
  obtain ⟨p, q, rfl⟩ : ∃ (p : Fin 5000) (q : Fin 128), j = ix2 p q := ⟨j 0, j 1, eq_ix2 j⟩
  have ht : t.val < 10 := lt_of_lt_of_eq t.isLt N_1
  have hp : p.val < 5000 := p.isLt
  rw [blk1_0 V c t p q (by omega)]
  show V c main_v30 _ = V c main_v30 _
  refine congrArg (V c main_v30) ?_
  funext a; apply Fin.ext
  match a with
  | ⟨0, _⟩ => show 5000 * t.val + p.val = (5000 * t.val + p.val) % 50000; omega
  | ⟨1, _⟩ => rfl

theorem blkfun1_1 (c : Dev nD) (t : Fin cfg1.N) : iblk1 V c 1 t = V c main_v34 := by
  funext j
  obtain ⟨p, q, rfl⟩ : ∃ (p : Fin 1) (q : Fin 128), j = ix2 p q := ⟨j 0, j 1, eq_ix2 j⟩
  exact blk1_1 V c t p q

theorem blkfun1_2 (c : Dev nD) (t : Fin cfg1.N) : iblk1 V c 2 t = V c main_v41 := by
  funext j
  obtain ⟨p, q, rfl⟩ : ∃ (p : Fin 1) (q : Fin 128), j = ix2 p q := ⟨j 0, j 1, eq_ix2 j⟩
  exact blk1_2 V c t p q

theorem blkfun1_3 (c : Dev nD) (t : Fin cfg1.N) : iblk1 V c 3 t = V c main_v51 := by
  funext j
  obtain ⟨p, q, rfl⟩ : ∃ (p : Fin 1) (q : Fin 128), j = ix2 p q := ⟨j 0, j 1, eq_ix2 j⟩
  exact blk1_3 V c t p q

theorem blkfun1_4 (c : Dev nD) (t : Fin cfg1.N) : iblk1 V c 4 t = V c main_v52 := by
  funext j
  obtain ⟨p, q, rfl⟩ : ∃ (p : Fin 1) (q : Fin 128), j = ix2 p q := ⟨j 0, j 1, eq_ix2 j⟩
  exact blk1_4 V c t p q

theorem blkfun1_5 (c : Dev nD) (t : Fin cfg1.N) : iblk1 V c 5 t = rowsBlk (V c main_v42) t.val := by
  funext j
  obtain ⟨p, q, rfl⟩ : ∃ (p : Fin 5000) (q : Fin 128), j = ix2 p q := ⟨j 0, j 1, eq_ix2 j⟩
  have ht : t.val < 10 := lt_of_lt_of_eq t.isLt N_1
  have hp : p.val < 5000 := p.isLt
  rw [blk1_5 V c t p q (by omega)]
  show V c main_v42 _ = V c main_v42 _
  refine congrArg (V c main_v42) ?_
  funext a; apply Fin.ext
  match a with
  | ⟨0, _⟩ => show 5000 * t.val + p.val = (5000 * t.val + p.val) % 50000; omega
  | ⟨1, _⟩ => rfl

theorem blkfun1_6 (c : Dev nD) (t : Fin cfg1.N) : iblk1 V c 6 t = V c main_v48 := by
  funext j
  obtain ⟨p, q, rfl⟩ : ∃ (p : Fin 128) (q : Fin 128), j = ix2 p q := ⟨j 0, j 1, eq_ix2 j⟩
  exact blk1_6 V c t p q

theorem blkfun1_7 (c : Dev nD) (t : Fin cfg1.N) : iblk1 V c 7 t = V c main_v53 := by
  funext j
  obtain ⟨p, q, rfl⟩ : ∃ (p : Fin 1) (q : Fin 128), j = ix2 p q := ⟨j 0, j 1, eq_ix2 j⟩
  exact blk1_7 V c t p q

/-- The body's one store through the whole block leaves its payload of the loaded blocks. -/
theorem out1_8_eq (x0 : Vec F S5000x128 .f32) (x1 : Vec F S1x128 .f32) (x2 : Vec F S1x128 .f32) (x3 : Vec F S1x128 .f32) (x4 : Vec F S1x128 .f32) (x5 : Vec F S5000x128 .f32) (x6 : Vec F S128x128 .f32) (x7 : Vec F S1x128 .f32) : out1_8 x0 x1 x2 x3 x4 x5 x6 x7 = k1_pay1 x0 x2 x3 x1 x4 x5 := by
  unfold out1_8
  rw [View.canon_unit_zero hz]
  simp only [View.ld_unit_zero (S := S5000x128) hz, View.ld_unit_zero (S := S128x128) hz, View.ld_unit_zero (S := S1x128) hz]

/-- The body's one store through the whole block leaves its payload of the loaded blocks. -/
theorem out1_9_eq (x0 : Vec F S5000x128 .f32) (x1 : Vec F S1x128 .f32) (x2 : Vec F S1x128 .f32) (x3 : Vec F S1x128 .f32) (x4 : Vec F S1x128 .f32) (x5 : Vec F S5000x128 .f32) (x6 : Vec F S128x128 .f32) (x7 : Vec F S1x128 .f32) : out1_9 x0 x1 x2 x3 x4 x5 x6 x7 = k1_pay2 x0 x2 x3 x1 x4 x5 x6 x7 := by
  unfold out1_9
  rw [View.canon_unit_zero hz]
  simp only [View.ld_unit_zero (S := S5000x128) hz, View.ld_unit_zero (S := S128x128) hz, View.ld_unit_zero (S := S1x128) hz]

/-- What output window 8's array holds after the region, as ONE function of the arrays the region found: at row `r`
    the body's arithmetic on block `r / 5000` of the row-blocked inputs, read at row `r % 5000` of the block. -/
def G1_8 (c : Dev nD) : S50000x128.Idx → Elt F .f32 := fun i =>
  (k1_pay1 (rowsBlk (V c main_v30) ((i 0).val / 5000)) (V c main_v41) (V c main_v51) (V c main_v34) (V c main_v52) (rowsBlk (V c main_v42) ((i 0).val / 5000))) (ix2 (⟨(i 0).val % 5000, Nat.mod_lt _ (by decide)⟩ : Fin 5000) (⟨(i 1).val, (i 1).isLt⟩ : Fin 128))

/-- What output window 9's array holds after the region, as ONE function of the arrays the region found: at row `r`
    the body's arithmetic on block `r / 5000` of the row-blocked inputs, read at row `r % 5000` of the block. -/
def G1_9 (c : Dev nD) : S50000x128.Idx → Elt F .f32 := fun i =>
  (k1_pay2 (rowsBlk (V c main_v30) ((i 0).val / 5000)) (V c main_v41) (V c main_v51) (V c main_v34) (V c main_v52) (rowsBlk (V c main_v42) ((i 0).val / 5000)) (V c main_v48) (V c main_v53)) (ix2 (⟨(i 0).val % 5000, Nat.mod_lt _ (by decide)⟩ : Fin 5000) (⟨(i 1).val, (i 1).isLt⟩ : Fin 128))

/-- What point `t` writes back through output window 8 is block `t` of `G1_8`. -/
theorem flushed1_8 (c : Dev nD) (t : Fin cfg1.N) :
    (dat1 V c).flushed 8 t = ((cfg1.win 8).blk t).view.read (Elt F) (G1_8 V c) := by
  show (cfg1.win 8).cut (grid1.coords t) ((dat1 V c).after 8 t) = _
  rw [after1_8, out1_8_eq]
  simp only [blkfun1_0 V c t, blkfun1_1 V c t, blkfun1_2 V c t, blkfun1_3 V c t, blkfun1_4 V c t, blkfun1_5 V c t, blkfun1_6 V c t, blkfun1_7 V c t]
  obtain ⟨⟨e0a, e0b⟩, ⟨e1a, e1b⟩, ⟨e2a, e2b⟩, ⟨e3a, e3b⟩, ⟨e4a, e4b⟩, ⟨e5a, e5b⟩, ⟨e6a, e6b⟩, ⟨e7a, e7b⟩, ⟨e8a, e8b⟩, ⟨e9a, e9b⟩⟩ := idx_facts1 t
  have ht : t.val < 10 := lt_of_lt_of_eq t.isLt N_1
  funext j
  obtain ⟨p, q, rfl⟩ : ∃ (p : Fin 5000) (q : Fin 128), j = ix2 p q := ⟨j 0, j 1, eq_ix2 j⟩
  have hp : p.val < 5000 := p.isLt
  have hemb0 : ((((cfg1.win 8).blk t).view.emb (ix2 p q)) 0).val = 5000 * t.val + p.val := by
    show win1_8.index t (0 : Fin 2) * 5000 + 1 * p.val = _; omega
  have hemb1 : ((((cfg1.win 8).blk t).view.emb (ix2 p q)) 1).val = q.val := by
    show win1_8.index t (1 : Fin 2) * 128 + 1 * q.val = _; omega
  show (k1_pay1 (rowsBlk (V c main_v30) t.val) (V c main_v41) (V c main_v51) (V c main_v34) (V c main_v52) (rowsBlk (V c main_v42) t.val)) (ix2 p q) = G1_8 V c (((cfg1.win 8).blk t).view.emb (ix2 p q))
  unfold G1_8
  have hq : (5000 * t.val + p.val) / 5000 = t.val := by omega
  have hr : (5000 * t.val + p.val) % 5000 = p.val := by omega
  simp only [hemb0, hemb1, hq, hr]

/-- What point `t` writes back through output window 9 is block `t` of `G1_9`. -/
theorem flushed1_9 (c : Dev nD) (t : Fin cfg1.N) :
    (dat1 V c).flushed 9 t = ((cfg1.win 9).blk t).view.read (Elt F) (G1_9 V c) := by
  show (cfg1.win 9).cut (grid1.coords t) ((dat1 V c).after 9 t) = _
  rw [after1_9, out1_9_eq]
  simp only [blkfun1_0 V c t, blkfun1_1 V c t, blkfun1_2 V c t, blkfun1_3 V c t, blkfun1_4 V c t, blkfun1_5 V c t, blkfun1_6 V c t, blkfun1_7 V c t]
  obtain ⟨⟨e0a, e0b⟩, ⟨e1a, e1b⟩, ⟨e2a, e2b⟩, ⟨e3a, e3b⟩, ⟨e4a, e4b⟩, ⟨e5a, e5b⟩, ⟨e6a, e6b⟩, ⟨e7a, e7b⟩, ⟨e8a, e8b⟩, ⟨e9a, e9b⟩⟩ := idx_facts1 t
  have ht : t.val < 10 := lt_of_lt_of_eq t.isLt N_1
  funext j
  obtain ⟨p, q, rfl⟩ : ∃ (p : Fin 5000) (q : Fin 128), j = ix2 p q := ⟨j 0, j 1, eq_ix2 j⟩
  have hp : p.val < 5000 := p.isLt
  have hemb0 : ((((cfg1.win 9).blk t).view.emb (ix2 p q)) 0).val = 5000 * t.val + p.val := by
    show win1_9.index t (0 : Fin 2) * 5000 + 1 * p.val = _; omega
  have hemb1 : ((((cfg1.win 9).blk t).view.emb (ix2 p q)) 1).val = q.val := by
    show win1_9.index t (1 : Fin 2) * 128 + 1 * q.val = _; omega
  show (k1_pay2 (rowsBlk (V c main_v30) t.val) (V c main_v41) (V c main_v51) (V c main_v34) (V c main_v52) (rowsBlk (V c main_v42) t.val) (V c main_v48) (V c main_v53)) (ix2 p q) = G1_9 V c (((cfg1.win 9).blk t).view.emb (ix2 p q))
  unfold G1_9
  have hq : (5000 * t.val + p.val) / 5000 = t.val := by omega
  have hr : (5000 * t.val + p.val) % 5000 = p.val := by omega
  simp only [hemb0, hemb1, hq, hr]

/-- The ten blocks fill the array: row `r` is in point `r / 5000`'s block. -/
theorem cover1_8 (i : S50000x128.Idx) : ∃ t : Fin cfg1.N, (cfg1.win 8).flush t = true ∧ i ∈ ((cfg1.win 8).blk t).view.set := by
  have hi0 : (i 0).val < 50000 := (i 0).isLt
  have hi1 : (i 1).val < 128 := (i 1).isLt
  let t : Fin cfg1.N := ⟨(i 0).val / 5000, by rw [show cfg1.N = grid1.N from rfl, N_1]; omega⟩
  obtain ⟨⟨e0a, e0b⟩, ⟨e1a, e1b⟩, ⟨e2a, e2b⟩, ⟨e3a, e3b⟩, ⟨e4a, e4b⟩, ⟨e5a, e5b⟩, ⟨e6a, e6b⟩, ⟨e7a, e7b⟩, ⟨e8a, e8b⟩, ⟨e9a, e9b⟩⟩ := idx_facts1 t
  refine ⟨t, flush1_8 t, ?_⟩
  show i ∈ ((View.whole main_v54_0).slice (win1_8.rect t)).set
  rw [View.set_slice_whole, Rect.mem_set_unit]
  intro a
  have htv : t.val = (i 0).val / 5000 := rfl
  match a with
  | ⟨0, _⟩ => show win1_8.index t (0 : Fin 2) * 5000 ≤ (i 0).val ∧ (i 0).val < win1_8.index t (0 : Fin 2) * 5000 + 5000; omega
  | ⟨1, _⟩ => show win1_8.index t (1 : Fin 2) * 128 ≤ (i 1).val ∧ (i 1).val < win1_8.index t (1 : Fin 2) * 128 + 128; omega

/-- Output window 8's array after the region is `G1_8` of the arrays the region found. -/
theorem final1_8 (c : Dev nD) : (dat1 V c).arrAt 8 cfg1.N = G1_8 V c :=
  (dat1 V c).arrAt_eq_of_cover 8 (G1_8 V c) (fun t _ => flushed1_8 V c t) (cover1_8)

/-- The ten blocks fill the array: row `r` is in point `r / 5000`'s block. -/
theorem cover1_9 (i : S50000x128.Idx) : ∃ t : Fin cfg1.N, (cfg1.win 9).flush t = true ∧ i ∈ ((cfg1.win 9).blk t).view.set := by
  have hi0 : (i 0).val < 50000 := (i 0).isLt
  have hi1 : (i 1).val < 128 := (i 1).isLt
  let t : Fin cfg1.N := ⟨(i 0).val / 5000, by rw [show cfg1.N = grid1.N from rfl, N_1]; omega⟩
  obtain ⟨⟨e0a, e0b⟩, ⟨e1a, e1b⟩, ⟨e2a, e2b⟩, ⟨e3a, e3b⟩, ⟨e4a, e4b⟩, ⟨e5a, e5b⟩, ⟨e6a, e6b⟩, ⟨e7a, e7b⟩, ⟨e8a, e8b⟩, ⟨e9a, e9b⟩⟩ := idx_facts1 t
  refine ⟨t, flush1_9 t, ?_⟩
  show i ∈ ((View.whole main_v54_1).slice (win1_9.rect t)).set
  rw [View.set_slice_whole, Rect.mem_set_unit]
  intro a
  have htv : t.val = (i 0).val / 5000 := rfl
  match a with
  | ⟨0, _⟩ => show win1_9.index t (0 : Fin 2) * 5000 ≤ (i 0).val ∧ (i 0).val < win1_9.index t (0 : Fin 2) * 5000 + 5000; omega
  | ⟨1, _⟩ => show win1_9.index t (1 : Fin 2) * 128 ≤ (i 1).val ∧ (i 1).val < win1_9.index t (1 : Fin 2) * 128 + 128; omega

/-- Output window 9's array after the region is `G1_9` of the arrays the region found. -/
theorem final1_9 (c : Dev nD) : (dat1 V c).arrAt 9 cfg1.N = G1_9 V c :=
  (dat1 V c).arrAt_eq_of_cover 9 (G1_9 V c) (fun t _ => flushed1_9 V c t) (cover1_9)

end Cert.KernelIdeal.Fr

end
-- ==== Proof.FrameIdeal.Stage1.lean ====
/-
  Region 1 at the exact instance: the array it leaves, read at row `r` and column `q`, is the layer's formula of the
  arrays it found — the row-blocked operands at row `r`, the whole operands at their own indices.
-/
import proofs.«142693_j60928406061119_1_alg».proof.Proof.FrameIdeal.Blocks1
import proofs.«142693_j60928406061119_1_alg».proof.Proof.FrameIdeal.StageCommon
import proofs.«142693_j60928406061119_1_alg».proof.Proof.KPay

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.SL Idealize.SL.Sem
open scoped BigOperators

variable (V : (c : Dev nD) → (b : Ref sig .tc) → Buf (Elt Ideal) ((c : Thread nD τ).loc b))

/-- The normalisation region's new features at `(r, q)`, given that the mean and variance rows it found are the column
    means and variances of the `z` it found. -/
theorem G1_8_apply (c : Dev nD)
    (hmu : ∀ q : Fin 128, V c main_v34 (ix2 0 q) = Cert.Spec.muOf (fun r q => V c main_v30 (ix2 r q)) q)
    (hvar : ∀ q : Fin 128, V c main_v41 (ix2 0 q) = Cert.Spec.varOf (fun r q => V c main_v30 (ix2 r q)) q)
    (r : Fin 50000) (q : Fin 128) :
    G1_8 (F := Ideal) V c (ix2 r q)
      = Cert.Spec.hNext (fun r q => V c main_v30 (ix2 r q)) (fun q => V c main_v51 (ix2 0 q)) (fun q => V c main_v52 (ix2 0 q))
          (fun r q => V c main_v42 (ix2 r q)) r q := by
  show (k1_pay1 (F := Ideal) (rowsBlk (V c main_v30) (r.val / 5000)) (V c main_v41) (V c main_v51) (V c main_v34) (V c main_v52) (rowsBlk (V c main_v42) (r.val / 5000)))
      (ix2 (⟨r.val % 5000, Nat.mod_lt _ (by decide)⟩ : Fin 5000) q) = _
  rw [Cert.KernelIdeal.KPay.bnh1]
  unfold Cert.Spec.hNext Cert.Spec.normOf
  simp only [rowsBlk_apply, hmu, hvar]

/-- The normalisation region's projected output at `(r, q)`: the projection of the new features' row `r`. -/
theorem G1_9_apply (c : Dev nD) (r : Fin 50000) (q : Fin 128) :
    G1_9 (F := Ideal) V c (ix2 r q)
      = Cert.Spec.outOf (fun r k => G1_8 (F := Ideal) V c (ix2 r k)) (fun k q => V c main_v48 (ix2 k q)) (fun q => V c main_v53 (ix2 0 q)) r q := by
  show (k1_pay2 (F := Ideal) (rowsBlk (V c main_v30) (r.val / 5000)) (V c main_v41) (V c main_v51) (V c main_v34) (V c main_v52) (rowsBlk (V c main_v42) (r.val / 5000)) (V c main_v48) (V c main_v53))
      (ix2 (⟨r.val % 5000, Nat.mod_lt _ (by decide)⟩ : Fin 5000) q) = _
  rw [Cert.KernelIdeal.KPay.bno1]
  rfl

end Cert.KernelIdeal.Fr

end
-- ==== Proof.FrameIdeal.Blocks2.lean ====
/-
  Region 2, from blocks to arrays. The grid's ten points each take block `t` (rows 5000·t … 5000·t + 4999) of the
  row-blocked operands and the whole of the others; what a point writes back is the body's arithmetic on those
  blocks; the ten written blocks fill the output array, so after the region the array is one function of the arrays
  the region found.
-/
import proofs.«142693_j60928406061119_1_alg».proof.Proof.FrameIdeal.Region2
import proofs.«142693_j60928406061119_1_alg».proof.Proof.FrameIdeal.BlocksCommon

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

/-- The windows' index maps over the grid: a row-blocked window is at block `(t, 0)`, every other window at `(0, 0)`. -/
theorem idx_facts2 : ∀ t : Fin cfg2.N,
    (win2_0.index t (0 : Fin 2) = t.val ∧ win2_0.index t (1 : Fin 2) = 0)
    ∧ (win2_1.index t (0 : Fin 2) = 0 ∧ win2_1.index t (1 : Fin 2) = 0)
    ∧ (win2_2.index t (0 : Fin 2) = 0 ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = t.val ∧ win2_5.index t (1 : Fin 2) = 0) :=
  (by decide +kernel : ∀ t : Fin grid2.N, _)

/-- Input window 0's block at point `t` is rows `5000·t …` of its array. -/
theorem blk2_0 (c : Dev nD) (t : Fin cfg2.N) (p : Fin 5000) (q : Fin 128) (h : 5000 * t.val + p.val < 50000) :
    iblk2 V c 0 t (ix2 p q) = V c main_v70 (ix2 (⟨5000 * t.val + p.val, h⟩ : Fin 50000) q) := by
  show V c main_v70 (((cfg2.win 0).blk t).view.emb (ix2 p q)) = _
  refine congrArg (V c main_v70) ?_
  obtain ⟨⟨e0a, e0b⟩, ⟨e1a, e1b⟩, ⟨e2a, e2b⟩, ⟨e3a, e3b⟩, ⟨e4a, e4b⟩, ⟨e5a, e5b⟩⟩ := idx_facts2 t
  funext a; apply Fin.ext
  match a with
  | ⟨0, _⟩ => show win2_0.index t (0 : Fin 2) * 5000 + 1 * p.val = 5000 * t.val + p.val; omega
  | ⟨1, _⟩ => show win2_0.index t (1 : Fin 2) * 128 + 1 * q.val = q.val; omega

/-- Input window 1's block at every point is its whole array. -/
theorem blk2_1 (c : Dev nD) (t : Fin cfg2.N) (p : Fin 128) (q : Fin 128) :
    iblk2 V c 1 t (ix2 p q) = V c main_v72 (ix2 p q) := by
  show V c main_v72 (((cfg2.win 1).blk t).view.emb (ix2 p q)) = _
  refine congrArg (V c main_v72) ?_
  obtain ⟨⟨e0a, e0b⟩, ⟨e1a, e1b⟩, ⟨e2a, e2b⟩, ⟨e3a, e3b⟩, ⟨e4a, e4b⟩, ⟨e5a, e5b⟩⟩ := idx_facts2 t
  funext a; apply Fin.ext
  match a with
  | ⟨0, _⟩ => show win2_1.index t (0 : Fin 2) * 128 + 1 * p.val = p.val; omega
  | ⟨1, _⟩ => show win2_1.index t (1 : Fin 2) * 128 + 1 * q.val = q.val; omega

/-- Input window 2's block at every point is its whole array. -/
theorem blk2_2 (c : Dev nD) (t : Fin cfg2.N) (p : Fin 1) (q : Fin 128) :
    iblk2 V c 2 t (ix2 p q) = V c main_v79 (ix2 p q) := by
  show V c main_v79 (((cfg2.win 2).blk t).view.emb (ix2 p q)) = _
  refine congrArg (V c main_v79) ?_
  obtain ⟨⟨e0a, e0b⟩, ⟨e1a, e1b⟩, ⟨e2a, e2b⟩, ⟨e3a, e3b⟩, ⟨e4a, e4b⟩, ⟨e5a, e5b⟩⟩ := idx_facts2 t
  funext a; apply Fin.ext
  match a with
  | ⟨0, _⟩ => show win2_2.index t (0 : Fin 2) * 1 + 1 * p.val = p.val; omega
  | ⟨1, _⟩ => show win2_2.index t (1 : Fin 2) * 128 + 1 * q.val = q.val; omega

/-- Input window 3's block at every point is its whole array. -/
theorem blk2_3 (c : Dev nD) (t : Fin cfg2.N) (p : Fin 128) (q : Fin 128) :
    iblk2 V c 3 t (ix2 p q) = V c main_v76 (ix2 p q) := by
  show V c main_v76 (((cfg2.win 3).blk t).view.emb (ix2 p q)) = _
  refine congrArg (V c main_v76) ?_
  obtain ⟨⟨e0a, e0b⟩, ⟨e1a, e1b⟩, ⟨e2a, e2b⟩, ⟨e3a, e3b⟩, ⟨e4a, e4b⟩, ⟨e5a, e5b⟩⟩ := idx_facts2 t
  funext a; apply Fin.ext
  match a with
  | ⟨0, _⟩ => show win2_3.index t (0 : Fin 2) * 128 + 1 * p.val = p.val; omega
  | ⟨1, _⟩ => show win2_3.index t (1 : Fin 2) * 128 + 1 * q.val = q.val; omega

/-- Input window 4's block at every point is its whole array. -/
theorem blk2_4 (c : Dev nD) (t : Fin cfg2.N) (p : Fin 1) (q : Fin 128) :
    iblk2 V c 4 t (ix2 p q) = V c main_v80 (ix2 p q) := by
  show V c main_v80 (((cfg2.win 4).blk t).view.emb (ix2 p q)) = _
  refine congrArg (V c main_v80) ?_
  obtain ⟨⟨e0a, e0b⟩, ⟨e1a, e1b⟩, ⟨e2a, e2b⟩, ⟨e3a, e3b⟩, ⟨e4a, e4b⟩, ⟨e5a, e5b⟩⟩ := idx_facts2 t
  funext a; apply Fin.ext
  match a with
  | ⟨0, _⟩ => show win2_4.index t (0 : Fin 2) * 1 + 1 * p.val = p.val; omega
  | ⟨1, _⟩ => show win2_4.index t (1 : Fin 2) * 128 + 1 * q.val = q.val; omega

theorem blkfun2_0 (c : Dev nD) (t : Fin cfg2.N) : iblk2 V c 0 t = rowsBlk (V c main_v70) t.val := by
  funext j
  obtain ⟨p, q, rfl⟩ : ∃ (p : Fin 5000) (q : Fin 128), j = ix2 p q := ⟨j 0, j 1, eq_ix2 j⟩
  have ht : t.val < 10 := lt_of_lt_of_eq t.isLt N_2
  have hp : p.val < 5000 := p.isLt
  rw [blk2_0 V c t p q (by omega)]
  show V c main_v70 _ = V c main_v70 _
  refine congrArg (V c main_v70) ?_
  funext a; apply Fin.ext
  match a with
  | ⟨0, _⟩ => show 5000 * t.val + p.val = (5000 * t.val + p.val) % 50000; omega
  | ⟨1, _⟩ => rfl

theorem blkfun2_1 (c : Dev nD) (t : Fin cfg2.N) : iblk2 V c 1 t = V c main_v72 := by
  funext j
  obtain ⟨p, q, rfl⟩ : ∃ (p : Fin 128) (q : Fin 128), j = ix2 p q := ⟨j 0, j 1, eq_ix2 j⟩
  exact blk2_1 V c t p q

theorem blkfun2_2 (c : Dev nD) (t : Fin cfg2.N) : iblk2 V c 2 t = V c main_v79 := by
  funext j
  obtain ⟨p, q, rfl⟩ : ∃ (p : Fin 1) (q : Fin 128), j = ix2 p q := ⟨j 0, j 1, eq_ix2 j⟩
  exact blk2_2 V c t p q

theorem blkfun2_3 (c : Dev nD) (t : Fin cfg2.N) : iblk2 V c 3 t = V c main_v76 := by
  funext j
  obtain ⟨p, q, rfl⟩ : ∃ (p : Fin 128) (q : Fin 128), j = ix2 p q := ⟨j 0, j 1, eq_ix2 j⟩
  exact blk2_3 V c t p q

theorem blkfun2_4 (c : Dev nD) (t : Fin cfg2.N) : iblk2 V c 4 t = V c main_v80 := by
  funext j
  obtain ⟨p, q, rfl⟩ : ∃ (p : Fin 1) (q : Fin 128), j = ix2 p q := ⟨j 0, j 1, eq_ix2 j⟩
  exact blk2_4 V c t p q

/-- The body's one store through the whole block leaves its payload of the loaded blocks. -/
theorem out2_5_eq (x0 : Vec F S5000x128 .f32) (x1 : Vec F S128x128 .f32) (x2 : Vec F S1x128 .f32) (x3 : Vec F S128x128 .f32) (x4 : Vec F S1x128 .f32) : out2_5 x0 x1 x2 x3 x4 = k2_pay1 x0 x1 x2 x3 x4 := by
  unfold out2_5
  rw [View.canon_unit_zero hz]
  simp only [View.ld_unit_zero (S := S5000x128) hz, View.ld_unit_zero (S := S128x128) hz, View.ld_unit_zero (S := S1x128) hz]

/-- What output window 5's array holds after the region, as ONE function of the arrays the region found: at row `r`
    the body's arithmetic on block `r / 5000` of the row-blocked inputs, read at row `r % 5000` of the block. -/
def G2_5 (c : Dev nD) : S50000x128.Idx → Elt F .f32 := fun i =>
  (k2_pay1 (rowsBlk (V c main_v70) ((i 0).val / 5000)) (V c main_v72) (V c main_v79) (V c main_v76) (V c main_v80)) (ix2 (⟨(i 0).val % 5000, Nat.mod_lt _ (by decide)⟩ : Fin 5000) (⟨(i 1).val, (i 1).isLt⟩ : Fin 128))

/-- What point `t` writes back through output window 5 is block `t` of `G2_5`. -/
theorem flushed2_5 (c : Dev nD) (t : Fin cfg2.N) :
    (dat2 V c).flushed 5 t = ((cfg2.win 5).blk t).view.read (Elt F) (G2_5 V c) := by
  show (cfg2.win 5).cut (grid2.coords t) ((dat2 V c).after 5 t) = _
  rw [after2_5, out2_5_eq]
  simp only [blkfun2_0 V c t, blkfun2_1 V c t, blkfun2_2 V c t, blkfun2_3 V c t, blkfun2_4 V c t]
  obtain ⟨⟨e0a, e0b⟩, ⟨e1a, e1b⟩, ⟨e2a, e2b⟩, ⟨e3a, e3b⟩, ⟨e4a, e4b⟩, ⟨e5a, e5b⟩⟩ := idx_facts2 t
  have ht : t.val < 10 := lt_of_lt_of_eq t.isLt N_2
  funext j
  obtain ⟨p, q, rfl⟩ : ∃ (p : Fin 5000) (q : Fin 128), j = ix2 p q := ⟨j 0, j 1, eq_ix2 j⟩
  have hp : p.val < 5000 := p.isLt
  have hemb0 : ((((cfg2.win 5).blk t).view.emb (ix2 p q)) 0).val = 5000 * t.val + p.val := by
    show win2_5.index t (0 : Fin 2) * 5000 + 1 * p.val = _; omega
  have hemb1 : ((((cfg2.win 5).blk t).view.emb (ix2 p q)) 1).val = q.val := by
    show win2_5.index t (1 : Fin 2) * 128 + 1 * q.val = _; omega
  show (k2_pay1 (rowsBlk (V c main_v70) t.val) (V c main_v72) (V c main_v79) (V c main_v76) (V c main_v80)) (ix2 p q) = G2_5 V c (((cfg2.win 5).blk t).view.emb (ix2 p q))
  unfold G2_5
  have hq : (5000 * t.val + p.val) / 5000 = t.val := by omega
  have hr : (5000 * t.val + p.val) % 5000 = p.val := by omega
  simp only [hemb0, hemb1, hq, hr]

/-- The ten blocks fill the array: row `r` is in point `r / 5000`'s block. -/
theorem cover2_5 (i : S50000x128.Idx) : ∃ t : Fin cfg2.N, (cfg2.win 5).flush t = true ∧ i ∈ ((cfg2.win 5).blk t).view.set := by
  have hi0 : (i 0).val < 50000 := (i 0).isLt
  have hi1 : (i 1).val < 128 := (i 1).isLt
  let t : Fin cfg2.N := ⟨(i 0).val / 5000, by rw [show cfg2.N = grid2.N from rfl, N_2]; omega⟩
  obtain ⟨⟨e0a, e0b⟩, ⟨e1a, e1b⟩, ⟨e2a, e2b⟩, ⟨e3a, e3b⟩, ⟨e4a, e4b⟩, ⟨e5a, e5b⟩⟩ := idx_facts2 t
  refine ⟨t, flush2_5 t, ?_⟩
  show i ∈ ((View.whole main_v81).slice (win2_5.rect t)).set
  rw [View.set_slice_whole, Rect.mem_set_unit]
  intro a
  have htv : t.val = (i 0).val / 5000 := rfl
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 128 ≤ (i 1).val ∧ (i 1).val < win2_5.index t (1 : Fin 2) * 128 + 128; omega

/-- Output window 5's array after the region is `G2_5` of the arrays the region found. -/
theorem final2_5 (c : Dev nD) : (dat2 V c).arrAt 5 cfg2.N = G2_5 V c :=
  (dat2 V c).arrAt_eq_of_cover 5 (G2_5 V c) (fun t _ => flushed2_5 V c t) (cover2_5)

end Cert.KernelIdeal.Fr

end
-- ==== Proof.FrameIdeal.Stage2.lean ====
/-
  Region 2 at the exact instance: the array it leaves, read at row `r` and column `q`, is the layer's formula of the
  arrays it found — the row-blocked operands at row `r`, the whole operands at their own indices.
-/
import proofs.«142693_j60928406061119_1_alg».proof.Proof.FrameIdeal.Blocks2
import proofs.«142693_j60928406061119_1_alg».proof.Proof.FrameIdeal.StageCommon
import proofs.«142693_j60928406061119_1_alg».proof.Proof.KPay

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.SL Idealize.SL.Sem
open scoped BigOperators

variable (V : (c : Dev nD) → (b : Ref sig .tc) → Buf (Elt Ideal) ((c : Thread nD τ).loc b))

/-- The perceptron region's output at `(r, q)`. -/
theorem G2_5_apply (c : Dev nD) (r : Fin 50000) (q : Fin 128) :
    G2_5 (F := Ideal) V c (ix2 r q)
      = Cert.Spec.zOf (fun r j => V c main_v70 (ix2 r j)) (fun j k => V c main_v72 (ix2 j k)) (fun k => V c main_v79 (ix2 0 k))
          (fun j k => V c main_v76 (ix2 j k)) (fun k => V c main_v80 (ix2 0 k)) r q := by
  show (k2_pay1 (F := Ideal) (rowsBlk (V c main_v70) (r.val / 5000)) (V c main_v72) (V c main_v79) (V c main_v76) (V c main_v80))
      (ix2 (⟨r.val % 5000, Nat.mod_lt _ (by decide)⟩ : Fin 5000) q) = _
  rw [Cert.KernelIdeal.KPay.mlp2]
  unfold Cert.Spec.zOf
  simp only [rowsBlk_apply]

end Cert.KernelIdeal.Fr

end
-- ==== Proof.FrameIdeal.Blocks3.lean ====
/-
  Region 3, from blocks to arrays. The grid's ten points each take block `t` (rows 5000·t … 5000·t + 4999) of the
  row-blocked operands and the whole of the others; what a point writes back is the body's arithmetic on those
  blocks; the ten written blocks fill the output array, so after the region the array is one function of the arrays
  the region found.
-/
import proofs.«142693_j60928406061119_1_alg».proof.Proof.FrameIdeal.Region3
import proofs.«142693_j60928406061119_1_alg».proof.Proof.FrameIdeal.BlocksCommon

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

/-- The windows' index maps over the grid: a row-blocked window is at block `(t, 0)`, every other window at `(0, 0)`. -/
theorem idx_facts3 : ∀ t : Fin cfg3.N,
    (win3_0.index t (0 : Fin 2) = t.val ∧ win3_0.index t (1 : Fin 2) = 0)
    ∧ (win3_1.index t (0 : Fin 2) = 0 ∧ win3_1.index t (1 : Fin 2) = 0)
    ∧ (win3_2.index t (0 : Fin 2) = 0 ∧ win3_2.index t (1 : Fin 2) = 0)
    ∧ (win3_3.index t (0 : Fin 2) = 0 ∧ win3_3.index t (1 : Fin 2) = 0)
    ∧ (win3_4.index t (0 : Fin 2) = 0 ∧ win3_4.index t (1 : Fin 2) = 0)
    ∧ (win3_5.index t (0 : Fin 2) = t.val ∧ win3_5.index t (1 : Fin 2) = 0)
    ∧ (win3_6.index t (0 : Fin 2) = 0 ∧ win3_6.index t (1 : Fin 2) = 0)
    ∧ (win3_7.index t (0 : Fin 2) = 0 ∧ win3_7.index t (1 : Fin 2) = 0)
    ∧ (win3_8.index t (0 : Fin 2) = t.val ∧ win3_8.index t (1 : Fin 2) = 0)
    ∧ (win3_9.index t (0 : Fin 2) = t.val ∧ win3_9.index t (1 : Fin 2) = 0) :=
  (by decide +kernel : ∀ t : Fin grid3.N, _)

/-- Input window 0's block at point `t` is rows `5000·t …` of its array. -/
theorem blk3_0 (c : Dev nD) (t : Fin cfg3.N) (p : Fin 5000) (q : Fin 128) (h : 5000 * t.val + p.val < 50000) :
    iblk3 V c 0 t (ix2 p q) = V c main_v81 (ix2 (⟨5000 * t.val + p.val, h⟩ : Fin 50000) q) := by
  show V c main_v81 (((cfg3.win 0).blk t).view.emb (ix2 p q)) = _
  refine congrArg (V c main_v81) ?_
  obtain ⟨⟨e0a, e0b⟩, ⟨e1a, e1b⟩, ⟨e2a, e2b⟩, ⟨e3a, e3b⟩, ⟨e4a, e4b⟩, ⟨e5a, e5b⟩, ⟨e6a, e6b⟩, ⟨e7a, e7b⟩, ⟨e8a, e8b⟩, ⟨e9a, e9b⟩⟩ := idx_facts3 t
  funext a; apply Fin.ext
  match a with
  | ⟨0, _⟩ => show win3_0.index t (0 : Fin 2) * 5000 + 1 * p.val = 5000 * t.val + p.val; omega
  | ⟨1, _⟩ => show win3_0.index t (1 : Fin 2) * 128 + 1 * q.val = q.val; omega

/-- Input window 1's block at every point is its whole array. -/
theorem blk3_1 (c : Dev nD) (t : Fin cfg3.N) (p : Fin 1) (q : Fin 128) :
    iblk3 V c 1 t (ix2 p q) = V c main_v85 (ix2 p q) := by
  show V c main_v85 (((cfg3.win 1).blk t).view.emb (ix2 p q)) = _
  refine congrArg (V c main_v85) ?_
  obtain ⟨⟨e0a, e0b⟩, ⟨e1a, e1b⟩, ⟨e2a, e2b⟩, ⟨e3a, e3b⟩, ⟨e4a, e4b⟩, ⟨e5a, e5b⟩, ⟨e6a, e6b⟩, ⟨e7a, e7b⟩, ⟨e8a, e8b⟩, ⟨e9a, e9b⟩⟩ := idx_facts3 t
  funext a; apply Fin.ext
  match a with
  | ⟨0, _⟩ => show win3_1.index t (0 : Fin 2) * 1 + 1 * p.val = p.val; omega
  | ⟨1, _⟩ => show win3_1.index t (1 : Fin 2) * 128 + 1 * q.val = q.val; omega

/-- Input window 2's block at every point is its whole array. -/
theorem blk3_2 (c : Dev nD) (t : Fin cfg3.N) (p : Fin 1) (q : Fin 128) :
    iblk3 V c 2 t (ix2 p q) = V c main_v92 (ix2 p q) := by
  show V c main_v92 (((cfg3.win 2).blk t).view.emb (ix2 p q)) = _
  refine congrArg (V c main_v92) ?_
  obtain ⟨⟨e0a, e0b⟩, ⟨e1a, e1b⟩, ⟨e2a, e2b⟩, ⟨e3a, e3b⟩, ⟨e4a, e4b⟩, ⟨e5a, e5b⟩, ⟨e6a, e6b⟩, ⟨e7a, e7b⟩, ⟨e8a, e8b⟩, ⟨e9a, e9b⟩⟩ := idx_facts3 t
  funext a; apply Fin.ext
  match a with
  | ⟨0, _⟩ => show win3_2.index t (0 : Fin 2) * 1 + 1 * p.val = p.val; omega
  | ⟨1, _⟩ => show win3_2.index t (1 : Fin 2) * 128 + 1 * q.val = q.val; omega

/-- Input window 3's block at every point is its whole array. -/
theorem blk3_3 (c : Dev nD) (t : Fin cfg3.N) (p : Fin 1) (q : Fin 128) :
    iblk3 V c 3 t (ix2 p q) = V c main_v101 (ix2 p q) := by
  show V c main_v101 (((cfg3.win 3).blk t).view.emb (ix2 p q)) = _
  refine congrArg (V c main_v101) ?_
  obtain ⟨⟨e0a, e0b⟩, ⟨e1a, e1b⟩, ⟨e2a, e2b⟩, ⟨e3a, e3b⟩, ⟨e4a, e4b⟩, ⟨e5a, e5b⟩, ⟨e6a, e6b⟩, ⟨e7a, e7b⟩, ⟨e8a, e8b⟩, ⟨e9a, e9b⟩⟩ := idx_facts3 t
  funext a; apply Fin.ext
  match a with
  | ⟨0, _⟩ => show win3_3.index t (0 : Fin 2) * 1 + 1 * p.val = p.val; omega
  | ⟨1, _⟩ => show win3_3.index t (1 : Fin 2) * 128 + 1 * q.val = q.val; omega

/-- Input window 4's block at every point is its whole array. -/
theorem blk3_4 (c : Dev nD) (t : Fin cfg3.N) (p : Fin 1) (q : Fin 128) :
    iblk3 V c 4 t (ix2 p q) = V c main_v102 (ix2 p q) := by
  show V c main_v102 (((cfg3.win 4).blk t).view.emb (ix2 p q)) = _
  refine congrArg (V c main_v102) ?_
  obtain ⟨⟨e0a, e0b⟩, ⟨e1a, e1b⟩, ⟨e2a, e2b⟩, ⟨e3a, e3b⟩, ⟨e4a, e4b⟩, ⟨e5a, e5b⟩, ⟨e6a, e6b⟩, ⟨e7a, e7b⟩, ⟨e8a, e8b⟩, ⟨e9a, e9b⟩⟩ := idx_facts3 t
  funext a; apply Fin.ext
  match a with
  | ⟨0, _⟩ => show win3_4.index t (0 : Fin 2) * 1 + 1 * p.val = p.val; omega
  | ⟨1, _⟩ => show win3_4.index t (1 : Fin 2) * 128 + 1 * q.val = q.val; omega

/-- Input window 5's block at point `t` is rows `5000·t …` of its array. -/
theorem blk3_5 (c : Dev nD) (t : Fin cfg3.N) (p : Fin 5000) (q : Fin 128) (h : 5000 * t.val + p.val < 50000) :
    iblk3 V c 5 t (ix2 p q) = V c main_v54_0 (ix2 (⟨5000 * t.val + p.val, h⟩ : Fin 50000) q) := by
  show V c main_v54_0 (((cfg3.win 5).blk t).view.emb (ix2 p q)) = _
  refine congrArg (V c main_v54_0) ?_
  obtain ⟨⟨e0a, e0b⟩, ⟨e1a, e1b⟩, ⟨e2a, e2b⟩, ⟨e3a, e3b⟩, ⟨e4a, e4b⟩, ⟨e5a, e5b⟩, ⟨e6a, e6b⟩, ⟨e7a, e7b⟩, ⟨e8a, e8b⟩, ⟨e9a, e9b⟩⟩ := idx_facts3 t
  funext a; apply Fin.ext
  match a with
  | ⟨0, _⟩ => show win3_5.index t (0 : Fin 2) * 5000 + 1 * p.val = 5000 * t.val + p.val; omega
  | ⟨1, _⟩ => show win3_5.index t (1 : Fin 2) * 128 + 1 * q.val = q.val; omega

/-- Input window 6's block at every point is its whole array. -/
theorem blk3_6 (c : Dev nD) (t : Fin cfg3.N) (p : Fin 128) (q : Fin 128) :
    iblk3 V c 6 t (ix2 p q) = V c main_v98 (ix2 p q) := by
  show V c main_v98 (((cfg3.win 6).blk t).view.emb (ix2 p q)) = _
  refine congrArg (V c main_v98) ?_
  obtain ⟨⟨e0a, e0b⟩, ⟨e1a, e1b⟩, ⟨e2a, e2b⟩, ⟨e3a, e3b⟩, ⟨e4a, e4b⟩, ⟨e5a, e5b⟩, ⟨e6a, e6b⟩, ⟨e7a, e7b⟩, ⟨e8a, e8b⟩, ⟨e9a, e9b⟩⟩ := idx_facts3 t
  funext a; apply Fin.ext
  match a with
  | ⟨0, _⟩ => show win3_6.index t (0 : Fin 2) * 128 + 1 * p.val = p.val; omega
  | ⟨1, _⟩ => show win3_6.index t (1 : Fin 2) * 128 + 1 * q.val = q.val; omega

/-- Input window 7's block at every point is its whole array. -/
theorem blk3_7 (c : Dev nD) (t : Fin cfg3.N) (p : Fin 1) (q : Fin 128) :
    iblk3 V c 7 t (ix2 p q) = V c main_v103 (ix2 p q) := by
  show V c main_v103 (((cfg3.win 7).blk t).view.emb (ix2 p q)) = _
  refine congrArg (V c main_v103) ?_
  obtain ⟨⟨e0a, e0b⟩, ⟨e1a, e1b⟩, ⟨e2a, e2b⟩, ⟨e3a, e3b⟩, ⟨e4a, e4b⟩, ⟨e5a, e5b⟩, ⟨e6a, e6b⟩, ⟨e7a, e7b⟩, ⟨e8a, e8b⟩, ⟨e9a, e9b⟩⟩ := idx_facts3 t
  funext a; apply Fin.ext
  match a with
  | ⟨0, _⟩ => show win3_7.index t (0 : Fin 2) * 1 + 1 * p.val = p.val; omega
  | ⟨1, _⟩ => show win3_7.index t (1 : Fin 2) * 128 + 1 * q.val = q.val; omega

theorem blkfun3_0 (c : Dev nD) (t : Fin cfg3.N) : iblk3 V c 0 t = rowsBlk (V c main_v81) t.val := by
  funext j
  obtain ⟨p, q, rfl⟩ : ∃ (p : Fin 5000) (q : Fin 128), j = ix2 p q := ⟨j 0, j 1, eq_ix2 j⟩
  have ht : t.val < 10 := lt_of_lt_of_eq t.isLt N_3
  have hp : p.val < 5000 := p.isLt
  rw [blk3_0 V c t p q (by omega)]
  show V c main_v81 _ = V c main_v81 _
  refine congrArg (V c main_v81) ?_
  funext a; apply Fin.ext
  match a with
  | ⟨0, _⟩ => show 5000 * t.val + p.val = (5000 * t.val + p.val) % 50000; omega
  | ⟨1, _⟩ => rfl

theorem blkfun3_1 (c : Dev nD) (t : Fin cfg3.N) : iblk3 V c 1 t = V c main_v85 := by
  funext j
  obtain ⟨p, q, rfl⟩ : ∃ (p : Fin 1) (q : Fin 128), j = ix2 p q := ⟨j 0, j 1, eq_ix2 j⟩
  exact blk3_1 V c t p q

theorem blkfun3_2 (c : Dev nD) (t : Fin cfg3.N) : iblk3 V c 2 t = V c main_v92 := by
  funext j
  obtain ⟨p, q, rfl⟩ : ∃ (p : Fin 1) (q : Fin 128), j = ix2 p q := ⟨j 0, j 1, eq_ix2 j⟩
  exact blk3_2 V c t p q

theorem blkfun3_3 (c : Dev nD) (t : Fin cfg3.N) : iblk3 V c 3 t = V c main_v101 := by
  funext j
  obtain ⟨p, q, rfl⟩ : ∃ (p : Fin 1) (q : Fin 128), j = ix2 p q := ⟨j 0, j 1, eq_ix2 j⟩
  exact blk3_3 V c t p q

theorem blkfun3_4 (c : Dev nD) (t : Fin cfg3.N) : iblk3 V c 4 t = V c main_v102 := by
  funext j
  obtain ⟨p, q, rfl⟩ : ∃ (p : Fin 1) (q : Fin 128), j = ix2 p q := ⟨j 0, j 1, eq_ix2 j⟩
  exact blk3_4 V c t p q

theorem blkfun3_5 (c : Dev nD) (t : Fin cfg3.N) : iblk3 V c 5 t = rowsBlk (V c main_v54_0) t.val := by
  funext j
  obtain ⟨p, q, rfl⟩ : ∃ (p : Fin 5000) (q : Fin 128), j = ix2 p q := ⟨j 0, j 1, eq_ix2 j⟩
  have ht : t.val < 10 := lt_of_lt_of_eq t.isLt N_3
  have hp : p.val < 5000 := p.isLt
  rw [blk3_5 V c t p q (by omega)]
  show V c main_v54_0 _ = V c main_v54_0 _
  refine congrArg (V c main_v54_0) ?_
  funext a; apply Fin.ext
  match a with
  | ⟨0, _⟩ => show 5000 * t.val + p.val = (5000 * t.val + p.val) % 50000; omega
  | ⟨1, _⟩ => rfl

theorem blkfun3_6 (c : Dev nD) (t : Fin cfg3.N) : iblk3 V c 6 t = V c main_v98 := by
  funext j
  obtain ⟨p, q, rfl⟩ : ∃ (p : Fin 128) (q : Fin 128), j = ix2 p q := ⟨j 0, j 1, eq_ix2 j⟩
  exact blk3_6 V c t p q

theorem blkfun3_7 (c : Dev nD) (t : Fin cfg3.N) : iblk3 V c 7 t = V c main_v103 := by
  funext j
  obtain ⟨p, q, rfl⟩ : ∃ (p : Fin 1) (q : Fin 128), j = ix2 p q := ⟨j 0, j 1, eq_ix2 j⟩
  exact blk3_7 V c t p q

/-- The body's one store through the whole block leaves its payload of the loaded blocks. -/
theorem out3_8_eq (x0 : Vec F S5000x128 .f32) (x1 : Vec F S1x128 .f32) (x2 : Vec F S1x128 .f32) (x3 : Vec F S1x128 .f32) (x4 : Vec F S1x128 .f32) (x5 : Vec F S5000x128 .f32) (x6 : Vec F S128x128 .f32) (x7 : Vec F S1x128 .f32) : out3_8 x0 x1 x2 x3 x4 x5 x6 x7 = k3_pay1 x0 x2 x3 x1 x4 x5 := by
  unfold out3_8
  rw [View.canon_unit_zero hz]
  simp only [View.ld_unit_zero (S := S5000x128) hz, View.ld_unit_zero (S := S128x128) hz, View.ld_unit_zero (S := S1x128) hz]

/-- The body's one store through the whole block leaves its payload of the loaded blocks. -/
theorem out3_9_eq (x0 : Vec F S5000x128 .f32) (x1 : Vec F S1x128 .f32) (x2 : Vec F S1x128 .f32) (x3 : Vec F S1x128 .f32) (x4 : Vec F S1x128 .f32) (x5 : Vec F S5000x128 .f32) (x6 : Vec F S128x128 .f32) (x7 : Vec F S1x128 .f32) : out3_9 x0 x1 x2 x3 x4 x5 x6 x7 = k3_pay2 x0 x2 x3 x1 x4 x5 x6 x7 := by
  unfold out3_9
  rw [View.canon_unit_zero hz]
  simp only [View.ld_unit_zero (S := S5000x128) hz, View.ld_unit_zero (S := S128x128) hz, View.ld_unit_zero (S := S1x128) hz]

/-- What output window 8's array holds after the region, as ONE function of the arrays the region found: at row `r`
    the body's arithmetic on block `r / 5000` of the row-blocked inputs, read at row `r % 5000` of the block. -/
def G3_8 (c : Dev nD) : S50000x128.Idx → Elt F .f32 := fun i =>
  (k3_pay1 (rowsBlk (V c main_v81) ((i 0).val / 5000)) (V c main_v92) (V c main_v101) (V c main_v85) (V c main_v102) (rowsBlk (V c main_v54_0) ((i 0).val / 5000))) (ix2 (⟨(i 0).val % 5000, Nat.mod_lt _ (by decide)⟩ : Fin 5000) (⟨(i 1).val, (i 1).isLt⟩ : Fin 128))

/-- What output window 9's array holds after the region, as ONE function of the arrays the region found: at row `r`
    the body's arithmetic on block `r / 5000` of the row-blocked inputs, read at row `r % 5000` of the block. -/
def G3_9 (c : Dev nD) : S50000x128.Idx → Elt F .f32 := fun i =>
  (k3_pay2 (rowsBlk (V c main_v81) ((i 0).val / 5000)) (V c main_v92) (V c main_v101) (V c main_v85) (V c main_v102) (rowsBlk (V c main_v54_0) ((i 0).val / 5000)) (V c main_v98) (V c main_v103)) (ix2 (⟨(i 0).val % 5000, Nat.mod_lt _ (by decide)⟩ : Fin 5000) (⟨(i 1).val, (i 1).isLt⟩ : Fin 128))

/-- What point `t` writes back through output window 8 is block `t` of `G3_8`. -/
theorem flushed3_8 (c : Dev nD) (t : Fin cfg3.N) :
    (dat3 V c).flushed 8 t = ((cfg3.win 8).blk t).view.read (Elt F) (G3_8 V c) := by
  show (cfg3.win 8).cut (grid3.coords t) ((dat3 V c).after 8 t) = _
  rw [after3_8, out3_8_eq]
  simp only [blkfun3_0 V c t, blkfun3_1 V c t, blkfun3_2 V c t, blkfun3_3 V c t, blkfun3_4 V c t, blkfun3_5 V c t, blkfun3_6 V c t, blkfun3_7 V c t]
  obtain ⟨⟨e0a, e0b⟩, ⟨e1a, e1b⟩, ⟨e2a, e2b⟩, ⟨e3a, e3b⟩, ⟨e4a, e4b⟩, ⟨e5a, e5b⟩, ⟨e6a, e6b⟩, ⟨e7a, e7b⟩, ⟨e8a, e8b⟩, ⟨e9a, e9b⟩⟩ := idx_facts3 t
  have ht : t.val < 10 := lt_of_lt_of_eq t.isLt N_3
  funext j
  obtain ⟨p, q, rfl⟩ : ∃ (p : Fin 5000) (q : Fin 128), j = ix2 p q := ⟨j 0, j 1, eq_ix2 j⟩
  have hp : p.val < 5000 := p.isLt
  have hemb0 : ((((cfg3.win 8).blk t).view.emb (ix2 p q)) 0).val = 5000 * t.val + p.val := by
    show win3_8.index t (0 : Fin 2) * 5000 + 1 * p.val = _; omega
  have hemb1 : ((((cfg3.win 8).blk t).view.emb (ix2 p q)) 1).val = q.val := by
    show win3_8.index t (1 : Fin 2) * 128 + 1 * q.val = _; omega
  show (k3_pay1 (rowsBlk (V c main_v81) t.val) (V c main_v92) (V c main_v101) (V c main_v85) (V c main_v102) (rowsBlk (V c main_v54_0) t.val)) (ix2 p q) = G3_8 V c (((cfg3.win 8).blk t).view.emb (ix2 p q))
  unfold G3_8
  have hq : (5000 * t.val + p.val) / 5000 = t.val := by omega
  have hr : (5000 * t.val + p.val) % 5000 = p.val := by omega
  simp only [hemb0, hemb1, hq, hr]

/-- What point `t` writes back through output window 9 is block `t` of `G3_9`. -/
theorem flushed3_9 (c : Dev nD) (t : Fin cfg3.N) :
    (dat3 V c).flushed 9 t = ((cfg3.win 9).blk t).view.read (Elt F) (G3_9 V c) := by
  show (cfg3.win 9).cut (grid3.coords t) ((dat3 V c).after 9 t) = _
  rw [after3_9, out3_9_eq]
  simp only [blkfun3_0 V c t, blkfun3_1 V c t, blkfun3_2 V c t, blkfun3_3 V c t, blkfun3_4 V c t, blkfun3_5 V c t, blkfun3_6 V c t, blkfun3_7 V c t]
  obtain ⟨⟨e0a, e0b⟩, ⟨e1a, e1b⟩, ⟨e2a, e2b⟩, ⟨e3a, e3b⟩, ⟨e4a, e4b⟩, ⟨e5a, e5b⟩, ⟨e6a, e6b⟩, ⟨e7a, e7b⟩, ⟨e8a, e8b⟩, ⟨e9a, e9b⟩⟩ := idx_facts3 t
  have ht : t.val < 10 := lt_of_lt_of_eq t.isLt N_3
  funext j
  obtain ⟨p, q, rfl⟩ : ∃ (p : Fin 5000) (q : Fin 128), j = ix2 p q := ⟨j 0, j 1, eq_ix2 j⟩
  have hp : p.val < 5000 := p.isLt
  have hemb0 : ((((cfg3.win 9).blk t).view.emb (ix2 p q)) 0).val = 5000 * t.val + p.val := by
    show win3_9.index t (0 : Fin 2) * 5000 + 1 * p.val = _; omega
  have hemb1 : ((((cfg3.win 9).blk t).view.emb (ix2 p q)) 1).val = q.val := by
    show win3_9.index t (1 : Fin 2) * 128 + 1 * q.val = _; omega
  show (k3_pay2 (rowsBlk (V c main_v81) t.val) (V c main_v92) (V c main_v101) (V c main_v85) (V c main_v102) (rowsBlk (V c main_v54_0) t.val) (V c main_v98) (V c main_v103)) (ix2 p q) = G3_9 V c (((cfg3.win 9).blk t).view.emb (ix2 p q))
  unfold G3_9
  have hq : (5000 * t.val + p.val) / 5000 = t.val := by omega
  have hr : (5000 * t.val + p.val) % 5000 = p.val := by omega
  simp only [hemb0, hemb1, hq, hr]

/-- The ten blocks fill the array: row `r` is in point `r / 5000`'s block. -/
theorem cover3_8 (i : S50000x128.Idx) : ∃ t : Fin cfg3.N, (cfg3.win 8).flush t = true ∧ i ∈ ((cfg3.win 8).blk t).view.set := by
  have hi0 : (i 0).val < 50000 := (i 0).isLt
  have hi1 : (i 1).val < 128 := (i 1).isLt
  let t : Fin cfg3.N := ⟨(i 0).val / 5000, by rw [show cfg3.N = grid3.N from rfl, N_3]; omega⟩
  obtain ⟨⟨e0a, e0b⟩, ⟨e1a, e1b⟩, ⟨e2a, e2b⟩, ⟨e3a, e3b⟩, ⟨e4a, e4b⟩, ⟨e5a, e5b⟩, ⟨e6a, e6b⟩, ⟨e7a, e7b⟩, ⟨e8a, e8b⟩, ⟨e9a, e9b⟩⟩ := idx_facts3 t
  refine ⟨t, flush3_8 t, ?_⟩
  show i ∈ ((View.whole main_v104_0).slice (win3_8.rect t)).set
  rw [View.set_slice_whole, Rect.mem_set_unit]
  intro a
  have htv : t.val = (i 0).val / 5000 := rfl
  match a with
  | ⟨0, _⟩ => show win3_8.index t (0 : Fin 2) * 5000 ≤ (i 0).val ∧ (i 0).val < win3_8.index t (0 : Fin 2) * 5000 + 5000; omega
  | ⟨1, _⟩ => show win3_8.index t (1 : Fin 2) * 128 ≤ (i 1).val ∧ (i 1).val < win3_8.index t (1 : Fin 2) * 128 + 128; omega

/-- Output window 8's array after the region is `G3_8` of the arrays the region found. -/
theorem final3_8 (c : Dev nD) : (dat3 V c).arrAt 8 cfg3.N = G3_8 V c :=
  (dat3 V c).arrAt_eq_of_cover 8 (G3_8 V c) (fun t _ => flushed3_8 V c t) (cover3_8)

/-- The ten blocks fill the array: row `r` is in point `r / 5000`'s block. -/
theorem cover3_9 (i : S50000x128.Idx) : ∃ t : Fin cfg3.N, (cfg3.win 9).flush t = true ∧ i ∈ ((cfg3.win 9).blk t).view.set := by
  have hi0 : (i 0).val < 50000 := (i 0).isLt
  have hi1 : (i 1).val < 128 := (i 1).isLt
  let t : Fin cfg3.N := ⟨(i 0).val / 5000, by rw [show cfg3.N = grid3.N from rfl, N_3]; omega⟩
  obtain ⟨⟨e0a, e0b⟩, ⟨e1a, e1b⟩, ⟨e2a, e2b⟩, ⟨e3a, e3b⟩, ⟨e4a, e4b⟩, ⟨e5a, e5b⟩, ⟨e6a, e6b⟩, ⟨e7a, e7b⟩, ⟨e8a, e8b⟩, ⟨e9a, e9b⟩⟩ := idx_facts3 t
  refine ⟨t, flush3_9 t, ?_⟩
  show i ∈ ((View.whole main_v104_1).slice (win3_9.rect t)).set
  rw [View.set_slice_whole, Rect.mem_set_unit]
  intro a
  have htv : t.val = (i 0).val / 5000 := rfl
  match a with
  | ⟨0, _⟩ => show win3_9.index t (0 : Fin 2) * 5000 ≤ (i 0).val ∧ (i 0).val < win3_9.index t (0 : Fin 2) * 5000 + 5000; omega
  | ⟨1, _⟩ => show win3_9.index t (1 : Fin 2) * 128 ≤ (i 1).val ∧ (i 1).val < win3_9.index t (1 : Fin 2) * 128 + 128; omega

/-- Output window 9's array after the region is `G3_9` of the arrays the region found. -/
theorem final3_9 (c : Dev nD) : (dat3 V c).arrAt 9 cfg3.N = G3_9 V c :=
  (dat3 V c).arrAt_eq_of_cover 9 (G3_9 V c) (fun t _ => flushed3_9 V c t) (cover3_9)

end Cert.KernelIdeal.Fr

end
-- ==== Proof.FrameIdeal.Stage3.lean ====
/-
  Region 3 at the exact instance: the array it leaves, read at row `r` and column `q`, is the layer's formula of the
  arrays it found — the row-blocked operands at row `r`, the whole operands at their own indices.
-/
import proofs.«142693_j60928406061119_1_alg».proof.Proof.FrameIdeal.Blocks3
import proofs.«142693_j60928406061119_1_alg».proof.Proof.FrameIdeal.StageCommon
import proofs.«142693_j60928406061119_1_alg».proof.Proof.KPay

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.SL Idealize.SL.Sem
open scoped BigOperators

variable (V : (c : Dev nD) → (b : Ref sig .tc) → Buf (Elt Ideal) ((c : Thread nD τ).loc b))

/-- The normalisation region's new features at `(r, q)`, given that the mean and variance rows it found are the column
    means and variances of the `z` it found. -/
theorem G3_8_apply (c : Dev nD)
    (hmu : ∀ q : Fin 128, V c main_v85 (ix2 0 q) = Cert.Spec.muOf (fun r q => V c main_v81 (ix2 r q)) q)
    (hvar : ∀ q : Fin 128, V c main_v92 (ix2 0 q) = Cert.Spec.varOf (fun r q => V c main_v81 (ix2 r q)) q)
    (r : Fin 50000) (q : Fin 128) :
    G3_8 (F := Ideal) V c (ix2 r q)
      = Cert.Spec.hNext (fun r q => V c main_v81 (ix2 r q)) (fun q => V c main_v101 (ix2 0 q)) (fun q => V c main_v102 (ix2 0 q))
          (fun r q => V c main_v54_0 (ix2 r q)) r q := by
  show (k3_pay1 (F := Ideal) (rowsBlk (V c main_v81) (r.val / 5000)) (V c main_v92) (V c main_v101) (V c main_v85) (V c main_v102) (rowsBlk (V c main_v54_0) (r.val / 5000)))
      (ix2 (⟨r.val % 5000, Nat.mod_lt _ (by decide)⟩ : Fin 5000) q) = _
  rw [Cert.KernelIdeal.KPay.bnh3]
  unfold Cert.Spec.hNext Cert.Spec.normOf
  simp only [rowsBlk_apply, hmu, hvar]

/-- The normalisation region's projected output at `(r, q)`: the projection of the new features' row `r`. -/
theorem G3_9_apply (c : Dev nD) (r : Fin 50000) (q : Fin 128) :
    G3_9 (F := Ideal) V c (ix2 r q)
      = Cert.Spec.outOf (fun r k => G3_8 (F := Ideal) V c (ix2 r k)) (fun k q => V c main_v98 (ix2 k q)) (fun q => V c main_v103 (ix2 0 q)) r q := by
  show (k3_pay2 (F := Ideal) (rowsBlk (V c main_v81) (r.val / 5000)) (V c main_v92) (V c main_v101) (V c main_v85) (V c main_v102) (rowsBlk (V c main_v54_0) (r.val / 5000)) (V c main_v98) (V c main_v103))
      (ix2 (⟨r.val % 5000, Nat.mod_lt _ (by decide)⟩ : Fin 5000) q) = _
  rw [Cert.KernelIdeal.KPay.bno3]
  rfl

end Cert.KernelIdeal.Fr

end
-- ==== Proof.FrameIdeal.Blocks4.lean ====
/-
  Region 4, from blocks to arrays. The grid's ten points each take block `t` (rows 5000·t … 5000·t + 4999) of the
  row-blocked operands and the whole of the others; what a point writes back is the body's arithmetic on those
  blocks; the ten written blocks fill the output array, so after the region the array is one function of the arrays
  the region found.
-/
import proofs.«142693_j60928406061119_1_alg».proof.Proof.FrameIdeal.Region4
import proofs.«142693_j60928406061119_1_alg».proof.Proof.FrameIdeal.BlocksCommon

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

/-- The windows' index maps over the grid: a row-blocked window is at block `(t, 0)`, every other window at `(0, 0)`. -/
theorem idx_facts4 : ∀ t : Fin cfg4.N,
    (win4_0.index t (0 : Fin 2) = t.val ∧ win4_0.index t (1 : Fin 2) = 0)
    ∧ (win4_1.index t (0 : Fin 2) = 0 ∧ win4_1.index t (1 : Fin 2) = 0)
    ∧ (win4_2.index t (0 : Fin 2) = 0 ∧ win4_2.index t (1 : Fin 2) = 0)
    ∧ (win4_3.index t (0 : Fin 2) = 0 ∧ win4_3.index t (1 : Fin 2) = 0)
    ∧ (win4_4.index t (0 : Fin 2) = 0 ∧ win4_4.index t (1 : Fin 2) = 0)
    ∧ (win4_5.index t (0 : Fin 2) = t.val ∧ win4_5.index t (1 : Fin 2) = 0) :=
  (by decide +kernel : ∀ t : Fin grid4.N, _)

/-- Input window 0's block at point `t` is rows `5000·t …` of its array. -/
theorem blk4_0 (c : Dev nD) (t : Fin cfg4.N) (p : Fin 5000) (q : Fin 128) (h : 5000 * t.val + p.val < 50000) :
    iblk4 V c 0 t (ix2 p q) = V c main_v120 (ix2 (⟨5000 * t.val + p.val, h⟩ : Fin 50000) q) := by
  show V c main_v120 (((cfg4.win 0).blk t).view.emb (ix2 p q)) = _
  refine congrArg (V c main_v120) ?_
  obtain ⟨⟨e0a, e0b⟩, ⟨e1a, e1b⟩, ⟨e2a, e2b⟩, ⟨e3a, e3b⟩, ⟨e4a, e4b⟩, ⟨e5a, e5b⟩⟩ := idx_facts4 t
  funext a; apply Fin.ext
  match a with
  | ⟨0, _⟩ => show win4_0.index t (0 : Fin 2) * 5000 + 1 * p.val = 5000 * t.val + p.val; omega
  | ⟨1, _⟩ => show win4_0.index t (1 : Fin 2) * 128 + 1 * q.val = q.val; omega

/-- Input window 1's block at every point is its whole array. -/
theorem blk4_1 (c : Dev nD) (t : Fin cfg4.N) (p : Fin 128) (q : Fin 128) :
    iblk4 V c 1 t (ix2 p q) = V c main_v122 (ix2 p q) := by
  show V c main_v122 (((cfg4.win 1).blk t).view.emb (ix2 p q)) = _
  refine congrArg (V c main_v122) ?_
  obtain ⟨⟨e0a, e0b⟩, ⟨e1a, e1b⟩, ⟨e2a, e2b⟩, ⟨e3a, e3b⟩, ⟨e4a, e4b⟩, ⟨e5a, e5b⟩⟩ := idx_facts4 t
  funext a; apply Fin.ext
  match a with
  | ⟨0, _⟩ => show win4_1.index t (0 : Fin 2) * 128 + 1 * p.val = p.val; omega
  | ⟨1, _⟩ => show win4_1.index t (1 : Fin 2) * 128 + 1 * q.val = q.val; omega

/-- Input window 2's block at every point is its whole array. -/
theorem blk4_2 (c : Dev nD) (t : Fin cfg4.N) (p : Fin 1) (q : Fin 128) :
    iblk4 V c 2 t (ix2 p q) = V c main_v129 (ix2 p q) := by
  show V c main_v129 (((cfg4.win 2).blk t).view.emb (ix2 p q)) = _
  refine congrArg (V c main_v129) ?_
  obtain ⟨⟨e0a, e0b⟩, ⟨e1a, e1b⟩, ⟨e2a, e2b⟩, ⟨e3a, e3b⟩, ⟨e4a, e4b⟩, ⟨e5a, e5b⟩⟩ := idx_facts4 t
  funext a; apply Fin.ext
  match a with
  | ⟨0, _⟩ => show win4_2.index t (0 : Fin 2) * 1 + 1 * p.val = p.val; omega
  | ⟨1, _⟩ => show win4_2.index t (1 : Fin 2) * 128 + 1 * q.val = q.val; omega

/-- Input window 3's block at every point is its whole array. -/
theorem blk4_3 (c : Dev nD) (t : Fin cfg4.N) (p : Fin 128) (q : Fin 128) :
    iblk4 V c 3 t (ix2 p q) = V c main_v126 (ix2 p q) := by
  show V c main_v126 (((cfg4.win 3).blk t).view.emb (ix2 p q)) = _
  refine congrArg (V c main_v126) ?_
  obtain ⟨⟨e0a, e0b⟩, ⟨e1a, e1b⟩, ⟨e2a, e2b⟩, ⟨e3a, e3b⟩, ⟨e4a, e4b⟩, ⟨e5a, e5b⟩⟩ := idx_facts4 t
  funext a; apply Fin.ext
  match a with
  | ⟨0, _⟩ => show win4_3.index t (0 : Fin 2) * 128 + 1 * p.val = p.val; omega
  | ⟨1, _⟩ => show win4_3.index t (1 : Fin 2) * 128 + 1 * q.val = q.val; omega

/-- Input window 4's block at every point is its whole array. -/
theorem blk4_4 (c : Dev nD) (t : Fin cfg4.N) (p : Fin 1) (q : Fin 128) :
    iblk4 V c 4 t (ix2 p q) = V c main_v130 (ix2 p q) := by
  show V c main_v130 (((cfg4.win 4).blk t).view.emb (ix2 p q)) = _
  refine congrArg (V c main_v130) ?_
  obtain ⟨⟨e0a, e0b⟩, ⟨e1a, e1b⟩, ⟨e2a, e2b⟩, ⟨e3a, e3b⟩, ⟨e4a, e4b⟩, ⟨e5a, e5b⟩⟩ := idx_facts4 t
  funext a; apply Fin.ext
  match a with
  | ⟨0, _⟩ => show win4_4.index t (0 : Fin 2) * 1 + 1 * p.val = p.val; omega
  | ⟨1, _⟩ => show win4_4.index t (1 : Fin 2) * 128 + 1 * q.val = q.val; omega

theorem blkfun4_0 (c : Dev nD) (t : Fin cfg4.N) : iblk4 V c 0 t = rowsBlk (V c main_v120) t.val := by
  funext j
  obtain ⟨p, q, rfl⟩ : ∃ (p : Fin 5000) (q : Fin 128), j = ix2 p q := ⟨j 0, j 1, eq_ix2 j⟩
  have ht : t.val < 10 := lt_of_lt_of_eq t.isLt N_4
  have hp : p.val < 5000 := p.isLt
  rw [blk4_0 V c t p q (by omega)]
  show V c main_v120 _ = V c main_v120 _
  refine congrArg (V c main_v120) ?_
  funext a; apply Fin.ext
  match a with
  | ⟨0, _⟩ => show 5000 * t.val + p.val = (5000 * t.val + p.val) % 50000; omega
  | ⟨1, _⟩ => rfl

theorem blkfun4_1 (c : Dev nD) (t : Fin cfg4.N) : iblk4 V c 1 t = V c main_v122 := by
  funext j
  obtain ⟨p, q, rfl⟩ : ∃ (p : Fin 128) (q : Fin 128), j = ix2 p q := ⟨j 0, j 1, eq_ix2 j⟩
  exact blk4_1 V c t p q

theorem blkfun4_2 (c : Dev nD) (t : Fin cfg4.N) : iblk4 V c 2 t = V c main_v129 := by
  funext j
  obtain ⟨p, q, rfl⟩ : ∃ (p : Fin 1) (q : Fin 128), j = ix2 p q := ⟨j 0, j 1, eq_ix2 j⟩
  exact blk4_2 V c t p q

theorem blkfun4_3 (c : Dev nD) (t : Fin cfg4.N) : iblk4 V c 3 t = V c main_v126 := by
  funext j
  obtain ⟨p, q, rfl⟩ : ∃ (p : Fin 128) (q : Fin 128), j = ix2 p q := ⟨j 0, j 1, eq_ix2 j⟩
  exact blk4_3 V c t p q

theorem blkfun4_4 (c : Dev nD) (t : Fin cfg4.N) : iblk4 V c 4 t = V c main_v130 := by
  funext j
  obtain ⟨p, q, rfl⟩ : ∃ (p : Fin 1) (q : Fin 128), j = ix2 p q := ⟨j 0, j 1, eq_ix2 j⟩
  exact blk4_4 V c t p q

/-- The body's one store through the whole block leaves its payload of the loaded blocks. -/
theorem out4_5_eq (x0 : Vec F S5000x128 .f32) (x1 : Vec F S128x128 .f32) (x2 : Vec F S1x128 .f32) (x3 : Vec F S128x128 .f32) (x4 : Vec F S1x128 .f32) : out4_5 x0 x1 x2 x3 x4 = k4_pay1 x0 x1 x2 x3 x4 := by
  unfold out4_5
  rw [View.canon_unit_zero hz]
  simp only [View.ld_unit_zero (S := S5000x128) hz, View.ld_unit_zero (S := S128x128) hz, View.ld_unit_zero (S := S1x128) hz]

/-- What output window 5's array holds after the region, as ONE function of the arrays the region found: at row `r`
    the body's arithmetic on block `r / 5000` of the row-blocked inputs, read at row `r % 5000` of the block. -/
def G4_5 (c : Dev nD) : S50000x128.Idx → Elt F .f32 := fun i =>
  (k4_pay1 (rowsBlk (V c main_v120) ((i 0).val / 5000)) (V c main_v122) (V c main_v129) (V c main_v126) (V c main_v130)) (ix2 (⟨(i 0).val % 5000, Nat.mod_lt _ (by decide)⟩ : Fin 5000) (⟨(i 1).val, (i 1).isLt⟩ : Fin 128))

/-- What point `t` writes back through output window 5 is block `t` of `G4_5`. -/
theorem flushed4_5 (c : Dev nD) (t : Fin cfg4.N) :
    (dat4 V c).flushed 5 t = ((cfg4.win 5).blk t).view.read (Elt F) (G4_5 V c) := by
  show (cfg4.win 5).cut (grid4.coords t) ((dat4 V c).after 5 t) = _
  rw [after4_5, out4_5_eq]
  simp only [blkfun4_0 V c t, blkfun4_1 V c t, blkfun4_2 V c t, blkfun4_3 V c t, blkfun4_4 V c t]
  obtain ⟨⟨e0a, e0b⟩, ⟨e1a, e1b⟩, ⟨e2a, e2b⟩, ⟨e3a, e3b⟩, ⟨e4a, e4b⟩, ⟨e5a, e5b⟩⟩ := idx_facts4 t
  have ht : t.val < 10 := lt_of_lt_of_eq t.isLt N_4
  funext j
  obtain ⟨p, q, rfl⟩ : ∃ (p : Fin 5000) (q : Fin 128), j = ix2 p q := ⟨j 0, j 1, eq_ix2 j⟩
  have hp : p.val < 5000 := p.isLt
  have hemb0 : ((((cfg4.win 5).blk t).view.emb (ix2 p q)) 0).val = 5000 * t.val + p.val := by
    show win4_5.index t (0 : Fin 2) * 5000 + 1 * p.val = _; omega
  have hemb1 : ((((cfg4.win 5).blk t).view.emb (ix2 p q)) 1).val = q.val := by
    show win4_5.index t (1 : Fin 2) * 128 + 1 * q.val = _; omega
  show (k4_pay1 (rowsBlk (V c main_v120) t.val) (V c main_v122) (V c main_v129) (V c main_v126) (V c main_v130)) (ix2 p q) = G4_5 V c (((cfg4.win 5).blk t).view.emb (ix2 p q))
  unfold G4_5
  have hq : (5000 * t.val + p.val) / 5000 = t.val := by omega
  have hr : (5000 * t.val + p.val) % 5000 = p.val := by omega
  simp only [hemb0, hemb1, hq, hr]

/-- The ten blocks fill the array: row `r` is in point `r / 5000`'s block. -/
theorem cover4_5 (i : S50000x128.Idx) : ∃ t : Fin cfg4.N, (cfg4.win 5).flush t = true ∧ i ∈ ((cfg4.win 5).blk t).view.set := by
  have hi0 : (i 0).val < 50000 := (i 0).isLt
  have hi1 : (i 1).val < 128 := (i 1).isLt
  let t : Fin cfg4.N := ⟨(i 0).val / 5000, by rw [show cfg4.N = grid4.N from rfl, N_4]; omega⟩
  obtain ⟨⟨e0a, e0b⟩, ⟨e1a, e1b⟩, ⟨e2a, e2b⟩, ⟨e3a, e3b⟩, ⟨e4a, e4b⟩, ⟨e5a, e5b⟩⟩ := idx_facts4 t
  refine ⟨t, flush4_5 t, ?_⟩
  show i ∈ ((View.whole main_v131).slice (win4_5.rect t)).set
  rw [View.set_slice_whole, Rect.mem_set_unit]
  intro a
  have htv : t.val = (i 0).val / 5000 := rfl
  match a with
  | ⟨0, _⟩ => show win4_5.index t (0 : Fin 2) * 5000 ≤ (i 0).val ∧ (i 0).val < win4_5.index t (0 : Fin 2) * 5000 + 5000; omega
  | ⟨1, _⟩ => show win4_5.index t (1 : Fin 2) * 128 ≤ (i 1).val ∧ (i 1).val < win4_5.index t (1 : Fin 2) * 128 + 128; omega

/-- Output window 5's array after the region is `G4_5` of the arrays the region found. -/
theorem final4_5 (c : Dev nD) : (dat4 V c).arrAt 5 cfg4.N = G4_5 V c :=
  (dat4 V c).arrAt_eq_of_cover 5 (G4_5 V c) (fun t _ => flushed4_5 V c t) (cover4_5)

end Cert.KernelIdeal.Fr

end
-- ==== Proof.FrameIdeal.Stage4.lean ====
/-
  Region 4 at the exact instance: the array it leaves, read at row `r` and column `q`, is the layer's formula of the
  arrays it found — the row-blocked operands at row `r`, the whole operands at their own indices.
-/
import proofs.«142693_j60928406061119_1_alg».proof.Proof.FrameIdeal.Blocks4
import proofs.«142693_j60928406061119_1_alg».proof.Proof.FrameIdeal.StageCommon
import proofs.«142693_j60928406061119_1_alg».proof.Proof.KPay

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.SL Idealize.SL.Sem
open scoped BigOperators

variable (V : (c : Dev nD) → (b : Ref sig .tc) → Buf (Elt Ideal) ((c : Thread nD τ).loc b))

/-- The perceptron region's output at `(r, q)`. -/
theorem G4_5_apply (c : Dev nD) (r : Fin 50000) (q : Fin 128) :
    G4_5 (F := Ideal) V c (ix2 r q)
      = Cert.Spec.zOf (fun r j => V c main_v120 (ix2 r j)) (fun j k => V c main_v122 (ix2 j k)) (fun k => V c main_v129 (ix2 0 k))
          (fun j k => V c main_v126 (ix2 j k)) (fun k => V c main_v130 (ix2 0 k)) r q := by
  show (k4_pay1 (F := Ideal) (rowsBlk (V c main_v120) (r.val / 5000)) (V c main_v122) (V c main_v129) (V c main_v126) (V c main_v130))
      (ix2 (⟨r.val % 5000, Nat.mod_lt _ (by decide)⟩ : Fin 5000) q) = _
  rw [Cert.KernelIdeal.KPay.mlp4]
  unfold Cert.Spec.zOf
  simp only [rowsBlk_apply]

end Cert.KernelIdeal.Fr

end
-- ==== Proof.FrameIdeal.Blocks5.lean ====
/-
  Region 5, from blocks to arrays. The grid's ten points each take block `t` (rows 5000·t … 5000·t + 4999) of the
  row-blocked operands and the whole of the others; what a point writes back is the body's arithmetic on those
  blocks; the ten written blocks fill the output array, so after the region the array is one function of the arrays
  the region found.
-/
import proofs.«142693_j60928406061119_1_alg».proof.Proof.FrameIdeal.Region5
import proofs.«142693_j60928406061119_1_alg».proof.Proof.FrameIdeal.BlocksCommon

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

/-- The windows' index maps over the grid: a row-blocked window is at block `(t, 0)`, every other window at `(0, 0)`. -/
theorem idx_facts5 : ∀ t : Fin cfg5.N,
    (win5_0.index t (0 : Fin 2) = t.val ∧ win5_0.index t (1 : Fin 2) = 0)
    ∧ (win5_1.index t (0 : Fin 2) = 0 ∧ win5_1.index t (1 : Fin 2) = 0)
    ∧ (win5_2.index t (0 : Fin 2) = 0 ∧ win5_2.index t (1 : Fin 2) = 0)
    ∧ (win5_3.index t (0 : Fin 2) = 0 ∧ win5_3.index t (1 : Fin 2) = 0)
    ∧ (win5_4.index t (0 : Fin 2) = 0 ∧ win5_4.index t (1 : Fin 2) = 0)
    ∧ (win5_5.index t (0 : Fin 2) = t.val ∧ win5_5.index t (1 : Fin 2) = 0)
    ∧ (win5_6.index t (0 : Fin 2) = 0 ∧ win5_6.index t (1 : Fin 2) = 0)
    ∧ (win5_7.index t (0 : Fin 2) = 0 ∧ win5_7.index t (1 : Fin 2) = 0)
    ∧ (win5_8.index t (0 : Fin 2) = t.val ∧ win5_8.index t (1 : Fin 2) = 0)
    ∧ (win5_9.index t (0 : Fin 2) = t.val ∧ win5_9.index t (1 : Fin 2) = 0) :=
  (by decide +kernel : ∀ t : Fin grid5.N, _)

/-- Input window 0's block at point `t` is rows `5000·t …` of its array. -/
theorem blk5_0 (c : Dev nD) (t : Fin cfg5.N) (p : Fin 5000) (q : Fin 128) (h : 5000 * t.val + p.val < 50000) :
    iblk5 V c 0 t (ix2 p q) = V c main_v131 (ix2 (⟨5000 * t.val + p.val, h⟩ : Fin 50000) q) := by
  show V c main_v131 (((cfg5.win 0).blk t).view.emb (ix2 p q)) = _
  refine congrArg (V c main_v131) ?_
  obtain ⟨⟨e0a, e0b⟩, ⟨e1a, e1b⟩, ⟨e2a, e2b⟩, ⟨e3a, e3b⟩, ⟨e4a, e4b⟩, ⟨e5a, e5b⟩, ⟨e6a, e6b⟩, ⟨e7a, e7b⟩, ⟨e8a, e8b⟩, ⟨e9a, e9b⟩⟩ := idx_facts5 t
  funext a; apply Fin.ext
  match a with
  | ⟨0, _⟩ => show win5_0.index t (0 : Fin 2) * 5000 + 1 * p.val = 5000 * t.val + p.val; omega
  | ⟨1, _⟩ => show win5_0.index t (1 : Fin 2) * 128 + 1 * q.val = q.val; omega

/-- Input window 1's block at every point is its whole array. -/
theorem blk5_1 (c : Dev nD) (t : Fin cfg5.N) (p : Fin 1) (q : Fin 128) :
    iblk5 V c 1 t (ix2 p q) = V c main_v135 (ix2 p q) := by
  show V c main_v135 (((cfg5.win 1).blk t).view.emb (ix2 p q)) = _
  refine congrArg (V c main_v135) ?_
  obtain ⟨⟨e0a, e0b⟩, ⟨e1a, e1b⟩, ⟨e2a, e2b⟩, ⟨e3a, e3b⟩, ⟨e4a, e4b⟩, ⟨e5a, e5b⟩, ⟨e6a, e6b⟩, ⟨e7a, e7b⟩, ⟨e8a, e8b⟩, ⟨e9a, e9b⟩⟩ := idx_facts5 t
  funext a; apply Fin.ext
  match a with
  | ⟨0, _⟩ => show win5_1.index t (0 : Fin 2) * 1 + 1 * p.val = p.val; omega
  | ⟨1, _⟩ => show win5_1.index t (1 : Fin 2) * 128 + 1 * q.val = q.val; omega

/-- Input window 2's block at every point is its whole array. -/
theorem blk5_2 (c : Dev nD) (t : Fin cfg5.N) (p : Fin 1) (q : Fin 128) :
    iblk5 V c 2 t (ix2 p q) = V c main_v142 (ix2 p q) := by
  show V c main_v142 (((cfg5.win 2).blk t).view.emb (ix2 p q)) = _
  refine congrArg (V c main_v142) ?_
  obtain ⟨⟨e0a, e0b⟩, ⟨e1a, e1b⟩, ⟨e2a, e2b⟩, ⟨e3a, e3b⟩, ⟨e4a, e4b⟩, ⟨e5a, e5b⟩, ⟨e6a, e6b⟩, ⟨e7a, e7b⟩, ⟨e8a, e8b⟩, ⟨e9a, e9b⟩⟩ := idx_facts5 t
  funext a; apply Fin.ext
  match a with
  | ⟨0, _⟩ => show win5_2.index t (0 : Fin 2) * 1 + 1 * p.val = p.val; omega
  | ⟨1, _⟩ => show win5_2.index t (1 : Fin 2) * 128 + 1 * q.val = q.val; omega

/-- Input window 3's block at every point is its whole array. -/
theorem blk5_3 (c : Dev nD) (t : Fin cfg5.N) (p : Fin 1) (q : Fin 128) :
    iblk5 V c 3 t (ix2 p q) = V c main_v151 (ix2 p q) := by
  show V c main_v151 (((cfg5.win 3).blk t).view.emb (ix2 p q)) = _
  refine congrArg (V c main_v151) ?_
  obtain ⟨⟨e0a, e0b⟩, ⟨e1a, e1b⟩, ⟨e2a, e2b⟩, ⟨e3a, e3b⟩, ⟨e4a, e4b⟩, ⟨e5a, e5b⟩, ⟨e6a, e6b⟩, ⟨e7a, e7b⟩, ⟨e8a, e8b⟩, ⟨e9a, e9b⟩⟩ := idx_facts5 t
  funext a; apply Fin.ext
  match a with
  | ⟨0, _⟩ => show win5_3.index t (0 : Fin 2) * 1 + 1 * p.val = p.val; omega
  | ⟨1, _⟩ => show win5_3.index t (1 : Fin 2) * 128 + 1 * q.val = q.val; omega

/-- Input window 4's block at every point is its whole array. -/
theorem blk5_4 (c : Dev nD) (t : Fin cfg5.N) (p : Fin 1) (q : Fin 128) :
    iblk5 V c 4 t (ix2 p q) = V c main_v152 (ix2 p q) := by
  show V c main_v152 (((cfg5.win 4).blk t).view.emb (ix2 p q)) = _
  refine congrArg (V c main_v152) ?_
  obtain ⟨⟨e0a, e0b⟩, ⟨e1a, e1b⟩, ⟨e2a, e2b⟩, ⟨e3a, e3b⟩, ⟨e4a, e4b⟩, ⟨e5a, e5b⟩, ⟨e6a, e6b⟩, ⟨e7a, e7b⟩, ⟨e8a, e8b⟩, ⟨e9a, e9b⟩⟩ := idx_facts5 t
  funext a; apply Fin.ext
  match a with
  | ⟨0, _⟩ => show win5_4.index t (0 : Fin 2) * 1 + 1 * p.val = p.val; omega
  | ⟨1, _⟩ => show win5_4.index t (1 : Fin 2) * 128 + 1 * q.val = q.val; omega

/-- Input window 5's block at point `t` is rows `5000·t …` of its array. -/
theorem blk5_5 (c : Dev nD) (t : Fin cfg5.N) (p : Fin 5000) (q : Fin 128) (h : 5000 * t.val + p.val < 50000) :
    iblk5 V c 5 t (ix2 p q) = V c main_v104_0 (ix2 (⟨5000 * t.val + p.val, h⟩ : Fin 50000) q) := by
  show V c main_v104_0 (((cfg5.win 5).blk t).view.emb (ix2 p q)) = _
  refine congrArg (V c main_v104_0) ?_
  obtain ⟨⟨e0a, e0b⟩, ⟨e1a, e1b⟩, ⟨e2a, e2b⟩, ⟨e3a, e3b⟩, ⟨e4a, e4b⟩, ⟨e5a, e5b⟩, ⟨e6a, e6b⟩, ⟨e7a, e7b⟩, ⟨e8a, e8b⟩, ⟨e9a, e9b⟩⟩ := idx_facts5 t
  funext a; apply Fin.ext
  match a with
  | ⟨0, _⟩ => show win5_5.index t (0 : Fin 2) * 5000 + 1 * p.val = 5000 * t.val + p.val; omega
  | ⟨1, _⟩ => show win5_5.index t (1 : Fin 2) * 128 + 1 * q.val = q.val; omega

/-- Input window 6's block at every point is its whole array. -/
theorem blk5_6 (c : Dev nD) (t : Fin cfg5.N) (p : Fin 128) (q : Fin 128) :
    iblk5 V c 6 t (ix2 p q) = V c main_v148 (ix2 p q) := by
  show V c main_v148 (((cfg5.win 6).blk t).view.emb (ix2 p q)) = _
  refine congrArg (V c main_v148) ?_
  obtain ⟨⟨e0a, e0b⟩, ⟨e1a, e1b⟩, ⟨e2a, e2b⟩, ⟨e3a, e3b⟩, ⟨e4a, e4b⟩, ⟨e5a, e5b⟩, ⟨e6a, e6b⟩, ⟨e7a, e7b⟩, ⟨e8a, e8b⟩, ⟨e9a, e9b⟩⟩ := idx_facts5 t
  funext a; apply Fin.ext
  match a with
  | ⟨0, _⟩ => show win5_6.index t (0 : Fin 2) * 128 + 1 * p.val = p.val; omega
  | ⟨1, _⟩ => show win5_6.index t (1 : Fin 2) * 128 + 1 * q.val = q.val; omega

/-- Input window 7's block at every point is its whole array. -/
theorem blk5_7 (c : Dev nD) (t : Fin cfg5.N) (p : Fin 1) (q : Fin 128) :
    iblk5 V c 7 t (ix2 p q) = V c main_v153 (ix2 p q) := by
  show V c main_v153 (((cfg5.win 7).blk t).view.emb (ix2 p q)) = _
  refine congrArg (V c main_v153) ?_
  obtain ⟨⟨e0a, e0b⟩, ⟨e1a, e1b⟩, ⟨e2a, e2b⟩, ⟨e3a, e3b⟩, ⟨e4a, e4b⟩, ⟨e5a, e5b⟩, ⟨e6a, e6b⟩, ⟨e7a, e7b⟩, ⟨e8a, e8b⟩, ⟨e9a, e9b⟩⟩ := idx_facts5 t
  funext a; apply Fin.ext
  match a with
  | ⟨0, _⟩ => show win5_7.index t (0 : Fin 2) * 1 + 1 * p.val = p.val; omega
  | ⟨1, _⟩ => show win5_7.index t (1 : Fin 2) * 128 + 1 * q.val = q.val; omega

theorem blkfun5_0 (c : Dev nD) (t : Fin cfg5.N) : iblk5 V c 0 t = rowsBlk (V c main_v131) t.val := by
  funext j
  obtain ⟨p, q, rfl⟩ : ∃ (p : Fin 5000) (q : Fin 128), j = ix2 p q := ⟨j 0, j 1, eq_ix2 j⟩
  have ht : t.val < 10 := lt_of_lt_of_eq t.isLt N_5
  have hp : p.val < 5000 := p.isLt
  rw [blk5_0 V c t p q (by omega)]
  show V c main_v131 _ = V c main_v131 _
  refine congrArg (V c main_v131) ?_
  funext a; apply Fin.ext
  match a with
  | ⟨0, _⟩ => show 5000 * t.val + p.val = (5000 * t.val + p.val) % 50000; omega
  | ⟨1, _⟩ => rfl

theorem blkfun5_1 (c : Dev nD) (t : Fin cfg5.N) : iblk5 V c 1 t = V c main_v135 := by
  funext j
  obtain ⟨p, q, rfl⟩ : ∃ (p : Fin 1) (q : Fin 128), j = ix2 p q := ⟨j 0, j 1, eq_ix2 j⟩
  exact blk5_1 V c t p q

theorem blkfun5_2 (c : Dev nD) (t : Fin cfg5.N) : iblk5 V c 2 t = V c main_v142 := by
  funext j
  obtain ⟨p, q, rfl⟩ : ∃ (p : Fin 1) (q : Fin 128), j = ix2 p q := ⟨j 0, j 1, eq_ix2 j⟩
  exact blk5_2 V c t p q

theorem blkfun5_3 (c : Dev nD) (t : Fin cfg5.N) : iblk5 V c 3 t = V c main_v151 := by
  funext j
  obtain ⟨p, q, rfl⟩ : ∃ (p : Fin 1) (q : Fin 128), j = ix2 p q := ⟨j 0, j 1, eq_ix2 j⟩
  exact blk5_3 V c t p q

theorem blkfun5_4 (c : Dev nD) (t : Fin cfg5.N) : iblk5 V c 4 t = V c main_v152 := by
  funext j
  obtain ⟨p, q, rfl⟩ : ∃ (p : Fin 1) (q : Fin 128), j = ix2 p q := ⟨j 0, j 1, eq_ix2 j⟩
  exact blk5_4 V c t p q

theorem blkfun5_5 (c : Dev nD) (t : Fin cfg5.N) : iblk5 V c 5 t = rowsBlk (V c main_v104_0) t.val := by
  funext j
  obtain ⟨p, q, rfl⟩ : ∃ (p : Fin 5000) (q : Fin 128), j = ix2 p q := ⟨j 0, j 1, eq_ix2 j⟩
  have ht : t.val < 10 := lt_of_lt_of_eq t.isLt N_5
  have hp : p.val < 5000 := p.isLt
  rw [blk5_5 V c t p q (by omega)]
  show V c main_v104_0 _ = V c main_v104_0 _
  refine congrArg (V c main_v104_0) ?_
  funext a; apply Fin.ext
  match a with
  | ⟨0, _⟩ => show 5000 * t.val + p.val = (5000 * t.val + p.val) % 50000; omega
  | ⟨1, _⟩ => rfl

theorem blkfun5_6 (c : Dev nD) (t : Fin cfg5.N) : iblk5 V c 6 t = V c main_v148 := by
  funext j
  obtain ⟨p, q, rfl⟩ : ∃ (p : Fin 128) (q : Fin 128), j = ix2 p q := ⟨j 0, j 1, eq_ix2 j⟩
  exact blk5_6 V c t p q

theorem blkfun5_7 (c : Dev nD) (t : Fin cfg5.N) : iblk5 V c 7 t = V c main_v153 := by
  funext j
  obtain ⟨p, q, rfl⟩ : ∃ (p : Fin 1) (q : Fin 128), j = ix2 p q := ⟨j 0, j 1, eq_ix2 j⟩
  exact blk5_7 V c t p q

/-- The body's one store through the whole block leaves its payload of the loaded blocks. -/
theorem out5_8_eq (x0 : Vec F S5000x128 .f32) (x1 : Vec F S1x128 .f32) (x2 : Vec F S1x128 .f32) (x3 : Vec F S1x128 .f32) (x4 : Vec F S1x128 .f32) (x5 : Vec F S5000x128 .f32) (x6 : Vec F S128x128 .f32) (x7 : Vec F S1x128 .f32) : out5_8 x0 x1 x2 x3 x4 x5 x6 x7 = k5_pay1 x0 x2 x3 x1 x4 x5 := by
  unfold out5_8
  rw [View.canon_unit_zero hz]
  simp only [View.ld_unit_zero (S := S5000x128) hz, View.ld_unit_zero (S := S128x128) hz, View.ld_unit_zero (S := S1x128) hz]

/-- The body's one store through the whole block leaves its payload of the loaded blocks. -/
theorem out5_9_eq (x0 : Vec F S5000x128 .f32) (x1 : Vec F S1x128 .f32) (x2 : Vec F S1x128 .f32) (x3 : Vec F S1x128 .f32) (x4 : Vec F S1x128 .f32) (x5 : Vec F S5000x128 .f32) (x6 : Vec F S128x128 .f32) (x7 : Vec F S1x128 .f32) : out5_9 x0 x1 x2 x3 x4 x5 x6 x7 = k5_pay2 x0 x2 x3 x1 x4 x5 x6 x7 := by
  unfold out5_9
  rw [View.canon_unit_zero hz]
  simp only [View.ld_unit_zero (S := S5000x128) hz, View.ld_unit_zero (S := S128x128) hz, View.ld_unit_zero (S := S1x128) hz]

/-- What output window 8's array holds after the region, as ONE function of the arrays the region found: at row `r`
    the body's arithmetic on block `r / 5000` of the row-blocked inputs, read at row `r % 5000` of the block. -/
def G5_8 (c : Dev nD) : S50000x128.Idx → Elt F .f32 := fun i =>
  (k5_pay1 (rowsBlk (V c main_v131) ((i 0).val / 5000)) (V c main_v142) (V c main_v151) (V c main_v135) (V c main_v152) (rowsBlk (V c main_v104_0) ((i 0).val / 5000))) (ix2 (⟨(i 0).val % 5000, Nat.mod_lt _ (by decide)⟩ : Fin 5000) (⟨(i 1).val, (i 1).isLt⟩ : Fin 128))

/-- What output window 9's array holds after the region, as ONE function of the arrays the region found: at row `r`
    the body's arithmetic on block `r / 5000` of the row-blocked inputs, read at row `r % 5000` of the block. -/
def G5_9 (c : Dev nD) : S50000x128.Idx → Elt F .f32 := fun i =>
  (k5_pay2 (rowsBlk (V c main_v131) ((i 0).val / 5000)) (V c main_v142) (V c main_v151) (V c main_v135) (V c main_v152) (rowsBlk (V c main_v104_0) ((i 0).val / 5000)) (V c main_v148) (V c main_v153)) (ix2 (⟨(i 0).val % 5000, Nat.mod_lt _ (by decide)⟩ : Fin 5000) (⟨(i 1).val, (i 1).isLt⟩ : Fin 128))

/-- What point `t` writes back through output window 8 is block `t` of `G5_8`. -/
theorem flushed5_8 (c : Dev nD) (t : Fin cfg5.N) :
    (dat5 V c).flushed 8 t = ((cfg5.win 8).blk t).view.read (Elt F) (G5_8 V c) := by
  show (cfg5.win 8).cut (grid5.coords t) ((dat5 V c).after 8 t) = _
  rw [after5_8, out5_8_eq]
  simp only [blkfun5_0 V c t, blkfun5_1 V c t, blkfun5_2 V c t, blkfun5_3 V c t, blkfun5_4 V c t, blkfun5_5 V c t, blkfun5_6 V c t, blkfun5_7 V c t]
  obtain ⟨⟨e0a, e0b⟩, ⟨e1a, e1b⟩, ⟨e2a, e2b⟩, ⟨e3a, e3b⟩, ⟨e4a, e4b⟩, ⟨e5a, e5b⟩, ⟨e6a, e6b⟩, ⟨e7a, e7b⟩, ⟨e8a, e8b⟩, ⟨e9a, e9b⟩⟩ := idx_facts5 t
  have ht : t.val < 10 := lt_of_lt_of_eq t.isLt N_5
  funext j
  obtain ⟨p, q, rfl⟩ : ∃ (p : Fin 5000) (q : Fin 128), j = ix2 p q := ⟨j 0, j 1, eq_ix2 j⟩
  have hp : p.val < 5000 := p.isLt
  have hemb0 : ((((cfg5.win 8).blk t).view.emb (ix2 p q)) 0).val = 5000 * t.val + p.val := by
    show win5_8.index t (0 : Fin 2) * 5000 + 1 * p.val = _; omega
  have hemb1 : ((((cfg5.win 8).blk t).view.emb (ix2 p q)) 1).val = q.val := by
    show win5_8.index t (1 : Fin 2) * 128 + 1 * q.val = _; omega
  show (k5_pay1 (rowsBlk (V c main_v131) t.val) (V c main_v142) (V c main_v151) (V c main_v135) (V c main_v152) (rowsBlk (V c main_v104_0) t.val)) (ix2 p q) = G5_8 V c (((cfg5.win 8).blk t).view.emb (ix2 p q))
  unfold G5_8
  have hq : (5000 * t.val + p.val) / 5000 = t.val := by omega
  have hr : (5000 * t.val + p.val) % 5000 = p.val := by omega
  simp only [hemb0, hemb1, hq, hr]

/-- What point `t` writes back through output window 9 is block `t` of `G5_9`. -/
theorem flushed5_9 (c : Dev nD) (t : Fin cfg5.N) :
    (dat5 V c).flushed 9 t = ((cfg5.win 9).blk t).view.read (Elt F) (G5_9 V c) := by
  show (cfg5.win 9).cut (grid5.coords t) ((dat5 V c).after 9 t) = _
  rw [after5_9, out5_9_eq]
  simp only [blkfun5_0 V c t, blkfun5_1 V c t, blkfun5_2 V c t, blkfun5_3 V c t, blkfun5_4 V c t, blkfun5_5 V c t, blkfun5_6 V c t, blkfun5_7 V c t]
  obtain ⟨⟨e0a, e0b⟩, ⟨e1a, e1b⟩, ⟨e2a, e2b⟩, ⟨e3a, e3b⟩, ⟨e4a, e4b⟩, ⟨e5a, e5b⟩, ⟨e6a, e6b⟩, ⟨e7a, e7b⟩, ⟨e8a, e8b⟩, ⟨e9a, e9b⟩⟩ := idx_facts5 t
  have ht : t.val < 10 := lt_of_lt_of_eq t.isLt N_5
  funext j
  obtain ⟨p, q, rfl⟩ : ∃ (p : Fin 5000) (q : Fin 128), j = ix2 p q := ⟨j 0, j 1, eq_ix2 j⟩
  have hp : p.val < 5000 := p.isLt
  have hemb0 : ((((cfg5.win 9).blk t).view.emb (ix2 p q)) 0).val = 5000 * t.val + p.val := by
    show win5_9.index t (0 : Fin 2) * 5000 + 1 * p.val = _; omega
  have hemb1 : ((((cfg5.win 9).blk t).view.emb (ix2 p q)) 1).val = q.val := by
    show win5_9.index t (1 : Fin 2) * 128 + 1 * q.val = _; omega
  show (k5_pay2 (rowsBlk (V c main_v131) t.val) (V c main_v142) (V c main_v151) (V c main_v135) (V c main_v152) (rowsBlk (V c main_v104_0) t.val) (V c main_v148) (V c main_v153)) (ix2 p q) = G5_9 V c (((cfg5.win 9).blk t).view.emb (ix2 p q))
  unfold G5_9
  have hq : (5000 * t.val + p.val) / 5000 = t.val := by omega
  have hr : (5000 * t.val + p.val) % 5000 = p.val := by omega
  simp only [hemb0, hemb1, hq, hr]

/-- The ten blocks fill the array: row `r` is in point `r / 5000`'s block. -/
theorem cover5_8 (i : S50000x128.Idx) : ∃ t : Fin cfg5.N, (cfg5.win 8).flush t = true ∧ i ∈ ((cfg5.win 8).blk t).view.set := by
  have hi0 : (i 0).val < 50000 := (i 0).isLt
  have hi1 : (i 1).val < 128 := (i 1).isLt
  let t : Fin cfg5.N := ⟨(i 0).val / 5000, by rw [show cfg5.N = grid5.N from rfl, N_5]; omega⟩
  obtain ⟨⟨e0a, e0b⟩, ⟨e1a, e1b⟩, ⟨e2a, e2b⟩, ⟨e3a, e3b⟩, ⟨e4a, e4b⟩, ⟨e5a, e5b⟩, ⟨e6a, e6b⟩, ⟨e7a, e7b⟩, ⟨e8a, e8b⟩, ⟨e9a, e9b⟩⟩ := idx_facts5 t
  refine ⟨t, flush5_8 t, ?_⟩
  show i ∈ ((View.whole main_v154_0).slice (win5_8.rect t)).set
  rw [View.set_slice_whole, Rect.mem_set_unit]
  intro a
  have htv : t.val = (i 0).val / 5000 := rfl
  match a with
  | ⟨0, _⟩ => show win5_8.index t (0 : Fin 2) * 5000 ≤ (i 0).val ∧ (i 0).val < win5_8.index t (0 : Fin 2) * 5000 + 5000; omega
  | ⟨1, _⟩ => show win5_8.index t (1 : Fin 2) * 128 ≤ (i 1).val ∧ (i 1).val < win5_8.index t (1 : Fin 2) * 128 + 128; omega

/-- Output window 8's array after the region is `G5_8` of the arrays the region found. -/
theorem final5_8 (c : Dev nD) : (dat5 V c).arrAt 8 cfg5.N = G5_8 V c :=
  (dat5 V c).arrAt_eq_of_cover 8 (G5_8 V c) (fun t _ => flushed5_8 V c t) (cover5_8)

/-- The ten blocks fill the array: row `r` is in point `r / 5000`'s block. -/
theorem cover5_9 (i : S50000x128.Idx) : ∃ t : Fin cfg5.N, (cfg5.win 9).flush t = true ∧ i ∈ ((cfg5.win 9).blk t).view.set := by
  have hi0 : (i 0).val < 50000 := (i 0).isLt
  have hi1 : (i 1).val < 128 := (i 1).isLt
  let t : Fin cfg5.N := ⟨(i 0).val / 5000, by rw [show cfg5.N = grid5.N from rfl, N_5]; omega⟩
  obtain ⟨⟨e0a, e0b⟩, ⟨e1a, e1b⟩, ⟨e2a, e2b⟩, ⟨e3a, e3b⟩, ⟨e4a, e4b⟩, ⟨e5a, e5b⟩, ⟨e6a, e6b⟩, ⟨e7a, e7b⟩, ⟨e8a, e8b⟩, ⟨e9a, e9b⟩⟩ := idx_facts5 t
  refine ⟨t, flush5_9 t, ?_⟩
  show i ∈ ((View.whole main_v154_1).slice (win5_9.rect t)).set
  rw [View.set_slice_whole, Rect.mem_set_unit]
  intro a
  have htv : t.val = (i 0).val / 5000 := rfl
  match a with
  | ⟨0, _⟩ => show win5_9.index t (0 : Fin 2) * 5000 ≤ (i 0).val ∧ (i 0).val < win5_9.index t (0 : Fin 2) * 5000 + 5000; omega
  | ⟨1, _⟩ => show win5_9.index t (1 : Fin 2) * 128 ≤ (i 1).val ∧ (i 1).val < win5_9.index t (1 : Fin 2) * 128 + 128; omega

/-- Output window 9's array after the region is `G5_9` of the arrays the region found. -/
theorem final5_9 (c : Dev nD) : (dat5 V c).arrAt 9 cfg5.N = G5_9 V c :=
  (dat5 V c).arrAt_eq_of_cover 9 (G5_9 V c) (fun t _ => flushed5_9 V c t) (cover5_9)

end Cert.KernelIdeal.Fr

end
-- ==== Proof.FrameIdeal.Stage5.lean ====
/-
  Region 5 at the exact instance: the array it leaves, read at row `r` and column `q`, is the layer's formula of the
  arrays it found — the row-blocked operands at row `r`, the whole operands at their own indices.
-/
import proofs.«142693_j60928406061119_1_alg».proof.Proof.FrameIdeal.Blocks5
import proofs.«142693_j60928406061119_1_alg».proof.Proof.FrameIdeal.StageCommon
import proofs.«142693_j60928406061119_1_alg».proof.Proof.KPay

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.SL Idealize.SL.Sem
open scoped BigOperators

variable (V : (c : Dev nD) → (b : Ref sig .tc) → Buf (Elt Ideal) ((c : Thread nD τ).loc b))

/-- The normalisation region's new features at `(r, q)`, given that the mean and variance rows it found are the column
    means and variances of the `z` it found. -/
theorem G5_8_apply (c : Dev nD)
    (hmu : ∀ q : Fin 128, V c main_v135 (ix2 0 q) = Cert.Spec.muOf (fun r q => V c main_v131 (ix2 r q)) q)
    (hvar : ∀ q : Fin 128, V c main_v142 (ix2 0 q) = Cert.Spec.varOf (fun r q => V c main_v131 (ix2 r q)) q)
    (r : Fin 50000) (q : Fin 128) :
    G5_8 (F := Ideal) V c (ix2 r q)
      = Cert.Spec.hNext (fun r q => V c main_v131 (ix2 r q)) (fun q => V c main_v151 (ix2 0 q)) (fun q => V c main_v152 (ix2 0 q))
          (fun r q => V c main_v104_0 (ix2 r q)) r q := by
  show (k5_pay1 (F := Ideal) (rowsBlk (V c main_v131) (r.val / 5000)) (V c main_v142) (V c main_v151) (V c main_v135) (V c main_v152) (rowsBlk (V c main_v104_0) (r.val / 5000)))
      (ix2 (⟨r.val % 5000, Nat.mod_lt _ (by decide)⟩ : Fin 5000) q) = _
  rw [Cert.KernelIdeal.KPay.bnh5]
  unfold Cert.Spec.hNext Cert.Spec.normOf
  simp only [rowsBlk_apply, hmu, hvar]

/-- The normalisation region's projected output at `(r, q)`: the projection of the new features' row `r`. -/
theorem G5_9_apply (c : Dev nD) (r : Fin 50000) (q : Fin 128) :
    G5_9 (F := Ideal) V c (ix2 r q)
      = Cert.Spec.outOf (fun r k => G5_8 (F := Ideal) V c (ix2 r k)) (fun k q => V c main_v148 (ix2 k q)) (fun q => V c main_v153 (ix2 0 q)) r q := by
  show (k5_pay2 (F := Ideal) (rowsBlk (V c main_v131) (r.val / 5000)) (V c main_v142) (V c main_v151) (V c main_v135) (V c main_v152) (rowsBlk (V c main_v104_0) (r.val / 5000)) (V c main_v148) (V c main_v153))
      (ix2 (⟨r.val % 5000, Nat.mod_lt _ (by decide)⟩ : Fin 5000) q) = _
  rw [Cert.KernelIdeal.KPay.bno5]
  rfl

end Cert.KernelIdeal.Fr

end
-- ==== Proof.KHost.lean ====
/-
  The host operations of the kernel program, read at one entry.

  Between its kernels the program slices one layer's weights out of the stacked parameter arrays (a unit-length slice along the
  leading axis followed by a change of shape that drops that axis), and computes the column statistics of the perceptron's output:
  the sum of each column over the 50000 rows, divided by 50000, and the same for the squared distance to the mean. Each
  statement below reads the composed term at an index and names the entry of the operand, or the formula of the common
  specification, that it equals. A slice read at an index is the operand at the index moved by the offset; a change of shape
  keeps the row-major position; a broadcast reads the operand at the coordinates the dimension map selects; the host's float
  sum along the leading axis is, on the extended reals, the initial value plus the sum over that axis.
-/
import proofs.«142693_j60928406061119_1_alg».proof.KernelIdeal
import proofs.«142693_j60928406061119_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.KHost

open Cert.KernelIdeal Idealize.ShloMosaic Idealize.ShloMosaic.ValueIdx
open scoped BigOperators

/-! ## A layer's weight matrix and a layer's row of 128 parameters -/

/-- Layer l's 128 × 128 matrix out of a stack of three: the slice starting at (l, 0, 0) read at (0, j, k) is the stack at
    (l, j, k), and the change of shape from [1, 128, 128] to [128, 128] sends (j, k) to (0, j, k), both having row-major
    position 128·j + k. Stated for any evidence of the two shape relations. -/
theorem sq_at (l : Nat) (hl : l < 3) (hs : S3x128x128.Slices ![l, 0, 0] S1x128x128) (hc : S1x128x128.ShapeCasts S128x128)
    (a : FVec Ideal S3x128x128 .f32) (j k : Fin 128) :
    (shapeCast _ (extractStridedSlice S1x128x128 ![l, 0, 0] a hs) hc : FVec Ideal S128x128 .f32) (ix2 j k)
      = a (ix3 ⟨l, hl⟩ j k) := by
  refine (shapeCast_apply _ hc (ix2 j k) (ix3 (0 : Fin 1) j k) ?_).trans ?_
  · rw [Shape.rowMajor_val_three, Shape.rowMajor_val_two]
    show ((0 : Nat) * 128 + j.val) * 128 + k.val = j.val * 128 + k.val
    omega
  · exact extractStridedSlice_apply ![l, 0, 0] a hs (ix3 (0 : Fin 1) j k) (ix3 ⟨l, hl⟩ j k) (fun d => match d with
      | ⟨0, _⟩ => by show l = l + 0; omega
      | ⟨1, _⟩ => by show j.val = 0 + j.val; omega
      | ⟨2, _⟩ => by show k.val = 0 + k.val; omega)

/-- Layer l's row of 128 out of a stack of three: the slice starting at (l, 0) read at (0, k) is the stack at (l, k); the
    change of shape to [128] and back to [1, 128] keeps the row-major position k. -/
theorem row_at (l : Nat) (hl : l < 3) (hs : S3x128.Slices ![l, 0] S1x128) (hc : S1x128.ShapeCasts S128)
    (hc' : S128.ShapeCasts S1x128) (b : FVec Ideal S3x128 .f32) (k : Fin 128) :
    (shapeCast _ (shapeCast _ (extractStridedSlice S1x128 ![l, 0] b hs) hc : FVec Ideal S128 .f32) hc' : FVec Ideal S1x128 .f32)
        (ix2 0 k)
      = b (ix2 ⟨l, hl⟩ k) := by
  refine (shapeCast_apply _ hc' (ix2 (0 : Fin 1) k) (ix1 k) ?_).trans ?_
  · rw [Shape.rowMajor_val_one, Shape.rowMajor_val_two]
    show k.val = (0 : Nat) * 128 + k.val
    omega
  refine (shapeCast_apply _ hc (ix1 k) (ix2 (0 : Fin 1) k) ?_).trans ?_
  · rw [Shape.rowMajor_val_two, Shape.rowMajor_val_one]
    show (0 : Nat) * 128 + k.val = k.val
    omega
  · exact extractStridedSlice_apply ![l, 0] b hs (ix2 (0 : Fin 1) k) (ix2 ⟨l, hl⟩ k) (fun d => match d with
      | ⟨0, _⟩ => by show l = l + 0; omega
      | ⟨1, _⟩ => by show k.val = 0 + k.val; omega)

/-! ## The broadcasts and the column sum, read at an index -/

/-- A vector of 128 broadcast along axis 1 of a [1, 128] row reads, at (0, q), its entry q. -/
theorem bcast_row_at (hb : S128.BroadcastsInDim S1x128 (![1] : Fin 1 → Fin S1x128.rank)) (v : FVec Ideal S128 .f32) (q : Fin 128) :
    (broadcastInDim S1x128 ![1] hb v : FVec Ideal S1x128 .f32) (ix2 0 q) = v (ix1 q) :=
  broadcastInDim_apply _ hb v (ix2 (0 : Fin 1) q) (ix1 q) (fun a => match a with
    | ⟨0, _⟩ => by show q.val = if (128 : Nat) = 1 then 0 else q.val; rw [if_neg (by decide)])

/-- A scalar broadcast to a [1, 128] row reads the scalar everywhere. -/
theorem bcast_scalar_row_at (hb : S_.BroadcastsInDim S1x128 (![] : Fin 0 → Fin S1x128.rank)) (c : FVec Ideal S_ .f32) (i : S1x128.Idx) :
    (broadcastInDim S1x128 ![] hb c : FVec Ideal S1x128 .f32) i = c ix0 :=
  broadcastInDim_apply _ hb c i ix0 (fun a => a.elim0)

/-- A scalar broadcast to 50000 rows of 128 reads the scalar everywhere. -/
theorem bcast_scalar_rows_at (hb : S_.BroadcastsInDim S50000x128 (![] : Fin 0 → Fin S50000x128.rank)) (c : FVec Ideal S_ .f32)
    (i : S50000x128.Idx) :
    (broadcastInDim S50000x128 ![] hb c : FVec Ideal S50000x128 .f32) i = c ix0 :=
  broadcastInDim_apply _ hb c i ix0 (fun a => a.elim0)

/-- A [1, 128] row broadcast over 50000 rows reads, at (r, q), the row's entry (0, q): axis 0 of the row has extent one. -/
theorem bcast_rows_at (hb : S1x128.BroadcastsInDim S50000x128 (![0, 1] : Fin 2 → Fin S50000x128.rank)) (m : FVec Ideal S1x128 .f32)
    (r : Fin 50000) (q : Fin 128) :
    (broadcastInDim S50000x128 ![0, 1] hb m : FVec Ideal S50000x128 .f32) (ix2 r q) = m (ix2 0 q) :=
  broadcastInDim_apply _ hb m (ix2 r q) (ix2 (0 : Fin 1) q) (fun a => match a with
    | ⟨0, _⟩ => by show (0 : Nat) = if (1 : Nat) = 1 then 0 else r.val; rw [if_pos rfl]
    | ⟨1, _⟩ => by show q.val = if (128 : Nat) = 1 then 0 else q.val; rw [if_neg (by decide)])

/-- The host's float sum along axis 0, started from the zero word: at column q it is the zero word plus the sum of the
    column's 50000 entries. On the extended reals the host's sum is the exact sum, whatever its schedule. -/
theorem colsum_at (hr : S50000x128.ReducesTo [0] S128) (hu : 0 < S_.numel) (x : FVec Ideal S50000x128 .f32) (q : Fin 128) :
    (Host.reduceAdd x (constant S_ .f32 0x00000000#32) hr hu : FVec Ideal S128 .f32) (ix1 q)
      = Cert.Spec.zeroW + ∑ r : Fin 50000, x (ix2 r q) := by
  simp only [Host.reduceAdd, Ideal.hostReduceAdd_def]
  rw [Ideal.hostReduceAdd_single hr (by decide)]
  refine congrArg (_ + ·) (Finset.sum_congr rfl fun k _ => ?_)
  exact congrArg x (funext fun a => Fin.ext (by match a with | ⟨0, _⟩ => rfl | ⟨1, _⟩ => rfl))

/-! ## The column means and variances -/

/-- The mean row, for any evidence of the shape relations: the column sum from zero, divided by the word of 50000. -/
theorem mean_row_at (hb1 : S128.BroadcastsInDim S1x128 (![1] : Fin 1 → Fin S1x128.rank))
    (hb0 : S_.BroadcastsInDim S1x128 (![] : Fin 0 → Fin S1x128.rank)) (hr : S50000x128.ReducesTo [0] S128) (hu : 0 < S_.numel)
    (z : FVec Ideal S50000x128 .f32) (q : Fin 128) :
    (Host.divf (broadcastInDim S1x128 ![1] hb1 (Host.reduceAdd z (constant S_ .f32 0x00000000#32) hr hu))
               (broadcastInDim S1x128 ![] hb0 (constant S_ .f32 0x47435000#32)) : FVec Ideal S1x128 .f32) (ix2 0 q)
      = Cert.Spec.muOf (fun r q => z (ix2 r q)) q := by
  show Ideal.div ((broadcastInDim S1x128 ![1] hb1 (Host.reduceAdd z (constant S_ .f32 0x00000000#32) hr hu) : FVec Ideal S1x128 .f32) (ix2 0 q))
      ((broadcastInDim S1x128 ![] hb0 (constant S_ .f32 0x47435000#32) : FVec Ideal S1x128 .f32) (ix2 0 q)) = _
  rw [bcast_row_at hb1, bcast_scalar_row_at hb0, colsum_at hr hu]
  rfl

/-- The variance row, for any evidence of the shape relations, given that the mean row reads the specification's means: the
    squared distance to the column's mean, summed from zero over the column and divided by the word of 50000. -/
theorem var_row_at (hb1 : S128.BroadcastsInDim S1x128 (![1] : Fin 1 → Fin S1x128.rank))
    (hb0 : S_.BroadcastsInDim S1x128 (![] : Fin 0 → Fin S1x128.rank))
    (hbr : S1x128.BroadcastsInDim S50000x128 (![0, 1] : Fin 2 → Fin S50000x128.rank))
    (hr : S50000x128.ReducesTo [0] S128) (hu : 0 < S_.numel)
    (z : FVec Ideal S50000x128 .f32) (mu : FVec Ideal S1x128 .f32)
    (hmu : ∀ q : Fin 128, mu (ix2 0 q) = Cert.Spec.muOf (fun r q => z (ix2 r q)) q) (q : Fin 128) :
    (Host.divf (broadcastInDim S1x128 ![1] hb1
                  (Host.reduceAdd (mulf (subf z (broadcastInDim S50000x128 ![0, 1] hbr mu)) (subf z (broadcastInDim S50000x128 ![0, 1] hbr mu)))
                     (constant S_ .f32 0x00000000#32) hr hu))
               (broadcastInDim S1x128 ![] hb0 (constant S_ .f32 0x47435000#32)) : FVec Ideal S1x128 .f32) (ix2 0 q)
      = Cert.Spec.varOf (fun r q => z (ix2 r q)) q := by
  show Ideal.div ((broadcastInDim S1x128 ![1] hb1 (Host.reduceAdd (mulf (subf z (broadcastInDim S50000x128 ![0, 1] hbr mu)) (subf z (broadcastInDim S50000x128 ![0, 1] hbr mu)))
        (constant S_ .f32 0x00000000#32) hr hu) : FVec Ideal S1x128 .f32) (ix2 0 q))
      ((broadcastInDim S1x128 ![] hb0 (constant S_ .f32 0x47435000#32) : FVec Ideal S1x128 .f32) (ix2 0 q)) = _
  have hx : ∀ r : Fin 50000,
      (mulf (subf z (broadcastInDim S50000x128 ![0, 1] hbr mu)) (subf z (broadcastInDim S50000x128 ![0, 1] hbr mu)) : FVec Ideal S50000x128 .f32) (ix2 r q)
        = (z (ix2 r q) - Cert.Spec.muOf (fun r q => z (ix2 r q)) q) * (z (ix2 r q) - Cert.Spec.muOf (fun r q => z (ix2 r q)) q) :=
    fun r => by rw [mulf_apply, subf_apply, bcast_rows_at hbr, hmu]
  rw [bcast_row_at hb1, bcast_scalar_row_at hb0, colsum_at hr hu]
  simp only [hx]
  rfl

/-- The zero residual, for any evidence of the shape relation: the zero word at every entry. -/
theorem zeros_at (hb : S_.BroadcastsInDim S50000x128 (![] : Fin 0 → Fin S50000x128.rank)) (r : Fin 50000) (q : Fin 128) :
    (broadcastInDim S50000x128 ![] hb (constant S_ .f32 0x00000000#32) : FVec Ideal S50000x128 .f32) (ix2 r q) = Cert.Spec.zeroW :=
  bcast_scalar_rows_at hb _ _

/-! ## The same statements at the program's own evidence of the shape relations -/

section AtFacts
variable [Facts₀]
open Facts₀

/-- The first layer's weight matrix. -/
theorem sq0 (a : FVec Ideal S3x128x128 .f32) (j k : Fin 128) :
    (shapeCast _ (extractStridedSlice S1x128x128 ![0, 0, 0] a slices_S3x128x128_S1x128x128_0_0_0) shapeCasts_S1x128x128_S128x128 : FVec Ideal S128x128 .f32) (ix2 j k)
      = a (ix3 0 j k) :=
  sq_at 0 (by decide) _ _ a j k
/-- The second layer's weight matrix. -/
theorem sq1 (a : FVec Ideal S3x128x128 .f32) (j k : Fin 128) :
    (shapeCast _ (extractStridedSlice S1x128x128 ![1, 0, 0] a slices_S3x128x128_S1x128x128_1_0_0) shapeCasts_S1x128x128_S128x128 : FVec Ideal S128x128 .f32) (ix2 j k)
      = a (ix3 1 j k) :=
  sq_at 1 (by decide) _ _ a j k
/-- The third layer's weight matrix. -/
theorem sq2 (a : FVec Ideal S3x128x128 .f32) (j k : Fin 128) :
    (shapeCast _ (extractStridedSlice S1x128x128 ![2, 0, 0] a slices_S3x128x128_S1x128x128_2_0_0) shapeCasts_S1x128x128_S128x128 : FVec Ideal S128x128 .f32) (ix2 j k)
      = a (ix3 2 j k) :=
  sq_at 2 (by decide) _ _ a j k

/-- The first layer's row of 128 parameters. -/
theorem row0 (b : FVec Ideal S3x128 .f32) (k : Fin 128) :
    (shapeCast _ (shapeCast _ (extractStridedSlice S1x128 ![0, 0] b slices_S3x128_S1x128_0_0) shapeCasts_S1x128_S128 : FVec Ideal S128 .f32) shapeCasts_S128_S1x128 : FVec Ideal S1x128 .f32) (ix2 0 k)
      = b (ix2 0 k) :=
  row_at 0 (by decide) _ _ _ b k
/-- The second layer's row of 128 parameters. -/
theorem row1 (b : FVec Ideal S3x128 .f32) (k : Fin 128) :
    (shapeCast _ (shapeCast _ (extractStridedSlice S1x128 ![1, 0] b slices_S3x128_S1x128_1_0) shapeCasts_S1x128_S128 : FVec Ideal S128 .f32) shapeCasts_S128_S1x128 : FVec Ideal S1x128 .f32) (ix2 0 k)
      = b (ix2 1 k) :=
  row_at 1 (by decide) _ _ _ b k
/-- The third layer's row of 128 parameters. -/
theorem row2 (b : FVec Ideal S3x128 .f32) (k : Fin 128) :
    (shapeCast _ (shapeCast _ (extractStridedSlice S1x128 ![2, 0] b slices_S3x128_S1x128_2_0) shapeCasts_S1x128_S128 : FVec Ideal S128 .f32) shapeCasts_S128_S1x128 : FVec Ideal S1x128 .f32) (ix2 0 k)
      = b (ix2 2 k) :=
  row_at 2 (by decide) _ _ _ b k

/-- The column means as a [1, 128] row. -/
theorem mean_row (z : FVec Ideal S50000x128 .f32) (q : Fin 128) :
    (Host.divf (broadcastInDim S1x128 ![1] bcast_S128_S1x128_1 (Host.reduceAdd z (constant S_ .f32 0x00000000#32) reducesTo_S50000x128_S128_d0 h_S_))
               (broadcastInDim S1x128 ![] bcast_S_S1x128 (constant S_ .f32 0x47435000#32)) : FVec Ideal S1x128 .f32) (ix2 0 q)
      = Cert.Spec.muOf (fun r q => z (ix2 r q)) q :=
  mean_row_at _ _ _ _ z q

/-- The column variances as a [1, 128] row, given the mean row. -/
theorem var_row (z : FVec Ideal S50000x128 .f32) (mu : FVec Ideal S1x128 .f32)
    (hmu : ∀ q : Fin 128, mu (ix2 0 q) = Cert.Spec.muOf (fun r q => z (ix2 r q)) q) (q : Fin 128) :
    (Host.divf (broadcastInDim S1x128 ![1] bcast_S128_S1x128_1
                  (Host.reduceAdd (mulf (subf z (broadcastInDim S50000x128 ![0, 1] bcast_S1x128_S50000x128_0_1 mu)) (subf z (broadcastInDim S50000x128 ![0, 1] bcast_S1x128_S50000x128_0_1 mu)))
                     (constant S_ .f32 0x00000000#32) reducesTo_S50000x128_S128_d0 h_S_))
               (broadcastInDim S1x128 ![] bcast_S_S1x128 (constant S_ .f32 0x47435000#32)) : FVec Ideal S1x128 .f32) (ix2 0 q)
      = Cert.Spec.varOf (fun r q => z (ix2 r q)) q :=
  var_row_at _ _ _ _ _ z mu hmu q

/-- The zero residual of the first layer. -/
theorem zeros (r : Fin 50000) (q : Fin 128) :
    (broadcastInDim S50000x128 ![] bcast_S_S50000x128 (constant S_ .f32 0x00000000#32) : FVec Ideal S50000x128 .f32) (ix2 r q) = Cert.Spec.zeroW :=
  zeros_at _ r q

end AtFacts

end Cert.KernelIdeal.KHost

end
-- ==== Proof.RefStages.lean ====
/-
  The reference program's stages, each read at an index, against the layer formulas of `Cert.Spec`.

  For every layer the reference computes, from the mixed features `mix`,
    z   = max(mix · W₁ + b₁, 0) · W₂ + b₂,
    μ   = (0 + ∑ over the 50000 rows of z) / 50000,           σ² = (0 + ∑ over the rows of (z − μ)²) / 50000,
    h'  = max(γ · (z − μ) · rsqrt(σ² + 1e-5) + β (+ the previous features), 0),
    out = h' · Wₗ + bₗ,
  where the layer's parameters are one slice of a stacked array (layer l of a [3,128,128] or [3,128] array), reshaped
  and broadcast along the rows. Read at row r and column q, a slice-reshape-broadcast chain is the stacked array at
  (l, ·, ·); a matrix product is the sum over the contracted coordinate; a column reduction is the initial word plus the
  sum over the rows. The theorems below say exactly this, with the right-hand sides spelt as `Cert.Spec` spells them.
-/
import proofs.«142693_j60928406061119_1_alg».proof.Proof.RefRead
import proofs.«142693_j60928406061119_1_alg».proof.Proof.Spec

noncomputable section

namespace Cert.ReferenceIdeal.RefStages

open Cert.ReferenceIdeal Cert.ReferenceIdeal.RefRead Idealize.ShloMosaic Idealize.ShloMosaic.ValueIdx
open scoped BigOperators

/-- Layer `l` of a stacked [3,128,128] array, as a 128 × 128 matrix. -/
def sq (w : (⟨S3x128x128, .f32⟩ : BufTy).Contents (Elt Ideal)) (l : Fin 3) : Cert.Spec.Sq := fun j k => w (ix3 l j k)
/-- Layer `l` of a stacked [3,128] array, as a vector of 128 entries. -/
def row (b : (⟨S3x128, .f32⟩ : BufTy).Contents (Elt Ideal)) (l : Fin 3) : Cert.Spec.Row := fun k => b (ix2 l k)
/-- A [50000,128] array as a matrix of rows. -/
def rows (a : (⟨S50000x128, .f32⟩ : BufTy).Contents (Elt Ideal)) : Cert.Spec.Rows := fun r q => a (ix2 r q)

theorem sq_apply (w : (⟨S3x128x128, .f32⟩ : BufTy).Contents (Elt Ideal)) (l : Fin 3) (j k : Fin 128) :
    sq w l j k = w (ix3 l j k) := rfl
theorem row_apply (b : (⟨S3x128, .f32⟩ : BufTy).Contents (Elt Ideal)) (l : Fin 3) (k : Fin 128) :
    row b l k = b (ix2 l k) := rfl
theorem rows_apply (a : (⟨S50000x128, .f32⟩ : BufTy).Contents (Elt Ideal)) (r : Fin 50000) (q : Fin 128) :
    rows a r q = a (ix2 r q) := rfl

variable (x0 : (⟨S50000x128, .f32⟩ : BufTy).Contents (Elt Ideal)) (x1 : (⟨S2x625000, .i32⟩ : BufTy).Contents (Elt Ideal))
  (x2 : (⟨S3x128x128, .f32⟩ : BufTy).Contents (Elt Ideal)) (x3 : (⟨S3x128, .f32⟩ : BufTy).Contents (Elt Ideal))
  (x4 : (⟨S3x128x128, .f32⟩ : BufTy).Contents (Elt Ideal)) (x5 : (⟨S3x128, .f32⟩ : BufTy).Contents (Elt Ideal))
  (x6 : (⟨S3, .f32⟩ : BufTy).Contents (Elt Ideal)) (x7 x8 : (⟨S3x128, .f32⟩ : BufTy).Contents (Elt Ideal))
  (x9 : (⟨S3x128x128, .f32⟩ : BufTy).Contents (Elt Ideal)) (x10 : (⟨S3x128, .f32⟩ : BufTy).Contents (Elt Ideal))

/-! ## Layer 0 -/

/-- The first weight matrix of layer 0: slice 0 of the stacked array, reshaped to 128 × 128, at (j, k) is the stacked array at (0, j, k). -/
theorem w1_0 (j k : Fin 128) : val_main_v21 (F := Ideal) x2 (ix2 j k) = x2 (ix3 (0 : Fin 3) j k) := by
  rw [val_main_v21_apply, val_main_v20_apply]
  refine congrArg x2 (funext fun a => Fin.ext ?_)
  have hj := j.isLt
  have hk := k.isLt
  match a with
  | ⟨0, _⟩ => rfl
  | ⟨1, _⟩ => show (j.val * 128 + k.val) / 128 % 128 = j.val; omega
  | ⟨2, _⟩ => show (j.val * 128 + k.val) % 128 = k.val; omega

/-- The first bias of layer 0: slice 0 of the stacked array, reshaped to 128 entries and repeated along the rows, at (r, k) is the
    stacked array at (0, k). -/
theorem b1_0 (r : Fin 50000) (k : Fin 128) : val_main_v26 (F := Ideal) x3 (ix2 r k) = x3 (ix2 (0 : Fin 3) k) := by
  rw [val_main_v26_apply, val_main_v25_apply, val_main_v24_apply, val_main_v23_apply]
  refine congrArg x3 (funext fun a => Fin.ext ?_)
  have hk := k.isLt
  match a with
  | ⟨0, _⟩ => rfl
  | ⟨1, _⟩ => show k.val % 128 = k.val; omega

/-- The second weight matrix of layer 0: slice 0 of the stacked array, reshaped to 128 × 128, at (j, k) is the stacked array at (0, j, k). -/
theorem w2_0 (j k : Fin 128) : val_main_v30 (F := Ideal) x4 (ix2 j k) = x4 (ix3 (0 : Fin 3) j k) := by
  rw [val_main_v30_apply, val_main_v29_apply]
  refine congrArg x4 (funext fun a => Fin.ext ?_)
  have hj := j.isLt
  have hk := k.isLt
  match a with
  | ⟨0, _⟩ => rfl
  | ⟨1, _⟩ => show (j.val * 128 + k.val) / 128 % 128 = j.val; omega
  | ⟨2, _⟩ => show (j.val * 128 + k.val) % 128 = k.val; omega

/-- The second bias of layer 0: slice 0 of the stacked array, reshaped to 128 entries and repeated along the rows, at (r, k) is the
    stacked array at (0, k). -/
theorem b2_0 (r : Fin 50000) (k : Fin 128) : val_main_v35 (F := Ideal) x5 (ix2 r k) = x5 (ix2 (0 : Fin 3) k) := by
  rw [val_main_v35_apply, val_main_v34_apply, val_main_v33_apply, val_main_v32_apply]
  refine congrArg x5 (funext fun a => Fin.ext ?_)
  have hk := k.isLt
  match a with
  | ⟨0, _⟩ => rfl
  | ⟨1, _⟩ => show k.val % 128 = k.val; omega

/-- The scale of layer 0's normalisation: slice 0 of the stacked array, reshaped to 128 entries and repeated along the rows, at (r, k) is the
    stacked array at (0, k). -/
theorem gamma_0 (r : Fin 50000) (k : Fin 128) : val_main_v53 (F := Ideal) x7 (ix2 r k) = x7 (ix2 (0 : Fin 3) k) := by
  rw [val_main_v53_apply, val_main_v52_apply, val_main_v48_apply, val_main_v47_apply]
  refine congrArg x7 (funext fun a => Fin.ext ?_)
  have hk := k.isLt
  match a with
  | ⟨0, _⟩ => rfl
  | ⟨1, _⟩ => show k.val % 128 = k.val; omega

/-- The shift of layer 0's normalisation: slice 0 of the stacked array, reshaped to 128 entries and repeated along the rows, at (r, k) is the
    stacked array at (0, k). -/
theorem beta_0 (r : Fin 50000) (k : Fin 128) : val_main_v64 (F := Ideal) x8 (ix2 r k) = x8 (ix2 (0 : Fin 3) k) := by
  rw [val_main_v64_apply, val_main_v63_apply, val_main_v62_apply, val_main_v61_apply]
  refine congrArg x8 (funext fun a => Fin.ext ?_)
  have hk := k.isLt
  match a with
  | ⟨0, _⟩ => rfl
  | ⟨1, _⟩ => show k.val % 128 = k.val; omega

/-- The output weight matrix of layer 0: slice 0 of the stacked array, reshaped to 128 × 128, at (j, k) is the stacked array at (0, j, k). -/
theorem wl_0 (j k : Fin 128) : val_main_v196 (F := Ideal) x9 (ix2 j k) = x9 (ix3 (0 : Fin 3) j k) := by
  rw [val_main_v196_apply, val_main_v195_apply]
  refine congrArg x9 (funext fun a => Fin.ext ?_)
  have hj := j.isLt
  have hk := k.isLt
  match a with
  | ⟨0, _⟩ => rfl
  | ⟨1, _⟩ => show (j.val * 128 + k.val) / 128 % 128 = j.val; omega
  | ⟨2, _⟩ => show (j.val * 128 + k.val) % 128 = k.val; omega

/-- The output bias of layer 0: slice 0 of the stacked array, reshaped to 128 entries and repeated along the rows, at (r, k) is the
    stacked array at (0, k). -/
theorem bl_0 (r : Fin 50000) (k : Fin 128) : val_main_v201 (F := Ideal) x10 (ix2 r k) = x10 (ix2 (0 : Fin 3) k) := by
  rw [val_main_v201_apply, val_main_v200_apply, val_main_v199_apply, val_main_v198_apply]
  refine congrArg x10 (funext fun a => Fin.ext ?_)
  have hk := k.isLt
  match a with
  | ⟨0, _⟩ => rfl
  | ⟨1, _⟩ => show k.val % 128 = k.val; omega

/-- The hidden activation of layer 0 at (r, k): the product of row r of the mixed features with column k of W₁, plus
    b₁ at k, clamped at the zero word. -/
theorem hid_0 (r : Fin 50000) (k : Fin 128) :
    val_main_v28 (F := Ideal) x0 x1 x2 x3 x6 (ix2 r k)
      = max ((∑ j : Fin 128, val_main_v19 (F := Ideal) x0 x1 x6 (ix2 r j) * x2 (ix3 (0 : Fin 3) j k)) + x3 (ix2 (0 : Fin 3) k))
          (Ideal.ofBits .f32 0x00000000#32) := by
  rw [val_main_v28_apply, val_main_v27_apply, val_main_v22_apply, b1_0, val_main_call0_v0_apply,
    val_main_call0_cst_apply, Ideal.maximumf_def, Ideal.addf_def, Ideal.ofBits_def]
  refine congrArg (fun s => max (s + x3 (ix2 (0 : Fin 3) k)) (Ideal.ofBits .f32 0x00000000#32))
    (Finset.sum_congr rfl fun j _ => ?_)
  rw [show lidx_main_v22 (ix2 r k) j = ix2 r j from funext fun a => Fin.ext (by match a with | ⟨0, _⟩ => rfl | ⟨1, _⟩ => rfl),
    show ridx_main_v22 (ix2 r k) j = ix2 j k from funext fun a => Fin.ext (by match a with | ⟨0, _⟩ => rfl | ⟨1, _⟩ => rfl), w1_0]

/-- The perceptron's output of layer 0 at (r, q) is `Cert.Spec.zOf` of the mixed features and the layer's parameters. -/
theorem z0 (r : Fin 50000) (q : Fin 128) :
    val_main_v36 (F := Ideal) x0 x1 x2 x3 x4 x5 x6 (ix2 r q)
      = Cert.Spec.zOf (rows (val_main_v19 (F := Ideal) x0 x1 x6)) (sq x2 0) (row x3 0) (sq x4 0) (row x5 0) r q := by
  simp only [Cert.Spec.zOf, rows_apply, sq_apply, row_apply]
  rw [val_main_v36_apply, val_main_v31_apply, b2_0, Ideal.addf_def]
  refine congrArg (fun s => s + x5 (ix2 (0 : Fin 3) q)) (Finset.sum_congr rfl fun k _ => ?_)
  rw [show lidx_main_v31 (ix2 r q) k = ix2 r k from funext fun a => Fin.ext (by match a with | ⟨0, _⟩ => rfl | ⟨1, _⟩ => rfl),
    show ridx_main_v31 (ix2 r q) k = ix2 k q from funext fun a => Fin.ext (by match a with | ⟨0, _⟩ => rfl | ⟨1, _⟩ => rfl), hid_0, w2_0]

/-- The column mean of layer 0's z: the zero word plus the sum over the rows, divided by the word of 50000. -/
theorem mu_0 (q : Fin 128) :
    val_main_v39 (F := Ideal) x0 x1 x2 x3 x4 x5 x6 (ix1 q) = Cert.Spec.muOf (rows (val_main_v36 (F := Ideal) x0 x1 x2 x3 x4 x5 x6)) q := by
  simp only [Cert.Spec.muOf, rows_apply]
  rw [val_main_v39_apply, val_main_v37_apply, val_main_v38_apply, val_main_cst_2_apply,
    val_main_cst_3_apply, Ideal.hostDivf_def, Ideal.ofBits_def, Ideal.ofBits_def]
  refine congrArg (fun s => Ideal.div (Ideal.ofBits .f32 0x00000000#32 + s) (Ideal.ofBits .f32 0x47435000#32))
    (Finset.sum_congr rfl fun k _ => ?_)
  rw [show idx_main_v37 (ix1 q) k = ix2 k q from funext fun a => Fin.ext (by match a with | ⟨0, _⟩ => rfl | ⟨1, _⟩ => rfl)]

/-- The column variance of layer 0's z: the mean of the squared distance to the column mean. -/
theorem var_0 (q : Fin 128) :
    val_main_v46 (F := Ideal) x0 x1 x2 x3 x4 x5 x6 (ix1 q) = Cert.Spec.varOf (rows (val_main_v36 (F := Ideal) x0 x1 x2 x3 x4 x5 x6)) q := by
  simp only [Cert.Spec.varOf, rows_apply]
  rw [val_main_v46_apply, val_main_v44_apply, val_main_v45_apply, val_main_cst_4_apply,
    val_main_cst_5_apply, Ideal.hostDivf_def, Ideal.ofBits_def, Ideal.ofBits_def]
  refine congrArg (fun s => Ideal.div (Ideal.ofBits .f32 0x00000000#32 + s) (Ideal.ofBits .f32 0x47435000#32))
    (Finset.sum_congr rfl fun k _ => ?_)
  rw [show idx_main_v44 (ix1 q) k = ix2 k q from funext fun a => Fin.ext (by match a with | ⟨0, _⟩ => rfl | ⟨1, _⟩ => rfl),
    val_main_v43_apply, val_main_v42_apply, val_main_v41_apply, val_main_v40_apply,
    show idx_main_v40 (idx_main_v41 (ix2 k q)) = ix1 q from funext fun a => Fin.ext (by match a with | ⟨0, _⟩ => rfl),
    mu_0, Ideal.mulf_def, Ideal.subf_def]

/-- The new features of layer 0 at (r, q) are `Cert.Spec.hFirst` of z, the layer's scale and shift. -/
theorem h1 (r : Fin 50000) (q : Fin 128) :
    val_main_v66 (F := Ideal) x0 x1 x2 x3 x4 x5 x6 x7 x8 (ix2 r q)
      = Cert.Spec.hFirst (rows (val_main_v36 (F := Ideal) x0 x1 x2 x3 x4 x5 x6)) (row x7 0) (row x8 0) r q := by
  simp only [Cert.Spec.hFirst, Cert.Spec.normOf, rows_apply, row_apply]
  rw [val_main_v66_apply, val_main_v65_apply, val_main_v60_apply, val_main_v54_apply,
    val_main_v51_apply, val_main_v50_apply, val_main_v49_apply,
    val_main_v59_apply, val_main_v58_apply, val_main_v57_apply, val_main_v56_apply, val_main_v55_apply,
    val_main_cst_6_apply, gamma_0, beta_0, val_main_call1_v0_apply, val_main_call1_cst_apply,
    show idx_main_v49 (idx_main_v50 (ix2 r q)) = ix1 q from funext fun a => Fin.ext (by match a with | ⟨0, _⟩ => rfl),
    show idx_main_v58 (idx_main_v59 (ix2 r q)) = ix1 q from funext fun a => Fin.ext (by match a with | ⟨0, _⟩ => rfl),
    mu_0, var_0, Ideal.maximumf_def, Ideal.addf_def, Ideal.addf_def, Ideal.mulf_def, Ideal.mulf_def, Ideal.subf_def,
    Ideal.hostUnary_rsqrt_def, Ideal.ofBits_def, Ideal.ofBits_def]

/-- The output of layer 0 at (r, q) is `Cert.Spec.outOf` of the new features and the layer's output parameters. -/
theorem out0 (r : Fin 50000) (q : Fin 128) :
    val_main_v202 (F := Ideal) x0 x1 x2 x3 x4 x5 x6 x7 x8 x9 x10 (ix2 r q)
      = Cert.Spec.outOf (rows (val_main_v66 (F := Ideal) x0 x1 x2 x3 x4 x5 x6 x7 x8)) (sq x9 0) (row x10 0) r q := by
  simp only [Cert.Spec.outOf, rows_apply, sq_apply, row_apply]
  rw [val_main_v202_apply, val_main_v197_apply, bl_0, Ideal.addf_def]
  refine congrArg (fun s => s + x10 (ix2 (0 : Fin 3) q)) (Finset.sum_congr rfl fun k _ => ?_)
  rw [show lidx_main_v197 (ix2 r q) k = ix2 r k from funext fun a => Fin.ext (by match a with | ⟨0, _⟩ => rfl | ⟨1, _⟩ => rfl),
    show ridx_main_v197 (ix2 r q) k = ix2 k q from funext fun a => Fin.ext (by match a with | ⟨0, _⟩ => rfl | ⟨1, _⟩ => rfl), wl_0]

/-! ## Layer 1 -/

/-- The first weight matrix of layer 1: slice 1 of the stacked array, reshaped to 128 × 128, at (j, k) is the stacked array at (1, j, k). -/
theorem w1_1 (j k : Fin 128) : val_main_v84 (F := Ideal) x2 (ix2 j k) = x2 (ix3 (1 : Fin 3) j k) := by
  rw [val_main_v84_apply, val_main_v83_apply]
  refine congrArg x2 (funext fun a => Fin.ext ?_)
  have hj := j.isLt
  have hk := k.isLt
  match a with
  | ⟨0, _⟩ => rfl
  | ⟨1, _⟩ => show (j.val * 128 + k.val) / 128 % 128 = j.val; omega
  | ⟨2, _⟩ => show (j.val * 128 + k.val) % 128 = k.val; omega

/-- The first bias of layer 1: slice 1 of the stacked array, reshaped to 128 entries and repeated along the rows, at (r, k) is the
    stacked array at (1, k). -/
theorem b1_1 (r : Fin 50000) (k : Fin 128) : val_main_v89 (F := Ideal) x3 (ix2 r k) = x3 (ix2 (1 : Fin 3) k) := by
  rw [val_main_v89_apply, val_main_v88_apply, val_main_v87_apply, val_main_v86_apply]
  refine congrArg x3 (funext fun a => Fin.ext ?_)
  have hk := k.isLt
  match a with
  | ⟨0, _⟩ => rfl
  | ⟨1, _⟩ => show k.val % 128 = k.val; omega

/-- The second weight matrix of layer 1: slice 1 of the stacked array, reshaped to 128 × 128, at (j, k) is the stacked array at (1, j, k). -/
theorem w2_1 (j k : Fin 128) : val_main_v93 (F := Ideal) x4 (ix2 j k) = x4 (ix3 (1 : Fin 3) j k) := by
  rw [val_main_v93_apply, val_main_v92_apply]
  refine congrArg x4 (funext fun a => Fin.ext ?_)
  have hj := j.isLt
  have hk := k.isLt
  match a with
  | ⟨0, _⟩ => rfl
  | ⟨1, _⟩ => show (j.val * 128 + k.val) / 128 % 128 = j.val; omega
  | ⟨2, _⟩ => show (j.val * 128 + k.val) % 128 = k.val; omega

/-- The second bias of layer 1: slice 1 of the stacked array, reshaped to 128 entries and repeated along the rows, at (r, k) is the
    stacked array at (1, k). -/
theorem b2_1 (r : Fin 50000) (k : Fin 128) : val_main_v98 (F := Ideal) x5 (ix2 r k) = x5 (ix2 (1 : Fin 3) k) := by
  rw [val_main_v98_apply, val_main_v97_apply, val_main_v96_apply, val_main_v95_apply]
  refine congrArg x5 (funext fun a => Fin.ext ?_)
  have hk := k.isLt
  match a with
  | ⟨0, _⟩ => rfl
  | ⟨1, _⟩ => show k.val % 128 = k.val; omega

/-- The scale of layer 1's normalisation: slice 1 of the stacked array, reshaped to 128 entries and repeated along the rows, at (r, k) is the
    stacked array at (1, k). -/
theorem gamma_1 (r : Fin 50000) (k : Fin 128) : val_main_v116 (F := Ideal) x7 (ix2 r k) = x7 (ix2 (1 : Fin 3) k) := by
  rw [val_main_v116_apply, val_main_v115_apply, val_main_v111_apply, val_main_v110_apply]
  refine congrArg x7 (funext fun a => Fin.ext ?_)
  have hk := k.isLt
  match a with
  | ⟨0, _⟩ => rfl
  | ⟨1, _⟩ => show k.val % 128 = k.val; omega

/-- The shift of layer 1's normalisation: slice 1 of the stacked array, reshaped to 128 entries and repeated along the rows, at (r, k) is the
    stacked array at (1, k). -/
theorem beta_1 (r : Fin 50000) (k : Fin 128) : val_main_v127 (F := Ideal) x8 (ix2 r k) = x8 (ix2 (1 : Fin 3) k) := by
  rw [val_main_v127_apply, val_main_v126_apply, val_main_v125_apply, val_main_v124_apply]
  refine congrArg x8 (funext fun a => Fin.ext ?_)
  have hk := k.isLt
  match a with
  | ⟨0, _⟩ => rfl
  | ⟨1, _⟩ => show k.val % 128 = k.val; omega

/-- The output weight matrix of layer 1: slice 1 of the stacked array, reshaped to 128 × 128, at (j, k) is the stacked array at (1, j, k). -/
theorem wl_1 (j k : Fin 128) : val_main_v204 (F := Ideal) x9 (ix2 j k) = x9 (ix3 (1 : Fin 3) j k) := by
  rw [val_main_v204_apply, val_main_v203_apply]
  refine congrArg x9 (funext fun a => Fin.ext ?_)
  have hj := j.isLt
  have hk := k.isLt
  match a with
  | ⟨0, _⟩ => rfl
  | ⟨1, _⟩ => show (j.val * 128 + k.val) / 128 % 128 = j.val; omega
  | ⟨2, _⟩ => show (j.val * 128 + k.val) % 128 = k.val; omega

/-- The output bias of layer 1: slice 1 of the stacked array, reshaped to 128 entries and repeated along the rows, at (r, k) is the
    stacked array at (1, k). -/
theorem bl_1 (r : Fin 50000) (k : Fin 128) : val_main_v209 (F := Ideal) x10 (ix2 r k) = x10 (ix2 (1 : Fin 3) k) := by
  rw [val_main_v209_apply, val_main_v208_apply, val_main_v207_apply, val_main_v206_apply]
  refine congrArg x10 (funext fun a => Fin.ext ?_)
  have hk := k.isLt
  match a with
  | ⟨0, _⟩ => rfl
  | ⟨1, _⟩ => show k.val % 128 = k.val; omega

/-- The hidden activation of layer 1 at (r, k): the product of row r of the mixed features with column k of W₁, plus
    b₁ at k, clamped at the zero word. -/
theorem hid_1 (r : Fin 50000) (k : Fin 128) :
    val_main_v91 (F := Ideal) x0 x1 x2 x3 x4 x5 x6 x7 x8 (ix2 r k)
      = max ((∑ j : Fin 128, val_main_v82 (F := Ideal) x0 x1 x2 x3 x4 x5 x6 x7 x8 (ix2 r j) * x2 (ix3 (1 : Fin 3) j k)) + x3 (ix2 (1 : Fin 3) k))
          (Ideal.ofBits .f32 0x00000000#32) := by
  rw [val_main_v91_apply, val_main_v90_apply, val_main_v85_apply, b1_1, val_main_call2_v0_apply,
    val_main_call2_cst_apply, Ideal.maximumf_def, Ideal.addf_def, Ideal.ofBits_def]
  refine congrArg (fun s => max (s + x3 (ix2 (1 : Fin 3) k)) (Ideal.ofBits .f32 0x00000000#32))
    (Finset.sum_congr rfl fun j _ => ?_)
  rw [show lidx_main_v85 (ix2 r k) j = ix2 r j from funext fun a => Fin.ext (by match a with | ⟨0, _⟩ => rfl | ⟨1, _⟩ => rfl),
    show ridx_main_v85 (ix2 r k) j = ix2 j k from funext fun a => Fin.ext (by match a with | ⟨0, _⟩ => rfl | ⟨1, _⟩ => rfl), w1_1]

/-- The perceptron's output of layer 1 at (r, q) is `Cert.Spec.zOf` of the mixed features and the layer's parameters. -/
theorem z1 (r : Fin 50000) (q : Fin 128) :
    val_main_v99 (F := Ideal) x0 x1 x2 x3 x4 x5 x6 x7 x8 (ix2 r q)
      = Cert.Spec.zOf (rows (val_main_v82 (F := Ideal) x0 x1 x2 x3 x4 x5 x6 x7 x8)) (sq x2 1) (row x3 1) (sq x4 1) (row x5 1) r q := by
  simp only [Cert.Spec.zOf, rows_apply, sq_apply, row_apply]
  rw [val_main_v99_apply, val_main_v94_apply, b2_1, Ideal.addf_def]
  refine congrArg (fun s => s + x5 (ix2 (1 : Fin 3) q)) (Finset.sum_congr rfl fun k _ => ?_)
  rw [show lidx_main_v94 (ix2 r q) k = ix2 r k from funext fun a => Fin.ext (by match a with | ⟨0, _⟩ => rfl | ⟨1, _⟩ => rfl),
    show ridx_main_v94 (ix2 r q) k = ix2 k q from funext fun a => Fin.ext (by match a with | ⟨0, _⟩ => rfl | ⟨1, _⟩ => rfl), hid_1, w2_1]

/-- The column mean of layer 1's z: the zero word plus the sum over the rows, divided by the word of 50000. -/
theorem mu_1 (q : Fin 128) :
    val_main_v102 (F := Ideal) x0 x1 x2 x3 x4 x5 x6 x7 x8 (ix1 q) = Cert.Spec.muOf (rows (val_main_v99 (F := Ideal) x0 x1 x2 x3 x4 x5 x6 x7 x8)) q := by
  simp only [Cert.Spec.muOf, rows_apply]
  rw [val_main_v102_apply, val_main_v100_apply, val_main_v101_apply, val_main_cst_11_apply,
    val_main_cst_12_apply, Ideal.hostDivf_def, Ideal.ofBits_def, Ideal.ofBits_def]
  refine congrArg (fun s => Ideal.div (Ideal.ofBits .f32 0x00000000#32 + s) (Ideal.ofBits .f32 0x47435000#32))
    (Finset.sum_congr rfl fun k _ => ?_)
  rw [show idx_main_v100 (ix1 q) k = ix2 k q from funext fun a => Fin.ext (by match a with | ⟨0, _⟩ => rfl | ⟨1, _⟩ => rfl)]

/-- The column variance of layer 1's z: the mean of the squared distance to the column mean. -/
theorem var_1 (q : Fin 128) :
    val_main_v109 (F := Ideal) x0 x1 x2 x3 x4 x5 x6 x7 x8 (ix1 q) = Cert.Spec.varOf (rows (val_main_v99 (F := Ideal) x0 x1 x2 x3 x4 x5 x6 x7 x8)) q := by
  simp only [Cert.Spec.varOf, rows_apply]
  rw [val_main_v109_apply, val_main_v107_apply, val_main_v108_apply, val_main_cst_13_apply,
    val_main_cst_14_apply, Ideal.hostDivf_def, Ideal.ofBits_def, Ideal.ofBits_def]
  refine congrArg (fun s => Ideal.div (Ideal.ofBits .f32 0x00000000#32 + s) (Ideal.ofBits .f32 0x47435000#32))
    (Finset.sum_congr rfl fun k _ => ?_)
  rw [show idx_main_v107 (ix1 q) k = ix2 k q from funext fun a => Fin.ext (by match a with | ⟨0, _⟩ => rfl | ⟨1, _⟩ => rfl),
    val_main_v106_apply, val_main_v105_apply, val_main_v104_apply, val_main_v103_apply,
    show idx_main_v103 (idx_main_v104 (ix2 k q)) = ix1 q from funext fun a => Fin.ext (by match a with | ⟨0, _⟩ => rfl),
    mu_1, Ideal.mulf_def, Ideal.subf_def]

/-- The new features of layer 1 at (r, q) are `Cert.Spec.hNext` of z, the layer's scale and shift and the previous features. -/
theorem h2 (r : Fin 50000) (q : Fin 128) :
    val_main_v130 (F := Ideal) x0 x1 x2 x3 x4 x5 x6 x7 x8 (ix2 r q)
      = Cert.Spec.hNext (rows (val_main_v99 (F := Ideal) x0 x1 x2 x3 x4 x5 x6 x7 x8)) (row x7 1) (row x8 1) (rows (val_main_v66 (F := Ideal) x0 x1 x2 x3 x4 x5 x6 x7 x8)) r q := by
  simp only [Cert.Spec.hNext, Cert.Spec.normOf, rows_apply, row_apply]
  rw [val_main_v130_apply, val_main_v129_apply, val_main_v128_apply, val_main_v123_apply, val_main_v117_apply,
    val_main_v114_apply, val_main_v113_apply, val_main_v112_apply,
    val_main_v122_apply, val_main_v121_apply, val_main_v120_apply, val_main_v119_apply, val_main_v118_apply,
    val_main_cst_15_apply, gamma_1, beta_1, val_main_call3_v0_apply, val_main_call3_cst_apply,
    show idx_main_v112 (idx_main_v113 (ix2 r q)) = ix1 q from funext fun a => Fin.ext (by match a with | ⟨0, _⟩ => rfl),
    show idx_main_v121 (idx_main_v122 (ix2 r q)) = ix1 q from funext fun a => Fin.ext (by match a with | ⟨0, _⟩ => rfl),
    mu_1, var_1, Ideal.maximumf_def, Ideal.addf_def, Ideal.addf_def, Ideal.addf_def, Ideal.mulf_def, Ideal.mulf_def, Ideal.subf_def,
    Ideal.hostUnary_rsqrt_def, Ideal.ofBits_def, Ideal.ofBits_def]

/-- The output of layer 1 at (r, q) is `Cert.Spec.outOf` of the new features and the layer's output parameters. -/
theorem out1 (r : Fin 50000) (q : Fin 128) :
    val_main_v210 (F := Ideal) x0 x1 x2 x3 x4 x5 x6 x7 x8 x9 x10 (ix2 r q)
      = Cert.Spec.outOf (rows (val_main_v130 (F := Ideal) x0 x1 x2 x3 x4 x5 x6 x7 x8)) (sq x9 1) (row x10 1) r q := by
  simp only [Cert.Spec.outOf, rows_apply, sq_apply, row_apply]
  rw [val_main_v210_apply, val_main_v205_apply, bl_1, Ideal.addf_def]
  refine congrArg (fun s => s + x10 (ix2 (1 : Fin 3) q)) (Finset.sum_congr rfl fun k _ => ?_)
  rw [show lidx_main_v205 (ix2 r q) k = ix2 r k from funext fun a => Fin.ext (by match a with | ⟨0, _⟩ => rfl | ⟨1, _⟩ => rfl),
    show ridx_main_v205 (ix2 r q) k = ix2 k q from funext fun a => Fin.ext (by match a with | ⟨0, _⟩ => rfl | ⟨1, _⟩ => rfl), wl_1]

/-! ## Layer 2 -/

/-- The first weight matrix of layer 2: slice 2 of the stacked array, reshaped to 128 × 128, at (j, k) is the stacked array at (2, j, k). -/
theorem w1_2 (j k : Fin 128) : val_main_v148 (F := Ideal) x2 (ix2 j k) = x2 (ix3 (2 : Fin 3) j k) := by
  rw [val_main_v148_apply, val_main_v147_apply]
  refine congrArg x2 (funext fun a => Fin.ext ?_)
  have hj := j.isLt
  have hk := k.isLt
  match a with
  | ⟨0, _⟩ => rfl
  | ⟨1, _⟩ => show (j.val * 128 + k.val) / 128 % 128 = j.val; omega
  | ⟨2, _⟩ => show (j.val * 128 + k.val) % 128 = k.val; omega

/-- The first bias of layer 2: slice 2 of the stacked array, reshaped to 128 entries and repeated along the rows, at (r, k) is the
    stacked array at (2, k). -/
theorem b1_2 (r : Fin 50000) (k : Fin 128) : val_main_v153 (F := Ideal) x3 (ix2 r k) = x3 (ix2 (2 : Fin 3) k) := by
  rw [val_main_v153_apply, val_main_v152_apply, val_main_v151_apply, val_main_v150_apply]
  refine congrArg x3 (funext fun a => Fin.ext ?_)
  have hk := k.isLt
  match a with
  | ⟨0, _⟩ => rfl
  | ⟨1, _⟩ => show k.val % 128 = k.val; omega

/-- The second weight matrix of layer 2: slice 2 of the stacked array, reshaped to 128 × 128, at (j, k) is the stacked array at (2, j, k). -/
theorem w2_2 (j k : Fin 128) : val_main_v157 (F := Ideal) x4 (ix2 j k) = x4 (ix3 (2 : Fin 3) j k) := by
  rw [val_main_v157_apply, val_main_v156_apply]
  refine congrArg x4 (funext fun a => Fin.ext ?_)
  have hj := j.isLt
  have hk := k.isLt
  match a with
  | ⟨0, _⟩ => rfl
  | ⟨1, _⟩ => show (j.val * 128 + k.val) / 128 % 128 = j.val; omega
  | ⟨2, _⟩ => show (j.val * 128 + k.val) % 128 = k.val; omega

/-- The second bias of layer 2: slice 2 of the stacked array, reshaped to 128 entries and repeated along the rows, at (r, k) is the
    stacked array at (2, k). -/
theorem b2_2 (r : Fin 50000) (k : Fin 128) : val_main_v162 (F := Ideal) x5 (ix2 r k) = x5 (ix2 (2 : Fin 3) k) := by
  rw [val_main_v162_apply, val_main_v161_apply, val_main_v160_apply, val_main_v159_apply]
  refine congrArg x5 (funext fun a => Fin.ext ?_)
  have hk := k.isLt
  match a with
  | ⟨0, _⟩ => rfl
  | ⟨1, _⟩ => show k.val % 128 = k.val; omega

/-- The scale of layer 2's normalisation: slice 2 of the stacked array, reshaped to 128 entries and repeated along the rows, at (r, k) is the
    stacked array at (2, k). -/
theorem gamma_2 (r : Fin 50000) (k : Fin 128) : val_main_v180 (F := Ideal) x7 (ix2 r k) = x7 (ix2 (2 : Fin 3) k) := by
  rw [val_main_v180_apply, val_main_v179_apply, val_main_v175_apply, val_main_v174_apply]
  refine congrArg x7 (funext fun a => Fin.ext ?_)
  have hk := k.isLt
  match a with
  | ⟨0, _⟩ => rfl
  | ⟨1, _⟩ => show k.val % 128 = k.val; omega

/-- The shift of layer 2's normalisation: slice 2 of the stacked array, reshaped to 128 entries and repeated along the rows, at (r, k) is the
    stacked array at (2, k). -/
theorem beta_2 (r : Fin 50000) (k : Fin 128) : val_main_v191 (F := Ideal) x8 (ix2 r k) = x8 (ix2 (2 : Fin 3) k) := by
  rw [val_main_v191_apply, val_main_v190_apply, val_main_v189_apply, val_main_v188_apply]
  refine congrArg x8 (funext fun a => Fin.ext ?_)
  have hk := k.isLt
  match a with
  | ⟨0, _⟩ => rfl
  | ⟨1, _⟩ => show k.val % 128 = k.val; omega

/-- The output weight matrix of layer 2: slice 2 of the stacked array, reshaped to 128 × 128, at (j, k) is the stacked array at (2, j, k). -/
theorem wl_2 (j k : Fin 128) : val_main_v212 (F := Ideal) x9 (ix2 j k) = x9 (ix3 (2 : Fin 3) j k) := by
  rw [val_main_v212_apply, val_main_v211_apply]
  refine congrArg x9 (funext fun a => Fin.ext ?_)
  have hj := j.isLt
  have hk := k.isLt
  match a with
  | ⟨0, _⟩ => rfl
  | ⟨1, _⟩ => show (j.val * 128 + k.val) / 128 % 128 = j.val; omega
  | ⟨2, _⟩ => show (j.val * 128 + k.val) % 128 = k.val; omega

/-- The output bias of layer 2: slice 2 of the stacked array, reshaped to 128 entries and repeated along the rows, at (r, k) is the
    stacked array at (2, k). -/
theorem bl_2 (r : Fin 50000) (k : Fin 128) : val_main_v217 (F := Ideal) x10 (ix2 r k) = x10 (ix2 (2 : Fin 3) k) := by
  rw [val_main_v217_apply, val_main_v216_apply, val_main_v215_apply, val_main_v214_apply]
  refine congrArg x10 (funext fun a => Fin.ext ?_)
  have hk := k.isLt
  match a with
  | ⟨0, _⟩ => rfl
  | ⟨1, _⟩ => show k.val % 128 = k.val; omega

/-- The hidden activation of layer 2 at (r, k): the product of row r of the mixed features with column k of W₁, plus
    b₁ at k, clamped at the zero word. -/
theorem hid_2 (r : Fin 50000) (k : Fin 128) :
    val_main_v155 (F := Ideal) x0 x1 x2 x3 x4 x5 x6 x7 x8 (ix2 r k)
      = max ((∑ j : Fin 128, val_main_v146 (F := Ideal) x0 x1 x2 x3 x4 x5 x6 x7 x8 (ix2 r j) * x2 (ix3 (2 : Fin 3) j k)) + x3 (ix2 (2 : Fin 3) k))
          (Ideal.ofBits .f32 0x00000000#32) := by
  rw [val_main_v155_apply, val_main_v154_apply, val_main_v149_apply, b1_2, val_main_call4_v0_apply,
    val_main_call4_cst_apply, Ideal.maximumf_def, Ideal.addf_def, Ideal.ofBits_def]
  refine congrArg (fun s => max (s + x3 (ix2 (2 : Fin 3) k)) (Ideal.ofBits .f32 0x00000000#32))
    (Finset.sum_congr rfl fun j _ => ?_)
  rw [show lidx_main_v149 (ix2 r k) j = ix2 r j from funext fun a => Fin.ext (by match a with | ⟨0, _⟩ => rfl | ⟨1, _⟩ => rfl),
    show ridx_main_v149 (ix2 r k) j = ix2 j k from funext fun a => Fin.ext (by match a with | ⟨0, _⟩ => rfl | ⟨1, _⟩ => rfl), w1_2]

/-- The perceptron's output of layer 2 at (r, q) is `Cert.Spec.zOf` of the mixed features and the layer's parameters. -/
theorem z2 (r : Fin 50000) (q : Fin 128) :
    val_main_v163 (F := Ideal) x0 x1 x2 x3 x4 x5 x6 x7 x8 (ix2 r q)
      = Cert.Spec.zOf (rows (val_main_v146 (F := Ideal) x0 x1 x2 x3 x4 x5 x6 x7 x8)) (sq x2 2) (row x3 2) (sq x4 2) (row x5 2) r q := by
  simp only [Cert.Spec.zOf, rows_apply, sq_apply, row_apply]
  rw [val_main_v163_apply, val_main_v158_apply, b2_2, Ideal.addf_def]
  refine congrArg (fun s => s + x5 (ix2 (2 : Fin 3) q)) (Finset.sum_congr rfl fun k _ => ?_)
  rw [show lidx_main_v158 (ix2 r q) k = ix2 r k from funext fun a => Fin.ext (by match a with | ⟨0, _⟩ => rfl | ⟨1, _⟩ => rfl),
    show ridx_main_v158 (ix2 r q) k = ix2 k q from funext fun a => Fin.ext (by match a with | ⟨0, _⟩ => rfl | ⟨1, _⟩ => rfl), hid_2, w2_2]

/-- The column mean of layer 2's z: the zero word plus the sum over the rows, divided by the word of 50000. -/
theorem mu_2 (q : Fin 128) :
    val_main_v166 (F := Ideal) x0 x1 x2 x3 x4 x5 x6 x7 x8 (ix1 q) = Cert.Spec.muOf (rows (val_main_v163 (F := Ideal) x0 x1 x2 x3 x4 x5 x6 x7 x8)) q := by
  simp only [Cert.Spec.muOf, rows_apply]
  rw [val_main_v166_apply, val_main_v164_apply, val_main_v165_apply, val_main_cst_20_apply,
    val_main_cst_21_apply, Ideal.hostDivf_def, Ideal.ofBits_def, Ideal.ofBits_def]
  refine congrArg (fun s => Ideal.div (Ideal.ofBits .f32 0x00000000#32 + s) (Ideal.ofBits .f32 0x47435000#32))
    (Finset.sum_congr rfl fun k _ => ?_)
  rw [show idx_main_v164 (ix1 q) k = ix2 k q from funext fun a => Fin.ext (by match a with | ⟨0, _⟩ => rfl | ⟨1, _⟩ => rfl)]

/-- The column variance of layer 2's z: the mean of the squared distance to the column mean. -/
theorem var_2 (q : Fin 128) :
    val_main_v173 (F := Ideal) x0 x1 x2 x3 x4 x5 x6 x7 x8 (ix1 q) = Cert.Spec.varOf (rows (val_main_v163 (F := Ideal) x0 x1 x2 x3 x4 x5 x6 x7 x8)) q := by
  simp only [Cert.Spec.varOf, rows_apply]
  rw [val_main_v173_apply, val_main_v171_apply, val_main_v172_apply, val_main_cst_22_apply,
    val_main_cst_23_apply, Ideal.hostDivf_def, Ideal.ofBits_def, Ideal.ofBits_def]
  refine congrArg (fun s => Ideal.div (Ideal.ofBits .f32 0x00000000#32 + s) (Ideal.ofBits .f32 0x47435000#32))
    (Finset.sum_congr rfl fun k _ => ?_)
  rw [show idx_main_v171 (ix1 q) k = ix2 k q from funext fun a => Fin.ext (by match a with | ⟨0, _⟩ => rfl | ⟨1, _⟩ => rfl),
    val_main_v170_apply, val_main_v169_apply, val_main_v168_apply, val_main_v167_apply,
    show idx_main_v167 (idx_main_v168 (ix2 k q)) = ix1 q from funext fun a => Fin.ext (by match a with | ⟨0, _⟩ => rfl),
    mu_2, Ideal.mulf_def, Ideal.subf_def]

/-- The new features of layer 2 at (r, q) are `Cert.Spec.hNext` of z, the layer's scale and shift and the previous features. -/
theorem h3 (r : Fin 50000) (q : Fin 128) :
    val_main_v194 (F := Ideal) x0 x1 x2 x3 x4 x5 x6 x7 x8 (ix2 r q)
      = Cert.Spec.hNext (rows (val_main_v163 (F := Ideal) x0 x1 x2 x3 x4 x5 x6 x7 x8)) (row x7 2) (row x8 2) (rows (val_main_v130 (F := Ideal) x0 x1 x2 x3 x4 x5 x6 x7 x8)) r q := by
  simp only [Cert.Spec.hNext, Cert.Spec.normOf, rows_apply, row_apply]
  rw [val_main_v194_apply, val_main_v193_apply, val_main_v192_apply, val_main_v187_apply, val_main_v181_apply,
    val_main_v178_apply, val_main_v177_apply, val_main_v176_apply,
    val_main_v186_apply, val_main_v185_apply, val_main_v184_apply, val_main_v183_apply, val_main_v182_apply,
    val_main_cst_24_apply, gamma_2, beta_2, val_main_call5_v0_apply, val_main_call5_cst_apply,
    show idx_main_v176 (idx_main_v177 (ix2 r q)) = ix1 q from funext fun a => Fin.ext (by match a with | ⟨0, _⟩ => rfl),
    show idx_main_v185 (idx_main_v186 (ix2 r q)) = ix1 q from funext fun a => Fin.ext (by match a with | ⟨0, _⟩ => rfl),
    mu_2, var_2, Ideal.maximumf_def, Ideal.addf_def, Ideal.addf_def, Ideal.addf_def, Ideal.mulf_def, Ideal.mulf_def, Ideal.subf_def,
    Ideal.hostUnary_rsqrt_def, Ideal.ofBits_def, Ideal.ofBits_def]

/-- The output of layer 2 at (r, q) is `Cert.Spec.outOf` of the new features and the layer's output parameters. -/
theorem out2 (r : Fin 50000) (q : Fin 128) :
    val_main_v218 (F := Ideal) x0 x1 x2 x3 x4 x5 x6 x7 x8 x9 x10 (ix2 r q)
      = Cert.Spec.outOf (rows (val_main_v194 (F := Ideal) x0 x1 x2 x3 x4 x5 x6 x7 x8)) (sq x9 2) (row x10 2) r q := by
  simp only [Cert.Spec.outOf, rows_apply, sq_apply, row_apply]
  rw [val_main_v218_apply, val_main_v213_apply, bl_2, Ideal.addf_def]
  refine congrArg (fun s => s + x10 (ix2 (2 : Fin 3) q)) (Finset.sum_congr rfl fun k _ => ?_)
  rw [show lidx_main_v213 (ix2 r q) k = ix2 r k from funext fun a => Fin.ext (by match a with | ⟨0, _⟩ => rfl | ⟨1, _⟩ => rfl),
    show ridx_main_v213 (ix2 r q) k = ix2 k q from funext fun a => Fin.ext (by match a with | ⟨0, _⟩ => rfl | ⟨1, _⟩ => rfl), wl_2]

end Cert.ReferenceIdeal.RefStages

end
-- ==== Proof.FrameIdeal.Chain.lean ====
/-
  The kernel program's buffers, stage by stage, hold what the reference's stages hold. Each host stretch applies the
  same operations as the reference to values already known equal (the mix of a layer), or reads a parameter's slice,
  or takes the column statistics of `z`; each region leaves the layer's formula of the arrays it found; the reference's
  stages are the same formulas of the same arrays.
-/
import proofs.«142693_j60928406061119_1_alg».proof.Proof.FrameIdeal.Run
import proofs.«142693_j60928406061119_1_alg».proof.Proof.FrameIdeal.Stage0
import proofs.«142693_j60928406061119_1_alg».proof.Proof.FrameIdeal.Stage1
import proofs.«142693_j60928406061119_1_alg».proof.Proof.FrameIdeal.Stage2
import proofs.«142693_j60928406061119_1_alg».proof.Proof.FrameIdeal.Stage3
import proofs.«142693_j60928406061119_1_alg».proof.Proof.FrameIdeal.Stage4
import proofs.«142693_j60928406061119_1_alg».proof.Proof.FrameIdeal.Stage5
import proofs.«142693_j60928406061119_1_alg».proof.Proof.KHost
import proofs.«142693_j60928406061119_1_alg».proof.Proof.RefStages
import Idealize.ShloMosaic.Lib.StableHlo.Run

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.SL Idealize.SL.Sem
open scoped BigOperators

variable (m : (ℓ : Loc nD τ sig) → Buf (Elt Ideal) ℓ) (ρ : Dev nD → PrngReg) (c : Dev nD)

/-! ## Layer 0 -/

theorem arg2_at0 : W0 m ρ c main_arg2 = (m ((c : Thread nD τ).loc main_arg2)) := rfl
theorem arg3_at0 : W0 m ρ c main_arg3 = (m ((c : Thread nD τ).loc main_arg3)) := rfl
theorem arg4_at0 : W0 m ρ c main_arg4 = (m ((c : Thread nD τ).loc main_arg4)) := rfl
theorem arg5_at0 : W0 m ρ c main_arg5 = (m ((c : Thread nD τ).loc main_arg5)) := rfl
theorem arg6_at0 : W0 m ρ c main_arg6 = (m ((c : Thread nD τ).loc main_arg6)) := rfl
theorem arg7_at2 : W2 m ρ c main_arg7 = (m ((c : Thread nD τ).loc main_arg7)) := ((W2_of_ne m ρ c main_arg7 (by decide)).trans <| (W1_of m ρ c main_arg7 (by decide))).trans rfl
theorem arg8_at2 : W2 m ρ c main_arg8 = (m ((c : Thread nD τ).loc main_arg8)) := ((W2_of_ne m ρ c main_arg8 (by decide)).trans <| (W1_of m ρ c main_arg8 (by decide))).trans rfl
theorem arg9_at2 : W2 m ρ c main_arg9 = (m ((c : Thread nD τ).loc main_arg9)) := ((W2_of_ne m ρ c main_arg9 (by decide)).trans <| (W1_of m ρ c main_arg9 (by decide))).trans rfl
theorem arg10_at2 : W2 m ρ c main_arg10 = (m ((c : Thread nD τ).loc main_arg10)) := ((W2_of_ne m ρ c main_arg10 (by decide)).trans <| (W1_of m ρ c main_arg10 (by decide))).trans rfl

/-- The edge lists and the first mix are the same host operations of the same arguments in both programs. -/
theorem src_at1 : W1 m ρ c main_v1 = Cert.ReferenceIdeal.RefRead.val_main_v1 (F := Ideal) (m ((c : Thread nD τ).loc main_arg1)) := by
  show StableHlo.after hostOps0 (W0 m ρ c) (Proc.devRef .tc main_v1) = _
  after_results; rfl
theorem dst_at1 : W1 m ρ c main_v3 = Cert.ReferenceIdeal.RefRead.val_main_v3 (F := Ideal) (m ((c : Thread nD τ).loc main_arg1)) := by
  show StableHlo.after hostOps0 (W0 m ρ c) (Proc.devRef .tc main_v3) = _
  after_results; rfl
set_option maxHeartbeats 4000000 in
theorem mix0 : W1 m ρ c main_v19 = (Cert.ReferenceIdeal.RefRead.val_main_v19 (F := Ideal) (m ((c : Thread nD τ).loc main_arg0)) (m ((c : Thread nD τ).loc main_arg1)) (m ((c : Thread nD τ).loc main_arg6))) := by
  show StableHlo.after hostOps0 (W0 m ρ c) (Proc.devRef .tc main_v19) = _
  after_results_simp
  all_goals rfl
theorem pw1_0 (j k : Fin 128) : W1 m ρ c main_v21 (ix2 j k) = (m ((c : Thread nD τ).loc main_arg2)) (ix3 0 j k) := by
  show StableHlo.after hostOps0 (W0 m ρ c) (Proc.devRef .tc main_v21) _ = _
  after_results
  exact (Cert.KernelIdeal.KHost.sq0 _ j k).trans (congrFun (arg2_at0 m ρ c) _)
theorem pb1_0 (k : Fin 128) : W1 m ρ c main_v28 (ix2 0 k) = (m ((c : Thread nD τ).loc main_arg3)) (ix2 0 k) := by
  show StableHlo.after hostOps0 (W0 m ρ c) (Proc.devRef .tc main_v28) _ = _
  after_results
  exact (Cert.KernelIdeal.KHost.row0 _ k).trans (congrFun (arg3_at0 m ρ c) _)
theorem pw2_0 (j k : Fin 128) : W1 m ρ c main_v25 (ix2 j k) = (m ((c : Thread nD τ).loc main_arg4)) (ix3 0 j k) := by
  show StableHlo.after hostOps0 (W0 m ρ c) (Proc.devRef .tc main_v25) _ = _
  after_results
  exact (Cert.KernelIdeal.KHost.sq0 _ j k).trans (congrFun (arg4_at0 m ρ c) _)
theorem pb2_0 (k : Fin 128) : W1 m ρ c main_v29 (ix2 0 k) = (m ((c : Thread nD τ).loc main_arg5)) (ix2 0 k) := by
  show StableHlo.after hostOps0 (W0 m ρ c) (Proc.devRef .tc main_v29) _ = _
  after_results
  exact (Cert.KernelIdeal.KHost.row0 _ k).trans (congrFun (arg5_at0 m ρ c) _)

theorem zG0 : W2 m ρ c main_v30 = G0_5 (F := Ideal) (V1 m ρ) c :=
  (W2_arr m ρ c 5).trans (final0_5 (V1 m ρ) c)
/-- The perceptron's output of this layer is the reference's. -/
theorem z0 : W2 m ρ c main_v30 = (Cert.ReferenceIdeal.RefRead.val_main_v36 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  rw [zG0]
  funext i
  obtain ⟨r, q, rfl⟩ : ∃ (r : Fin 50000) (q : Fin 128), i = ix2 r q := ⟨i 0, i 1, eq_ix2 i⟩
  rw [G0_5_apply, Cert.ReferenceIdeal.RefStages.z0]
  have e0 : (fun r j => V1 m ρ c main_v19 (ix2 r j)) = Cert.ReferenceIdeal.RefStages.rows (Cert.ReferenceIdeal.RefRead.val_main_v19 (F := Ideal) (m ((c : Thread nD τ).loc main_arg0)) (m ((c : Thread nD τ).loc main_arg1)) (m ((c : Thread nD τ).loc main_arg6))) := by
    funext r j; exact congrFun (mix0 m ρ c) _
  have e1 : (fun j k => V1 m ρ c main_v21 (ix2 j k)) = Cert.ReferenceIdeal.RefStages.sq (m ((c : Thread nD τ).loc main_arg2)) 0 := by funext j k; exact pw1_0 m ρ c j k
  have e2 : (fun k => V1 m ρ c main_v28 (ix2 0 k)) = Cert.ReferenceIdeal.RefStages.row (m ((c : Thread nD τ).loc main_arg3)) 0 := by funext k; exact pb1_0 m ρ c k
  have e3 : (fun j k => V1 m ρ c main_v25 (ix2 j k)) = Cert.ReferenceIdeal.RefStages.sq (m ((c : Thread nD τ).loc main_arg4)) 0 := by funext j k; exact pw2_0 m ρ c j k
  have e4 : (fun k => V1 m ρ c main_v29 (ix2 0 k)) = Cert.ReferenceIdeal.RefStages.row (m ((c : Thread nD τ).loc main_arg5)) 0 := by funext k; exact pb2_0 m ρ c k
  rw [e0, e1, e2, e3, e4]

theorem zkeep0 : W3 m ρ c main_v30 = W2 m ρ c main_v30 := W3_of m ρ c main_v30 (by decide)
/-- The mean row the normalisation kernel is handed is the column means of `z`. -/
theorem mu0 (q : Fin 128) : W3 m ρ c main_v34 (ix2 0 q) = Cert.Spec.muOf (fun r q => W3 m ρ c main_v30 (ix2 r q)) q := by
  rw [zkeep0]
  show StableHlo.after hostOps1 (W2 m ρ c) (Proc.devRef .tc main_v34) _ = _
  after_results
  exact Cert.KernelIdeal.KHost.mean_row _ q
/-- The variance row it is handed is the column variances of `z`. -/
theorem var0 (q : Fin 128) : W3 m ρ c main_v41 (ix2 0 q) = Cert.Spec.varOf (fun r q => W3 m ρ c main_v30 (ix2 r q)) q := by
  rw [zkeep0]
  show StableHlo.after hostOps1 (W2 m ρ c) (Proc.devRef .tc main_v41) _ = _
  after_results
  exact Cert.KernelIdeal.KHost.var_row _ _ (fun q => Cert.KernelIdeal.KHost.mean_row _ q) q
theorem pga_0 (k : Fin 128) : W3 m ρ c main_v51 (ix2 0 k) = (m ((c : Thread nD τ).loc main_arg7)) (ix2 0 k) := by
  show StableHlo.after hostOps1 (W2 m ρ c) (Proc.devRef .tc main_v51) _ = _
  after_results
  exact (Cert.KernelIdeal.KHost.row0 _ k).trans (congrFun (arg7_at2 m ρ c) _)
theorem pbe_0 (k : Fin 128) : W3 m ρ c main_v52 (ix2 0 k) = (m ((c : Thread nD τ).loc main_arg8)) (ix2 0 k) := by
  show StableHlo.after hostOps1 (W2 m ρ c) (Proc.devRef .tc main_v52) _ = _
  after_results
  exact (Cert.KernelIdeal.KHost.row0 _ k).trans (congrFun (arg8_at2 m ρ c) _)
theorem pwl_0 (j k : Fin 128) : W3 m ρ c main_v48 (ix2 j k) = (m ((c : Thread nD τ).loc main_arg9)) (ix3 0 j k) := by
  show StableHlo.after hostOps1 (W2 m ρ c) (Proc.devRef .tc main_v48) _ = _
  after_results
  exact (Cert.KernelIdeal.KHost.sq0 _ j k).trans (congrFun (arg9_at2 m ρ c) _)
theorem pbl_0 (k : Fin 128) : W3 m ρ c main_v53 (ix2 0 k) = (m ((c : Thread nD τ).loc main_arg10)) (ix2 0 k) := by
  show StableHlo.after hostOps1 (W2 m ρ c) (Proc.devRef .tc main_v53) _ = _
  after_results
  exact (Cert.KernelIdeal.KHost.row0 _ k).trans (congrFun (arg10_at2 m ρ c) _)
theorem res0 (r : Fin 50000) (q : Fin 128) : W3 m ρ c main_v42 (ix2 r q) = Cert.Spec.zeroW := by
  show StableHlo.after hostOps1 (W2 m ρ c) (Proc.devRef .tc main_v42) _ = _
  after_results
  exact Cert.KernelIdeal.KHost.zeros r q

theorem hG0 : W4 m ρ c main_v54_0 = G1_8 (F := Ideal) (V3 m ρ) c :=
  (W4_arr m ρ c 8).trans (final1_8 (V3 m ρ) c)
theorem oG0 : W4 m ρ c main_v54_1 = G1_9 (F := Ideal) (V3 m ρ) c :=
  (W4_arr m ρ c 9).trans (final1_9 (V3 m ρ) c)
/-- The new features of this layer are the reference's. -/
theorem h0 : W4 m ρ c main_v54_0 = (Cert.ReferenceIdeal.RefRead.val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  rw [hG0]
  funext i
  obtain ⟨r, q, rfl⟩ : ∃ (r : Fin 50000) (q : Fin 128), i = ix2 r q := ⟨i 0, i 1, eq_ix2 i⟩
  rw [G1_8_apply (V3 m ρ) c (mu0 m ρ c) (var0 m ρ c) r q, Cert.ReferenceIdeal.RefStages.h1]
  have e0 : (fun r q => V3 m ρ c main_v30 (ix2 r q)) = Cert.ReferenceIdeal.RefStages.rows (Cert.ReferenceIdeal.RefRead.val_main_v36 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
    funext r q; exact congrFun ((zkeep0 m ρ c).trans (z0 m ρ c)) _
  have e1 : (fun q => V3 m ρ c main_v51 (ix2 0 q)) = Cert.ReferenceIdeal.RefStages.row (m ((c : Thread nD τ).loc main_arg7)) 0 := by funext k; exact pga_0 m ρ c k
  have e2 : (fun q => V3 m ρ c main_v52 (ix2 0 q)) = Cert.ReferenceIdeal.RefStages.row (m ((c : Thread nD τ).loc main_arg8)) 0 := by funext k; exact pbe_0 m ρ c k
  have e3 : (fun r q => V3 m ρ c main_v42 (ix2 r q)) = fun _ _ => Cert.Spec.zeroW := by funext r q; exact res0 m ρ c r q
  rw [e0, e1, e2, e3, Cert.Spec.hNext_zero]
/-- The projected output of this layer is the reference's. -/
theorem o0 : W4 m ρ c main_v54_1 = (Cert.ReferenceIdeal.RefRead.val_main_v202 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  rw [oG0]
  funext i
  obtain ⟨r, q, rfl⟩ : ∃ (r : Fin 50000) (q : Fin 128), i = ix2 r q := ⟨i 0, i 1, eq_ix2 i⟩
  rw [G1_9_apply, Cert.ReferenceIdeal.RefStages.out0]
  have e0 : (fun r k => G1_8 (F := Ideal) (V3 m ρ) c (ix2 r k)) = Cert.ReferenceIdeal.RefStages.rows (Cert.ReferenceIdeal.RefRead.val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
    funext r k; exact congrFun ((hG0 m ρ c).symm.trans (h0 m ρ c)) _
  have e1 : (fun k q => V3 m ρ c main_v48 (ix2 k q)) = Cert.ReferenceIdeal.RefStages.sq (m ((c : Thread nD τ).loc main_arg9)) 0 := by funext j k; exact pwl_0 m ρ c j k
  have e2 : (fun q => V3 m ρ c main_v53 (ix2 0 q)) = Cert.ReferenceIdeal.RefStages.row (m ((c : Thread nD τ).loc main_arg10)) 0 := by funext k; exact pbl_0 m ρ c k
  rw [e0, e1, e2]

/-! ## Layer 1 -/

theorem arg2_at4 : W4 m ρ c main_arg2 = (m ((c : Thread nD τ).loc main_arg2)) := ((W4_of_ne m ρ c main_arg2 (by decide)).trans <| (W3_of m ρ c main_arg2 (by decide)).trans <| (W2_of_ne m ρ c main_arg2 (by decide)).trans <| (W1_of m ρ c main_arg2 (by decide))).trans rfl
theorem arg3_at4 : W4 m ρ c main_arg3 = (m ((c : Thread nD τ).loc main_arg3)) := ((W4_of_ne m ρ c main_arg3 (by decide)).trans <| (W3_of m ρ c main_arg3 (by decide)).trans <| (W2_of_ne m ρ c main_arg3 (by decide)).trans <| (W1_of m ρ c main_arg3 (by decide))).trans rfl
theorem arg4_at4 : W4 m ρ c main_arg4 = (m ((c : Thread nD τ).loc main_arg4)) := ((W4_of_ne m ρ c main_arg4 (by decide)).trans <| (W3_of m ρ c main_arg4 (by decide)).trans <| (W2_of_ne m ρ c main_arg4 (by decide)).trans <| (W1_of m ρ c main_arg4 (by decide))).trans rfl
theorem arg5_at4 : W4 m ρ c main_arg5 = (m ((c : Thread nD τ).loc main_arg5)) := ((W4_of_ne m ρ c main_arg5 (by decide)).trans <| (W3_of m ρ c main_arg5 (by decide)).trans <| (W2_of_ne m ρ c main_arg5 (by decide)).trans <| (W1_of m ρ c main_arg5 (by decide))).trans rfl
theorem arg6_at4 : W4 m ρ c main_arg6 = (m ((c : Thread nD τ).loc main_arg6)) := ((W4_of_ne m ρ c main_arg6 (by decide)).trans <| (W3_of m ρ c main_arg6 (by decide)).trans <| (W2_of_ne m ρ c main_arg6 (by decide)).trans <| (W1_of m ρ c main_arg6 (by decide))).trans rfl
theorem arg7_at6 : W6 m ρ c main_arg7 = (m ((c : Thread nD τ).loc main_arg7)) := ((W6_of_ne m ρ c main_arg7 (by decide)).trans <| (W5_of m ρ c main_arg7 (by decide)).trans <| (W4_of_ne m ρ c main_arg7 (by decide)).trans <| (W3_of m ρ c main_arg7 (by decide)).trans <| (W2_of_ne m ρ c main_arg7 (by decide)).trans <| (W1_of m ρ c main_arg7 (by decide))).trans rfl
theorem arg8_at6 : W6 m ρ c main_arg8 = (m ((c : Thread nD τ).loc main_arg8)) := ((W6_of_ne m ρ c main_arg8 (by decide)).trans <| (W5_of m ρ c main_arg8 (by decide)).trans <| (W4_of_ne m ρ c main_arg8 (by decide)).trans <| (W3_of m ρ c main_arg8 (by decide)).trans <| (W2_of_ne m ρ c main_arg8 (by decide)).trans <| (W1_of m ρ c main_arg8 (by decide))).trans rfl
theorem arg9_at6 : W6 m ρ c main_arg9 = (m ((c : Thread nD τ).loc main_arg9)) := ((W6_of_ne m ρ c main_arg9 (by decide)).trans <| (W5_of m ρ c main_arg9 (by decide)).trans <| (W4_of_ne m ρ c main_arg9 (by decide)).trans <| (W3_of m ρ c main_arg9 (by decide)).trans <| (W2_of_ne m ρ c main_arg9 (by decide)).trans <| (W1_of m ρ c main_arg9 (by decide))).trans rfl
theorem arg10_at6 : W6 m ρ c main_arg10 = (m ((c : Thread nD τ).loc main_arg10)) := ((W6_of_ne m ρ c main_arg10 (by decide)).trans <| (W5_of m ρ c main_arg10 (by decide)).trans <| (W4_of_ne m ρ c main_arg10 (by decide)).trans <| (W3_of m ρ c main_arg10 (by decide)).trans <| (W2_of_ne m ρ c main_arg10 (by decide)).trans <| (W1_of m ρ c main_arg10 (by decide))).trans rfl

theorem src_at4 : W4 m ρ c main_v1 = Cert.ReferenceIdeal.RefRead.val_main_v1 (F := Ideal) (m ((c : Thread nD τ).loc main_arg1)) :=
  ((W4_of_ne m ρ c main_v1 (by decide)).trans <| (W3_of m ρ c main_v1 (by decide)).trans <| (W2_of_ne m ρ c main_v1 (by decide))).trans (src_at1 m ρ c)
theorem dst_at4 : W4 m ρ c main_v3 = Cert.ReferenceIdeal.RefRead.val_main_v3 (F := Ideal) (m ((c : Thread nD τ).loc main_arg1)) :=
  ((W4_of_ne m ρ c main_v3 (by decide)).trans <| (W3_of m ρ c main_v3 (by decide)).trans <| (W2_of_ne m ρ c main_v3 (by decide))).trans (dst_at1 m ρ c)
set_option maxHeartbeats 4000000 in
/-- The mix of this layer: the same host operations in both programs, of features already known equal. -/
theorem mix1 : W5 m ρ c main_v70 = (Cert.ReferenceIdeal.RefRead.val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  show StableHlo.after hostOps2 (W4 m ρ c) (Proc.devRef .tc main_v70) = _
  after_results_simp
  rw [show W4 m ρ c (Proc.devRef .tc main_v54_0) = _ from h0 m ρ c, show W4 m ρ c (Proc.devRef .tc main_v1) = _ from src_at4 m ρ c,
    show W4 m ρ c (Proc.devRef .tc main_v3) = _ from dst_at4 m ρ c, show W4 m ρ c (Proc.devRef .tc main_arg6) = _ from arg6_at4 m ρ c]
  rfl
theorem pw1_1 (j k : Fin 128) : W5 m ρ c main_v72 (ix2 j k) = (m ((c : Thread nD τ).loc main_arg2)) (ix3 1 j k) := by
  show StableHlo.after hostOps2 (W4 m ρ c) (Proc.devRef .tc main_v72) _ = _
  after_results
  exact (Cert.KernelIdeal.KHost.sq1 _ j k).trans (congrFun (arg2_at4 m ρ c) _)
theorem pb1_1 (k : Fin 128) : W5 m ρ c main_v79 (ix2 0 k) = (m ((c : Thread nD τ).loc main_arg3)) (ix2 1 k) := by
  show StableHlo.after hostOps2 (W4 m ρ c) (Proc.devRef .tc main_v79) _ = _
  after_results
  exact (Cert.KernelIdeal.KHost.row1 _ k).trans (congrFun (arg3_at4 m ρ c) _)
theorem pw2_1 (j k : Fin 128) : W5 m ρ c main_v76 (ix2 j k) = (m ((c : Thread nD τ).loc main_arg4)) (ix3 1 j k) := by
  show StableHlo.after hostOps2 (W4 m ρ c) (Proc.devRef .tc main_v76) _ = _
  after_results
  exact (Cert.KernelIdeal.KHost.sq1 _ j k).trans (congrFun (arg4_at4 m ρ c) _)
theorem pb2_1 (k : Fin 128) : W5 m ρ c main_v80 (ix2 0 k) = (m ((c : Thread nD τ).loc main_arg5)) (ix2 1 k) := by
  show StableHlo.after hostOps2 (W4 m ρ c) (Proc.devRef .tc main_v80) _ = _
  after_results
  exact (Cert.KernelIdeal.KHost.row1 _ k).trans (congrFun (arg5_at4 m ρ c) _)

theorem zG1 : W6 m ρ c main_v81 = G2_5 (F := Ideal) (V5 m ρ) c :=
  (W6_arr m ρ c 5).trans (final2_5 (V5 m ρ) c)
/-- The perceptron's output of this layer is the reference's. -/
theorem z1 : W6 m ρ c main_v81 = (Cert.ReferenceIdeal.RefRead.val_main_v99 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  rw [zG1]
  funext i
  obtain ⟨r, q, rfl⟩ : ∃ (r : Fin 50000) (q : Fin 128), i = ix2 r q := ⟨i 0, i 1, eq_ix2 i⟩
  rw [G2_5_apply, Cert.ReferenceIdeal.RefStages.z1]
  have e0 : (fun r j => V5 m ρ c main_v70 (ix2 r j)) = Cert.ReferenceIdeal.RefStages.rows (Cert.ReferenceIdeal.RefRead.val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
    funext r j; exact congrFun (mix1 m ρ c) _
  have e1 : (fun j k => V5 m ρ c main_v72 (ix2 j k)) = Cert.ReferenceIdeal.RefStages.sq (m ((c : Thread nD τ).loc main_arg2)) 1 := by funext j k; exact pw1_1 m ρ c j k
  have e2 : (fun k => V5 m ρ c main_v79 (ix2 0 k)) = Cert.ReferenceIdeal.RefStages.row (m ((c : Thread nD τ).loc main_arg3)) 1 := by funext k; exact pb1_1 m ρ c k
  have e3 : (fun j k => V5 m ρ c main_v76 (ix2 j k)) = Cert.ReferenceIdeal.RefStages.sq (m ((c : Thread nD τ).loc main_arg4)) 1 := by funext j k; exact pw2_1 m ρ c j k
  have e4 : (fun k => V5 m ρ c main_v80 (ix2 0 k)) = Cert.ReferenceIdeal.RefStages.row (m ((c : Thread nD τ).loc main_arg5)) 1 := by funext k; exact pb2_1 m ρ c k
  rw [e0, e1, e2, e3, e4]

theorem zkeep1 : W7 m ρ c main_v81 = W6 m ρ c main_v81 := W7_of m ρ c main_v81 (by decide)
/-- The mean row the normalisation kernel is handed is the column means of `z`. -/
theorem mu1 (q : Fin 128) : W7 m ρ c main_v85 (ix2 0 q) = Cert.Spec.muOf (fun r q => W7 m ρ c main_v81 (ix2 r q)) q := by
  rw [zkeep1]
  show StableHlo.after hostOps3 (W6 m ρ c) (Proc.devRef .tc main_v85) _ = _
  after_results
  exact Cert.KernelIdeal.KHost.mean_row _ q
/-- The variance row it is handed is the column variances of `z`. -/
theorem var1 (q : Fin 128) : W7 m ρ c main_v92 (ix2 0 q) = Cert.Spec.varOf (fun r q => W7 m ρ c main_v81 (ix2 r q)) q := by
  rw [zkeep1]
  show StableHlo.after hostOps3 (W6 m ρ c) (Proc.devRef .tc main_v92) _ = _
  after_results
  exact Cert.KernelIdeal.KHost.var_row _ _ (fun q => Cert.KernelIdeal.KHost.mean_row _ q) q
theorem pga_1 (k : Fin 128) : W7 m ρ c main_v101 (ix2 0 k) = (m ((c : Thread nD τ).loc main_arg7)) (ix2 1 k) := by
  show StableHlo.after hostOps3 (W6 m ρ c) (Proc.devRef .tc main_v101) _ = _
  after_results
  exact (Cert.KernelIdeal.KHost.row1 _ k).trans (congrFun (arg7_at6 m ρ c) _)
theorem pbe_1 (k : Fin 128) : W7 m ρ c main_v102 (ix2 0 k) = (m ((c : Thread nD τ).loc main_arg8)) (ix2 1 k) := by
  show StableHlo.after hostOps3 (W6 m ρ c) (Proc.devRef .tc main_v102) _ = _
  after_results
  exact (Cert.KernelIdeal.KHost.row1 _ k).trans (congrFun (arg8_at6 m ρ c) _)
theorem pwl_1 (j k : Fin 128) : W7 m ρ c main_v98 (ix2 j k) = (m ((c : Thread nD τ).loc main_arg9)) (ix3 1 j k) := by
  show StableHlo.after hostOps3 (W6 m ρ c) (Proc.devRef .tc main_v98) _ = _
  after_results
  exact (Cert.KernelIdeal.KHost.sq1 _ j k).trans (congrFun (arg9_at6 m ρ c) _)
theorem pbl_1 (k : Fin 128) : W7 m ρ c main_v103 (ix2 0 k) = (m ((c : Thread nD τ).loc main_arg10)) (ix2 1 k) := by
  show StableHlo.after hostOps3 (W6 m ρ c) (Proc.devRef .tc main_v103) _ = _
  after_results
  exact (Cert.KernelIdeal.KHost.row1 _ k).trans (congrFun (arg10_at6 m ρ c) _)
theorem res1 : W7 m ρ c main_v54_0 = (Cert.ReferenceIdeal.RefRead.val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) :=
  ((W7_of m ρ c main_v54_0 (by decide)).trans <| (W6_of_ne m ρ c main_v54_0 (by decide)).trans <| (W5_of m ρ c main_v54_0 (by decide))).trans (h0 m ρ c)

theorem hG1 : W8 m ρ c main_v104_0 = G3_8 (F := Ideal) (V7 m ρ) c :=
  (W8_arr m ρ c 8).trans (final3_8 (V7 m ρ) c)
theorem oG1 : W8 m ρ c main_v104_1 = G3_9 (F := Ideal) (V7 m ρ) c :=
  (W8_arr m ρ c 9).trans (final3_9 (V7 m ρ) c)
/-- The new features of this layer are the reference's. -/
theorem h1 : W8 m ρ c main_v104_0 = (Cert.ReferenceIdeal.RefRead.val_main_v130 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  rw [hG1]
  funext i
  obtain ⟨r, q, rfl⟩ : ∃ (r : Fin 50000) (q : Fin 128), i = ix2 r q := ⟨i 0, i 1, eq_ix2 i⟩
  rw [G3_8_apply (V7 m ρ) c (mu1 m ρ c) (var1 m ρ c) r q, Cert.ReferenceIdeal.RefStages.h2]
  have e0 : (fun r q => V7 m ρ c main_v81 (ix2 r q)) = Cert.ReferenceIdeal.RefStages.rows (Cert.ReferenceIdeal.RefRead.val_main_v99 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
    funext r q; exact congrFun ((zkeep1 m ρ c).trans (z1 m ρ c)) _
  have e1 : (fun q => V7 m ρ c main_v101 (ix2 0 q)) = Cert.ReferenceIdeal.RefStages.row (m ((c : Thread nD τ).loc main_arg7)) 1 := by funext k; exact pga_1 m ρ c k
  have e2 : (fun q => V7 m ρ c main_v102 (ix2 0 q)) = Cert.ReferenceIdeal.RefStages.row (m ((c : Thread nD τ).loc main_arg8)) 1 := by funext k; exact pbe_1 m ρ c k
  have e3 : (fun r q => V7 m ρ c main_v54_0 (ix2 r q)) = Cert.ReferenceIdeal.RefStages.rows (Cert.ReferenceIdeal.RefRead.val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
    funext r q; exact congrFun (res1 m ρ c) _
  rw [e0, e1, e2, e3]
/-- The projected output of this layer is the reference's. -/
theorem o1 : W8 m ρ c main_v104_1 = (Cert.ReferenceIdeal.RefRead.val_main_v210 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  rw [oG1]
  funext i
  obtain ⟨r, q, rfl⟩ : ∃ (r : Fin 50000) (q : Fin 128), i = ix2 r q := ⟨i 0, i 1, eq_ix2 i⟩
  rw [G3_9_apply, Cert.ReferenceIdeal.RefStages.out1]
  have e0 : (fun r k => G3_8 (F := Ideal) (V7 m ρ) c (ix2 r k)) = Cert.ReferenceIdeal.RefStages.rows (Cert.ReferenceIdeal.RefRead.val_main_v130 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
    funext r k; exact congrFun ((hG1 m ρ c).symm.trans (h1 m ρ c)) _
  have e1 : (fun k q => V7 m ρ c main_v98 (ix2 k q)) = Cert.ReferenceIdeal.RefStages.sq (m ((c : Thread nD τ).loc main_arg9)) 1 := by funext j k; exact pwl_1 m ρ c j k
  have e2 : (fun q => V7 m ρ c main_v103 (ix2 0 q)) = Cert.ReferenceIdeal.RefStages.row (m ((c : Thread nD τ).loc main_arg10)) 1 := by funext k; exact pbl_1 m ρ c k
  rw [e0, e1, e2]

/-! ## Layer 2 -/

theorem arg2_at8 : W8 m ρ c main_arg2 = (m ((c : Thread nD τ).loc main_arg2)) := ((W8_of_ne m ρ c main_arg2 (by decide)).trans <| (W7_of m ρ c main_arg2 (by decide)).trans <| (W6_of_ne m ρ c main_arg2 (by decide)).trans <| (W5_of m ρ c main_arg2 (by decide)).trans <| (W4_of_ne m ρ c main_arg2 (by decide)).trans <| (W3_of m ρ c main_arg2 (by decide)).trans <| (W2_of_ne m ρ c main_arg2 (by decide)).trans <| (W1_of m ρ c main_arg2 (by decide))).trans rfl
theorem arg3_at8 : W8 m ρ c main_arg3 = (m ((c : Thread nD τ).loc main_arg3)) := ((W8_of_ne m ρ c main_arg3 (by decide)).trans <| (W7_of m ρ c main_arg3 (by decide)).trans <| (W6_of_ne m ρ c main_arg3 (by decide)).trans <| (W5_of m ρ c main_arg3 (by decide)).trans <| (W4_of_ne m ρ c main_arg3 (by decide)).trans <| (W3_of m ρ c main_arg3 (by decide)).trans <| (W2_of_ne m ρ c main_arg3 (by decide)).trans <| (W1_of m ρ c main_arg3 (by decide))).trans rfl
theorem arg4_at8 : W8 m ρ c main_arg4 = (m ((c : Thread nD τ).loc main_arg4)) := ((W8_of_ne m ρ c main_arg4 (by decide)).trans <| (W7_of m ρ c main_arg4 (by decide)).trans <| (W6_of_ne m ρ c main_arg4 (by decide)).trans <| (W5_of m ρ c main_arg4 (by decide)).trans <| (W4_of_ne m ρ c main_arg4 (by decide)).trans <| (W3_of m ρ c main_arg4 (by decide)).trans <| (W2_of_ne m ρ c main_arg4 (by decide)).trans <| (W1_of m ρ c main_arg4 (by decide))).trans rfl
theorem arg5_at8 : W8 m ρ c main_arg5 = (m ((c : Thread nD τ).loc main_arg5)) := ((W8_of_ne m ρ c main_arg5 (by decide)).trans <| (W7_of m ρ c main_arg5 (by decide)).trans <| (W6_of_ne m ρ c main_arg5 (by decide)).trans <| (W5_of m ρ c main_arg5 (by decide)).trans <| (W4_of_ne m ρ c main_arg5 (by decide)).trans <| (W3_of m ρ c main_arg5 (by decide)).trans <| (W2_of_ne m ρ c main_arg5 (by decide)).trans <| (W1_of m ρ c main_arg5 (by decide))).trans rfl
theorem arg6_at8 : W8 m ρ c main_arg6 = (m ((c : Thread nD τ).loc main_arg6)) := ((W8_of_ne m ρ c main_arg6 (by decide)).trans <| (W7_of m ρ c main_arg6 (by decide)).trans <| (W6_of_ne m ρ c main_arg6 (by decide)).trans <| (W5_of m ρ c main_arg6 (by decide)).trans <| (W4_of_ne m ρ c main_arg6 (by decide)).trans <| (W3_of m ρ c main_arg6 (by decide)).trans <| (W2_of_ne m ρ c main_arg6 (by decide)).trans <| (W1_of m ρ c main_arg6 (by decide))).trans rfl
theorem arg7_at10 : W10 m ρ c main_arg7 = (m ((c : Thread nD τ).loc main_arg7)) := ((W10_of_ne m ρ c main_arg7 (by decide)).trans <| (W9_of m ρ c main_arg7 (by decide)).trans <| (W8_of_ne m ρ c main_arg7 (by decide)).trans <| (W7_of m ρ c main_arg7 (by decide)).trans <| (W6_of_ne m ρ c main_arg7 (by decide)).trans <| (W5_of m ρ c main_arg7 (by decide)).trans <| (W4_of_ne m ρ c main_arg7 (by decide)).trans <| (W3_of m ρ c main_arg7 (by decide)).trans <| (W2_of_ne m ρ c main_arg7 (by decide)).trans <| (W1_of m ρ c main_arg7 (by decide))).trans rfl
theorem arg8_at10 : W10 m ρ c main_arg8 = (m ((c : Thread nD τ).loc main_arg8)) := ((W10_of_ne m ρ c main_arg8 (by decide)).trans <| (W9_of m ρ c main_arg8 (by decide)).trans <| (W8_of_ne m ρ c main_arg8 (by decide)).trans <| (W7_of m ρ c main_arg8 (by decide)).trans <| (W6_of_ne m ρ c main_arg8 (by decide)).trans <| (W5_of m ρ c main_arg8 (by decide)).trans <| (W4_of_ne m ρ c main_arg8 (by decide)).trans <| (W3_of m ρ c main_arg8 (by decide)).trans <| (W2_of_ne m ρ c main_arg8 (by decide)).trans <| (W1_of m ρ c main_arg8 (by decide))).trans rfl
theorem arg9_at10 : W10 m ρ c main_arg9 = (m ((c : Thread nD τ).loc main_arg9)) := ((W10_of_ne m ρ c main_arg9 (by decide)).trans <| (W9_of m ρ c main_arg9 (by decide)).trans <| (W8_of_ne m ρ c main_arg9 (by decide)).trans <| (W7_of m ρ c main_arg9 (by decide)).trans <| (W6_of_ne m ρ c main_arg9 (by decide)).trans <| (W5_of m ρ c main_arg9 (by decide)).trans <| (W4_of_ne m ρ c main_arg9 (by decide)).trans <| (W3_of m ρ c main_arg9 (by decide)).trans <| (W2_of_ne m ρ c main_arg9 (by decide)).trans <| (W1_of m ρ c main_arg9 (by decide))).trans rfl
theorem arg10_at10 : W10 m ρ c main_arg10 = (m ((c : Thread nD τ).loc main_arg10)) := ((W10_of_ne m ρ c main_arg10 (by decide)).trans <| (W9_of m ρ c main_arg10 (by decide)).trans <| (W8_of_ne m ρ c main_arg10 (by decide)).trans <| (W7_of m ρ c main_arg10 (by decide)).trans <| (W6_of_ne m ρ c main_arg10 (by decide)).trans <| (W5_of m ρ c main_arg10 (by decide)).trans <| (W4_of_ne m ρ c main_arg10 (by decide)).trans <| (W3_of m ρ c main_arg10 (by decide)).trans <| (W2_of_ne m ρ c main_arg10 (by decide)).trans <| (W1_of m ρ c main_arg10 (by decide))).trans rfl

theorem src_at8 : W8 m ρ c main_v1 = Cert.ReferenceIdeal.RefRead.val_main_v1 (F := Ideal) (m ((c : Thread nD τ).loc main_arg1)) :=
  ((W8_of_ne m ρ c main_v1 (by decide)).trans <| (W7_of m ρ c main_v1 (by decide)).trans <| (W6_of_ne m ρ c main_v1 (by decide)).trans <| (W5_of m ρ c main_v1 (by decide)).trans <| (W4_of_ne m ρ c main_v1 (by decide)).trans <| (W3_of m ρ c main_v1 (by decide)).trans <| (W2_of_ne m ρ c main_v1 (by decide))).trans (src_at1 m ρ c)
theorem dst_at8 : W8 m ρ c main_v3 = Cert.ReferenceIdeal.RefRead.val_main_v3 (F := Ideal) (m ((c : Thread nD τ).loc main_arg1)) :=
  ((W8_of_ne m ρ c main_v3 (by decide)).trans <| (W7_of m ρ c main_v3 (by decide)).trans <| (W6_of_ne m ρ c main_v3 (by decide)).trans <| (W5_of m ρ c main_v3 (by decide)).trans <| (W4_of_ne m ρ c main_v3 (by decide)).trans <| (W3_of m ρ c main_v3 (by decide)).trans <| (W2_of_ne m ρ c main_v3 (by decide))).trans (dst_at1 m ρ c)
set_option maxHeartbeats 4000000 in
/-- The mix of this layer: the same host operations in both programs, of features already known equal. -/
theorem mix2 : W9 m ρ c main_v120 = (Cert.ReferenceIdeal.RefRead.val_main_v146 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  show StableHlo.after hostOps4 (W8 m ρ c) (Proc.devRef .tc main_v120) = _
  after_results_simp
  rw [show W8 m ρ c (Proc.devRef .tc main_v104_0) = _ from h1 m ρ c, show W8 m ρ c (Proc.devRef .tc main_v1) = _ from src_at8 m ρ c,
    show W8 m ρ c (Proc.devRef .tc main_v3) = _ from dst_at8 m ρ c, show W8 m ρ c (Proc.devRef .tc main_arg6) = _ from arg6_at8 m ρ c]
  rfl
theorem pw1_2 (j k : Fin 128) : W9 m ρ c main_v122 (ix2 j k) = (m ((c : Thread nD τ).loc main_arg2)) (ix3 2 j k) := by
  show StableHlo.after hostOps4 (W8 m ρ c) (Proc.devRef .tc main_v122) _ = _
  after_results
  exact (Cert.KernelIdeal.KHost.sq2 _ j k).trans (congrFun (arg2_at8 m ρ c) _)
theorem pb1_2 (k : Fin 128) : W9 m ρ c main_v129 (ix2 0 k) = (m ((c : Thread nD τ).loc main_arg3)) (ix2 2 k) := by
  show StableHlo.after hostOps4 (W8 m ρ c) (Proc.devRef .tc main_v129) _ = _
  after_results
  exact (Cert.KernelIdeal.KHost.row2 _ k).trans (congrFun (arg3_at8 m ρ c) _)
theorem pw2_2 (j k : Fin 128) : W9 m ρ c main_v126 (ix2 j k) = (m ((c : Thread nD τ).loc main_arg4)) (ix3 2 j k) := by
  show StableHlo.after hostOps4 (W8 m ρ c) (Proc.devRef .tc main_v126) _ = _
  after_results
  exact (Cert.KernelIdeal.KHost.sq2 _ j k).trans (congrFun (arg4_at8 m ρ c) _)
theorem pb2_2 (k : Fin 128) : W9 m ρ c main_v130 (ix2 0 k) = (m ((c : Thread nD τ).loc main_arg5)) (ix2 2 k) := by
  show StableHlo.after hostOps4 (W8 m ρ c) (Proc.devRef .tc main_v130) _ = _
  after_results
  exact (Cert.KernelIdeal.KHost.row2 _ k).trans (congrFun (arg5_at8 m ρ c) _)

theorem zG2 : W10 m ρ c main_v131 = G4_5 (F := Ideal) (V9 m ρ) c :=
  (W10_arr m ρ c 5).trans (final4_5 (V9 m ρ) c)
/-- The perceptron's output of this layer is the reference's. -/
theorem z2 : W10 m ρ c main_v131 = (Cert.ReferenceIdeal.RefRead.val_main_v163 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  rw [zG2]
  funext i
  obtain ⟨r, q, rfl⟩ : ∃ (r : Fin 50000) (q : Fin 128), i = ix2 r q := ⟨i 0, i 1, eq_ix2 i⟩
  rw [G4_5_apply, Cert.ReferenceIdeal.RefStages.z2]
  have e0 : (fun r j => V9 m ρ c main_v120 (ix2 r j)) = Cert.ReferenceIdeal.RefStages.rows (Cert.ReferenceIdeal.RefRead.val_main_v146 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
    funext r j; exact congrFun (mix2 m ρ c) _
  have e1 : (fun j k => V9 m ρ c main_v122 (ix2 j k)) = Cert.ReferenceIdeal.RefStages.sq (m ((c : Thread nD τ).loc main_arg2)) 2 := by funext j k; exact pw1_2 m ρ c j k
  have e2 : (fun k => V9 m ρ c main_v129 (ix2 0 k)) = Cert.ReferenceIdeal.RefStages.row (m ((c : Thread nD τ).loc main_arg3)) 2 := by funext k; exact pb1_2 m ρ c k
  have e3 : (fun j k => V9 m ρ c main_v126 (ix2 j k)) = Cert.ReferenceIdeal.RefStages.sq (m ((c : Thread nD τ).loc main_arg4)) 2 := by funext j k; exact pw2_2 m ρ c j k
  have e4 : (fun k => V9 m ρ c main_v130 (ix2 0 k)) = Cert.ReferenceIdeal.RefStages.row (m ((c : Thread nD τ).loc main_arg5)) 2 := by funext k; exact pb2_2 m ρ c k
  rw [e0, e1, e2, e3, e4]

theorem zkeep2 : W11 m ρ c main_v131 = W10 m ρ c main_v131 := W11_of m ρ c main_v131 (by decide)
/-- The mean row the normalisation kernel is handed is the column means of `z`. -/
theorem mu2 (q : Fin 128) : W11 m ρ c main_v135 (ix2 0 q) = Cert.Spec.muOf (fun r q => W11 m ρ c main_v131 (ix2 r q)) q := by
  rw [zkeep2]
  show StableHlo.after hostOps5 (W10 m ρ c) (Proc.devRef .tc main_v135) _ = _
  after_results
  exact Cert.KernelIdeal.KHost.mean_row _ q
/-- The variance row it is handed is the column variances of `z`. -/
theorem var2 (q : Fin 128) : W11 m ρ c main_v142 (ix2 0 q) = Cert.Spec.varOf (fun r q => W11 m ρ c main_v131 (ix2 r q)) q := by
  rw [zkeep2]
  show StableHlo.after hostOps5 (W10 m ρ c) (Proc.devRef .tc main_v142) _ = _
  after_results
  exact Cert.KernelIdeal.KHost.var_row _ _ (fun q => Cert.KernelIdeal.KHost.mean_row _ q) q
theorem pga_2 (k : Fin 128) : W11 m ρ c main_v151 (ix2 0 k) = (m ((c : Thread nD τ).loc main_arg7)) (ix2 2 k) := by
  show StableHlo.after hostOps5 (W10 m ρ c) (Proc.devRef .tc main_v151) _ = _
  after_results
  exact (Cert.KernelIdeal.KHost.row2 _ k).trans (congrFun (arg7_at10 m ρ c) _)
theorem pbe_2 (k : Fin 128) : W11 m ρ c main_v152 (ix2 0 k) = (m ((c : Thread nD τ).loc main_arg8)) (ix2 2 k) := by
  show StableHlo.after hostOps5 (W10 m ρ c) (Proc.devRef .tc main_v152) _ = _
  after_results
  exact (Cert.KernelIdeal.KHost.row2 _ k).trans (congrFun (arg8_at10 m ρ c) _)
theorem pwl_2 (j k : Fin 128) : W11 m ρ c main_v148 (ix2 j k) = (m ((c : Thread nD τ).loc main_arg9)) (ix3 2 j k) := by
  show StableHlo.after hostOps5 (W10 m ρ c) (Proc.devRef .tc main_v148) _ = _
  after_results
  exact (Cert.KernelIdeal.KHost.sq2 _ j k).trans (congrFun (arg9_at10 m ρ c) _)
theorem pbl_2 (k : Fin 128) : W11 m ρ c main_v153 (ix2 0 k) = (m ((c : Thread nD τ).loc main_arg10)) (ix2 2 k) := by
  show StableHlo.after hostOps5 (W10 m ρ c) (Proc.devRef .tc main_v153) _ = _
  after_results
  exact (Cert.KernelIdeal.KHost.row2 _ k).trans (congrFun (arg10_at10 m ρ c) _)
theorem res2 : W11 m ρ c main_v104_0 = (Cert.ReferenceIdeal.RefRead.val_main_v130 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) :=
  ((W11_of m ρ c main_v104_0 (by decide)).trans <| (W10_of_ne m ρ c main_v104_0 (by decide)).trans <| (W9_of m ρ c main_v104_0 (by decide))).trans (h1 m ρ c)

theorem hG2 : W12 m ρ c main_v154_0 = G5_8 (F := Ideal) (V11 m ρ) c :=
  (W12_arr m ρ c 8).trans (final5_8 (V11 m ρ) c)
theorem oG2 : W12 m ρ c main_v154_1 = G5_9 (F := Ideal) (V11 m ρ) c :=
  (W12_arr m ρ c 9).trans (final5_9 (V11 m ρ) c)
/-- The new features of this layer are the reference's. -/
theorem h2 : W12 m ρ c main_v154_0 = (Cert.ReferenceIdeal.RefRead.val_main_v194 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  rw [hG2]
  funext i
  obtain ⟨r, q, rfl⟩ : ∃ (r : Fin 50000) (q : Fin 128), i = ix2 r q := ⟨i 0, i 1, eq_ix2 i⟩
  rw [G5_8_apply (V11 m ρ) c (mu2 m ρ c) (var2 m ρ c) r q, Cert.ReferenceIdeal.RefStages.h3]
  have e0 : (fun r q => V11 m ρ c main_v131 (ix2 r q)) = Cert.ReferenceIdeal.RefStages.rows (Cert.ReferenceIdeal.RefRead.val_main_v163 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
    funext r q; exact congrFun ((zkeep2 m ρ c).trans (z2 m ρ c)) _
  have e1 : (fun q => V11 m ρ c main_v151 (ix2 0 q)) = Cert.ReferenceIdeal.RefStages.row (m ((c : Thread nD τ).loc main_arg7)) 2 := by funext k; exact pga_2 m ρ c k
  have e2 : (fun q => V11 m ρ c main_v152 (ix2 0 q)) = Cert.ReferenceIdeal.RefStages.row (m ((c : Thread nD τ).loc main_arg8)) 2 := by funext k; exact pbe_2 m ρ c k
  have e3 : (fun r q => V11 m ρ c main_v104_0 (ix2 r q)) = Cert.ReferenceIdeal.RefStages.rows (Cert.ReferenceIdeal.RefRead.val_main_v130 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
    funext r q; exact congrFun (res2 m ρ c) _
  rw [e0, e1, e2, e3]
/-- The projected output of this layer is the reference's. -/
theorem o2 : W12 m ρ c main_v154_1 = (Cert.ReferenceIdeal.RefRead.val_main_v218 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  rw [oG2]
  funext i
  obtain ⟨r, q, rfl⟩ : ∃ (r : Fin 50000) (q : Fin 128), i = ix2 r q := ⟨i 0, i 1, eq_ix2 i⟩
  rw [G5_9_apply, Cert.ReferenceIdeal.RefStages.out2]
  have e0 : (fun r k => G5_8 (F := Ideal) (V11 m ρ) c (ix2 r k)) = Cert.ReferenceIdeal.RefStages.rows (Cert.ReferenceIdeal.RefRead.val_main_v194 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
    funext r k; exact congrFun ((hG2 m ρ c).symm.trans (h2 m ρ c)) _
  have e1 : (fun k q => V11 m ρ c main_v148 (ix2 k q)) = Cert.ReferenceIdeal.RefStages.sq (m ((c : Thread nD τ).loc main_arg9)) 2 := by funext j k; exact pwl_2 m ρ c j k
  have e2 : (fun q => V11 m ρ c main_v153 (ix2 0 q)) = Cert.ReferenceIdeal.RefStages.row (m ((c : Thread nD τ).loc main_arg10)) 2 := by funext k; exact pbl_2 m ρ c k
  rw [e0, e1, e2]

/-! ## The result -/

theorem o0_end : W12 m ρ c main_v54_1 = (Cert.ReferenceIdeal.RefRead.val_main_v202 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := ((W12_of_ne m ρ c main_v54_1 (by decide)).trans <| (W11_of m ρ c main_v54_1 (by decide)).trans <| (W10_of_ne m ρ c main_v54_1 (by decide)).trans <| (W9_of m ρ c main_v54_1 (by decide)).trans <| (W8_of_ne m ρ c main_v54_1 (by decide)).trans <| (W7_of m ρ c main_v54_1 (by decide)).trans <| (W6_of_ne m ρ c main_v54_1 (by decide)).trans <| (W5_of m ρ c main_v54_1 (by decide))).trans (o0 m ρ c)
theorem o1_end : W12 m ρ c main_v104_1 = (Cert.ReferenceIdeal.RefRead.val_main_v210 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := ((W12_of_ne m ρ c main_v104_1 (by decide)).trans <| (W11_of m ρ c main_v104_1 (by decide)).trans <| (W10_of_ne m ρ c main_v104_1 (by decide)).trans <| (W9_of m ρ c main_v104_1 (by decide))).trans (o1 m ρ c)
set_option maxHeartbeats 4000000 in
/-- The concatenation of the three projected outputs is the reference's result. -/
theorem result_eq : W13 m ρ c main_v155 = (Cert.ReferenceIdeal.RefRead.val_main_v219 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  show StableHlo.after hostOps6 (W12 m ρ c) (Proc.devRef .tc main_v155) = _
  after_results_simp
  have key : ∀ (u0 u1 u2 v0 v1 v2 : FVec Ideal S50000x128 .f32) (hc), u0 = v0 → u1 = v1 → u2 = v2 →
      concatenate S50000x384 1 [⟨S50000x128, u0⟩, ⟨S50000x128, u1⟩, ⟨S50000x128, u2⟩] hc
        = concatenate S50000x384 1 [⟨S50000x128, v0⟩, ⟨S50000x128, v1⟩, ⟨S50000x128, v2⟩] hc := by
    intro u0 u1 u2 v0 v1 v2 hc h0 h1 h2; rw [h0, h1, h2]
  exact key _ _ _ _ _ _ _ (o0_end m ρ c) (o1_end m ρ c) (o2 m ρ c)

end Cert.KernelIdeal.Fr

end
-- ==== Proof.FrameIdeal.Value.lean ====
/-
  The idealized kernel program's run with its result named: every weakly fair execution ends with the result buffer
  at the reference's stage chain of the program's own arguments, and with the arguments unchanged.
-/
import proofs.«142693_j60928406061119_1_alg».proof.Proof.FrameIdeal.Chain

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.SL Idealize.SL.Sem
open scoped BigOperators

variable (m : (ℓ : Loc nD τ sig) → Buf (Elt Ideal) ℓ) (ρ : Dev nD → PrngReg)

theorem value_run : θ_run (defs (F := Ideal)) (onTc (τ := τ) (main (F := Ideal))) ⟨m, fun _ => 0, ρ⟩ (fun r => ∀ c : Dev nD,
      r.2.mem ((c.tc : Thread nD τ).loc main_v155) = (Cert.ReferenceIdeal.RefRead.val_main_v219 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_v155 (by decide))).trans (result_eq m ρ c),
    (h c _ (mem_uc main_arg0 (by decide))).trans (W13_main_arg0 m ρ c),
    (h c _ (mem_uc main_arg1 (by decide))).trans (W13_main_arg1 m ρ c),
    (h c _ (mem_uc main_arg2 (by decide))).trans (W13_main_arg2 m ρ c),
    (h c _ (mem_uc main_arg3 (by decide))).trans (W13_main_arg3 m ρ c),
    (h c _ (mem_uc main_arg4 (by decide))).trans (W13_main_arg4 m ρ c),
    (h c _ (mem_uc main_arg5 (by decide))).trans (W13_main_arg5 m ρ c),
    (h c _ (mem_uc main_arg6 (by decide))).trans (W13_main_arg6 m ρ c),
    (h c _ (mem_uc main_arg7 (by decide))).trans (W13_main_arg7 m ρ c),
    (h c _ (mem_uc main_arg8 (by decide))).trans (W13_main_arg8 m ρ c),
    (h c _ (mem_uc main_arg9 (by decide))).trans (W13_main_arg9 m ρ c),
    (h c _ (mem_uc main_arg10 (by decide))).trans (W13_main_arg10 m ρ c)⟩) (run_all m ρ)

end Cert.KernelIdeal.Fr

end
-- ==== Proof.RefRun.lean ====
/-
  The reference program's run. @main is a straight line of 259 host operations in single-assignment form: every buffer
  is written by exactly one operation and read only by later ones, and the eleven argument buffers are never written.
  So the contents after the whole line are computed slice by slice: the line is cut at a few positions, and at each
  cut an invariant says what the buffers hold that the later operations still read — the arguments, unchanged, and
  each value computed so far that is read again, equal to its `val_…` of the arguments. One slice carries the invariant
  at its first position to the invariant at its last: inside a slice each operation's result is read at its own buffer
  as its function's value and at any other buffer as what was there, and the resulting term over the slice's inputs is
  the `val_…` by unfolding definitions. The last operation, the concatenation of the three layers' projections, is a
  slice of its own. Composing the slices gives the result buffer's contents after the line, and `run_seq` turns that
  into the statement about every weakly fair execution.
-/
import proofs.«142693_j60928406061119_1_alg».proof.Proof.RefOps
import proofs.«142693_j60928406061119_1_alg».proof.Proof.RefRead

noncomputable section

namespace Cert.ReferenceIdeal.RefRun

open Cert.ReferenceIdeal Cert.ReferenceIdeal.Gen Cert.ReferenceIdeal.RefOps Cert.ReferenceIdeal.RefRead Idealize.ShloMosaic Idealize.ShloMosaic.TcCoe Idealize.SL.Sem Idealize.ShloMosaic.StableHlo

variable {F : FTy → Type} [FloatOps F]

/-- Running two lines one after the other is running their concatenation. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- The operations from position `i` on: the next `n` of them, then the rest. -/
theorem after_split (l : List (HloOp τ sig (Elt F))) (i n : Nat) (V : Valuation τ sig (Elt F)) :
    after (l.drop i) V = after (l.drop (i + n)) (after ((l.drop i).take n) V) := by
  rw [← after_app, ← List.drop_drop, List.take_append_drop]

/-- One pass over a literal slice of the operation list: the slice is computed, the fold unfolded, and each operation's
    result read at its own buffer (its function's value) or at another (what was there). -/
macro "slice_results" : tactic =>
  `(tactic| (simp (disch := decide) only [ops, List.drop_succ_cons, List.drop_zero, List.take_succ_cons, List.take_zero, after_cons, after_nil,
      nullary_result', unary_result', binary_result', ternary_result', reshape_result',
      nullary_result_ne', unary_result_ne', binary_result_ne', ternary_result_ne', reshape_result_ne', nary_result_ne']))

/-- What the buffers hold before operation 0, as far as the later operations read them: the arguments, and the values still to be read. -/
def Inv0 (W : Valuation τ sig (Elt F)) (x0 : (⟨S50000x128, .f32⟩ : BufTy).Contents (Elt F)) (x1 : (⟨S2x625000, .i32⟩ : BufTy).Contents (Elt F)) (x2 : (⟨S3x128x128, .f32⟩ : BufTy).Contents (Elt F)) (x3 : (⟨S3x128, .f32⟩ : BufTy).Contents (Elt F)) (x4 : (⟨S3x128x128, .f32⟩ : BufTy).Contents (Elt F)) (x5 : (⟨S3x128, .f32⟩ : BufTy).Contents (Elt F)) (x6 : (⟨S3, .f32⟩ : BufTy).Contents (Elt F)) (x7 : (⟨S3x128, .f32⟩ : BufTy).Contents (Elt F)) (x8 : (⟨S3x128, .f32⟩ : BufTy).Contents (Elt F)) (x9 : (⟨S3x128x128, .f32⟩ : BufTy).Contents (Elt F)) (x10 : (⟨S3x128, .f32⟩ : BufTy).Contents (Elt F)) : Prop :=
  W (Proc.devRef .tc main_arg0) = x0
  ∧ W (Proc.devRef .tc main_arg1) = x1
  ∧ W (Proc.devRef .tc main_arg2) = x2
  ∧ W (Proc.devRef .tc main_arg3) = x3
  ∧ W (Proc.devRef .tc main_arg4) = x4
  ∧ W (Proc.devRef .tc main_arg5) = x5
  ∧ W (Proc.devRef .tc main_arg6) = x6
  ∧ W (Proc.devRef .tc main_arg7) = x7
  ∧ W (Proc.devRef .tc main_arg8) = x8
  ∧ W (Proc.devRef .tc main_arg9) = x9
  ∧ W (Proc.devRef .tc main_arg10) = x10

/-- What the buffers hold before operation 40, as far as the later operations read them: the arguments, and the values still to be read. -/
def Inv40 (W : Valuation τ sig (Elt F)) (x0 : (⟨S50000x128, .f32⟩ : BufTy).Contents (Elt F)) (x1 : (⟨S2x625000, .i32⟩ : BufTy).Contents (Elt F)) (x2 : (⟨S3x128x128, .f32⟩ : BufTy).Contents (Elt F)) (x3 : (⟨S3x128, .f32⟩ : BufTy).Contents (Elt F)) (x4 : (⟨S3x128x128, .f32⟩ : BufTy).Contents (Elt F)) (x5 : (⟨S3x128, .f32⟩ : BufTy).Contents (Elt F)) (x6 : (⟨S3, .f32⟩ : BufTy).Contents (Elt F)) (x7 : (⟨S3x128, .f32⟩ : BufTy).Contents (Elt F)) (x8 : (⟨S3x128, .f32⟩ : BufTy).Contents (Elt F)) (x9 : (⟨S3x128x128, .f32⟩ : BufTy).Contents (Elt F)) (x10 : (⟨S3x128, .f32⟩ : BufTy).Contents (Elt F)) : Prop :=
  W (Proc.devRef .tc main_arg0) = x0
  ∧ W (Proc.devRef .tc main_arg1) = x1
  ∧ W (Proc.devRef .tc main_arg2) = x2
  ∧ W (Proc.devRef .tc main_arg3) = x3
  ∧ W (Proc.devRef .tc main_arg4) = x4
  ∧ W (Proc.devRef .tc main_arg5) = x5
  ∧ W (Proc.devRef .tc main_arg6) = x6
  ∧ W (Proc.devRef .tc main_arg7) = x7
  ∧ W (Proc.devRef .tc main_arg8) = x8
  ∧ W (Proc.devRef .tc main_arg9) = x9
  ∧ W (Proc.devRef .tc main_arg10) = x10
  ∧ W (Proc.devRef .tc main_v33) = val_main_v33 (F := F) x5
  ∧ W (Proc.devRef .tc main_v31) = val_main_v31 (F := F) x0 x1 x2 x3 x4 x6
  ∧ W (Proc.devRef .tc main_v1) = val_main_v1 (F := F) x1
  ∧ W (Proc.devRef .tc main_v3) = val_main_v3 (F := F) x1

/-- What the buffers hold before operation 77, as far as the later operations read them: the arguments, and the values still to be read. -/
def Inv77 (W : Valuation τ sig (Elt F)) (x0 : (⟨S50000x128, .f32⟩ : BufTy).Contents (Elt F)) (x1 : (⟨S2x625000, .i32⟩ : BufTy).Contents (Elt F)) (x2 : (⟨S3x128x128, .f32⟩ : BufTy).Contents (Elt F)) (x3 : (⟨S3x128, .f32⟩ : BufTy).Contents (Elt F)) (x4 : (⟨S3x128x128, .f32⟩ : BufTy).Contents (Elt F)) (x5 : (⟨S3x128, .f32⟩ : BufTy).Contents (Elt F)) (x6 : (⟨S3, .f32⟩ : BufTy).Contents (Elt F)) (x7 : (⟨S3x128, .f32⟩ : BufTy).Contents (Elt F)) (x8 : (⟨S3x128, .f32⟩ : BufTy).Contents (Elt F)) (x9 : (⟨S3x128x128, .f32⟩ : BufTy).Contents (Elt F)) (x10 : (⟨S3x128, .f32⟩ : BufTy).Contents (Elt F)) : Prop :=
  W (Proc.devRef .tc main_arg0) = x0
  ∧ W (Proc.devRef .tc main_arg1) = x1
  ∧ W (Proc.devRef .tc main_arg2) = x2
  ∧ W (Proc.devRef .tc main_arg3) = x3
  ∧ W (Proc.devRef .tc main_arg4) = x4
  ∧ W (Proc.devRef .tc main_arg5) = x5
  ∧ W (Proc.devRef .tc main_arg6) = x6
  ∧ W (Proc.devRef .tc main_arg7) = x7
  ∧ W (Proc.devRef .tc main_arg8) = x8
  ∧ W (Proc.devRef .tc main_arg9) = x9
  ∧ W (Proc.devRef .tc main_arg10) = x10
  ∧ W (Proc.devRef .tc main_v65) = val_main_v65 (F := F) x0 x1 x2 x3 x4 x5 x6 x7 x8
  ∧ W (Proc.devRef .tc main_v1) = val_main_v1 (F := F) x1
  ∧ W (Proc.devRef .tc main_v3) = val_main_v3 (F := F) x1

/-- What the buffers hold before operation 117, as far as the later operations read them: the arguments, and the values still to be read. -/
def Inv117 (W : Valuation τ sig (Elt F)) (x0 : (⟨S50000x128, .f32⟩ : BufTy).Contents (Elt F)) (x1 : (⟨S2x625000, .i32⟩ : BufTy).Contents (Elt F)) (x2 : (⟨S3x128x128, .f32⟩ : BufTy).Contents (Elt F)) (x3 : (⟨S3x128, .f32⟩ : BufTy).Contents (Elt F)) (x4 : (⟨S3x128x128, .f32⟩ : BufTy).Contents (Elt F)) (x5 : (⟨S3x128, .f32⟩ : BufTy).Contents (Elt F)) (x6 : (⟨S3, .f32⟩ : BufTy).Contents (Elt F)) (x7 : (⟨S3x128, .f32⟩ : BufTy).Contents (Elt F)) (x8 : (⟨S3x128, .f32⟩ : BufTy).Contents (Elt F)) (x9 : (⟨S3x128x128, .f32⟩ : BufTy).Contents (Elt F)) (x10 : (⟨S3x128, .f32⟩ : BufTy).Contents (Elt F)) : Prop :=
  W (Proc.devRef .tc main_arg0) = x0
  ∧ W (Proc.devRef .tc main_arg1) = x1
  ∧ W (Proc.devRef .tc main_arg2) = x2
  ∧ W (Proc.devRef .tc main_arg3) = x3
  ∧ W (Proc.devRef .tc main_arg4) = x4
  ∧ W (Proc.devRef .tc main_arg5) = x5
  ∧ W (Proc.devRef .tc main_arg6) = x6
  ∧ W (Proc.devRef .tc main_arg7) = x7
  ∧ W (Proc.devRef .tc main_arg8) = x8
  ∧ W (Proc.devRef .tc main_arg9) = x9
  ∧ W (Proc.devRef .tc main_arg10) = x10
  ∧ W (Proc.devRef .tc main_v97) = val_main_v97 (F := F) x5
  ∧ W (Proc.devRef .tc main_v94) = val_main_v94 (F := F) x0 x1 x2 x3 x4 x5 x6 x7 x8
  ∧ W (Proc.devRef .tc main_v66) = val_main_v66 (F := F) x0 x1 x2 x3 x4 x5 x6 x7 x8
  ∧ W (Proc.devRef .tc main_v1) = val_main_v1 (F := F) x1
  ∧ W (Proc.devRef .tc main_v3) = val_main_v3 (F := F) x1

/-- What the buffers hold before operation 154, as far as the later operations read them: the arguments, and the values still to be read. -/
def Inv154 (W : Valuation τ sig (Elt F)) (x0 : (⟨S50000x128, .f32⟩ : BufTy).Contents (Elt F)) (x1 : (⟨S2x625000, .i32⟩ : BufTy).Contents (Elt F)) (x2 : (⟨S3x128x128, .f32⟩ : BufTy).Contents (Elt F)) (x3 : (⟨S3x128, .f32⟩ : BufTy).Contents (Elt F)) (x4 : (⟨S3x128x128, .f32⟩ : BufTy).Contents (Elt F)) (x5 : (⟨S3x128, .f32⟩ : BufTy).Contents (Elt F)) (x6 : (⟨S3, .f32⟩ : BufTy).Contents (Elt F)) (x7 : (⟨S3x128, .f32⟩ : BufTy).Contents (Elt F)) (x8 : (⟨S3x128, .f32⟩ : BufTy).Contents (Elt F)) (x9 : (⟨S3x128x128, .f32⟩ : BufTy).Contents (Elt F)) (x10 : (⟨S3x128, .f32⟩ : BufTy).Contents (Elt F)) : Prop :=
  W (Proc.devRef .tc main_arg0) = x0
  ∧ W (Proc.devRef .tc main_arg1) = x1
  ∧ W (Proc.devRef .tc main_arg2) = x2
  ∧ W (Proc.devRef .tc main_arg3) = x3
  ∧ W (Proc.devRef .tc main_arg4) = x4
  ∧ W (Proc.devRef .tc main_arg5) = x5
  ∧ W (Proc.devRef .tc main_arg6) = x6
  ∧ W (Proc.devRef .tc main_arg7) = x7
  ∧ W (Proc.devRef .tc main_arg8) = x8
  ∧ W (Proc.devRef .tc main_arg9) = x9
  ∧ W (Proc.devRef .tc main_arg10) = x10
  ∧ W (Proc.devRef .tc main_v129) = val_main_v129 (F := F) x0 x1 x2 x3 x4 x5 x6 x7 x8
  ∧ W (Proc.devRef .tc main_v1) = val_main_v1 (F := F) x1
  ∧ W (Proc.devRef .tc main_v3) = val_main_v3 (F := F) x1
  ∧ W (Proc.devRef .tc main_v66) = val_main_v66 (F := F) x0 x1 x2 x3 x4 x5 x6 x7 x8

/-- What the buffers hold before operation 194, as far as the later operations read them: the arguments, and the values still to be read. -/
def Inv194 (W : Valuation τ sig (Elt F)) (x0 : (⟨S50000x128, .f32⟩ : BufTy).Contents (Elt F)) (x1 : (⟨S2x625000, .i32⟩ : BufTy).Contents (Elt F)) (x2 : (⟨S3x128x128, .f32⟩ : BufTy).Contents (Elt F)) (x3 : (⟨S3x128, .f32⟩ : BufTy).Contents (Elt F)) (x4 : (⟨S3x128x128, .f32⟩ : BufTy).Contents (Elt F)) (x5 : (⟨S3x128, .f32⟩ : BufTy).Contents (Elt F)) (x6 : (⟨S3, .f32⟩ : BufTy).Contents (Elt F)) (x7 : (⟨S3x128, .f32⟩ : BufTy).Contents (Elt F)) (x8 : (⟨S3x128, .f32⟩ : BufTy).Contents (Elt F)) (x9 : (⟨S3x128x128, .f32⟩ : BufTy).Contents (Elt F)) (x10 : (⟨S3x128, .f32⟩ : BufTy).Contents (Elt F)) : Prop :=
  W (Proc.devRef .tc main_arg0) = x0
  ∧ W (Proc.devRef .tc main_arg1) = x1
  ∧ W (Proc.devRef .tc main_arg2) = x2
  ∧ W (Proc.devRef .tc main_arg3) = x3
  ∧ W (Proc.devRef .tc main_arg4) = x4
  ∧ W (Proc.devRef .tc main_arg5) = x5
  ∧ W (Proc.devRef .tc main_arg6) = x6
  ∧ W (Proc.devRef .tc main_arg7) = x7
  ∧ W (Proc.devRef .tc main_arg8) = x8
  ∧ W (Proc.devRef .tc main_arg9) = x9
  ∧ W (Proc.devRef .tc main_arg10) = x10
  ∧ W (Proc.devRef .tc main_v161) = val_main_v161 (F := F) x5
  ∧ W (Proc.devRef .tc main_v158) = val_main_v158 (F := F) x0 x1 x2 x3 x4 x5 x6 x7 x8
  ∧ W (Proc.devRef .tc main_v130) = val_main_v130 (F := F) x0 x1 x2 x3 x4 x5 x6 x7 x8
  ∧ W (Proc.devRef .tc main_v66) = val_main_v66 (F := F) x0 x1 x2 x3 x4 x5 x6 x7 x8

/-- What the buffers hold before operation 231, as far as the later operations read them: the arguments, and the values still to be read. -/
def Inv231 (W : Valuation τ sig (Elt F)) (x0 : (⟨S50000x128, .f32⟩ : BufTy).Contents (Elt F)) (x1 : (⟨S2x625000, .i32⟩ : BufTy).Contents (Elt F)) (x2 : (⟨S3x128x128, .f32⟩ : BufTy).Contents (Elt F)) (x3 : (⟨S3x128, .f32⟩ : BufTy).Contents (Elt F)) (x4 : (⟨S3x128x128, .f32⟩ : BufTy).Contents (Elt F)) (x5 : (⟨S3x128, .f32⟩ : BufTy).Contents (Elt F)) (x6 : (⟨S3, .f32⟩ : BufTy).Contents (Elt F)) (x7 : (⟨S3x128, .f32⟩ : BufTy).Contents (Elt F)) (x8 : (⟨S3x128, .f32⟩ : BufTy).Contents (Elt F)) (x9 : (⟨S3x128x128, .f32⟩ : BufTy).Contents (Elt F)) (x10 : (⟨S3x128, .f32⟩ : BufTy).Contents (Elt F)) : Prop :=
  W (Proc.devRef .tc main_arg0) = x0
  ∧ W (Proc.devRef .tc main_arg1) = x1
  ∧ W (Proc.devRef .tc main_arg2) = x2
  ∧ W (Proc.devRef .tc main_arg3) = x3
  ∧ W (Proc.devRef .tc main_arg4) = x4
  ∧ W (Proc.devRef .tc main_arg5) = x5
  ∧ W (Proc.devRef .tc main_arg6) = x6
  ∧ W (Proc.devRef .tc main_arg7) = x7
  ∧ W (Proc.devRef .tc main_arg8) = x8
  ∧ W (Proc.devRef .tc main_arg9) = x9
  ∧ W (Proc.devRef .tc main_arg10) = x10
  ∧ W (Proc.devRef .tc main_v193) = val_main_v193 (F := F) x0 x1 x2 x3 x4 x5 x6 x7 x8
  ∧ W (Proc.devRef .tc main_v66) = val_main_v66 (F := F) x0 x1 x2 x3 x4 x5 x6 x7 x8
  ∧ W (Proc.devRef .tc main_v130) = val_main_v130 (F := F) x0 x1 x2 x3 x4 x5 x6 x7 x8

/-- What the buffers hold before operation 258, as far as the later operations read them: the arguments, and the values still to be read. -/
def Inv258 (W : Valuation τ sig (Elt F)) (x0 : (⟨S50000x128, .f32⟩ : BufTy).Contents (Elt F)) (x1 : (⟨S2x625000, .i32⟩ : BufTy).Contents (Elt F)) (x2 : (⟨S3x128x128, .f32⟩ : BufTy).Contents (Elt F)) (x3 : (⟨S3x128, .f32⟩ : BufTy).Contents (Elt F)) (x4 : (⟨S3x128x128, .f32⟩ : BufTy).Contents (Elt F)) (x5 : (⟨S3x128, .f32⟩ : BufTy).Contents (Elt F)) (x6 : (⟨S3, .f32⟩ : BufTy).Contents (Elt F)) (x7 : (⟨S3x128, .f32⟩ : BufTy).Contents (Elt F)) (x8 : (⟨S3x128, .f32⟩ : BufTy).Contents (Elt F)) (x9 : (⟨S3x128x128, .f32⟩ : BufTy).Contents (Elt F)) (x10 : (⟨S3x128, .f32⟩ : BufTy).Contents (Elt F)) : Prop :=
  W (Proc.devRef .tc main_arg0) = x0
  ∧ W (Proc.devRef .tc main_arg1) = x1
  ∧ W (Proc.devRef .tc main_arg2) = x2
  ∧ W (Proc.devRef .tc main_arg3) = x3
  ∧ W (Proc.devRef .tc main_arg4) = x4
  ∧ W (Proc.devRef .tc main_arg5) = x5
  ∧ W (Proc.devRef .tc main_arg6) = x6
  ∧ W (Proc.devRef .tc main_arg7) = x7
  ∧ W (Proc.devRef .tc main_arg8) = x8
  ∧ W (Proc.devRef .tc main_arg9) = x9
  ∧ W (Proc.devRef .tc main_arg10) = x10
  ∧ W (Proc.devRef .tc main_v202) = val_main_v202 (F := F) x0 x1 x2 x3 x4 x5 x6 x7 x8 x9 x10
  ∧ W (Proc.devRef .tc main_v210) = val_main_v210 (F := F) x0 x1 x2 x3 x4 x5 x6 x7 x8 x9 x10
  ∧ W (Proc.devRef .tc main_v218) = val_main_v218 (F := F) x0 x1 x2 x3 x4 x5 x6 x7 x8 x9 x10

/-- What the buffers hold after the last operation: the arguments, and the result buffer at its value of them. -/
def Inv259 (W : Valuation τ sig (Elt F)) (x0 : (⟨S50000x128, .f32⟩ : BufTy).Contents (Elt F)) (x1 : (⟨S2x625000, .i32⟩ : BufTy).Contents (Elt F)) (x2 : (⟨S3x128x128, .f32⟩ : BufTy).Contents (Elt F)) (x3 : (⟨S3x128, .f32⟩ : BufTy).Contents (Elt F)) (x4 : (⟨S3x128x128, .f32⟩ : BufTy).Contents (Elt F)) (x5 : (⟨S3x128, .f32⟩ : BufTy).Contents (Elt F)) (x6 : (⟨S3, .f32⟩ : BufTy).Contents (Elt F)) (x7 : (⟨S3x128, .f32⟩ : BufTy).Contents (Elt F)) (x8 : (⟨S3x128, .f32⟩ : BufTy).Contents (Elt F)) (x9 : (⟨S3x128x128, .f32⟩ : BufTy).Contents (Elt F)) (x10 : (⟨S3x128, .f32⟩ : BufTy).Contents (Elt F)) : Prop :=
  W (Proc.devRef .tc main_arg0) = x0
  ∧ W (Proc.devRef .tc main_arg1) = x1
  ∧ W (Proc.devRef .tc main_arg2) = x2
  ∧ W (Proc.devRef .tc main_arg3) = x3
  ∧ W (Proc.devRef .tc main_arg4) = x4
  ∧ W (Proc.devRef .tc main_arg5) = x5
  ∧ W (Proc.devRef .tc main_arg6) = x6
  ∧ W (Proc.devRef .tc main_arg7) = x7
  ∧ W (Proc.devRef .tc main_arg8) = x8
  ∧ W (Proc.devRef .tc main_arg9) = x9
  ∧ W (Proc.devRef .tc main_arg10) = x10
  ∧ W (Proc.devRef .tc main_v219) = val_main_v219 (F := F) x0 x1 x2 x3 x4 x5 x6 x7 x8 x9 x10

set_option maxRecDepth 8192 in
set_option maxHeartbeats 4000000 in
/-- Operations 0 to 39 carry the invariant before operation 0 to the one before operation 40. -/
theorem chunk0 (W : Valuation τ sig (Elt F)) (x0 : (⟨S50000x128, .f32⟩ : BufTy).Contents (Elt F)) (x1 : (⟨S2x625000, .i32⟩ : BufTy).Contents (Elt F)) (x2 : (⟨S3x128x128, .f32⟩ : BufTy).Contents (Elt F)) (x3 : (⟨S3x128, .f32⟩ : BufTy).Contents (Elt F)) (x4 : (⟨S3x128x128, .f32⟩ : BufTy).Contents (Elt F)) (x5 : (⟨S3x128, .f32⟩ : BufTy).Contents (Elt F)) (x6 : (⟨S3, .f32⟩ : BufTy).Contents (Elt F)) (x7 : (⟨S3x128, .f32⟩ : BufTy).Contents (Elt F)) (x8 : (⟨S3x128, .f32⟩ : BufTy).Contents (Elt F)) (x9 : (⟨S3x128x128, .f32⟩ : BufTy).Contents (Elt F)) (x10 : (⟨S3x128, .f32⟩ : BufTy).Contents (Elt F))
    (h : Inv0 (F := F) W x0 x1 x2 x3 x4 x5 x6 x7 x8 x9 x10) : Inv40 (F := F) (after ((ops.drop 0).take 40) W) x0 x1 x2 x3 x4 x5 x6 x7 x8 x9 x10 := by
  obtain ⟨a0, a1, a2, a3, a4, a5, a6, a7, a8, a9, a10⟩ := h
  refine ⟨?_, ?_, ?_, ?_, ?_, ?_, ?_, ?_, ?_, ?_, ?_, ?_, ?_, ?_, ?_⟩ <;> slice_results <;> (try simp only [a0, a1, a2, a3, a4, a5, a6, a7, a8, a9, a10]) <;> (try rfl)

set_option maxRecDepth 8192 in
set_option maxHeartbeats 4000000 in
/-- Operations 40 to 76 carry the invariant before operation 40 to the one before operation 77. -/
theorem chunk40 (W : Valuation τ sig (Elt F)) (x0 : (⟨S50000x128, .f32⟩ : BufTy).Contents (Elt F)) (x1 : (⟨S2x625000, .i32⟩ : BufTy).Contents (Elt F)) (x2 : (⟨S3x128x128, .f32⟩ : BufTy).Contents (Elt F)) (x3 : (⟨S3x128, .f32⟩ : BufTy).Contents (Elt F)) (x4 : (⟨S3x128x128, .f32⟩ : BufTy).Contents (Elt F)) (x5 : (⟨S3x128, .f32⟩ : BufTy).Contents (Elt F)) (x6 : (⟨S3, .f32⟩ : BufTy).Contents (Elt F)) (x7 : (⟨S3x128, .f32⟩ : BufTy).Contents (Elt F)) (x8 : (⟨S3x128, .f32⟩ : BufTy).Contents (Elt F)) (x9 : (⟨S3x128x128, .f32⟩ : BufTy).Contents (Elt F)) (x10 : (⟨S3x128, .f32⟩ : BufTy).Contents (Elt F))
    (h : Inv40 (F := F) W x0 x1 x2 x3 x4 x5 x6 x7 x8 x9 x10) : Inv77 (F := F) (after ((ops.drop 40).take 37) W) x0 x1 x2 x3 x4 x5 x6 x7 x8 x9 x10 := by
  obtain ⟨a0, a1, a2, a3, a4, a5, a6, a7, a8, a9, a10, l_v33, l_v31, l_v1, l_v3⟩ := h
  refine ⟨?_, ?_, ?_, ?_, ?_, ?_, ?_, ?_, ?_, ?_, ?_, ?_, ?_, ?_⟩ <;> slice_results <;> (try simp only [a0, a1, a2, a3, a4, a5, a6, a7, a8, a9, a10, l_v33, l_v31, l_v1, l_v3]) <;> (try rfl)

set_option maxRecDepth 8192 in
set_option maxHeartbeats 4000000 in
/-- Operations 77 to 116 carry the invariant before operation 77 to the one before operation 117. -/
theorem chunk77 (W : Valuation τ sig (Elt F)) (x0 : (⟨S50000x128, .f32⟩ : BufTy).Contents (Elt F)) (x1 : (⟨S2x625000, .i32⟩ : BufTy).Contents (Elt F)) (x2 : (⟨S3x128x128, .f32⟩ : BufTy).Contents (Elt F)) (x3 : (⟨S3x128, .f32⟩ : BufTy).Contents (Elt F)) (x4 : (⟨S3x128x128, .f32⟩ : BufTy).Contents (Elt F)) (x5 : (⟨S3x128, .f32⟩ : BufTy).Contents (Elt F)) (x6 : (⟨S3, .f32⟩ : BufTy).Contents (Elt F)) (x7 : (⟨S3x128, .f32⟩ : BufTy).Contents (Elt F)) (x8 : (⟨S3x128, .f32⟩ : BufTy).Contents (Elt F)) (x9 : (⟨S3x128x128, .f32⟩ : BufTy).Contents (Elt F)) (x10 : (⟨S3x128, .f32⟩ : BufTy).Contents (Elt F))
    (h : Inv77 (F := F) W x0 x1 x2 x3 x4 x5 x6 x7 x8 x9 x10) : Inv117 (F := F) (after ((ops.drop 77).take 40) W) x0 x1 x2 x3 x4 x5 x6 x7 x8 x9 x10 := by
  obtain ⟨a0, a1, a2, a3, a4, a5, a6, a7, a8, a9, a10, l_v65, l_v1, l_v3⟩ := h
  refine ⟨?_, ?_, ?_, ?_, ?_, ?_, ?_, ?_, ?_, ?_, ?_, ?_, ?_, ?_, ?_, ?_⟩ <;> slice_results <;> (try simp only [a0, a1, a2, a3, a4, a5, a6, a7, a8, a9, a10, l_v65, l_v1, l_v3]) <;> (try rfl)

set_option maxRecDepth 8192 in
set_option maxHeartbeats 4000000 in
/-- Operations 117 to 153 carry the invariant before operation 117 to the one before operation 154. -/
theorem chunk117 (W : Valuation τ sig (Elt F)) (x0 : (⟨S50000x128, .f32⟩ : BufTy).Contents (Elt F)) (x1 : (⟨S2x625000, .i32⟩ : BufTy).Contents (Elt F)) (x2 : (⟨S3x128x128, .f32⟩ : BufTy).Contents (Elt F)) (x3 : (⟨S3x128, .f32⟩ : BufTy).Contents (Elt F)) (x4 : (⟨S3x128x128, .f32⟩ : BufTy).Contents (Elt F)) (x5 : (⟨S3x128, .f32⟩ : BufTy).Contents (Elt F)) (x6 : (⟨S3, .f32⟩ : BufTy).Contents (Elt F)) (x7 : (⟨S3x128, .f32⟩ : BufTy).Contents (Elt F)) (x8 : (⟨S3x128, .f32⟩ : BufTy).Contents (Elt F)) (x9 : (⟨S3x128x128, .f32⟩ : BufTy).Contents (Elt F)) (x10 : (⟨S3x128, .f32⟩ : BufTy).Contents (Elt F))
    (h : Inv117 (F := F) W x0 x1 x2 x3 x4 x5 x6 x7 x8 x9 x10) : Inv154 (F := F) (after ((ops.drop 117).take 37) W) x0 x1 x2 x3 x4 x5 x6 x7 x8 x9 x10 := by
  obtain ⟨a0, a1, a2, a3, a4, a5, a6, a7, a8, a9, a10, l_v97, l_v94, l_v66, l_v1, l_v3⟩ := h
  refine ⟨?_, ?_, ?_, ?_, ?_, ?_, ?_, ?_, ?_, ?_, ?_, ?_, ?_, ?_, ?_⟩ <;> slice_results <;> (try simp only [a0, a1, a2, a3, a4, a5, a6, a7, a8, a9, a10, l_v97, l_v94, l_v66, l_v1, l_v3]) <;> (try rfl)

set_option maxRecDepth 8192 in
set_option maxHeartbeats 4000000 in
/-- Operations 154 to 193 carry the invariant before operation 154 to the one before operation 194. -/
theorem chunk154 (W : Valuation τ sig (Elt F)) (x0 : (⟨S50000x128, .f32⟩ : BufTy).Contents (Elt F)) (x1 : (⟨S2x625000, .i32⟩ : BufTy).Contents (Elt F)) (x2 : (⟨S3x128x128, .f32⟩ : BufTy).Contents (Elt F)) (x3 : (⟨S3x128, .f32⟩ : BufTy).Contents (Elt F)) (x4 : (⟨S3x128x128, .f32⟩ : BufTy).Contents (Elt F)) (x5 : (⟨S3x128, .f32⟩ : BufTy).Contents (Elt F)) (x6 : (⟨S3, .f32⟩ : BufTy).Contents (Elt F)) (x7 : (⟨S3x128, .f32⟩ : BufTy).Contents (Elt F)) (x8 : (⟨S3x128, .f32⟩ : BufTy).Contents (Elt F)) (x9 : (⟨S3x128x128, .f32⟩ : BufTy).Contents (Elt F)) (x10 : (⟨S3x128, .f32⟩ : BufTy).Contents (Elt F))
    (h : Inv154 (F := F) W x0 x1 x2 x3 x4 x5 x6 x7 x8 x9 x10) : Inv194 (F := F) (after ((ops.drop 154).take 40) W) x0 x1 x2 x3 x4 x5 x6 x7 x8 x9 x10 := by
  obtain ⟨a0, a1, a2, a3, a4, a5, a6, a7, a8, a9, a10, l_v129, l_v1, l_v3, l_v66⟩ := h
  refine ⟨?_, ?_, ?_, ?_, ?_, ?_, ?_, ?_, ?_, ?_, ?_, ?_, ?_, ?_, ?_⟩ <;> slice_results <;> (try simp only [a0, a1, a2, a3, a4, a5, a6, a7, a8, a9, a10, l_v129, l_v1, l_v3, l_v66]) <;> (try rfl)

set_option maxRecDepth 8192 in
set_option maxHeartbeats 4000000 in
/-- Operations 194 to 230 carry the invariant before operation 194 to the one before operation 231. -/
theorem chunk194 (W : Valuation τ sig (Elt F)) (x0 : (⟨S50000x128, .f32⟩ : BufTy).Contents (Elt F)) (x1 : (⟨S2x625000, .i32⟩ : BufTy).Contents (Elt F)) (x2 : (⟨S3x128x128, .f32⟩ : BufTy).Contents (Elt F)) (x3 : (⟨S3x128, .f32⟩ : BufTy).Contents (Elt F)) (x4 : (⟨S3x128x128, .f32⟩ : BufTy).Contents (Elt F)) (x5 : (⟨S3x128, .f32⟩ : BufTy).Contents (Elt F)) (x6 : (⟨S3, .f32⟩ : BufTy).Contents (Elt F)) (x7 : (⟨S3x128, .f32⟩ : BufTy).Contents (Elt F)) (x8 : (⟨S3x128, .f32⟩ : BufTy).Contents (Elt F)) (x9 : (⟨S3x128x128, .f32⟩ : BufTy).Contents (Elt F)) (x10 : (⟨S3x128, .f32⟩ : BufTy).Contents (Elt F))
    (h : Inv194 (F := F) W x0 x1 x2 x3 x4 x5 x6 x7 x8 x9 x10) : Inv231 (F := F) (after ((ops.drop 194).take 37) W) x0 x1 x2 x3 x4 x5 x6 x7 x8 x9 x10 := by
  obtain ⟨a0, a1, a2, a3, a4, a5, a6, a7, a8, a9, a10, l_v161, l_v158, l_v130, l_v66⟩ := h
  refine ⟨?_, ?_, ?_, ?_, ?_, ?_, ?_, ?_, ?_, ?_, ?_, ?_, ?_, ?_⟩ <;> slice_results <;> (try simp only [a0, a1, a2, a3, a4, a5, a6, a7, a8, a9, a10, l_v161, l_v158, l_v130, l_v66]) <;> (try rfl)

set_option maxRecDepth 8192 in
set_option maxHeartbeats 4000000 in
/-- Operations 231 to 257 carry the invariant before operation 231 to the one before operation 258. -/
theorem chunk231 (W : Valuation τ sig (Elt F)) (x0 : (⟨S50000x128, .f32⟩ : BufTy).Contents (Elt F)) (x1 : (⟨S2x625000, .i32⟩ : BufTy).Contents (Elt F)) (x2 : (⟨S3x128x128, .f32⟩ : BufTy).Contents (Elt F)) (x3 : (⟨S3x128, .f32⟩ : BufTy).Contents (Elt F)) (x4 : (⟨S3x128x128, .f32⟩ : BufTy).Contents (Elt F)) (x5 : (⟨S3x128, .f32⟩ : BufTy).Contents (Elt F)) (x6 : (⟨S3, .f32⟩ : BufTy).Contents (Elt F)) (x7 : (⟨S3x128, .f32⟩ : BufTy).Contents (Elt F)) (x8 : (⟨S3x128, .f32⟩ : BufTy).Contents (Elt F)) (x9 : (⟨S3x128x128, .f32⟩ : BufTy).Contents (Elt F)) (x10 : (⟨S3x128, .f32⟩ : BufTy).Contents (Elt F))
    (h : Inv231 (F := F) W x0 x1 x2 x3 x4 x5 x6 x7 x8 x9 x10) : Inv258 (F := F) (after ((ops.drop 231).take 27) W) x0 x1 x2 x3 x4 x5 x6 x7 x8 x9 x10 := by
  obtain ⟨a0, a1, a2, a3, a4, a5, a6, a7, a8, a9, a10, l_v193, l_v66, l_v130⟩ := h
  refine ⟨?_, ?_, ?_, ?_, ?_, ?_, ?_, ?_, ?_, ?_, ?_, ?_, ?_, ?_⟩ <;> slice_results <;> (try simp only [a0, a1, a2, a3, a4, a5, a6, a7, a8, a9, a10, l_v193, l_v66, l_v130]) <;> (try rfl)

set_option maxRecDepth 8192 in
set_option maxHeartbeats 4000000 in
/-- The last operation, the concatenation of the three projections, carries the invariant before it to the one after the whole line. -/
theorem chunk258 (W : Valuation τ sig (Elt F)) (x0 : (⟨S50000x128, .f32⟩ : BufTy).Contents (Elt F)) (x1 : (⟨S2x625000, .i32⟩ : BufTy).Contents (Elt F)) (x2 : (⟨S3x128x128, .f32⟩ : BufTy).Contents (Elt F)) (x3 : (⟨S3x128, .f32⟩ : BufTy).Contents (Elt F)) (x4 : (⟨S3x128x128, .f32⟩ : BufTy).Contents (Elt F)) (x5 : (⟨S3x128, .f32⟩ : BufTy).Contents (Elt F)) (x6 : (⟨S3, .f32⟩ : BufTy).Contents (Elt F)) (x7 : (⟨S3x128, .f32⟩ : BufTy).Contents (Elt F)) (x8 : (⟨S3x128, .f32⟩ : BufTy).Contents (Elt F)) (x9 : (⟨S3x128x128, .f32⟩ : BufTy).Contents (Elt F)) (x10 : (⟨S3x128, .f32⟩ : BufTy).Contents (Elt F))
    (h : Inv258 (F := F) W x0 x1 x2 x3 x4 x5 x6 x7 x8 x9 x10) : Inv259 (F := F) (after ((ops.drop 258).take 1) W) x0 x1 x2 x3 x4 x5 x6 x7 x8 x9 x10 := by
  obtain ⟨a0, a1, a2, a3, a4, a5, a6, a7, a8, a9, a10, l_v202, l_v210, l_v218⟩ := h
  refine ⟨?_, ?_, ?_, ?_, ?_, ?_, ?_, ?_, ?_, ?_, ?_, ?res⟩
  case res =>
    -- the concatenation reads its three operands at their buffers, which hold the three projections
    simp only [ops, List.drop_succ_cons, List.drop_zero, List.take_succ_cons, List.take_zero, after_cons, after_nil]
    rw [nary_result]
    unfold val_main_v219
    rw [← l_v202, ← l_v210, ← l_v218]
    rfl
  all_goals (slice_results; simp only [a0, a1, a2, a3, a4, a5, a6, a7, a8, a9, a10, l_v202, l_v210, l_v218])

/-- The operation list splits at the chosen positions. -/
theorem after_split' (l : List (HloOp τ sig (Elt F))) (i n j : Nat) (hj : i + n = j) (V : Valuation τ sig (Elt F)) :
    after (l.drop i) V = after (l.drop j) (after ((l.drop i).take n) V) := by
  subst hj; exact after_split l i n V

set_option maxRecDepth 8192 in
set_option maxHeartbeats 4000000 in
/-- After all the operations, from any contents `V`: the arguments are unchanged and the result buffer holds its value of them. -/
theorem after_ops (V : Valuation τ sig (Elt F)) : Inv259 (F := F) (after ops V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  have h0 : Inv0 (F := F) V (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := ⟨rfl, rfl, rfl, rfl, rfl, rfl, rfl, rfl, rfl, rfl, rfl⟩
  have h1 := chunk0 (F := F) _ _ _ _ _ _ _ _ _ _ _ _ h0
  have h2 := chunk40 (F := F) _ _ _ _ _ _ _ _ _ _ _ _ h1
  have h3 := chunk77 (F := F) _ _ _ _ _ _ _ _ _ _ _ _ h2
  have h4 := chunk117 (F := F) _ _ _ _ _ _ _ _ _ _ _ _ h3
  have h5 := chunk154 (F := F) _ _ _ _ _ _ _ _ _ _ _ _ h4
  have h6 := chunk194 (F := F) _ _ _ _ _ _ _ _ _ _ _ _ h5
  have h7 := chunk231 (F := F) _ _ _ _ _ _ _ _ _ _ _ _ h6
  have h8 := chunk258 (F := F) _ _ _ _ _ _ _ _ _ _ _ _ h7
  have e := after_split' ops 0 40 40 rfl V
  rw [after_split' ops 40 37 77 rfl, after_split' ops 77 40 117 rfl, after_split' ops 117 37 154 rfl, after_split' ops 154 40 194 rfl, after_split' ops 194 37 231 rfl, after_split' ops 231 27 258 rfl, after_split' ops 258 1 259 rfl] at e
  have z : (ops : List (HloOp τ sig (Elt F))).drop 259 = [] := rfl
  rw [z, after_nil] at e
  have e' : after ops V = _ := e
  rw [e']
  exact h8

set_option maxRecDepth 8192 in
set_option maxHeartbeats 103600000 in
/-- On every device, for any float values, from any memory with zero counters: every weakly fair execution of
    @main terminates with the result at its value of the arguments and the arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v219) = val_main_v219 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => by
      obtain ⟨a0, a1, a2, a3, a4, a5, a6, a7, a8, a9, a10, l⟩ := after_ops (F := F) (launchContents m c)
      exact ⟨(h c main_v219).trans l, (h c main_arg0).trans a0, (h c main_arg1).trans a1, (h c main_arg2).trans a2, (h c main_arg3).trans a3, (h c main_arg4).trans a4, (h c main_arg5).trans a5, (h c main_arg6).trans a6, (h c main_arg7).trans a7, (h c main_arg8).trans a8, (h c main_arg9).trans a9, (h c main_arg10).trans a10⟩)
    (run_seq scopedRefs_eq scopedSems_eq defs main (fun _ => ops) main_eq (fun _ => ops_sub) m ρ)

/-- The reference's frame: its arguments are unchanged. -/
theorem frame (m : (ℓ : Loc nD τ sig) → Buf (Elt F) ℓ) (ρ : Dev nD → PrngReg) :
    θ_run (defs (F := F)) (onTc (τ := τ) (main (F := F))) ⟨m, fun _ => 0, ρ⟩ fun r => ∀ c : Dev nD,
        r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => (h c).2) (run m ρ)

end Cert.ReferenceIdeal.RefRun

end
-- ==== Proof.lean ====
/-
  The claim. Three layers of a graph network — per layer a scatter-add of gathered neighbour rows and a scaled copy of the
  features (host), a two-layer perceptron on blocks of 5000 rows (first kernel), the column mean and variance (host), and
  the normalisation, residual, clamp and output projection (second kernel) — against the same network written with jnp.
  Frames: each program is its host stretches and, for the kernel programs, six regions whose bodies load whole blocks,
  compute, and store whole blocks; no stretch and no region writes an argument. Values, over the extended reals: both
  programs' buffers are the same formulas (the perceptron, the column statistics, the normalised and clamped rows, the
  projection) of arrays that are equal stage by stage, so the concatenated results are equal; the idealization rewrote
  nothing, so the kernel program's idealization is its own text.
-/
import proofs.«142693_j60928406061119_1_alg».proof.Defs
import proofs.«142693_j60928406061119_1_alg».proof.Proof.Gen.Kernel
import proofs.«142693_j60928406061119_1_alg».proof.Proof.Gen.KernelIdeal
import proofs.«142693_j60928406061119_1_alg».proof.Proof.Gen.ReferenceIdeal
import proofs.«142693_j60928406061119_1_alg».proof.Proof.Gen.Pre_finite_inputs
import proofs.«142693_j60928406061119_1_alg».proof.Proof.FrameBits.Run
import proofs.«142693_j60928406061119_1_alg».proof.Proof.FrameIdeal.Value
import proofs.«142693_j60928406061119_1_alg».proof.Proof.RefRun
import Idealize.ShloMosaic.Adequacy
import Idealize.ShloMosaic.Init

noncomputable section

namespace Cert.Proof

open Idealize.ShloMosaic Idealize.SL.Sem

theorem frame_k : Cert.frame_Kernel := fun m ρ _ => Cert.Kernel.Fr.frame (F := Bits) m ρ
theorem frame_ki : Cert.frame_KernelIdeal := fun m ρ _ => Cert.KernelIdeal.Fr.frame (F := Ideal) m ρ
theorem frame_ri : Cert.frame_ReferenceIdeal := fun m ρ _ => Cert.ReferenceIdeal.RefRun.frame m ρ

/-- Both programs end with the reference's stage chain of their arguments, and the arguments agree. -/
theorem algebraic : Cert.algebraic_KernelIdeal_ReferenceIdeal := by
  intro m ρ m' ρ' _ hagree
  refine ⟨_, Cert.KernelIdeal.Fr.value_run m ρ, ?_⟩
  refine (θ_run Cert.ReferenceIdeal.defs _ _).mono (fun _ h c => ⟨(h c).1.trans ?_, (h c).2⟩)
    (Cert.ReferenceIdeal.RefRun.run m' ρ')
  obtain ⟨e0, e1, e2, e3, e4, e5, e6, e7, e8, e9, e10⟩ := hagree c
  rw [e0, e1, e2, e3, e4, e5, e6, e7, e8, e9, e10]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
